-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S128x128 : Shape := ⟨2, ![128, 128]⟩
abbrev S256x128 : Shape := ⟨2, ![256, 128]⟩
abbrev S128 : Shape := ⟨1, ![128]⟩
abbrev S262144 : Shape := ⟨1, ![262144]⟩
abbrev S1048576 : Shape := ⟨1, ![1048576]⟩
abbrev S524288 : Shape := ⟨1, ![524288]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S262144x128 .f32) (main_arg1 : FVec F S128x128 .f32) (main_arg2 : FVec F S128x128 .f32) (main_arg3 : FVec F S256x128 .f32) (main_arg4 : FVec F S128 .f32) (main_arg5 : FVec F S128 .f32) (main_arg6 : IVec S262144 32) (main_arg7 : IVec S1048576 32) (main_arg8 : IVec S1048576 32) (main_arg9 : IVec S524288 32) (main_arg10 : IVec S524288 32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_arg5 main_v13 main_v16
-- ==== Kernel.lean ====
abbrev S262144x128 : Shape := ⟨2, ![262144, 128]⟩
abbrev S128x128 : Shape := ⟨2, ![128, 128]⟩
abbrev S256x128 : Shape := ⟨2, ![256, 128]⟩
abbrev S128 : Shape := ⟨1, ![128]⟩
abbrev S262144 : Shape := ⟨1, ![262144]⟩
abbrev S1048576 : Shape := ⟨1, ![1048576]⟩
abbrev S524288 : Shape := ⟨1, ![524288]⟩
abbrev S_ : Shape := ⟨0, ![]⟩
abbrev S65536x128 : Shape := ⟨2, ![65536, 128]⟩
abbrev S262144x1 : Shape := ⟨2, ![262144, 1]⟩
abbrev S1048576x1 : Shape := ⟨2, ![1048576, 1]⟩
abbrev S1048576x128 : Shape := ⟨2, ![1048576, 128]⟩
abbrev S524288x128 : Shape := ⟨2, ![524288, 128]⟩
abbrev S8192x128 : Shape := ⟨2, ![8192, 128]⟩
abbrev S524288x1 : Shape := ⟨2, ![524288, 1]⟩
abbrev S524288x256 : Shape := ⟨2, ![524288, 256]⟩
abbrev S1x128 : Shape := ⟨2, ![1, 128]⟩
abbrev S4096x128 : Shape := ⟨2, ![4096, 128]⟩
abbrev S4096x256 : Shape := ⟨2, ![4096, 256]⟩

abbrev nBuf : Space → Nat
  | .hbm => 80
  | .vmem => 26
  | .smem => 0
  | _ => 0

abbrev bufTy : (tb : Table) → Fin (tcTables nBuf tb) → BufTy
  | .hbm, ⟨0, _⟩ => ⟨S262144x128, .f32⟩
  | .hbm, ⟨1, _⟩ => ⟨S128x128, .f32⟩
  | .hbm, ⟨2, _⟩ => ⟨S128x128, .f32⟩
  | .hbm, ⟨3, _⟩ => ⟨S256x128, .f32⟩
  | .hbm, ⟨4, _⟩ => ⟨S128, .f32⟩
  | .hbm, ⟨5, _⟩ => ⟨S128, .f32⟩
  | .hbm, ⟨6, _⟩ => ⟨S262144, .i32⟩
  | .hbm, ⟨7, _⟩ => ⟨S1048576, .i32⟩
  | .hbm, ⟨8, _⟩ => ⟨S1048576, .i32⟩
  | .hbm, ⟨9, _⟩ => ⟨S524288, .i32⟩
  | .hbm, ⟨10, _⟩ => ⟨S524288, .i32⟩
  | .hbm, ⟨11, _⟩ => ⟨S_, .f32⟩
  | .hbm, ⟨12, _⟩ => ⟨S65536x128, .f32⟩
  | .hbm, ⟨13, _⟩ => ⟨S262144x1, .i32⟩
  | .hbm, ⟨14, _⟩ => ⟨S65536x128, .f32⟩
  | .hbm, ⟨15, _⟩ => ⟨S_, .i32⟩
  | .hbm, ⟨16, _⟩ => ⟨S1048576, .i32⟩
  | .hbm, ⟨17, _⟩ => ⟨S1048576, .i1⟩
  | .hbm, ⟨18, _⟩ => ⟨S_, .i32⟩
  | .hbm, ⟨19, _⟩ => ⟨S1048576, .i32⟩
  | .hbm, ⟨20, _⟩ => ⟨S1048576, .i32⟩
  | .hbm, ⟨21, _⟩ => ⟨S1048576, .i32⟩
  | .hbm, ⟨22, _⟩ => ⟨S1048576x1, .i32⟩
  | .hbm, ⟨23, _⟩ => ⟨S1048576x128, .f32⟩
  | .hbm, ⟨24, _⟩ => ⟨S_, .f32⟩
  | .hbm, ⟨25, _⟩ => ⟨S524288x128, .f32⟩
  | .hbm, ⟨26, _⟩ => ⟨S1048576x1, .i32⟩
  | .hbm, ⟨27, _⟩ => ⟨S524288x128, .f32⟩
  | .hbm, ⟨28, _⟩ => ⟨S128x128, .f32⟩
  | .hbm, ⟨29, _⟩ => ⟨S65536x128, .f32⟩
  | .hbm, ⟨30, _⟩ => ⟨S_, .i32⟩
  | .hbm, ⟨31, _⟩ => ⟨S524288, .i32⟩
  | .hbm, ⟨32, _⟩ => ⟨S524288, .i1⟩
  | .hbm, ⟨33, _⟩ => ⟨S_, .i32⟩
  | .hbm, ⟨34, _⟩ => ⟨S524288, .i32⟩
  | .hbm, ⟨35, _⟩ => ⟨S524288, .i32⟩
  | .hbm, ⟨36, _⟩ => ⟨S524288, .i32⟩
  | .hbm, ⟨37, _⟩ => ⟨S524288x1, .i32⟩
  | .hbm, ⟨38, _⟩ => ⟨S524288x128, .f32⟩
  | .hbm, ⟨39, _⟩ => ⟨S_, .i32⟩
  | .hbm, ⟨40, _⟩ => ⟨S524288, .i32⟩
  | .hbm, ⟨41, _⟩ => ⟨S524288, .i1⟩
  | .hbm, ⟨42, _⟩ => ⟨S_, .i32⟩
  | .hbm, ⟨43, _⟩ => ⟨S524288, .i32⟩
  | .hbm, ⟨44, _⟩ => ⟨S524288, .i32⟩
  | .hbm, ⟨45, _⟩ => ⟨S524288, .i32⟩
  | .hbm, ⟨46, _⟩ => ⟨S524288x1, .i32⟩
  | .hbm, ⟨47, _⟩ => ⟨S524288x128, .f32⟩
  | .hbm, ⟨48, _⟩ => ⟨S128x128, .f32⟩
  | .hbm, ⟨49, _⟩ => ⟨S128x128, .f32⟩
  | .hbm, ⟨50, _⟩ => ⟨S128x128, .f32⟩
  | .hbm, ⟨51, _⟩ => ⟨S128x128, .f32⟩
  | .hbm, ⟨52, _⟩ => ⟨S128x128, .f32⟩
  | .hbm, ⟨53, _⟩ => ⟨S524288x256, .bf16⟩
  | .hbm, ⟨54, _⟩ => ⟨S1x128, .f32⟩
  | .hbm, ⟨55, _⟩ => ⟨S1x128, .f32⟩
  | .hbm, ⟨56, _⟩ => ⟨S1048576x128, .bf16⟩
  | .hbm, ⟨57, _⟩ => ⟨S128, .f32⟩
  | .hbm, ⟨58, _⟩ => ⟨S_, .f32⟩
  | .hbm, ⟨59, _⟩ => ⟨S128, .f32⟩
  | .hbm, ⟨60, _⟩ => ⟨S128, .f32⟩
  | .hbm, ⟨61, _⟩ => ⟨S128, .f32⟩
  | .hbm, ⟨62, _⟩ => ⟨S_, .f32⟩
  | .hbm, ⟨63, _⟩ => ⟨S128, .f32⟩
  | .hbm, ⟨64, _⟩ => ⟨S128, .f32⟩
  | .hbm, ⟨65, _⟩ => ⟨S128, .f32⟩
  | .hbm, ⟨66, _⟩ => ⟨S128, .f32⟩
  | .hbm, ⟨67, _⟩ => ⟨S_, .f32⟩
  | .hbm, ⟨68, _⟩ => ⟨S128, .f32⟩
  | .hbm, ⟨69, _⟩ => ⟨S128, .f32⟩
  | .hbm, ⟨70, _⟩ => ⟨S_, .f32⟩
  | .hbm, ⟨71, _⟩ => ⟨S128, .f32⟩
  | .hbm, ⟨72, _⟩ => ⟨S128, .f32⟩
  | .hbm, ⟨73, _⟩ => ⟨S128, .f32⟩
  | .hbm, ⟨74, _⟩ => ⟨S128, .f32⟩
  | .hbm, ⟨75, _⟩ => ⟨S128, .f32⟩
  | .hbm, ⟨76, _⟩ => ⟨S128, .f32⟩
  | .hbm, ⟨77, _⟩ => ⟨S1x128, .f32⟩
  | .hbm, ⟨78, _⟩ => ⟨S1x128, .f32⟩
  | .hbm, ⟨79, _⟩ => ⟨S1048576x128, .f32⟩
  | .local _ .vmem, ⟨0, _⟩ => ⟨S8192x128, .f32⟩
  | .local _ .vmem, ⟨1, _⟩ => ⟨S8192x128, .f32⟩
  | .local _ .vmem, ⟨2, _⟩ => ⟨S128x128, .f32⟩
  | .local _ .vmem, ⟨3, _⟩ => ⟨S8192x128, .f32⟩
  | .local _ .vmem, ⟨4, _⟩ => ⟨S8192x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S4096x256, .bf16⟩
  | .local _ .vmem, ⟨15, _⟩ => ⟨S4096x256, .bf16⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S8192x128, .bf16⟩
  | .local _ .vmem, ⟨21, _⟩ => ⟨S8192x128, .bf16⟩
  | .local _ .vmem, ⟨22, _⟩ => ⟨S1x128, .f32⟩
  | .local _ .vmem, ⟨23, _⟩ => ⟨S1x128, .f32⟩
  | .local _ .vmem, ⟨24, _⟩ => ⟨S8192x128, .f32⟩
  | .local _ .vmem, ⟨25, _⟩ => ⟨S8192x128, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c : Ref sig .tc := ⟨.hbm, 15, rfl⟩
abbrev main_v3 : Ref sig .tc := ⟨.hbm, 16, rfl⟩
abbrev main_v4 : Ref sig .tc := ⟨.hbm, 17, rfl⟩
abbrev main_c_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_2 : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34_0 : Ref sig .tc := ⟨.hbm, 53, rfl⟩
abbrev main_v34_1 : Ref sig .tc := ⟨.hbm, 54, rfl⟩
abbrev main_v34_2 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_8 : Ref sig .tc := ⟨.hbm, 67, rfl⟩
abbrev main_v44 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc1_stg7_0 : Ref sig .tc := ⟨.vmem, 16, rfl⟩
abbrev cc1_stg8_0 : Ref sig .tc := ⟨.vmem, 17, rfl⟩
abbrev cc1_scratch0 : Ref sig .tc := ⟨.vmem, 18, rfl⟩
abbrev cc1_scratch1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc1_sem7_0 : DmaSem sig := 16
abbrev cc1_sem8_0 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![128], ![false]⟩

def k1_cond2 (i : grid1.Coords) : BitVec 1 :=
  let arg0 : BitVec 32 := BitVec.ofNat 32 (i 0).val
  let c127_i32 : BitVec 32 := 127#32
  let v52 : BitVec 1 := Scalar.cmpi .eq arg0 c127_i32
  let v53 : BitVec 32 := Scalar.extui v52
  let c0_i32_29 : BitVec 32 := 0#32
  let v54 : BitVec 1 := Scalar.cmpi .ne v53 c0_i32_29
  v54

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4096x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev grid2 : Pipeline.Grid := ⟨1, ![128], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S8192x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S65536x128 : S_.BroadcastsInDim S65536x128 (![] : Fin 0 → Fin S65536x128.rank)
  bcast_S262144_S262144x1_0 : S262144.BroadcastsInDim S262144x1 (![0] : Fin 1 → Fin S262144x1.rank)
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S_S524288x128 : S_.BroadcastsInDim S524288x128 (![] : Fin 0 → Fin S524288x128.rank)
  transposes_S128x128_S128x128_1_0 : S128x128.Transposes [1, 0] S128x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S524288 : S_.BroadcastsInDim S524288 (![] : Fin 0 → Fin S524288.rank)
  bcast_S524288_S524288x1_0 : S524288.BroadcastsInDim S524288x1 (![0] : Fin 1 → Fin S524288x1.rank)
  slices_S256x128_S128x128_0_0 : S256x128.Slices ![0, 0] S128x128
  slices_S256x128_S128x128_128_0 : S256x128.Slices ![128, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S4096x256_S4096x128_0_0 : ∀ a, (![0, 0] : Fin 2 → Nat) a + S4096x128.size a ≤ S4096x256.size a
  packedbf16_S4096x256_S4096x128_0_0 : (Rect.unit (s := S4096x256) ![0, 0] S4096x128.size inb_S4096x256_S4096x128_0_0).PackedRows (EltTy.packing .bf16)
  inb_S4096x256_S4096x128_0_128 : ∀ a, (![0, 128] : Fin 2 → Nat) a + S4096x128.size a ≤ S4096x256.size a
  packedbf16_S4096x256_S4096x128_0_128 : (Rect.unit (s := S4096x256) ![0, 128] S4096x128.size inb_S4096x256_S4096x128_0_128).PackedRows (EltTy.packing .bf16)
  reduces_S4096x128_S128 : S4096x128.Reduces [0] S128
  shapeCasts_S128_S1x128 : S128.ShapeCasts S1x128
  shapeCasts_S524288x256_S1048576x128 : S524288x256.ShapeCasts S1048576x128
  shapeCasts_S1x128_S128 : S1x128.ShapeCasts S128
  bcast_S_S128 : S_.BroadcastsInDim S128 (![] : Fin 0 → Fin S128.rank)
  broadcasts_S1x128_S8192x128 : S1x128.Broadcasts S8192x128
  scatter_S65536x128_S262144x1_S262144x128_1_0_0_1_wf : ScatterDims.WF S65536x128 S262144x1 S262144x128 [1] [0] [0] 1
  gather_S262144x128_S1048576x1_S1048576x128_1_0_n_n_0_1_1128_wf : GatherDims.WF S262144x128 S1048576x1 S1048576x128 [1] [0] [] [0] [] 1 ![1, 128]
  scatter_S524288x128_S1048576x1_S1048576x128_1_0_0_1_wf : ScatterDims.WF S524288x128 S1048576x1 S1048576x128 [1] [0] [0] 1
  dot_S8192x128_S128x128_S8192x128_1_0_0_1_n_n_wf : DotDims.WF S8192x128 S128x128 S8192x128 [1] [0] [0] [1] [] []
  gather_S65536x128_S524288x1_S524288x128_1_0_n_n_0_1_1128_wf : GatherDims.WF S65536x128 S524288x1 S524288x128 [1] [0] [] [0] [] 1 ![1, 128]
  gather_S262144x128_S524288x1_S524288x128_1_0_n_n_0_1_1128_wf : GatherDims.WF S262144x128 S524288x1 S524288x128 [1] [0] [] [0] [] 1 ![1, 128]
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S65536x128.size a
  hwx0_0 : ∀ i : grid0.Coords, EltTy.bits .f32 = 32 ∨ (Rect.block (s := S65536x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S65536x128.size a
  hwx0_2 : ∀ i : grid0.Coords, EltTy.bits .f32 = 32 ∨ (Rect.block (s := S65536x128) S8192x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S524288x128.size a
  hwx1_0 : ∀ i : grid1.Coords, EltTy.bits .f32 = 32 ∨ (Rect.block (s := S524288x128) S4096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S524288x128.size a
  hwx1_1 : ∀ i : grid1.Coords, EltTy.bits .f32 = 32 ∨ (Rect.block (s := S524288x128) S4096x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x128.size a ≤ S524288x128.size a
  hwx1_2 : ∀ i : grid1.Coords, EltTy.bits .f32 = 32 ∨ (Rect.block (s := S524288x128) S4096x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4096x256.size a ≤ S524288x256.size a
  hwx1_6 : ∀ i : grid1.Coords, EltTy.bits .bf16 = 32 ∨ (Rect.block (s := S524288x256) S4096x256.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x128.size a ≤ S1048576x128.size a
  hwx2_0 : ∀ i : grid2.Coords, EltTy.bits .bf16 = 32 ∨ (Rect.block (s := S1048576x128) S8192x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8192x128.size a ≤ S1048576x128.size a
  hwx2_3 : ∀ i : grid2.Coords, EltTy.bits .f32 = 32 ∨ (Rect.block (s := S1048576x128) S8192x128.size (cc2_transform_3 i) (hinb2_3 i)).WholeWords (EltTy.packing .f32)

variable [Facts₀]

def scatter_S65536x128_S262144x1_S262144x128_1_0_0_1 : ScatterDims S65536x128 S262144x1 S262144x128 where
  updateWindowDims := [1]
  insertedWindowDims := [0]
  scatterDimsToOperandDims := [0]
  indexVectorDim := 1
  wf := scatter_S65536x128_S262144x1_S262144x128_1_0_0_1_wf
def gather_S262144x128_S1048576x1_S1048576x128_1_0_n_n_0_1_1128 : GatherDims S262144x128 S1048576x1 S1048576x128 where
  offsetDims := [1]
  collapsedSliceDims := [0]
  operandBatchingDims := []
  startIndicesBatchingDims := []
  startIndexMap := [0]
  indexVectorDim := 1
  sliceSizes := ![1, 128]
  wf := gather_S262144x128_S1048576x1_S1048576x128_1_0_n_n_0_1_1128_wf
def scatter_S524288x128_S1048576x1_S1048576x128_1_0_0_1 : ScatterDims S524288x128 S1048576x1 S1048576x128 where
  updateWindowDims := [1]
  insertedWindowDims := [0]
  scatterDimsToOperandDims := [0]
  indexVectorDim := 1
  wf := scatter_S524288x128_S1048576x1_S1048576x128_1_0_0_1_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def gather_S65536x128_S524288x1_S524288x128_1_0_n_n_0_1_1128 : GatherDims S65536x128 S524288x1 S524288x128 where
  offsetDims := [1]
  collapsedSliceDims := [0]
  operandBatchingDims := []
  startIndicesBatchingDims := []
  startIndexMap := [0]
  indexVectorDim := 1
  sliceSizes := ![1, 128]
  wf := gather_S65536x128_S524288x1_S524288x128_1_0_n_n_0_1_1128_wf
def gather_S262144x128_S524288x1_S524288x128_1_0_n_n_0_1_1128 : GatherDims S262144x128 S524288x1 S524288x128 where
  offsetDims := [1]
  collapsedSliceDims := [0]
  operandBatchingDims := []
  startIndicesBatchingDims := []
  startIndexMap := [0]
  indexVectorDim := 1
  sliceSizes := ![1, 128]
  wf := gather_S262144x128_S524288x1_S524288x128_1_0_n_n_0_1_1128_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_v2) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S8192x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v21) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S4096x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v30) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v34_0) S4096x256.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v34_1) S1x128.size cc1_transform_7 reads1_7 true true 1 stage1_7 sem1_7
    hrank1 hreads1_7 hinb1_7 nbuf1_7 (Memref.isWhole_whole _) hwx1_7 hstage1_7

abbrev win1_8 : Pipeline.Window sig grid1 :=
  Pipeline.Window.ofSpec (Memref.whole main_v34_2) S1x128.size cc1_transform_8 reads1_8 true true 1 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev idle1 : Fin 9 → grid1.Coords → Bool := fun | 0 => fun _ => false | 1 => fun _ => false | 2 => fun _ => false | 3 => fun _ => false | 4 => fun _ => false | 5 => fun _ => false | 6 => fun _ => false | 7 => fun i => !(k1_cond2 i == 1#1) | 8 => fun i => !(k1_cond2 i == 1#1) | ⟨_ + 9, h⟩ => absurd h (Nat.not_lt.2 (Nat.le_add_left _ _))

abbrev win2_0 : Pipeline.Window sig grid2 :=
  Pipeline.Window.ofSpec (Memref.whole main_v35) S8192x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v54) S8192x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S262144x128 : Shape := ⟨2, ![262144, 128]⟩
abbrev S128x128 : Shape := ⟨2, ![128, 128]⟩
abbrev S256x128 : Shape := ⟨2, ![256, 128]⟩
abbrev S128 : Shape := ⟨1, ![128]⟩
abbrev S262144 : Shape := ⟨1, ![262144]⟩
abbrev S1048576 : Shape := ⟨1, ![1048576]⟩
abbrev S524288 : Shape := ⟨1, ![524288]⟩
abbrev S_ : Shape := ⟨0, ![]⟩
abbrev S65536x128 : Shape := ⟨2, ![65536, 128]⟩
abbrev S262144x1 : Shape := ⟨2, ![262144, 1]⟩
abbrev S1048576x1 : Shape := ⟨2, ![1048576, 1]⟩
abbrev S1048576x128 : Shape := ⟨2, ![1048576, 128]⟩
abbrev S524288x128 : Shape := ⟨2, ![524288, 128]⟩
abbrev S524288x1 : Shape := ⟨2, ![524288, 1]⟩
abbrev S128x256 : Shape := ⟨2, ![128, 256]⟩
abbrev S524288x256 : Shape := ⟨2, ![524288, 256]⟩
abbrev S524288x2x128 : Shape := ⟨3, ![524288, 2, 128]⟩
abbrev S524288x1x128 : Shape := ⟨3, ![524288, 1, 128]⟩
abbrev S1x128 : Shape := ⟨2, ![1, 128]⟩

abbrev nBuf : Space → Nat
  | .hbm => 91
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S128x128, .f32⟩
  | .hbm, ⟨2, _⟩ => ⟨S128x128, .f32⟩
  | .hbm, ⟨3, _⟩ => ⟨S256x128, .f32⟩
  | .hbm, ⟨4, _⟩ => ⟨S128, .f32⟩
  | .hbm, ⟨5, _⟩ => ⟨S128, .f32⟩
  | .hbm, ⟨6, _⟩ => ⟨S262144, .i32⟩
  | .hbm, ⟨7, _⟩ => ⟨S1048576, .i32⟩
  | .hbm, ⟨8, _⟩ => ⟨S1048576, .i32⟩
  | .hbm, ⟨9, _⟩ => ⟨S524288, .i32⟩
  | .hbm, ⟨10, _⟩ => ⟨S524288, .i32⟩
  | .hbm, ⟨11, _⟩ => ⟨S_, .f32⟩
  | .hbm, ⟨12, _⟩ => ⟨S65536x128, .f32⟩
  | .hbm, ⟨13, _⟩ => ⟨S262144x1, .i32⟩
  | .hbm, ⟨14, _⟩ => ⟨S65536x128, .f32⟩
  | .hbm, ⟨15, _⟩ => ⟨S128x128, .f32⟩
  | .hbm, ⟨16, _⟩ => ⟨S65536x128, .f32⟩
  | .hbm, ⟨17, _⟩ => ⟨S_, .i32⟩
  | .hbm, ⟨18, _⟩ => ⟨S1048576, .i32⟩
  | .hbm, ⟨19, _⟩ => ⟨S1048576, .i1⟩
  | .hbm, ⟨20, _⟩ => ⟨S_, .i32⟩
  | .hbm, ⟨21, _⟩ => ⟨S1048576, .i32⟩
  | .hbm, ⟨22, _⟩ => ⟨S1048576, .i32⟩
  | .hbm, ⟨23, _⟩ => ⟨S1048576, .i32⟩
  | .hbm, ⟨24, _⟩ => ⟨S1048576x1, .i32⟩
  | .hbm, ⟨25, _⟩ => ⟨S1048576x128, .f32⟩
  | .hbm, ⟨26, _⟩ => ⟨S_, .f32⟩
  | .hbm, ⟨27, _⟩ => ⟨S524288x128, .f32⟩
  | .hbm, ⟨28, _⟩ => ⟨S1048576x1, .i32⟩
  | .hbm, ⟨29, _⟩ => ⟨S524288x128, .f32⟩
  | .hbm, ⟨30, _⟩ => ⟨S128x128, .f32⟩
  | .hbm, ⟨31, _⟩ => ⟨S524288x128, .f32⟩
  | .hbm, ⟨32, _⟩ => ⟨S_, .i32⟩
  | .hbm, ⟨33, _⟩ => ⟨S524288, .i32⟩
  | .hbm, ⟨34, _⟩ => ⟨S524288, .i1⟩
  | .hbm, ⟨35, _⟩ => ⟨S_, .i32⟩
  | .hbm, ⟨36, _⟩ => ⟨S524288, .i32⟩
  | .hbm, ⟨37, _⟩ => ⟨S524288, .i32⟩
  | .hbm, ⟨38, _⟩ => ⟨S524288, .i32⟩
  | .hbm, ⟨39, _⟩ => ⟨S524288x1, .i32⟩
  | .hbm, ⟨40, _⟩ => ⟨S524288x128, .f32⟩
  | .hbm, ⟨41, _⟩ => ⟨S524288x128, .f32⟩
  | .hbm, ⟨42, _⟩ => ⟨S_, .i32⟩
  | .hbm, ⟨43, _⟩ => ⟨S524288, .i32⟩
  | .hbm, ⟨44, _⟩ => ⟨S524288, .i1⟩
  | .hbm, ⟨45, _⟩ => ⟨S_, .i32⟩
  | .hbm, ⟨46, _⟩ => ⟨S524288, .i32⟩
  | .hbm, ⟨47, _⟩ => ⟨S524288, .i32⟩
  | .hbm, ⟨48, _⟩ => ⟨S524288, .i32⟩
  | .hbm, ⟨49, _⟩ => ⟨S524288x1, .i32⟩
  | .hbm, ⟨50, _⟩ => ⟨S524288x128, .f32⟩
  | .hbm, ⟨51, _⟩ => ⟨S128x256, .f32⟩
  | .hbm, ⟨52, _⟩ => ⟨S524288x256, .f32⟩
  | .hbm, ⟨53, _⟩ => ⟨S524288x2x128, .f32⟩
  | .hbm, ⟨54, _⟩ => ⟨S524288x1x128, .f32⟩
  | .hbm, ⟨55, _⟩ => ⟨S524288x2x128, .f32⟩
  | .hbm, ⟨56, _⟩ => ⟨S524288x2x128, .f32⟩
  | .hbm, ⟨57, _⟩ => ⟨S1048576x128, .f32⟩
  | .hbm, ⟨58, _⟩ => ⟨S_, .f32⟩
  | .hbm, ⟨59, _⟩ => ⟨S128, .f32⟩
  | .hbm, ⟨60, _⟩ => ⟨S_, .f32⟩
  | .hbm, ⟨61, _⟩ => ⟨S128, .f32⟩
  | .hbm, ⟨62, _⟩ => ⟨S128, .f32⟩
  | .hbm, ⟨63, _⟩ => ⟨S1x128, .f32⟩
  | .hbm, ⟨64, _⟩ => ⟨S1048576x128, .f32⟩
  | .hbm, ⟨65, _⟩ => ⟨S1048576x128, .f32⟩
  | .hbm, ⟨66, _⟩ => ⟨S1048576x128, .f32⟩
  | .hbm, ⟨67, _⟩ => ⟨S_, .f32⟩
  | .hbm, ⟨68, _⟩ => ⟨S128, .f32⟩
  | .hbm, ⟨69, _⟩ => ⟨S_, .f32⟩
  | .hbm, ⟨70, _⟩ => ⟨S128, .f32⟩
  | .hbm, ⟨71, _⟩ => ⟨S128, .f32⟩
  | .hbm, ⟨72, _⟩ => ⟨S1x128, .f32⟩
  | .hbm, ⟨73, _⟩ => ⟨S1048576x128, .f32⟩
  | .hbm, ⟨74, _⟩ => ⟨S1048576x128, .f32⟩
  | .hbm, ⟨75, _⟩ => ⟨S_, .f32⟩
  | .hbm, ⟨76, _⟩ => ⟨S128, .f32⟩
  | .hbm, ⟨77, _⟩ => ⟨S128, .f32⟩
  | .hbm, ⟨78, _⟩ => ⟨S128, .f32⟩
  | .hbm, ⟨79, _⟩ => ⟨S1x128, .f32⟩
  | .hbm, ⟨80, _⟩ => ⟨S1048576x128, .f32⟩
  | .hbm, ⟨81, _⟩ => ⟨S1048576x128, .f32⟩
  | .hbm, ⟨82, _⟩ => ⟨S1x128, .f32⟩
  | .hbm, ⟨83, _⟩ => ⟨S1048576x128, .f32⟩
  | .hbm, ⟨84, _⟩ => ⟨S1048576x128, .f32⟩
  | .hbm, ⟨85, _⟩ => ⟨S1x128, .f32⟩
  | .hbm, ⟨86, _⟩ => ⟨S1048576x128, .f32⟩
  | .hbm, ⟨87, _⟩ => ⟨S1048576x128, .f32⟩
  | .hbm, ⟨88, _⟩ => ⟨S_, .f32⟩
  | .hbm, ⟨89, _⟩ => ⟨S1048576x128, .f32⟩
  | .hbm, ⟨90, _⟩ => ⟨S1048576x128, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_2 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_6 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_8 : Ref sig .tc := ⟨.hbm, 67, rfl⟩
abbrev main_v46 : Ref sig .tc := ⟨.hbm, 68, rfl⟩
abbrev main_cst_9 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_10 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_call0_cst : Ref sig .tc := ⟨.hbm, 88, rfl⟩
abbrev main_call0_v0 : Ref sig .tc := ⟨.hbm, 89, rfl⟩
abbrev main_v64 : Ref sig .tc := ⟨.hbm, 90, rfl⟩

abbrev nD : Nat := 1
abbrev τ : Topo := Topo.v7x

variable {F : FTy → Type} [FloatOps F]

class Facts₀ : Prop where
  bcast_S_S65536x128 : S_.BroadcastsInDim S65536x128 (![] : Fin 0 → Fin S65536x128.rank)
  bcast_S262144_S262144x1_0 : S262144.BroadcastsInDim S262144x1 (![0] : Fin 1 → Fin S262144x1.rank)
  transposes_S128x128_S128x128_1_0 : S128x128.Transposes [1, 0] S128x128
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S_S524288x128 : S_.BroadcastsInDim S524288x128 (![] : Fin 0 → Fin S524288x128.rank)
  bcast_S_S524288 : S_.BroadcastsInDim S524288 (![] : Fin 0 → Fin S524288.rank)
  bcast_S524288_S524288x1_0 : S524288.BroadcastsInDim S524288x1 (![0] : Fin 1 → Fin S524288x1.rank)
  transposes_S256x128_S128x256_1_0 : S256x128.Transposes [1, 0] S128x256
  shapeCasts_S524288x256_S524288x2x128 : S524288x256.ShapeCasts S524288x2x128
  bcast_S524288x128_S524288x1x128_0_2 : S524288x128.BroadcastsInDim S524288x1x128 (![0, 2] : Fin 2 → Fin S524288x1x128.rank)
  bcast_S524288x1x128_S524288x2x128_0_1_2 : S524288x1x128.BroadcastsInDim S524288x2x128 (![0, 1, 2] : Fin 3 → Fin S524288x2x128.rank)
  shapeCasts_S524288x2x128_S1048576x128 : S524288x2x128.ShapeCasts S1048576x128
  reducesTo_S1048576x128_S128_d0 : S1048576x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S1048576x128_0_1 : S1x128.BroadcastsInDim S1048576x128 (![0, 1] : Fin 2 → Fin S1048576x128.rank)
  bcast_S_S1048576x128 : S_.BroadcastsInDim S1048576x128 (![] : Fin 0 → Fin S1048576x128.rank)
  scatter_S65536x128_S262144x1_S262144x128_1_0_0_1_wf : ScatterDims.WF S65536x128 S262144x1 S262144x128 [1] [0] [0] 1
  dot_S65536x128_S128x128_S65536x128_1_0_0_1_n_n_wf : DotDims.WF S65536x128 S128x128 S65536x128 [1] [0] [0] [1] [] []
  gather_S262144x128_S1048576x1_S1048576x128_1_0_n_n_0_1_1128_wf : GatherDims.WF S262144x128 S1048576x1 S1048576x128 [1] [0] [] [0] [] 1 ![1, 128]
  scatter_S524288x128_S1048576x1_S1048576x128_1_0_0_1_wf : ScatterDims.WF S524288x128 S1048576x1 S1048576x128 [1] [0] [0] 1
  dot_S524288x128_S128x128_S524288x128_1_0_0_1_n_n_wf : DotDims.WF S524288x128 S128x128 S524288x128 [1] [0] [0] [1] [] []
  gather_S65536x128_S524288x1_S524288x128_1_0_n_n_0_1_1128_wf : GatherDims.WF S65536x128 S524288x1 S524288x128 [1] [0] [] [0] [] 1 ![1, 128]
  gather_S262144x128_S524288x1_S524288x128_1_0_n_n_0_1_1128_wf : GatherDims.WF S262144x128 S524288x1 S524288x128 [1] [0] [] [0] [] 1 ![1, 128]
  dot_S524288x128_S128x256_S524288x256_1_0_0_1_n_n_wf : DotDims.WF S524288x128 S128x256 S524288x256 [1] [0] [0] [1] [] []

variable [Facts₀]

def scatter_S65536x128_S262144x1_S262144x128_1_0_0_1 : ScatterDims S65536x128 S262144x1 S262144x128 where
  updateWindowDims := [1]
  insertedWindowDims := [0]
  scatterDimsToOperandDims := [0]
  indexVectorDim := 1
  wf := scatter_S65536x128_S262144x1_S262144x128_1_0_0_1_wf
def dot_S65536x128_S128x128_S65536x128_1_0_0_1_n_n : DotDims S65536x128 S128x128 S65536x128 where
  lhsContracting := [1]
  rhsContracting := [0]
  lhsNonContracting := [0]
  rhsNonContracting := [1]
  lhsBatch := []
  rhsBatch := []
  wf := dot_S65536x128_S128x128_S65536x128_1_0_0_1_n_n_wf
def gather_S262144x128_S1048576x1_S1048576x128_1_0_n_n_0_1_1128 : GatherDims S262144x128 S1048576x1 S1048576x128 where
  offsetDims := [1]
  collapsedSliceDims := [0]
  operandBatchingDims := []
  startIndicesBatchingDims := []
  startIndexMap := [0]
  indexVectorDim := 1
  sliceSizes := ![1, 128]
  wf := gather_S262144x128_S1048576x1_S1048576x128_1_0_n_n_0_1_1128_wf
def scatter_S524288x128_S1048576x1_S1048576x128_1_0_0_1 : ScatterDims S524288x128 S1048576x1 S1048576x128 where
  updateWindowDims := [1]
  insertedWindowDims := [0]
  scatterDimsToOperandDims := [0]
  indexVectorDim := 1
  wf := scatter_S524288x128_S1048576x1_S1048576x128_1_0_0_1_wf
def dot_S524288x128_S128x128_S524288x128_1_0_0_1_n_n : DotDims S524288x128 S128x128 S524288x128 where
  lhsContracting := [1]
  rhsContracting := [0]
  lhsNonContracting := [0]
  rhsNonContracting := [1]
  lhsBatch := []
  rhsBatch := []
  wf := dot_S524288x128_S128x128_S524288x128_1_0_0_1_n_n_wf
def gather_S65536x128_S524288x1_S524288x128_1_0_n_n_0_1_1128 : GatherDims S65536x128 S524288x1 S524288x128 where
  offsetDims := [1]
  collapsedSliceDims := [0]
  operandBatchingDims := []
  startIndicesBatchingDims := []
  startIndexMap := [0]
  indexVectorDim := 1
  sliceSizes := ![1, 128]
  wf := gather_S65536x128_S524288x1_S524288x128_1_0_n_n_0_1_1128_wf
def gather_S262144x128_S524288x1_S524288x128_1_0_n_n_0_1_1128 : GatherDims S262144x128 S524288x1 S524288x128 where
  offsetDims := [1]
  collapsedSliceDims := [0]
  operandBatchingDims := []
  startIndicesBatchingDims := []
  startIndexMap := [0]
  indexVectorDim := 1
  sliceSizes := ![1, 128]
  wf := gather_S262144x128_S524288x1_S524288x128_1_0_n_n_0_1_1128_wf
def dot_S524288x128_S128x256_S524288x256_1_0_0_1_n_n : DotDims S524288x128 S128x256 S524288x256 where
  lhsContracting := [1]
  rhsContracting := [0]
  lhsNonContracting := [0]
  rhsNonContracting := [1]
  lhsBatch := []
  rhsBatch := []
  wf := dot_S524288x128_S128x256_S524288x256_1_0_0_1_n_n_wf

class Facts : Prop extends Facts₀ where

variable [Facts]
-- ==== Proof.Kernel.Region0.lean ====
/-
  The first pallas_call: a dense layer, eight row tiles of 8192 rows. At a grid point the body loads the tile of the
  segment sums (window 0) and the whole transposed weight matrix (window 1), multiplies them into a zero accumulator
  and stores the product over the whole output tile (window 2). Nothing is kept between points, so what the output's
  staging buffer holds after the body is one function of the two input blocks.
-/
import proofs.«154919_j73332271612005_2_alg».proof.Proof.Patched.Kernel.Launch
import proofs.«154919_j73332271612005_2_alg».proof.Proof.Gen.Kernel.Skeleton
import proofs.«154919_j73332271612005_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole tile and the whole weight matrix, as the rectangles the body loads and stores through. -/
abbrev r0_tile : Rect S8192x128 := Rect.unit (s := S8192x128) ![0, 0] S8192x128.size inb_S8192x128_S8192x128_0_0
abbrev r0_w : Rect S128x128 := Rect.unit (s := S128x128) ![0, 0] S128x128.size inb_S128x128_S128x128_0_0

/-- The output tile after the body: its one store, the product of the two loaded blocks. -/
def out0_2 (x0 : Vec F S8192x128 .f32) (x1 : Vec F S128x128 .f32) : Vec F S8192x128 .f32 :=
  View.canon [⟨r0_tile, k0_pay1 (View.ld x0 r0_tile) (View.ld x1 r0_w)⟩]

theorem cover0_2 (p0 : Vec F S8192x128 .f32) (y : S8192x128.Idx) :
    ∃ pc ∈ ([⟨r0_tile, p0⟩] : List (View.Piece (Elt F) S8192x128 .f32)), y ∈ pc.1.set :=
  View.cover_of_tiled [⟨r0_tile, p0⟩] S8192x128.size (by rfl) y

set_option maxHeartbeats 4000000 in
/-- The body on whole staging memrefs: the inputs kept, the output tile left at `out0_2` of the inputs. -/
theorem sound_kernel0 (c : Dev nD) (E : Set ℕ) (i : grid0.Coords)
    (arg1 : Memref sig .tc .vmem S8192x128 .f32) (harg1 : arg1.IsWhole) (arg2 : Memref sig .tc .vmem S128x128 .f32) (harg2 : arg2.IsWhole)
    (arg3 : Memref sig .tc .vmem S8192x128 .f32) (harg3 : arg3.IsWhole)
    (x0 : Vec F S8192x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the first pipeline on core `c`: the arrays as the region finds them; after the body each input's
    buffer at its block, the output's at the product of the input blocks; the invariant is the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end

end Cert.Kernel.Hand

end
-- ==== Proof.Kernel.Region1Base.lean ====
/-
  The second pallas_call: the combine step, 128 row tiles of 4096 messages. At a grid point the body multiplies the
  tile of gathered-row sums by one weight matrix and the tile of source rows by two more, adds the gathered dense
  rows, stores the two sums side by side as one bf16 tile of 256 lanes, and adds the tile's column sums and column
  sums of squares into two scratch rows it CARRIES from point to point: zeroed at the first point, copied out to the
  two one-row outputs at the last. This module holds what the three control cases share: the branch conditions in
  closed form over the grid, where the one-row outputs are idle, the memrefs, and the scoped buffers other than the
  two scratch rows.
-/
import proofs.«154919_j73332271612005_2_alg».proof.Proof.Patched.Kernel.Launch
import proofs.«154919_j73332271612005_2_alg».proof.Proof.Gen.Kernel.Skeleton
import proofs.«154919_j73332271612005_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
end

/-- The first branch is taken at the first point only. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 128 = 0 :=
  (by decide +kernel : ∀ t : Fin grid1.N, cond1_0 (grid1.coords t) ↔ t.val % 128 = 0)
/-- The second branch is taken at the last point only. -/
abbrev cond1_1 (i : grid1.Coords) : Prop := k1_cond2 i = 1#1
theorem hcond1_1 : ∀ t : Fin cfg1.N, cond1_1 (grid1.coords t) ↔ t.val % 128 = 127 :=
  (by decide +kernel : ∀ t : Fin grid1.N, cond1_1 (grid1.coords t) ↔ t.val % 128 = 127)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem idleAt1_7 : ∀ t : Fin cfg1.N, ¬cond1_1 (grid1.coords t) → cfg1.idle 7 (grid1.coords t) = true := by decide +kernel
theorem noFlush1_7 : ∀ t : Fin cfg1.N, ¬cond1_1 (grid1.coords t) → (cfg1.win 7).flush t = false := by decide +kernel
theorem liveAt1_7 : ∀ t : Fin cfg1.N, cond1_1 (grid1.coords t) → cfg1.idle 7 (grid1.coords t) = false := by decide +kernel
theorem idleAt1_8 : ∀ t : Fin cfg1.N, ¬cond1_1 (grid1.coords t) → cfg1.idle 8 (grid1.coords t) = true := by decide +kernel
theorem noFlush1_8 : ∀ t : Fin cfg1.N, ¬cond1_1 (grid1.coords t) → (cfg1.win 8).flush t = false := by decide +kernel
theorem liveAt1_8 : ∀ t : Fin cfg1.N, cond1_1 (grid1.coords t) → cfg1.idle 8 (grid1.coords t) = false := by decide +kernel

/-- One staging buffer of each output window, through which its contents are stated. -/
abbrev VO1_6 : View sig .tc .vmem S4096x256 .bf16 := (Memref.whole cc1_stg6_0 : Memref sig .tc .vmem S4096x256 .bf16).view
abbrev VO1_7 : View sig .tc .vmem S1x128 .f32 := (Memref.whole cc1_stg7_0 : Memref sig .tc .vmem S1x128 .f32).view
abbrev VO1_8 : View sig .tc .vmem S1x128 .f32 := (Memref.whole cc1_stg8_0 : Memref sig .tc .vmem S1x128 .f32).view
abbrev ms1_0 (t : Fin cfg1.N) : Memref sig .tc .vmem S4096x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4096x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S128x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S4096x256 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x128 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x128 .f32 := win1_8.stage (cfg1.slots t 8)
abbrev hs1_8 (t : Fin cfg1.N) : (ms1_8 t).IsWhole := hstage1_8 ((cfg1.slots t 8).cast nbuf1_8)
/-- The two scratch rows: whole scoped buffers of the kernel's own. -/
abbrev scM1_0 : Memref sig .tc .vmem S1x128 .f32 := Memref.whole cc1_scratch0
abbrev scM1_1 : Memref sig .tc .vmem S1x128 .f32 := Memref.whole cc1_scratch1
abbrev VS1_0 : View sig .tc .vmem S1x128 .f32 := scM1_0.view
abbrev VS1_1 : View sig .tc .vmem S1x128 .f32 := scM1_1.view

/-- The scoped buffers this pipeline neither stages nor names: the other two pallas_calls' staging buffers, each at
    some contents. -/
def rest1 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc2_stg0_0), ((c : Thread nD τ).loc cc2_stg0_0) ↦{fullShare} f)
      ∗ (∃ f : Buf (Elt F) ((c : Thread nD τ).loc cc2_stg0_1), ((c : Thread nD τ).loc cc2_stg0_1) ↦{fullShare} f)
      ∗ (∃ f : Buf (Elt F) ((c : Thread nD τ).loc cc2_stg1_0), ((c : Thread nD τ).loc cc2_stg1_0) ↦{fullShare} f)
      ∗ (∃ f : Buf (Elt F) ((c : Thread nD τ).loc cc2_stg2_0), ((c : Thread nD τ).loc cc2_stg2_0) ↦{fullShare} f)
      ∗ (∃ f : Buf (Elt F) ((c : Thread nD τ).loc cc2_stg3_0), ((c : Thread nD τ).loc cc2_stg3_0) ↦{fullShare} f)
      ∗ (∃ f : Buf (Elt F) ((c : Thread nD τ).loc cc2_stg3_1), ((c : Thread nD τ).loc cc2_stg3_1) ↦{fullShare} f))

/-- The class's invariant, the two scratch rows taken out as memrefs owned at some contents. -/
theorem PhiA1_split (c : Dev nD) :
    (Pipeline.ΦA spec1 c : sProp 𝕄) ⊣⊢ iprop(rest1 c ∗ (∃ d, owns (c : Thread nD τ) scM1_0 fullShare d) ∗ (∃ d, owns (c : Thread nD τ) scM1_1 fullShare d) ∗ (∃ r, prngReg c r)) := by
  unfold Pipeline.ΦA rest1; rw [scopedRest1_eq]; simp only [scM1_0, scM1_1, owns_whole]
  constructor
  · iintro ⟨⟨H1, H2, H3, H4, H5, HA, HB, H6, H7, H8, H9, H10, H11⟩, Hp⟩
    isplitl [H1 H2 H3 H4 H5 H6 H7 H8 H9 H10 H11]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    isplitl [HA]; · iexact HA
    isplitl [HB]; · iexact HB
    iexact Hp
  · iintro ⟨⟨H1, H2, H3, H4, H5, H6, H7, H8, H9, H10, H11⟩, HA, HB, Hp⟩
    isplitr [Hp]
    · isplitl [H1]; · iexact H1
      isplitl [H2]; · iexact H2
      isplitl [H3]; · iexact H3
      isplitl [H4]; · iexact H4
      isplitl [H5]; · iexact H5
      isplitl [HA]; · iexact HA
      isplitl [HB]; · iexact HB
      isplitl [H6]; · iexact H6
      isplitl [H7]; · iexact H7
      isplitl [H8]; · iexact H8
      isplitl [H9]; · iexact H9
      isplitl [H10]; · iexact H10
      iexact H11
    iexact Hp

end Cert.Kernel.Hand

end
-- ==== Proof.Kernel.Region1RunA.lean ====
/-
  The combine step's body at the first point: the first branch taken (the two scratch rows zeroed before anything is added), the second not. What its stores leave in each buffer is found, as a list of pieces, by running
  the body symbolically on whole staging memrefs.
-/
import proofs.«154919_j73332271612005_2_alg».proof.Proof.Kernel.Region1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The pieces the body's stores leave (last first) in the message tile and the two scratch rows, with the
    proof that on whole memrefs — the six inputs at their contents, the message tile at anything, the one-row outputs at contents handed back untouched,
    the scratch rows at anything — the body runs to the continuation holding the inputs as they were and every
    stored buffer with its pieces written. -/
noncomputable def kernelRun1_A (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4096x256 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond1_0 i) (hc1 : ¬cond1_1 i)
    (x0 x1 x2 : Vec F S4096x128 .f32) (x3 x4 x5 : Vec F S128x128 .f32) :
    Σ' (L6 : List (View.Piece (Elt F) S4096x256 .bf16)) (LS0 : List (View.Piece (Elt F) S1x128 .f32)), { LS1 : List (View.Piece (Elt F) S1x128 .f32) //
      ∀ (xi7 xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ owns (c : Thread nD τ) arg8 fullShare xi7 ∗ owns (c : Thread nD τ) arg9 fullShare xi8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6) ∗ owns (c : Thread nD τ) arg8 fullShare xi7 ∗ owns (c : Thread nD τ) arg9 fullShare xi8
                ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__combine_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc1__combine_kernel_eq_skeleton]; unfold cc1__combine_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.Kernel.Hand

end
-- ==== Proof.Kernel.Region1RunB.lean ====
/-
  The combine step's body at a middle point: neither branch taken. What its stores leave in each buffer is found, as a list of pieces, by running
  the body symbolically on whole staging memrefs.
-/
import proofs.«154919_j73332271612005_2_alg».proof.Proof.Kernel.Region1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The pieces the body's stores leave (last first) in the message tile and the two scratch rows, with the
    proof that on whole memrefs — the six inputs at their contents, the message tile at anything, the one-row outputs at contents handed back untouched,
    the scratch rows at what the point before left — the body runs to the continuation holding the inputs as they were and every
    stored buffer with its pieces written. -/
noncomputable def kernelRun1_B (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4096x256 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : ¬cond1_1 i)
    (x0 x1 x2 : Vec F S4096x128 .f32) (x3 x4 x5 : Vec F S128x128 .f32) (xs0 xs1 : Vec F S1x128 .f32) :
    Σ' (L6 : List (View.Piece (Elt F) S4096x256 .bf16)) (LS0 : List (View.Piece (Elt F) S1x128 .f32)), { LS1 : List (View.Piece (Elt F) S1x128 .f32) //
      ∀ (xi7 xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ owns (c : Thread nD τ) arg8 fullShare xi7 ∗ owns (c : Thread nD τ) arg9 fullShare xi8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6) ∗ owns (c : Thread nD τ) arg8 fullShare xi7 ∗ owns (c : Thread nD τ) arg9 fullShare xi8
                ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__combine_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc1__combine_kernel_eq_skeleton]; unfold cc1__combine_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.Kernel.Hand

end
-- ==== Proof.Kernel.Region1RunC.lean ====
/-
  The combine step's body at the last point: the second branch taken (the two scratch rows copied to the one-row outputs), the first not. What its stores leave in each buffer is found, as a list of pieces, by running
  the body symbolically on whole staging memrefs.
-/
import proofs.«154919_j73332271612005_2_alg».proof.Proof.Kernel.Region1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The pieces the body's stores leave (last first) in the message tile and the two scratch rows and the two one-row outputs, with the
    proof that on whole memrefs — the six inputs at their contents, the message tile at anything, the one-row outputs at anything,
    the scratch rows at what the point before left — the body runs to the continuation holding the inputs as they were and every
    stored buffer with its pieces written. -/
noncomputable def kernelRun1_C (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4096x256 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : cond1_1 i)
    (x0 x1 x2 : Vec F S4096x128 .f32) (x3 x4 x5 : Vec F S128x128 .f32) (xs0 xs1 : Vec F S1x128 .f32) :
    Σ' (L6 : List (View.Piece (Elt F) S4096x256 .bf16)) (L7 : List (View.Piece (Elt F) S1x128 .f32)) (L8 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)
                ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__combine_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc1__combine_kernel_eq_skeleton]; unfold cc1__combine_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

end Cert.Kernel.Hand

end
-- ==== Proof.Kernel.Region1.lean ====
/-
  The combine step as proof data. After the body at a point, the message tile holds the two stored halves; the two
  scratch rows hold the running column sums and column sums of squares of every message row up to and including
  that point's tile, because the first point zeroes them before adding and every later point adds to what the point
  before left; the two one-row outputs are written at the last point only, with the scratch rows' final contents,
  and are idle (handed back untouched, not written back) everywhere else. The region's invariant is therefore the
  class's before the first point and, after point `n`, the scoped rest with the two scratch rows at what point `n`
  left in them.
-/
import proofs.«154919_j73332271612005_2_alg».proof.Proof.Kernel.Region1RunA
import proofs.«154919_j73332271612005_2_alg».proof.Proof.Kernel.Region1RunB
import proofs.«154919_j73332271612005_2_alg».proof.Proof.Kernel.Region1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A's pieces for the message tile tile it, so they cover it. -/
theorem cover1_A_6 (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4096x256 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond1_0 i) (hc1 : ¬cond1_1 i)
    (x0 x1 x2 : Vec F S4096x128 .f32) (x3 x4 x5 : Vec F S128x128 .f32) (y : S4096x256.Idx) :
    ∃ pc ∈ (kernelRun1_A c i arg1 harg1 arg2 harg2 arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 hc0 hc1 x0 x1 x2 x3 x4 x5).1 S4096x128.size (by sl_kernel_rfl) y
/-- What case A leaves in the message tile: its pieces read back. -/
def out1_A_6 (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4096x256 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond1_0 i) (hc1 : ¬cond1_1 i)
    (x0 x1 x2 : Vec F S4096x128 .f32) (x3 x4 x5 : Vec F S128x128 .f32) : Vec F S4096x256 .bf16 :=
  VO1_6.read (Elt F) (VO1_6.writes (Elt F) VO1_6.junk (kernelRun1_A c i arg1 harg1 arg2 harg2 arg3 harg3 arg4 harg4 arg5 harg5 arg6 harg6 arg7 harg7 arg8 harg8 arg9 harg9 arg10 harg10 arg11 harg11 hc0 hc1 x0 x1 x2 x3 x4 x5).1)
/-- Case A's pieces for the first scratch row tile it, so they cover it. -/
theorem scover1_A_0 (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4096x256 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond1_0 i) (hc1 : ¬cond1_1 i)
    (x0 x1 x2 : Vec F S4096x128 .f32) (x3 x4 x5 : Vec F S128x128 .f32) (y : S1x128.Idx) :
    ∃ pc ∈ (kernelRun1_A c i arg1 harg1 arg2 harg2 arg3 harg3 arg4 harg4 arg5 harg5 arg6 harg6 arg7 harg7 arg8 harg8 arg9 harg9 arg10 harg10 arg11 harg11 hc0 hc1 x0 x1 x2 x3 x4 x5).2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 hc0 hc1 x0 x1 x2 x3 x4 x5).2.1 S1x128.size (by sl_kernel_rfl) y
/-- What case A leaves in the first scratch row: its pieces read back. -/
def sout1_A_0 (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4096x256 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond1_0 i) (hc1 : ¬cond1_1 i)
    (x0 x1 x2 : Vec F S4096x128 .f32) (x3 x4 x5 : Vec F S128x128 .f32) : Vec F S1x128 .f32 :=
  VS1_0.read (Elt F) (VS1_0.writes (Elt F) VS1_0.junk (kernelRun1_A c i arg1 harg1 arg2 harg2 arg3 harg3 arg4 harg4 arg5 harg5 arg6 harg6 arg7 harg7 arg8 harg8 arg9 harg9 arg10 harg10 arg11 harg11 hc0 hc1 x0 x1 x2 x3 x4 x5).2.1)
/-- Case A's pieces for the second scratch row tile it, so they cover it. -/
theorem scover1_A_1 (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4096x256 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond1_0 i) (hc1 : ¬cond1_1 i)
    (x0 x1 x2 : Vec F S4096x128 .f32) (x3 x4 x5 : Vec F S128x128 .f32) (y : S1x128.Idx) :
    ∃ pc ∈ (kernelRun1_A c i arg1 harg1 arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 hc0 hc1 x0 x1 x2 x3 x4 x5).2.2.1 S1x128.size (by sl_kernel_rfl) y
/-- What case A leaves in the second scratch row: its pieces read back. -/
def sout1_A_1 (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4096x256 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond1_0 i) (hc1 : ¬cond1_1 i)
    (x0 x1 x2 : Vec F S4096x128 .f32) (x3 x4 x5 : Vec F S128x128 .f32) : Vec F S1x128 .f32 :=
  VS1_1.read (Elt F) (VS1_1.writes (Elt F) VS1_1.junk (kernelRun1_A c i arg1 harg1 arg2 harg2 arg3 harg3 arg4 harg4 arg5 harg5 arg6 harg6 arg7 harg7 arg8 harg8 arg9 harg9 arg10 harg10 arg11 harg11 hc0 hc1 x0 x1 x2 x3 x4 x5).2.2.1)

/-- Case B's pieces for the message tile tile it, so they cover it. -/
theorem cover1_B_6 (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4096x256 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : ¬cond1_1 i)
    (x0 x1 x2 : Vec F S4096x128 .f32) (x3 x4 x5 : Vec F S128x128 .f32) (xs0 xs1 : Vec F S1x128 .f32) (y : S4096x256.Idx) :
    ∃ pc ∈ (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S4096x128.size (by sl_kernel_rfl) y
/-- What case B leaves in the message tile: its pieces read back. -/
def out1_B_6 (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4096x256 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : ¬cond1_1 i)
    (x0 x1 x2 : Vec F S4096x128 .f32) (x3 x4 x5 : Vec F S128x128 .f32) (xs0 xs1 : Vec F S1x128 .f32) : Vec F S4096x256 .bf16 :=
  VO1_6.read (Elt F) (VO1_6.writes (Elt F) VO1_6.junk (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)
/-- Case B's pieces for the first scratch row tile it, so they cover it. -/
theorem scover1_B_0 (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4096x256 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : ¬cond1_1 i)
    (x0 x1 x2 : Vec F S4096x128 .f32) (x3 x4 x5 : Vec F S128x128 .f32) (xs0 xs1 : Vec F S1x128 .f32) (y : S1x128.Idx) :
    ∃ pc ∈ (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x128.size (by sl_kernel_rfl) y
/-- What case B leaves in the first scratch row: its pieces read back. -/
def sout1_B_0 (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4096x256 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : ¬cond1_1 i)
    (x0 x1 x2 : Vec F S4096x128 .f32) (x3 x4 x5 : Vec F S128x128 .f32) (xs0 xs1 : Vec F S1x128 .f32) : Vec F S1x128 .f32 :=
  VS1_0.read (Elt F) (VS1_0.writes (Elt F) VS1_0.junk (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)
/-- Case B's pieces for the second scratch row tile it, so they cover it. -/
theorem scover1_B_1 (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4096x256 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : ¬cond1_1 i)
    (x0 x1 x2 : Vec F S4096x128 .f32) (x3 x4 x5 : Vec F S128x128 .f32) (xs0 xs1 : Vec F S1x128 .f32) (y : S1x128.Idx) :
    ∃ pc ∈ (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x128.size (by sl_kernel_rfl) y
/-- What case B leaves in the second scratch row: its pieces read back. -/
def sout1_B_1 (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4096x256 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : ¬cond1_1 i)
    (x0 x1 x2 : Vec F S4096x128 .f32) (x3 x4 x5 : Vec F S128x128 .f32) (xs0 xs1 : Vec F S1x128 .f32) : Vec F S1x128 .f32 :=
  VS1_1.read (Elt F) (VS1_1.writes (Elt F) VS1_1.junk (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- Case C's pieces for the message tile tile it, so they cover it. -/
theorem cover1_C_6 (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4096x256 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : cond1_1 i)
    (x0 x1 x2 : Vec F S4096x128 .f32) (x3 x4 x5 : Vec F S128x128 .f32) (xs0 xs1 : Vec F S1x128 .f32) (y : S4096x256.Idx) :
    ∃ pc ∈ (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S4096x128.size (by sl_kernel_rfl) y
/-- What case C leaves in the message tile: its pieces read back. -/
def out1_C_6 (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4096x256 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : cond1_1 i)
    (x0 x1 x2 : Vec F S4096x128 .f32) (x3 x4 x5 : Vec F S128x128 .f32) (xs0 xs1 : Vec F S1x128 .f32) : Vec F S4096x256 .bf16 :=
  VO1_6.read (Elt F) (VO1_6.writes (Elt F) VO1_6.junk (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)
/-- Case C's pieces for the sum row output tile it, so they cover it. -/
theorem cover1_C_7 (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4096x256 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : cond1_1 i)
    (x0 x1 x2 : Vec F S4096x128 .f32) (x3 x4 x5 : Vec F S128x128 .f32) (xs0 xs1 : Vec F S1x128 .f32) (y : S1x128.Idx) :
    ∃ pc ∈ (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x128.size (by sl_kernel_rfl) y
/-- What case C leaves in the sum row output: its pieces read back. -/
def out1_C_7 (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4096x256 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : cond1_1 i)
    (x0 x1 x2 : Vec F S4096x128 .f32) (x3 x4 x5 : Vec F S128x128 .f32) (xs0 xs1 : Vec F S1x128 .f32) : Vec F S1x128 .f32 :=
  VO1_7.read (Elt F) (VO1_7.writes (Elt F) VO1_7.junk (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)
/-- Case C's pieces for the sum-of-squares row output tile it, so they cover it. -/
theorem cover1_C_8 (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4096x256 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : cond1_1 i)
    (x0 x1 x2 : Vec F S4096x128 .f32) (x3 x4 x5 : Vec F S128x128 .f32) (xs0 xs1 : Vec F S1x128 .f32) (y : S1x128.Idx) :
    ∃ pc ∈ (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x128.size (by sl_kernel_rfl) y
/-- What case C leaves in the sum-of-squares row output: its pieces read back. -/
def out1_C_8 (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4096x256 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : cond1_1 i)
    (x0 x1 x2 : Vec F S4096x128 .f32) (x3 x4 x5 : Vec F S128x128 .f32) (xs0 xs1 : Vec F S1x128 .f32) : Vec F S1x128 .f32 :=
  VO1_8.read (Elt F) (VO1_8.writes (Elt F) VO1_8.junk (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)
/-- Case C's pieces for the first scratch row tile it, so they cover it. -/
theorem scover1_C_0 (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4096x256 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : cond1_1 i)
    (x0 x1 x2 : Vec F S4096x128 .f32) (x3 x4 x5 : Vec F S128x128 .f32) (xs0 xs1 : Vec F S1x128 .f32) (y : S1x128.Idx) :
    ∃ pc ∈ (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x128.size (by sl_kernel_rfl) y
/-- What case C leaves in the first scratch row: its pieces read back. -/
def sout1_C_0 (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4096x256 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : cond1_1 i)
    (x0 x1 x2 : Vec F S4096x128 .f32) (x3 x4 x5 : Vec F S128x128 .f32) (xs0 xs1 : Vec F S1x128 .f32) : Vec F S1x128 .f32 :=
  VS1_0.read (Elt F) (VS1_0.writes (Elt F) VS1_0.junk (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)
/-- Case C's pieces for the second scratch row tile it, so they cover it. -/
theorem scover1_C_1 (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4096x256 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : cond1_1 i)
    (x0 x1 x2 : Vec F S4096x128 .f32) (x3 x4 x5 : Vec F S128x128 .f32) (xs0 xs1 : Vec F S1x128 .f32) (y : S1x128.Idx) :
    ∃ pc ∈ (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x128.size (by sl_kernel_rfl) y
/-- What case C leaves in the second scratch row: its pieces read back. -/
def sout1_C_1 (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4096x256 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : cond1_1 i)
    (x0 x1 x2 : Vec F S4096x128 .f32) (x3 x4 x5 : Vec F S128x128 .f32) (xs0 xs1 : Vec F S1x128 .f32) : Vec F S1x128 .f32 :=
  VS1_1.read (Elt F) (VS1_1.writes (Elt F) VS1_1.junk (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

section
variable (V : (c : Dev nD) → (b : Ref sig .tc) → Buf (Elt F) ((c : Thread nD τ).loc b))

/-- THE ACCUMULATION. What the message tile, the two one-row outputs and the two scratch rows hold after the body at
    position `n`: the first point's case at 0, the last point's at 127, the middle case in between, each later point
    run over the scratch rows the point before left. The one-row outputs' components at the points where they are idle
    are placeholders nothing consults. -/
def outsAt1 (c : Dev nD) : (n : ℕ) → n < cfg1.N → Vec F S4096x256 .bf16 × Vec F S1x128 .f32 × Vec F S1x128 .f32 × Vec F S1x128 .f32 × Vec F S1x128 .f32
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), VO1_7.read (Elt F) VO1_7.junk, VO1_8.read (Elt F) VO1_8.junk, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h1 : (n + 1) % 128 = 127 then
      (out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) (fun h => (fun h => by (try dsimp only at h); omega) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.2.1 (outsAt1 c n (Nat.lt_of_succ_lt hn)).2.2.2.2, out1_C_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) (fun h => (fun h => by (try dsimp only at h); omega) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.2.1 (outsAt1 c n (Nat.lt_of_succ_lt hn)).2.2.2.2, out1_C_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) (fun h => (fun h => by (try dsimp only at h); omega) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.2.1 (outsAt1 c n (Nat.lt_of_succ_lt hn)).2.2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) (fun h => (fun h => by (try dsimp only at h); omega) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.2.1 (outsAt1 c n (Nat.lt_of_succ_lt hn)).2.2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) (fun h => (fun h => by (try dsimp only at h); omega) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.2.1 (outsAt1 c n (Nat.lt_of_succ_lt hn)).2.2.2.2)
    else
      (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) (fun h => (fun h => by have hN : n + 1 < 128 := lt_of_lt_of_eq hn (show cfg1.N = 128 from N_1); (try dsimp only at h); omega) ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.2.1 (outsAt1 c n (Nat.lt_of_succ_lt hn)).2.2.2.2, VO1_7.read (Elt F) VO1_7.junk, VO1_8.read (Elt F) VO1_8.junk, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) (fun h => (fun h => by have hN : n + 1 < 128 := lt_of_lt_of_eq hn (show cfg1.N = 128 from N_1); (try dsimp only at h); omega) ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.2.1 (outsAt1 c n (Nat.lt_of_succ_lt hn)).2.2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) (fun h => (fun h => by have hN : n + 1 < 128 := lt_of_lt_of_eq hn (show cfg1.N = 128 from N_1); (try dsimp only at h); omega) ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.2.1 (outsAt1 c n (Nat.lt_of_succ_lt hn)).2.2.2.2)

theorem outsAt1_A (c : Dev nD) (t : Fin cfg1.N) (hz : t.val = 0) (h0 : cond1_0 (grid1.coords t)) (h1 : ¬cond1_1 (grid1.coords t)) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) h0 h1 (iblk1 V c 0 t) (iblk1 V c 1 t) (iblk1 V c 2 t) (iblk1 V c 3 t) (iblk1 V c 4 t) (iblk1 V c 5 t), VO1_7.read (Elt F) VO1_7.junk, VO1_8.read (Elt F) VO1_8.junk, sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) h0 h1 (iblk1 V c 0 t) (iblk1 V c 1 t) (iblk1 V c 2 t) (iblk1 V c 3 t) (iblk1 V c 4 t) (iblk1 V c 5 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) h0 h1 (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact absurd hz (Nat.succ_ne_zero n)

theorem outsAt1_B (c : Dev nD) (t : Fin cfg1.N) (hz : t.val ≠ 0) (hl : ¬t.val % 128 = 127) (h0 : ¬cond1_0 (grid1.coords t)) (h1 : ¬cond1_1 (grid1.coords t)) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) h0 h1 (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, VO1_7.read (Elt F) VO1_7.junk, VO1_8.read (Elt F) VO1_8.junk, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) h0 h1 (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) h0 h1 (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.2.1 (outsAt1 V c (t.val - 1) (Nat.lt_of_le_of_lt (Nat.sub_le _ _) t.isLt)).2.2.2.2) := by
  obtain ⟨n, hn⟩ := t
  cases n with
  | zero => exact absurd rfl hz
  | succ n => exact (dif_neg hl).trans rfl

theorem outsAt1_C (c : Dev nD) (t : Fin cfg1.N) (hz : t.val ≠ 0) (hl : t.val % 128 = 127) (h0 : ¬cond1_0 (grid1.coords t)) (h1 : cond1_1 (grid1.coords t)) :
    outsAt1 V c t.val t.isLt = (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) h0 h1 (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) h0 h1 (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, out1_C_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) h0 h1 (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) h0 h1 (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) h0 h1 (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.2.1 (outsAt1 V c (t.val - 1) (Nat.lt_of_le_of_lt (Nat.sub_le _ _) t.isLt)).2.2.2.2) := by
  obtain ⟨n, hn⟩ := t
  cases n with
  | zero => exact absurd rfl hz
  | succ n => exact (dif_pos hl).trans rfl

/-- The region invariant before position `n`: before the first point the class's (every scratch at anything);
    afterwards the other scoped buffers at anything, the two scratch rows at what the point before left, and the
    generator register at some state. -/
def PhiS1 (c : Dev nD) : (n : ℕ) → n ≤ cfg1.N → sProp 𝕄
  | 0, _ => Pipeline.ΦA spec1 c
  | n + 1, hn => iprop(rest1 c ∗ owns (c : Thread nD τ) scM1_0 fullShare (outsAt1 V c n hn).2.2.2.1
      ∗ owns (c : Thread nD τ) scM1_1 fullShare (outsAt1 V c n hn).2.2.2.2 ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(rest1 c ∗ owns (c : Thread nD τ) scM1_0 fullShare (outsAt1 V c n hn).2.2.2.1
      ∗ owns (c : Thread nD τ) scM1_1 fullShare (outsAt1 V c n hn).2.2.2.2 ∗ (∃ r, prngReg c r)) := rfl
theorem PhiS1_pos (c : Dev nD) (n : ℕ) (h : n ≤ cfg1.N) (hz : n ≠ 0) :
    PhiS1 V c n h = iprop(rest1 c ∗ owns (c : Thread nD τ) scM1_0 fullShare (outsAt1 V c (n - 1) (by omega)).2.2.2.1
      ∗ owns (c : Thread nD τ) scM1_1 fullShare (outsAt1 V c (n - 1) (by omega)).2.2.2.2 ∗ (∃ r, prngReg c r)) := by
  cases n with
  | zero => exact absurd rfl hz
  | succ n => rfl

/-- The proof data of the second pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
    | ⟨7, _⟩ => (outsAt1 V c t.val t.isLt).2.1
    | ⟨8, _⟩ => (outsAt1 V c t.val t.isLt).2.2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]
theorem after1_7 (c : Dev nD) (t : Fin cfg1.N) : (dat1 V c).after 7 t = (outsAt1 V c t.val t.isLt).2.1 := by dsimp only [dat1]
theorem after1_8 (c : Dev nD) (t : Fin cfg1.N) : (dat1 V c).after 8 t = (outsAt1 V c t.val t.isLt).2.2.1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 16000000 in
/-- The body at any point. The closed forms say which case the point is in; the invariant hands the body the two scratch
    rows at what the point before left (at anything at the first point) and takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t]]
  rw [show (dat1 V c).leavesExact 1 t = owns (c : Thread nD τ) (ms1_1 t) fullShare ((dat1 V c).after 1 t) from by
    unfold Dat.leavesExact; rw [liveAt1_1 t]]
  rw [show (dat1 V c).leavesExact 2 t = owns (c : Thread nD τ) (ms1_2 t) fullShare ((dat1 V c).after 2 t) from by
    unfold Dat.leavesExact; rw [liveAt1_2 t]]
  rw [show (dat1 V c).leavesExact 3 t = owns (c : Thread nD τ) (ms1_3 t) fullShare ((dat1 V c).after 3 t) from by
    unfold Dat.leavesExact; rw [liveAt1_3 t]]
  rw [show (dat1 V c).leavesExact 4 t = owns (c : Thread nD τ) (ms1_4 t) fullShare ((dat1 V c).after 4 t) from by
    unfold Dat.leavesExact; rw [liveAt1_4 t]]
  rw [show (dat1 V c).leavesExact 5 t = owns (c : Thread nD τ) (ms1_5 t) fullShare ((dat1 V c).after 5 t) from by
    unfold Dat.leavesExact; rw [liveAt1_5 t]]
  rw [show (dat1 V c).leavesExact 6 t = owns (c : Thread nD τ) (ms1_6 t) fullShare ((dat1 V c).after 6 t) from by
    unfold Dat.leavesExact; rw [liveAt1_6 t]]
  rw [after1_0, after1_1, after1_2, after1_3, after1_4, after1_5, after1_6]
  by_cases hz : t.val = 0
  · have h0 : cond1_0 (grid1.coords t) := (hcond1_0 t).mpr (by rw [hz])
    have h1 : ¬cond1_1 (grid1.coords t) := fun h => by have h' := (hcond1_1 t).mp h; omega
    rw [Dat.leavesExact_idle (dat1 V c) 7 t (idleAt1_7 t h1) (noFlush1_7 t h1),
      Dat.leavesExact_idle (dat1 V c) 8 t (idleAt1_8 t h1) (noFlush1_8 t h1)]
    rw [outsAt1_A V c t hz h0 h1]
    unfold out1_A_6 sout1_A_0 sout1_A_1; (try dsimp only)
    rw [PhiS1_castSucc V c t, PhiS1_zero V c _ _ hz]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    ihave HΦ' := (PhiA1_split c).1 $$ HΦ
    icases HΦ' with ⟨Hrest, HS0, HS1, Hg⟩
    iapply ((kernelRun1_A c (grid1.coords t) _ _ _ _ _ _ _ _ _ _ _ _ _ _ _ _ _ _ _ _ _ _ h0 h1 (iblk1 V c 0 t) (iblk1 V c 1 t) (iblk1 V c 2 t) (iblk1 V c 3 t) (iblk1 V c 4 t) (iblk1 V c 5 t)).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    isplitl [HS1]; · iexact HS1
    iintro ⟨H0, H1, H2, H3, H4, H5, ⟨%e6, H6⟩, H7, H8, ⟨%es0, HS0⟩, ⟨%es1, HS1⟩⟩
    isplitl [Hrest HS0 HS1 Hg]
    · isplitl [Hrest]; · iexact Hrest
      isplitl [HS0]
      · unfold owns; iexists _; isplitr
        swap; · iexact HS0
        ipureintro; exact View.read_writes_of_cover _ _ _ _ _ (fun y => scover1_A_0 c _ _ _ _ _ _ _ _ _ _ _ _ _ _ _ _ _ _ _ _ _ _ _ _ _ _ _ _ _ _ _ y)
      isplitl [HS1]
      · unfold owns; iexists _; isplitr
        swap; · iexact HS1
        ipureintro; exact View.read_writes_of_cover _ _ _ _ _ (fun y => scover1_A_1 c _ _ _ _ _ _ _ _ _ _ _ _ _ _ _ _ _ _ _ _ _ _ _ _ _ _ _ _ _ _ _ y)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (fun y => cover1_A_6 c _ _ _ _ _ _ _ _ _ _ _ _ _ _ _ _ _ _ _ _ _ _ _ _ _ _ _ _ _ _ _ y)
    isplitl [H7]; · iexists _; iexact H7
    iexists _; iexact H8
  · by_cases hl : t.val % 128 = 127
    · have h0 : ¬cond1_0 (grid1.coords t) := fun h => by have h' := (hcond1_0 t).mp h; omega
      have h1 : cond1_1 (grid1.coords t) := (hcond1_1 t).mpr hl
      rw [show (dat1 V c).leavesExact 7 t = owns (c : Thread nD τ) (ms1_7 t) fullShare ((dat1 V c).after 7 t) from by
        unfold Dat.leavesExact; rw [liveAt1_7 t h1], after1_7]
      rw [show (dat1 V c).leavesExact 8 t = owns (c : Thread nD τ) (ms1_8 t) fullShare ((dat1 V c).after 8 t) from by
        unfold Dat.leavesExact; rw [liveAt1_8 t h1], after1_8]
      rw [outsAt1_C V c t hz hl h0 h1]
      unfold out1_C_6 out1_C_7 out1_C_8 sout1_C_0 sout1_C_1; (try dsimp only)
      rw [PhiS1_castSucc V c t, PhiS1_pos V c _ _ hz]
      iintro ⟨⟨Hrest, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_C c (grid1.coords t) _ _ _ _ _ _ _ _ _ _ _ _ _ _ _ _ _ _ _ _ _ _ h0 h1 (iblk1 V c 0 t) (iblk1 V c 1 t) (iblk1 V c 2 t) (iblk1 V c 3 t) (iblk1 V c 4 t) (iblk1 V c 5 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%e6, H6⟩, ⟨%e7, H7⟩, ⟨%e8, H8⟩, ⟨%es0, HS0⟩, ⟨%es1, HS1⟩⟩
      isplitl [Hrest HS0 HS1 Hg]
      · isplitl [Hrest]; · iexact Hrest
        isplitl [HS0]
        · unfold owns; iexists _; isplitr
          swap; · iexact HS0
          ipureintro; exact View.read_writes_of_cover _ _ _ _ _ (fun y => scover1_C_0 c _ _ _ _ _ _ _ _ _ _ _ _ _ _ _ _ _ _ _ _ _ _ _ _ _ _ _ _ _ _ _ _ _ y)
        isplitl [HS1]
        · unfold owns; iexists _; isplitr
          swap; · iexact HS1
          ipureintro; exact View.read_writes_of_cover _ _ _ _ _ (fun y => scover1_C_1 c _ _ _ _ _ _ _ _ _ _ _ _ _ _ _ _ _ _ _ _ _ _ _ _ _ _ _ _ _ _ _ _ _ y)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (fun y => cover1_C_6 c _ _ _ _ _ _ _ _ _ _ _ _ _ _ _ _ _ _ _ _ _ _ _ _ _ _ _ _ _ _ _ _ _ y)
      isplitl [H7]
      · unfold owns; iexists _; isplitr
        swap; · iexact H7
        ipureintro; exact View.read_writes_of_cover _ _ _ _ _ (fun y => cover1_C_7 c _ _ _ _ _ _ _ _ _ _ _ _ _ _ _ _ _ _ _ _ _ _ _ _ _ _ _ _ _ _ _ _ _ y)
      unfold owns; iexists _; isplitr
      swap; · iexact H8
      ipureintro; exact View.read_writes_of_cover _ _ _ _ _ (fun y => cover1_C_8 c _ _ _ _ _ _ _ _ _ _ _ _ _ _ _ _ _ _ _ _ _ _ _ _ _ _ _ _ _ _ _ _ _ y)
    · have h0 : ¬cond1_0 (grid1.coords t) := fun h => by have h' := (hcond1_0 t).mp h; omega
      have h1 : ¬cond1_1 (grid1.coords t) := fun h => hl ((hcond1_1 t).mp h)
      rw [Dat.leavesExact_idle (dat1 V c) 7 t (idleAt1_7 t h1) (noFlush1_7 t h1),
        Dat.leavesExact_idle (dat1 V c) 8 t (idleAt1_8 t h1) (noFlush1_8 t h1)]
      rw [outsAt1_B V c t hz hl h0 h1]
      unfold out1_B_6 sout1_B_0 sout1_B_1; (try dsimp only)
      rw [PhiS1_castSucc V c t, PhiS1_pos V c _ _ hz]
      iintro ⟨⟨Hrest, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_B c (grid1.coords t) _ _ _ _ _ _ _ _ _ _ _ _ _ _ _ _ _ _ _ _ _ _ h0 h1 (iblk1 V c 0 t) (iblk1 V c 1 t) (iblk1 V c 2 t) (iblk1 V c 3 t) (iblk1 V c 4 t) (iblk1 V c 5 t) _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [Hrest HS0 HS1 Hg]
      · isplitl [Hrest]; · iexact Hrest
        isplitl [HS0]
        · unfold owns; iexists _; isplitr
          swap; · iexact HS0
          ipureintro; exact View.read_writes_of_cover _ _ _ _ _ (fun y => scover1_B_0 c _ _ _ _ _ _ _ _ _ _ _ _ _ _ _ _ _ _ _ _ _ _ _ _ _ _ _ _ _ _ _ _ _ y)
        isplitl [HS1]
        · unfold owns; iexists _; isplitr
          swap; · iexact HS1
          ipureintro; exact View.read_writes_of_cover _ _ _ _ _ (fun y => scover1_B_1 c _ _ _ _ _ _ _ _ _ _ _ _ _ _ _ _ _ _ _ _ _ _ _ _ _ _ _ _ _ _ _ _ _ y)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (fun y => cover1_B_6 c _ _ _ _ _ _ _ _ _ _ _ _ _ _ _ _ _ _ _ _ _ _ _ _ _ _ _ _ _ _ _ _ _ y)
      isplitl [H7]; · iexists _; iexact H7
      iexists _; iexact H8

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem Phi1_in (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the scratch rows' named contents are forgotten. -/
theorem Phi1_out_of (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  iintro ⟨Hrest, HS0, HS1, Hg⟩
  iapply (PhiA1_split c).2
  isplitl [Hrest]; · iexact Hrest
  isplitl [HS0]; · iexists _; iexact HS0
  isplitl [HS1]; · iexists _; iexact HS1
  iexact Hg

/-- The same after the last point. -/
theorem Phi1_out (c : Dev nD) : (dat1 V c).Φ (Fin.last cfg1.N) ⊢ Pipeline.ΦA spec1 c :=
  Phi1_out_of V c _ (by rw [Fin.val_last]; have : cfg1.N = 128 := N_1; omega)

end

end Cert.Kernel.Hand

end
-- ==== Proof.Kernel.Region2.lean ====
/-
  The third pallas_call: the normalisation as one multiply-add and a ramp, 128 row tiles of 8192 rows. At a grid
  point the body loads the tile of the message array (window 0, bf16), the scale row (window 1) and the offset row
  (window 2), and stores `max (m * scale + offset) 0` over the whole output tile (window 3). Nothing is kept between
  points, so what the output's staging buffer holds after the body is one function of the three input blocks.
-/
import proofs.«154919_j73332271612005_2_alg».proof.Proof.Patched.Kernel.Launch
import proofs.«154919_j73332271612005_2_alg».proof.Proof.Gen.Kernel.Skeleton
import proofs.«154919_j73332271612005_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole tile and the whole row, as the rectangles the body loads and stores through. -/
abbrev r2_tile : Rect S8192x128 := Rect.unit (s := S8192x128) ![0, 0] S8192x128.size inb_S8192x128_S8192x128_0_0
abbrev r2_row : Rect S1x128 := Rect.unit (s := S1x128) ![0, 0] S1x128.size inb_S1x128_S1x128_0_0

/-- The output tile after the body: its one store, the ramp of the multiply-add of the three loaded blocks. -/
def out2_3 (x0 : Vec F S8192x128 .bf16) (x1 x2 : Vec F S1x128 .f32) : Vec F S8192x128 .f32 :=
  View.canon [⟨r2_tile, k2_pay1 (View.ld x0 r2_tile) (View.ld x1 r2_row) (View.ld x2 r2_row)⟩]

theorem cover2_3 (p0 : Vec F S8192x128 .f32) (y : S8192x128.Idx) :
    ∃ pc ∈ ([⟨r2_tile, p0⟩] : List (View.Piece (Elt F) S8192x128 .f32)), y ∈ pc.1.set :=
  View.cover_of_tiled [⟨r2_tile, p0⟩] S8192x128.size (by rfl) y

set_option maxHeartbeats 4000000 in
/-- The body on whole staging memrefs: the inputs kept, the output tile left at `out2_3` of the inputs. -/
theorem sound_kernel2 (c : Dev nD) (E : Set ℕ) (i : grid2.Coords)
    (arg1 : Memref sig .tc .vmem S8192x128 .bf16) (harg1 : arg1.IsWhole) (arg2 : Memref sig .tc .vmem S1x128 .f32) (harg2 : arg2.IsWhole)
    (arg3 : Memref sig .tc .vmem S1x128 .f32) (harg3 : arg3.IsWhole) (arg4 : Memref sig .tc .vmem S8192x128 .f32) (harg4 : arg4.IsWhole)
    (x0 : Vec F S8192x128 .bf16) (x1 x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__bn_relu_kernel i arg1 harg1 arg2 harg2 arg3 harg3 arg4 harg4) K := by
  simp only [cc2__bn_relu_kernel_eq_skeleton]; unfold cc2__bn_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of the third pipeline on core `c`: the arrays as the region finds them; after the body each input's
    buffer at its block, the output's at the ramp of the multiply-add of the input blocks; the invariant is the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation2 (c : Dev nD) : BodyObligation (dat2 (F := F) V c) (defs₀ (F := F)) Variants.none () Set.univ := fun t => by
  rw [bigSep_W2, bigSep_W2]
  exact sound_body2 V c t

end

end Cert.Kernel.Hand

end
-- ==== Proof.Kernel.Run.lean ====
/-
  The whole program as one run. Between two items of the program every unscoped buffer of a core sits at named contents:
  the launch memory, then each stretch of host operations applied, then, after a pallas_call, its arrays at what the
  pipeline's write-backs leave and every other buffer unchanged. The three pallas_calls are entered from and left at these
  contents, so one launch theorem gives: every weakly fair execution terminates without a fault, and every final memory
  holds every unscoped buffer at the last contents. No item writes an argument array, so each argument is read back
  through the fold to its launch contents; the result array is read off the same fold.
-/
import proofs.«154919_j73332271612005_2_alg».proof.Proof.Patched.Kernel.Regions
import proofs.«154919_j73332271612005_2_alg».proof.Proof.Kernel.Region0
import proofs.«154919_j73332271612005_2_alg».proof.Proof.Kernel.Region1
import proofs.«154919_j73332271612005_2_alg».proof.Proof.Kernel.Region2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m ((c : Dev nD), b)
/-- After the first stretch of host operations. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At pallas_call 0's exit: its arrays at what the pipeline leaves (the inputs as entered, each output's write-backs
    folded), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second stretch of host operations. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At pallas_call 1's exit: its arrays at what the pipeline leaves (the inputs as entered, each output's write-backs
    folded), every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the third stretch of host operations. -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- At pallas_call 2's exit: its arrays at what the pipeline leaves (the inputs as entered, each output's write-backs
    folded), every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-! The arguments end as launched: no host operation and no pallas_call writes one. -/
theorem W6_main_arg0 (c : Dev nD) : W6 m c (Proc.devRef .tc main_arg0) = m ((c : Thread nD τ).loc main_arg0) :=
  calc W6 m c (Proc.devRef .tc main_arg0)
    _ = W5 m c (Proc.devRef .tc main_arg0) := W6_of_ne m c main_arg0 (by decide)
    _ = W4 m c (Proc.devRef .tc main_arg0) := StableHlo.after_of_writes_sub hostOps2 _ hostOps2_writes (r := main_arg0) (by decide)
    _ = W3 m c (Proc.devRef .tc main_arg0) := W4_of_ne m c main_arg0 (by decide)
    _ = W2 m c (Proc.devRef .tc main_arg0) := StableHlo.after_of_writes_sub hostOps1 _ hostOps1_writes (r := main_arg0) (by decide)
    _ = W1 m c (Proc.devRef .tc main_arg0) := W2_of_ne m c main_arg0 (by decide)
    _ = W0 m c (Proc.devRef .tc main_arg0) := StableHlo.after_of_writes_sub hostOps0 _ hostOps0_writes (r := main_arg0) (by decide)
    _ = m ((c : Thread nD τ).loc main_arg0) := rfl
theorem W6_main_arg1 (c : Dev nD) : W6 m c (Proc.devRef .tc main_arg1) = m ((c : Thread nD τ).loc main_arg1) :=
  calc W6 m c (Proc.devRef .tc main_arg1)
    _ = W5 m c (Proc.devRef .tc main_arg1) := W6_of_ne m c main_arg1 (by decide)
    _ = W4 m c (Proc.devRef .tc main_arg1) := StableHlo.after_of_writes_sub hostOps2 _ hostOps2_writes (r := main_arg1) (by decide)
    _ = W3 m c (Proc.devRef .tc main_arg1) := W4_of_ne m c main_arg1 (by decide)
    _ = W2 m c (Proc.devRef .tc main_arg1) := StableHlo.after_of_writes_sub hostOps1 _ hostOps1_writes (r := main_arg1) (by decide)
    _ = W1 m c (Proc.devRef .tc main_arg1) := W2_of_ne m c main_arg1 (by decide)
    _ = W0 m c (Proc.devRef .tc main_arg1) := StableHlo.after_of_writes_sub hostOps0 _ hostOps0_writes (r := main_arg1) (by decide)
    _ = m ((c : Thread nD τ).loc main_arg1) := rfl
theorem W6_main_arg2 (c : Dev nD) : W6 m c (Proc.devRef .tc main_arg2) = m ((c : Thread nD τ).loc main_arg2) :=
  calc W6 m c (Proc.devRef .tc main_arg2)
    _ = W5 m c (Proc.devRef .tc main_arg2) := W6_of_ne m c main_arg2 (by decide)
    _ = W4 m c (Proc.devRef .tc main_arg2) := StableHlo.after_of_writes_sub hostOps2 _ hostOps2_writes (r := main_arg2) (by decide)
    _ = W3 m c (Proc.devRef .tc main_arg2) := W4_of_ne m c main_arg2 (by decide)
    _ = W2 m c (Proc.devRef .tc main_arg2) := StableHlo.after_of_writes_sub hostOps1 _ hostOps1_writes (r := main_arg2) (by decide)
    _ = W1 m c (Proc.devRef .tc main_arg2) := W2_of_ne m c main_arg2 (by decide)
    _ = W0 m c (Proc.devRef .tc main_arg2) := StableHlo.after_of_writes_sub hostOps0 _ hostOps0_writes (r := main_arg2) (by decide)
    _ = m ((c : Thread nD τ).loc main_arg2) := rfl
theorem W6_main_arg3 (c : Dev nD) : W6 m c (Proc.devRef .tc main_arg3) = m ((c : Thread nD τ).loc main_arg3) :=
  calc W6 m c (Proc.devRef .tc main_arg3)
    _ = W5 m c (Proc.devRef .tc main_arg3) := W6_of_ne m c main_arg3 (by decide)
    _ = W4 m c (Proc.devRef .tc main_arg3) := StableHlo.after_of_writes_sub hostOps2 _ hostOps2_writes (r := main_arg3) (by decide)
    _ = W3 m c (Proc.devRef .tc main_arg3) := W4_of_ne m c main_arg3 (by decide)
    _ = W2 m c (Proc.devRef .tc main_arg3) := StableHlo.after_of_writes_sub hostOps1 _ hostOps1_writes (r := main_arg3) (by decide)
    _ = W1 m c (Proc.devRef .tc main_arg3) := W2_of_ne m c main_arg3 (by decide)
    _ = W0 m c (Proc.devRef .tc main_arg3) := StableHlo.after_of_writes_sub hostOps0 _ hostOps0_writes (r := main_arg3) (by decide)
    _ = m ((c : Thread nD τ).loc main_arg3) := rfl
theorem W6_main_arg4 (c : Dev nD) : W6 m c (Proc.devRef .tc main_arg4) = m ((c : Thread nD τ).loc main_arg4) :=
  calc W6 m c (Proc.devRef .tc main_arg4)
    _ = W5 m c (Proc.devRef .tc main_arg4) := W6_of_ne m c main_arg4 (by decide)
    _ = W4 m c (Proc.devRef .tc main_arg4) := StableHlo.after_of_writes_sub hostOps2 _ hostOps2_writes (r := main_arg4) (by decide)
    _ = W3 m c (Proc.devRef .tc main_arg4) := W4_of_ne m c main_arg4 (by decide)
    _ = W2 m c (Proc.devRef .tc main_arg4) := StableHlo.after_of_writes_sub hostOps1 _ hostOps1_writes (r := main_arg4) (by decide)
    _ = W1 m c (Proc.devRef .tc main_arg4) := W2_of_ne m c main_arg4 (by decide)
    _ = W0 m c (Proc.devRef .tc main_arg4) := StableHlo.after_of_writes_sub hostOps0 _ hostOps0_writes (r := main_arg4) (by decide)
    _ = m ((c : Thread nD τ).loc main_arg4) := rfl
theorem W6_main_arg5 (c : Dev nD) : W6 m c (Proc.devRef .tc main_arg5) = m ((c : Thread nD τ).loc main_arg5) :=
  calc W6 m c (Proc.devRef .tc main_arg5)
    _ = W5 m c (Proc.devRef .tc main_arg5) := W6_of_ne m c main_arg5 (by decide)
    _ = W4 m c (Proc.devRef .tc main_arg5) := StableHlo.after_of_writes_sub hostOps2 _ hostOps2_writes (r := main_arg5) (by decide)
    _ = W3 m c (Proc.devRef .tc main_arg5) := W4_of_ne m c main_arg5 (by decide)
    _ = W2 m c (Proc.devRef .tc main_arg5) := StableHlo.after_of_writes_sub hostOps1 _ hostOps1_writes (r := main_arg5) (by decide)
    _ = W1 m c (Proc.devRef .tc main_arg5) := W2_of_ne m c main_arg5 (by decide)
    _ = W0 m c (Proc.devRef .tc main_arg5) := StableHlo.after_of_writes_sub hostOps0 _ hostOps0_writes (r := main_arg5) (by decide)
    _ = m ((c : Thread nD τ).loc main_arg5) := rfl
theorem W6_main_arg6 (c : Dev nD) : W6 m c (Proc.devRef .tc main_arg6) = m ((c : Thread nD τ).loc main_arg6) :=
  calc W6 m c (Proc.devRef .tc main_arg6)
    _ = W5 m c (Proc.devRef .tc main_arg6) := W6_of_ne m c main_arg6 (by decide)
    _ = W4 m c (Proc.devRef .tc main_arg6) := StableHlo.after_of_writes_sub hostOps2 _ hostOps2_writes (r := main_arg6) (by decide)
    _ = W3 m c (Proc.devRef .tc main_arg6) := W4_of_ne m c main_arg6 (by decide)
    _ = W2 m c (Proc.devRef .tc main_arg6) := StableHlo.after_of_writes_sub hostOps1 _ hostOps1_writes (r := main_arg6) (by decide)
    _ = W1 m c (Proc.devRef .tc main_arg6) := W2_of_ne m c main_arg6 (by decide)
    _ = W0 m c (Proc.devRef .tc main_arg6) := StableHlo.after_of_writes_sub hostOps0 _ hostOps0_writes (r := main_arg6) (by decide)
    _ = m ((c : Thread nD τ).loc main_arg6) := rfl
theorem W6_main_arg7 (c : Dev nD) : W6 m c (Proc.devRef .tc main_arg7) = m ((c : Thread nD τ).loc main_arg7) :=
  calc W6 m c (Proc.devRef .tc main_arg7)
    _ = W5 m c (Proc.devRef .tc main_arg7) := W6_of_ne m c main_arg7 (by decide)
    _ = W4 m c (Proc.devRef .tc main_arg7) := StableHlo.after_of_writes_sub hostOps2 _ hostOps2_writes (r := main_arg7) (by decide)
    _ = W3 m c (Proc.devRef .tc main_arg7) := W4_of_ne m c main_arg7 (by decide)
    _ = W2 m c (Proc.devRef .tc main_arg7) := StableHlo.after_of_writes_sub hostOps1 _ hostOps1_writes (r := main_arg7) (by decide)
    _ = W1 m c (Proc.devRef .tc main_arg7) := W2_of_ne m c main_arg7 (by decide)
    _ = W0 m c (Proc.devRef .tc main_arg7) := StableHlo.after_of_writes_sub hostOps0 _ hostOps0_writes (r := main_arg7) (by decide)
    _ = m ((c : Thread nD τ).loc main_arg7) := rfl
theorem W6_main_arg8 (c : Dev nD) : W6 m c (Proc.devRef .tc main_arg8) = m ((c : Thread nD τ).loc main_arg8) :=
  calc W6 m c (Proc.devRef .tc main_arg8)
    _ = W5 m c (Proc.devRef .tc main_arg8) := W6_of_ne m c main_arg8 (by decide)
    _ = W4 m c (Proc.devRef .tc main_arg8) := StableHlo.after_of_writes_sub hostOps2 _ hostOps2_writes (r := main_arg8) (by decide)
    _ = W3 m c (Proc.devRef .tc main_arg8) := W4_of_ne m c main_arg8 (by decide)
    _ = W2 m c (Proc.devRef .tc main_arg8) := StableHlo.after_of_writes_sub hostOps1 _ hostOps1_writes (r := main_arg8) (by decide)
    _ = W1 m c (Proc.devRef .tc main_arg8) := W2_of_ne m c main_arg8 (by decide)
    _ = W0 m c (Proc.devRef .tc main_arg8) := StableHlo.after_of_writes_sub hostOps0 _ hostOps0_writes (r := main_arg8) (by decide)
    _ = m ((c : Thread nD τ).loc main_arg8) := rfl
theorem W6_main_arg9 (c : Dev nD) : W6 m c (Proc.devRef .tc main_arg9) = m ((c : Thread nD τ).loc main_arg9) :=
  calc W6 m c (Proc.devRef .tc main_arg9)
    _ = W5 m c (Proc.devRef .tc main_arg9) := W6_of_ne m c main_arg9 (by decide)
    _ = W4 m c (Proc.devRef .tc main_arg9) := StableHlo.after_of_writes_sub hostOps2 _ hostOps2_writes (r := main_arg9) (by decide)
    _ = W3 m c (Proc.devRef .tc main_arg9) := W4_of_ne m c main_arg9 (by decide)
    _ = W2 m c (Proc.devRef .tc main_arg9) := StableHlo.after_of_writes_sub hostOps1 _ hostOps1_writes (r := main_arg9) (by decide)
    _ = W1 m c (Proc.devRef .tc main_arg9) := W2_of_ne m c main_arg9 (by decide)
    _ = W0 m c (Proc.devRef .tc main_arg9) := StableHlo.after_of_writes_sub hostOps0 _ hostOps0_writes (r := main_arg9) (by decide)
    _ = m ((c : Thread nD τ).loc main_arg9) := rfl
theorem W6_main_arg10 (c : Dev nD) : W6 m c (Proc.devRef .tc main_arg10) = m ((c : Thread nD τ).loc main_arg10) :=
  calc W6 m c (Proc.devRef .tc main_arg10)
    _ = W5 m c (Proc.devRef .tc main_arg10) := W6_of_ne m c main_arg10 (by decide)
    _ = W4 m c (Proc.devRef .tc main_arg10) := StableHlo.after_of_writes_sub hostOps2 _ hostOps2_writes (r := main_arg10) (by decide)
    _ = W3 m c (Proc.devRef .tc main_arg10) := W4_of_ne m c main_arg10 (by decide)
    _ = W2 m c (Proc.devRef .tc main_arg10) := StableHlo.after_of_writes_sub hostOps1 _ hostOps1_writes (r := main_arg10) (by decide)
    _ = W1 m c (Proc.devRef .tc main_arg10) := W2_of_ne m c main_arg10 (by decide)
    _ = W0 m c (Proc.devRef .tc main_arg10) := StableHlo.after_of_writes_sub hostOps0 _ hostOps0_writes (r := main_arg10) (by decide)
    _ = m ((c : Thread nD τ).loc main_arg10) := rfl

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W6 m c) ∗ ∃ r, prngReg c r)

set_option backward.isDefEq.respectTransparency.types false in
/-- Pallas_call 0 over the thread state: entered from every unscoped buffer at `W1`, left at `W2`. Its arrays are
    split out of the unscoped buffers and put back at the exit contents; the generator register goes into the region's
    invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 1 over the thread state: entered from every unscoped buffer at `W3`, left at `W4`. Its arrays are
    split out of the unscoped buffers and put back at the exit contents; the generator register goes into the region's
    invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Phi1_in (V3 m) c)
    unfold Pipeline.ΦA
    iintro ⟨Hp, -, Hr⟩
    isplitl [Hr]; · iexact Hr
    iexact Hp
  hout c := by
    rw [Pipeline.ownSems0_none]
    refine .trans (Phi1_out (V3 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 2 over the thread state: entered from every unscoped buffer at `W5`, left at `W6`. Its arrays are
    split out of the unscoped buffers and put back at the exit contents; the generator register goes into the region's
    invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's six items in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m) ]
theorem main_run (c : Dev nD) : main (F := F) c = Pipeline.Seg.run (segs m) := (main_chain c).trans (by chain_rfl)

set_option backward.isDefEq.respectTransparency.types false in
/-- THE RUN. From any memory with zero counters, every weakly fair execution of the program on the TensorCores
    terminates, nothing faulting, and every final memory holds every unscoped buffer of every core at the last contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun _ h => h)

/-- THE FRAME: every argument array ends holding its launch contents. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (W6_main_arg0 m c),
    (h c _ (mem_uc main_arg1 (by decide))).trans (W6_main_arg1 m c),
    (h c _ (mem_uc main_arg2 (by decide))).trans (W6_main_arg2 m c),
    (h c _ (mem_uc main_arg3 (by decide))).trans (W6_main_arg3 m c),
    (h c _ (mem_uc main_arg4 (by decide))).trans (W6_main_arg4 m c),
    (h c _ (mem_uc main_arg5 (by decide))).trans (W6_main_arg5 m c),
    (h c _ (mem_uc main_arg6 (by decide))).trans (W6_main_arg6 m c),
    (h c _ (mem_uc main_arg7 (by decide))).trans (W6_main_arg7 m c),
    (h c _ (mem_uc main_arg8 (by decide))).trans (W6_main_arg8 m c),
    (h c _ (mem_uc main_arg9 (by decide))).trans (W6_main_arg9 m c),
    (h c _ (mem_uc main_arg10 (by decide))).trans (W6_main_arg10 m c)⟩) (run_all m ρ)

/-- THE RESULT with the frame: the result array ends at the last contents' value for it, and every argument as launched. -/
theorem run_result (ρ : Dev nD → PrngReg) : θ_run defs (onTc (τ := τ) (main (F := F))) ⟨m, fun _ => 0, ρ⟩ (fun r => ∀ c : Dev nD,
      r.2.mem ((c.tc : Thread nD τ).loc main_v54) = W6 m c (Proc.devRef .tc main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨h c _ (mem_uc main_v54 (by decide)),
    (h c _ (mem_uc main_arg0 (by decide))).trans (W6_main_arg0 m c),
    (h c _ (mem_uc main_arg1 (by decide))).trans (W6_main_arg1 m c),
    (h c _ (mem_uc main_arg2 (by decide))).trans (W6_main_arg2 m c),
    (h c _ (mem_uc main_arg3 (by decide))).trans (W6_main_arg3 m c),
    (h c _ (mem_uc main_arg4 (by decide))).trans (W6_main_arg4 m c),
    (h c _ (mem_uc main_arg5 (by decide))).trans (W6_main_arg5 m c),
    (h c _ (mem_uc main_arg6 (by decide))).trans (W6_main_arg6 m c),
    (h c _ (mem_uc main_arg7 (by decide))).trans (W6_main_arg7 m c),
    (h c _ (mem_uc main_arg8 (by decide))).trans (W6_main_arg8 m c),
    (h c _ (mem_uc main_arg9 (by decide))).trans (W6_main_arg9 m c),
    (h c _ (mem_uc main_arg10 (by decide))).trans (W6_main_arg10 m c)⟩) (run_all m ρ)

end Cert.Kernel.Hand

end
-- ==== Proof.KernelIdeal.Region0.lean ====
/-
  The first pallas_call: a dense layer, eight row tiles of 8192 rows. At a grid point the body loads the tile of the
  segment sums (window 0) and the whole transposed weight matrix (window 1), multiplies them into a zero accumulator
  and stores the product over the whole output tile (window 2). Nothing is kept between points, so what the output's
  staging buffer holds after the body is one function of the two input blocks.
-/
import proofs.«154919_j73332271612005_2_alg».proof.Proof.Patched.KernelIdeal.Launch
import proofs.«154919_j73332271612005_2_alg».proof.Proof.Gen.KernelIdeal.Skeleton
import proofs.«154919_j73332271612005_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole tile and the whole weight matrix, as the rectangles the body loads and stores through. -/
abbrev r0_tile : Rect S8192x128 := Rect.unit (s := S8192x128) ![0, 0] S8192x128.size inb_S8192x128_S8192x128_0_0
abbrev r0_w : Rect S128x128 := Rect.unit (s := S128x128) ![0, 0] S128x128.size inb_S128x128_S128x128_0_0

/-- The output tile after the body: its one store, the product of the two loaded blocks. -/
def out0_2 (x0 : Vec F S8192x128 .f32) (x1 : Vec F S128x128 .f32) : Vec F S8192x128 .f32 :=
  View.canon [⟨r0_tile, k0_pay1 (View.ld x0 r0_tile) (View.ld x1 r0_w)⟩]

theorem cover0_2 (p0 : Vec F S8192x128 .f32) (y : S8192x128.Idx) :
    ∃ pc ∈ ([⟨r0_tile, p0⟩] : List (View.Piece (Elt F) S8192x128 .f32)), y ∈ pc.1.set :=
  View.cover_of_tiled [⟨r0_tile, p0⟩] S8192x128.size (by rfl) y

set_option maxHeartbeats 4000000 in
/-- The body on whole staging memrefs: the inputs kept, the output tile left at `out0_2` of the inputs. -/
theorem sound_kernel0 (c : Dev nD) (E : Set ℕ) (i : grid0.Coords)
    (arg1 : Memref sig .tc .vmem S8192x128 .f32) (harg1 : arg1.IsWhole) (arg2 : Memref sig .tc .vmem S128x128 .f32) (harg2 : arg2.IsWhole)
    (arg3 : Memref sig .tc .vmem S8192x128 .f32) (harg3 : arg3.IsWhole)
    (x0 : Vec F S8192x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the first pipeline on core `c`: the arrays as the region finds them; after the body each input's
    buffer at its block, the output's at the product of the input blocks; the invariant is the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Hand

end
-- ==== Proof.KernelIdeal.Region1Base.lean ====
/-
  The second pallas_call: the combine step, 128 row tiles of 4096 messages. At a grid point the body multiplies the
  tile of gathered-row sums by one weight matrix and the tile of source rows by two more, adds the gathered dense
  rows, stores the two sums side by side as one bf16 tile of 256 lanes, and adds the tile's column sums and column
  sums of squares into two scratch rows it CARRIES from point to point: zeroed at the first point, copied out to the
  two one-row outputs at the last. This module holds what the three control cases share: the branch conditions in
  closed form over the grid, where the one-row outputs are idle, the memrefs, and the scoped buffers other than the
  two scratch rows.
-/
import proofs.«154919_j73332271612005_2_alg».proof.Proof.Patched.KernelIdeal.Launch
import proofs.«154919_j73332271612005_2_alg».proof.Proof.Gen.KernelIdeal.Skeleton
import proofs.«154919_j73332271612005_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
end

/-- The first branch is taken at the first point only. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 128 = 0 :=
  (by decide +kernel : ∀ t : Fin grid1.N, cond1_0 (grid1.coords t) ↔ t.val % 128 = 0)
/-- The second branch is taken at the last point only. -/
abbrev cond1_1 (i : grid1.Coords) : Prop := k1_cond2 i = 1#1
theorem hcond1_1 : ∀ t : Fin cfg1.N, cond1_1 (grid1.coords t) ↔ t.val % 128 = 127 :=
  (by decide +kernel : ∀ t : Fin grid1.N, cond1_1 (grid1.coords t) ↔ t.val % 128 = 127)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem idleAt1_7 : ∀ t : Fin cfg1.N, ¬cond1_1 (grid1.coords t) → cfg1.idle 7 (grid1.coords t) = true := by decide +kernel
theorem noFlush1_7 : ∀ t : Fin cfg1.N, ¬cond1_1 (grid1.coords t) → (cfg1.win 7).flush t = false := by decide +kernel
theorem liveAt1_7 : ∀ t : Fin cfg1.N, cond1_1 (grid1.coords t) → cfg1.idle 7 (grid1.coords t) = false := by decide +kernel
theorem idleAt1_8 : ∀ t : Fin cfg1.N, ¬cond1_1 (grid1.coords t) → cfg1.idle 8 (grid1.coords t) = true := by decide +kernel
theorem noFlush1_8 : ∀ t : Fin cfg1.N, ¬cond1_1 (grid1.coords t) → (cfg1.win 8).flush t = false := by decide +kernel
theorem liveAt1_8 : ∀ t : Fin cfg1.N, cond1_1 (grid1.coords t) → cfg1.idle 8 (grid1.coords t) = false := by decide +kernel

/-- One staging buffer of each output window, through which its contents are stated. -/
abbrev VO1_6 : View sig .tc .vmem S4096x256 .bf16 := (Memref.whole cc1_stg6_0 : Memref sig .tc .vmem S4096x256 .bf16).view
abbrev VO1_7 : View sig .tc .vmem S1x128 .f32 := (Memref.whole cc1_stg7_0 : Memref sig .tc .vmem S1x128 .f32).view
abbrev VO1_8 : View sig .tc .vmem S1x128 .f32 := (Memref.whole cc1_stg8_0 : Memref sig .tc .vmem S1x128 .f32).view
abbrev ms1_0 (t : Fin cfg1.N) : Memref sig .tc .vmem S4096x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4096x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S128x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S4096x256 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x128 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x128 .f32 := win1_8.stage (cfg1.slots t 8)
abbrev hs1_8 (t : Fin cfg1.N) : (ms1_8 t).IsWhole := hstage1_8 ((cfg1.slots t 8).cast nbuf1_8)
/-- The two scratch rows: whole scoped buffers of the kernel's own. -/
abbrev scM1_0 : Memref sig .tc .vmem S1x128 .f32 := Memref.whole cc1_scratch0
abbrev scM1_1 : Memref sig .tc .vmem S1x128 .f32 := Memref.whole cc1_scratch1
abbrev VS1_0 : View sig .tc .vmem S1x128 .f32 := scM1_0.view
abbrev VS1_1 : View sig .tc .vmem S1x128 .f32 := scM1_1.view

/-- The scoped buffers this pipeline neither stages nor names: the other two pallas_calls' staging buffers, each at
    some contents. -/
def rest1 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc2_stg0_0), ((c : Thread nD τ).loc cc2_stg0_0) ↦{fullShare} f)
      ∗ (∃ f : Buf (Elt F) ((c : Thread nD τ).loc cc2_stg0_1), ((c : Thread nD τ).loc cc2_stg0_1) ↦{fullShare} f)
      ∗ (∃ f : Buf (Elt F) ((c : Thread nD τ).loc cc2_stg1_0), ((c : Thread nD τ).loc cc2_stg1_0) ↦{fullShare} f)
      ∗ (∃ f : Buf (Elt F) ((c : Thread nD τ).loc cc2_stg2_0), ((c : Thread nD τ).loc cc2_stg2_0) ↦{fullShare} f)
      ∗ (∃ f : Buf (Elt F) ((c : Thread nD τ).loc cc2_stg3_0), ((c : Thread nD τ).loc cc2_stg3_0) ↦{fullShare} f)
      ∗ (∃ f : Buf (Elt F) ((c : Thread nD τ).loc cc2_stg3_1), ((c : Thread nD τ).loc cc2_stg3_1) ↦{fullShare} f))

/-- The class's invariant, the two scratch rows taken out as memrefs owned at some contents. -/
theorem PhiA1_split (c : Dev nD) :
    (Pipeline.ΦA spec1 c : sProp 𝕄) ⊣⊢ iprop(rest1 c ∗ (∃ d, owns (c : Thread nD τ) scM1_0 fullShare d) ∗ (∃ d, owns (c : Thread nD τ) scM1_1 fullShare d) ∗ (∃ r, prngReg c r)) := by
  unfold Pipeline.ΦA rest1; rw [scopedRest1_eq]; simp only [scM1_0, scM1_1, owns_whole]
  constructor
  · iintro ⟨⟨H1, H2, H3, H4, H5, HA, HB, H6, H7, H8, H9, H10, H11⟩, Hp⟩
    isplitl [H1 H2 H3 H4 H5 H6 H7 H8 H9 H10 H11]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    isplitl [HA]; · iexact HA
    isplitl [HB]; · iexact HB
    iexact Hp
  · iintro ⟨⟨H1, H2, H3, H4, H5, H6, H7, H8, H9, H10, H11⟩, HA, HB, Hp⟩
    isplitr [Hp]
    · isplitl [H1]; · iexact H1
      isplitl [H2]; · iexact H2
      isplitl [H3]; · iexact H3
      isplitl [H4]; · iexact H4
      isplitl [H5]; · iexact H5
      isplitl [HA]; · iexact HA
      isplitl [HB]; · iexact HB
      isplitl [H6]; · iexact H6
      isplitl [H7]; · iexact H7
      isplitl [H8]; · iexact H8
      isplitl [H9]; · iexact H9
      isplitl [H10]; · iexact H10
      iexact H11
    iexact Hp

end Cert.KernelIdeal.Hand

end
-- ==== Proof.KernelIdeal.Region1RunA.lean ====
/-
  The combine step's body at the first point: the first branch taken (the two scratch rows zeroed before anything is added), the second not. What its stores leave in each buffer is found, as a list of pieces, by running
  the body symbolically on whole staging memrefs.
-/
import proofs.«154919_j73332271612005_2_alg».proof.Proof.KernelIdeal.Region1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The pieces the body's stores leave (last first) in the message tile and the two scratch rows, with the
    proof that on whole memrefs — the six inputs at their contents, the message tile at anything, the one-row outputs at contents handed back untouched,
    the scratch rows at anything — the body runs to the continuation holding the inputs as they were and every
    stored buffer with its pieces written. -/
noncomputable def kernelRun1_A (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4096x256 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond1_0 i) (hc1 : ¬cond1_1 i)
    (x0 x1 x2 : Vec F S4096x128 .f32) (x3 x4 x5 : Vec F S128x128 .f32) :
    Σ' (L6 : List (View.Piece (Elt F) S4096x256 .bf16)) (LS0 : List (View.Piece (Elt F) S1x128 .f32)), { LS1 : List (View.Piece (Elt F) S1x128 .f32) //
      ∀ (xi7 xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ owns (c : Thread nD τ) arg8 fullShare xi7 ∗ owns (c : Thread nD τ) arg9 fullShare xi8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6) ∗ owns (c : Thread nD τ) arg8 fullShare xi7 ∗ owns (c : Thread nD τ) arg9 fullShare xi8
                ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__combine_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc1__combine_kernel_eq_skeleton]; unfold cc1__combine_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.KernelIdeal.Hand

end
-- ==== Proof.KernelIdeal.Region1RunB.lean ====
/-
  The combine step's body at a middle point: neither branch taken. What its stores leave in each buffer is found, as a list of pieces, by running
  the body symbolically on whole staging memrefs.
-/
import proofs.«154919_j73332271612005_2_alg».proof.Proof.KernelIdeal.Region1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The pieces the body's stores leave (last first) in the message tile and the two scratch rows, with the
    proof that on whole memrefs — the six inputs at their contents, the message tile at anything, the one-row outputs at contents handed back untouched,
    the scratch rows at what the point before left — the body runs to the continuation holding the inputs as they were and every
    stored buffer with its pieces written. -/
noncomputable def kernelRun1_B (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4096x256 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : ¬cond1_1 i)
    (x0 x1 x2 : Vec F S4096x128 .f32) (x3 x4 x5 : Vec F S128x128 .f32) (xs0 xs1 : Vec F S1x128 .f32) :
    Σ' (L6 : List (View.Piece (Elt F) S4096x256 .bf16)) (LS0 : List (View.Piece (Elt F) S1x128 .f32)), { LS1 : List (View.Piece (Elt F) S1x128 .f32) //
      ∀ (xi7 xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ owns (c : Thread nD τ) arg8 fullShare xi7 ∗ owns (c : Thread nD τ) arg9 fullShare xi8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6) ∗ owns (c : Thread nD τ) arg8 fullShare xi7 ∗ owns (c : Thread nD τ) arg9 fullShare xi8
                ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__combine_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc1__combine_kernel_eq_skeleton]; unfold cc1__combine_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.KernelIdeal.Hand

end
-- ==== Proof.KernelIdeal.Region1RunC.lean ====
/-
  The combine step's body at the last point: the second branch taken (the two scratch rows copied to the one-row outputs), the first not. What its stores leave in each buffer is found, as a list of pieces, by running
  the body symbolically on whole staging memrefs.
-/
import proofs.«154919_j73332271612005_2_alg».proof.Proof.KernelIdeal.Region1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The pieces the body's stores leave (last first) in the message tile and the two scratch rows and the two one-row outputs, with the
    proof that on whole memrefs — the six inputs at their contents, the message tile at anything, the one-row outputs at anything,
    the scratch rows at what the point before left — the body runs to the continuation holding the inputs as they were and every
    stored buffer with its pieces written. -/
noncomputable def kernelRun1_C (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4096x256 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : cond1_1 i)
    (x0 x1 x2 : Vec F S4096x128 .f32) (x3 x4 x5 : Vec F S128x128 .f32) (xs0 xs1 : Vec F S1x128 .f32) :
    Σ' (L6 : List (View.Piece (Elt F) S4096x256 .bf16)) (L7 : List (View.Piece (Elt F) S1x128 .f32)) (L8 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)
                ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__combine_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc1__combine_kernel_eq_skeleton]; unfold cc1__combine_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

end Cert.KernelIdeal.Hand

end
-- ==== Proof.KernelIdeal.Region1.lean ====
/-
  The combine step as proof data. After the body at a point, the message tile holds the two stored halves; the two
  scratch rows hold the running column sums and column sums of squares of every message row up to and including
  that point's tile, because the first point zeroes them before adding and every later point adds to what the point
  before left; the two one-row outputs are written at the last point only, with the scratch rows' final contents,
  and are idle (handed back untouched, not written back) everywhere else. The region's invariant is therefore the
  class's before the first point and, after point `n`, the scoped rest with the two scratch rows at what point `n`
  left in them.
-/
import proofs.«154919_j73332271612005_2_alg».proof.Proof.KernelIdeal.Region1RunA
import proofs.«154919_j73332271612005_2_alg».proof.Proof.KernelIdeal.Region1RunB
import proofs.«154919_j73332271612005_2_alg».proof.Proof.KernelIdeal.Region1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A's pieces for the message tile tile it, so they cover it. -/
theorem cover1_A_6 (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4096x256 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond1_0 i) (hc1 : ¬cond1_1 i)
    (x0 x1 x2 : Vec F S4096x128 .f32) (x3 x4 x5 : Vec F S128x128 .f32) (y : S4096x256.Idx) :
    ∃ pc ∈ (kernelRun1_A c i arg1 harg1 arg2 harg2 arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 hc0 hc1 x0 x1 x2 x3 x4 x5).1 S4096x128.size (by sl_kernel_rfl) y
/-- What case A leaves in the message tile: its pieces read back. -/
def out1_A_6 (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4096x256 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond1_0 i) (hc1 : ¬cond1_1 i)
    (x0 x1 x2 : Vec F S4096x128 .f32) (x3 x4 x5 : Vec F S128x128 .f32) : Vec F S4096x256 .bf16 :=
  VO1_6.read (Elt F) (VO1_6.writes (Elt F) VO1_6.junk (kernelRun1_A c i arg1 harg1 arg2 harg2 arg3 harg3 arg4 harg4 arg5 harg5 arg6 harg6 arg7 harg7 arg8 harg8 arg9 harg9 arg10 harg10 arg11 harg11 hc0 hc1 x0 x1 x2 x3 x4 x5).1)
/-- Case A's pieces for the first scratch row tile it, so they cover it. -/
theorem scover1_A_0 (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4096x256 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond1_0 i) (hc1 : ¬cond1_1 i)
    (x0 x1 x2 : Vec F S4096x128 .f32) (x3 x4 x5 : Vec F S128x128 .f32) (y : S1x128.Idx) :
    ∃ pc ∈ (kernelRun1_A c i arg1 harg1 arg2 harg2 arg3 harg3 arg4 harg4 arg5 harg5 arg6 harg6 arg7 harg7 arg8 harg8 arg9 harg9 arg10 harg10 arg11 harg11 hc0 hc1 x0 x1 x2 x3 x4 x5).2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 hc0 hc1 x0 x1 x2 x3 x4 x5).2.1 S1x128.size (by sl_kernel_rfl) y
/-- What case A leaves in the first scratch row: its pieces read back. -/
def sout1_A_0 (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4096x256 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond1_0 i) (hc1 : ¬cond1_1 i)
    (x0 x1 x2 : Vec F S4096x128 .f32) (x3 x4 x5 : Vec F S128x128 .f32) : Vec F S1x128 .f32 :=
  VS1_0.read (Elt F) (VS1_0.writes (Elt F) VS1_0.junk (kernelRun1_A c i arg1 harg1 arg2 harg2 arg3 harg3 arg4 harg4 arg5 harg5 arg6 harg6 arg7 harg7 arg8 harg8 arg9 harg9 arg10 harg10 arg11 harg11 hc0 hc1 x0 x1 x2 x3 x4 x5).2.1)
/-- Case A's pieces for the second scratch row tile it, so they cover it. -/
theorem scover1_A_1 (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4096x256 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond1_0 i) (hc1 : ¬cond1_1 i)
    (x0 x1 x2 : Vec F S4096x128 .f32) (x3 x4 x5 : Vec F S128x128 .f32) (y : S1x128.Idx) :
    ∃ pc ∈ (kernelRun1_A c i arg1 harg1 arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 hc0 hc1 x0 x1 x2 x3 x4 x5).2.2.1 S1x128.size (by sl_kernel_rfl) y
/-- What case A leaves in the second scratch row: its pieces read back. -/
def sout1_A_1 (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4096x256 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond1_0 i) (hc1 : ¬cond1_1 i)
    (x0 x1 x2 : Vec F S4096x128 .f32) (x3 x4 x5 : Vec F S128x128 .f32) : Vec F S1x128 .f32 :=
  VS1_1.read (Elt F) (VS1_1.writes (Elt F) VS1_1.junk (kernelRun1_A c i arg1 harg1 arg2 harg2 arg3 harg3 arg4 harg4 arg5 harg5 arg6 harg6 arg7 harg7 arg8 harg8 arg9 harg9 arg10 harg10 arg11 harg11 hc0 hc1 x0 x1 x2 x3 x4 x5).2.2.1)

/-- Case B's pieces for the message tile tile it, so they cover it. -/
theorem cover1_B_6 (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4096x256 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : ¬cond1_1 i)
    (x0 x1 x2 : Vec F S4096x128 .f32) (x3 x4 x5 : Vec F S128x128 .f32) (xs0 xs1 : Vec F S1x128 .f32) (y : S4096x256.Idx) :
    ∃ pc ∈ (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S4096x128.size (by sl_kernel_rfl) y
/-- What case B leaves in the message tile: its pieces read back. -/
def out1_B_6 (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4096x256 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : ¬cond1_1 i)
    (x0 x1 x2 : Vec F S4096x128 .f32) (x3 x4 x5 : Vec F S128x128 .f32) (xs0 xs1 : Vec F S1x128 .f32) : Vec F S4096x256 .bf16 :=
  VO1_6.read (Elt F) (VO1_6.writes (Elt F) VO1_6.junk (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)
/-- Case B's pieces for the first scratch row tile it, so they cover it. -/
theorem scover1_B_0 (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4096x256 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : ¬cond1_1 i)
    (x0 x1 x2 : Vec F S4096x128 .f32) (x3 x4 x5 : Vec F S128x128 .f32) (xs0 xs1 : Vec F S1x128 .f32) (y : S1x128.Idx) :
    ∃ pc ∈ (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x128.size (by sl_kernel_rfl) y
/-- What case B leaves in the first scratch row: its pieces read back. -/
def sout1_B_0 (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4096x256 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : ¬cond1_1 i)
    (x0 x1 x2 : Vec F S4096x128 .f32) (x3 x4 x5 : Vec F S128x128 .f32) (xs0 xs1 : Vec F S1x128 .f32) : Vec F S1x128 .f32 :=
  VS1_0.read (Elt F) (VS1_0.writes (Elt F) VS1_0.junk (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)
/-- Case B's pieces for the second scratch row tile it, so they cover it. -/
theorem scover1_B_1 (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4096x256 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : ¬cond1_1 i)
    (x0 x1 x2 : Vec F S4096x128 .f32) (x3 x4 x5 : Vec F S128x128 .f32) (xs0 xs1 : Vec F S1x128 .f32) (y : S1x128.Idx) :
    ∃ pc ∈ (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x128.size (by sl_kernel_rfl) y
/-- What case B leaves in the second scratch row: its pieces read back. -/
def sout1_B_1 (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4096x256 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : ¬cond1_1 i)
    (x0 x1 x2 : Vec F S4096x128 .f32) (x3 x4 x5 : Vec F S128x128 .f32) (xs0 xs1 : Vec F S1x128 .f32) : Vec F S1x128 .f32 :=
  VS1_1.read (Elt F) (VS1_1.writes (Elt F) VS1_1.junk (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- Case C's pieces for the message tile tile it, so they cover it. -/
theorem cover1_C_6 (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4096x256 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : cond1_1 i)
    (x0 x1 x2 : Vec F S4096x128 .f32) (x3 x4 x5 : Vec F S128x128 .f32) (xs0 xs1 : Vec F S1x128 .f32) (y : S4096x256.Idx) :
    ∃ pc ∈ (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S4096x128.size (by sl_kernel_rfl) y
/-- What case C leaves in the message tile: its pieces read back. -/
def out1_C_6 (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4096x256 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : cond1_1 i)
    (x0 x1 x2 : Vec F S4096x128 .f32) (x3 x4 x5 : Vec F S128x128 .f32) (xs0 xs1 : Vec F S1x128 .f32) : Vec F S4096x256 .bf16 :=
  VO1_6.read (Elt F) (VO1_6.writes (Elt F) VO1_6.junk (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)
/-- Case C's pieces for the sum row output tile it, so they cover it. -/
theorem cover1_C_7 (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4096x256 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : cond1_1 i)
    (x0 x1 x2 : Vec F S4096x128 .f32) (x3 x4 x5 : Vec F S128x128 .f32) (xs0 xs1 : Vec F S1x128 .f32) (y : S1x128.Idx) :
    ∃ pc ∈ (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x128.size (by sl_kernel_rfl) y
/-- What case C leaves in the sum row output: its pieces read back. -/
def out1_C_7 (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4096x256 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : cond1_1 i)
    (x0 x1 x2 : Vec F S4096x128 .f32) (x3 x4 x5 : Vec F S128x128 .f32) (xs0 xs1 : Vec F S1x128 .f32) : Vec F S1x128 .f32 :=
  VO1_7.read (Elt F) (VO1_7.writes (Elt F) VO1_7.junk (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)
/-- Case C's pieces for the sum-of-squares row output tile it, so they cover it. -/
theorem cover1_C_8 (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4096x256 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : cond1_1 i)
    (x0 x1 x2 : Vec F S4096x128 .f32) (x3 x4 x5 : Vec F S128x128 .f32) (xs0 xs1 : Vec F S1x128 .f32) (y : S1x128.Idx) :
    ∃ pc ∈ (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x128.size (by sl_kernel_rfl) y
/-- What case C leaves in the sum-of-squares row output: its pieces read back. -/
def out1_C_8 (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4096x256 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : cond1_1 i)
    (x0 x1 x2 : Vec F S4096x128 .f32) (x3 x4 x5 : Vec F S128x128 .f32) (xs0 xs1 : Vec F S1x128 .f32) : Vec F S1x128 .f32 :=
  VO1_8.read (Elt F) (VO1_8.writes (Elt F) VO1_8.junk (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)
/-- Case C's pieces for the first scratch row tile it, so they cover it. -/
theorem scover1_C_0 (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4096x256 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : cond1_1 i)
    (x0 x1 x2 : Vec F S4096x128 .f32) (x3 x4 x5 : Vec F S128x128 .f32) (xs0 xs1 : Vec F S1x128 .f32) (y : S1x128.Idx) :
    ∃ pc ∈ (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x128.size (by sl_kernel_rfl) y
/-- What case C leaves in the first scratch row: its pieces read back. -/
def sout1_C_0 (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4096x256 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : cond1_1 i)
    (x0 x1 x2 : Vec F S4096x128 .f32) (x3 x4 x5 : Vec F S128x128 .f32) (xs0 xs1 : Vec F S1x128 .f32) : Vec F S1x128 .f32 :=
  VS1_0.read (Elt F) (VS1_0.writes (Elt F) VS1_0.junk (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)
/-- Case C's pieces for the second scratch row tile it, so they cover it. -/
theorem scover1_C_1 (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4096x256 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : cond1_1 i)
    (x0 x1 x2 : Vec F S4096x128 .f32) (x3 x4 x5 : Vec F S128x128 .f32) (xs0 xs1 : Vec F S1x128 .f32) (y : S1x128.Idx) :
    ∃ pc ∈ (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x128.size (by sl_kernel_rfl) y
/-- What case C leaves in the second scratch row: its pieces read back. -/
def sout1_C_1 (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4096x256 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : cond1_1 i)
    (x0 x1 x2 : Vec F S4096x128 .f32) (x3 x4 x5 : Vec F S128x128 .f32) (xs0 xs1 : Vec F S1x128 .f32) : Vec F S1x128 .f32 :=
  VS1_1.read (Elt F) (VS1_1.writes (Elt F) VS1_1.junk (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

section
variable (V : (c : Dev nD) → (b : Ref sig .tc) → Buf (Elt F) ((c : Thread nD τ).loc b))

/-- THE ACCUMULATION. What the message tile, the two one-row outputs and the two scratch rows hold after the body at
    position `n`: the first point's case at 0, the last point's at 127, the middle case in between, each later point
    run over the scratch rows the point before left. The one-row outputs' components at the points where they are idle
    are placeholders nothing consults. -/
def outsAt1 (c : Dev nD) : (n : ℕ) → n < cfg1.N → Vec F S4096x256 .bf16 × Vec F S1x128 .f32 × Vec F S1x128 .f32 × Vec F S1x128 .f32 × Vec F S1x128 .f32
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), VO1_7.read (Elt F) VO1_7.junk, VO1_8.read (Elt F) VO1_8.junk, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h1 : (n + 1) % 128 = 127 then
      (out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) (fun h => (fun h => by (try dsimp only at h); omega) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.2.1 (outsAt1 c n (Nat.lt_of_succ_lt hn)).2.2.2.2, out1_C_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) (fun h => (fun h => by (try dsimp only at h); omega) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.2.1 (outsAt1 c n (Nat.lt_of_succ_lt hn)).2.2.2.2, out1_C_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) (fun h => (fun h => by (try dsimp only at h); omega) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.2.1 (outsAt1 c n (Nat.lt_of_succ_lt hn)).2.2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) (fun h => (fun h => by (try dsimp only at h); omega) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.2.1 (outsAt1 c n (Nat.lt_of_succ_lt hn)).2.2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) (fun h => (fun h => by (try dsimp only at h); omega) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.2.1 (outsAt1 c n (Nat.lt_of_succ_lt hn)).2.2.2.2)
    else
      (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) (fun h => (fun h => by have hN : n + 1 < 128 := lt_of_lt_of_eq hn (show cfg1.N = 128 from N_1); (try dsimp only at h); omega) ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.2.1 (outsAt1 c n (Nat.lt_of_succ_lt hn)).2.2.2.2, VO1_7.read (Elt F) VO1_7.junk, VO1_8.read (Elt F) VO1_8.junk, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) (fun h => (fun h => by have hN : n + 1 < 128 := lt_of_lt_of_eq hn (show cfg1.N = 128 from N_1); (try dsimp only at h); omega) ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.2.1 (outsAt1 c n (Nat.lt_of_succ_lt hn)).2.2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) (fun h => (fun h => by have hN : n + 1 < 128 := lt_of_lt_of_eq hn (show cfg1.N = 128 from N_1); (try dsimp only at h); omega) ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.2.1 (outsAt1 c n (Nat.lt_of_succ_lt hn)).2.2.2.2)

theorem outsAt1_A (c : Dev nD) (t : Fin cfg1.N) (hz : t.val = 0) (h0 : cond1_0 (grid1.coords t)) (h1 : ¬cond1_1 (grid1.coords t)) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) h0 h1 (iblk1 V c 0 t) (iblk1 V c 1 t) (iblk1 V c 2 t) (iblk1 V c 3 t) (iblk1 V c 4 t) (iblk1 V c 5 t), VO1_7.read (Elt F) VO1_7.junk, VO1_8.read (Elt F) VO1_8.junk, sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) h0 h1 (iblk1 V c 0 t) (iblk1 V c 1 t) (iblk1 V c 2 t) (iblk1 V c 3 t) (iblk1 V c 4 t) (iblk1 V c 5 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) h0 h1 (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact absurd hz (Nat.succ_ne_zero n)

theorem outsAt1_B (c : Dev nD) (t : Fin cfg1.N) (hz : t.val ≠ 0) (hl : ¬t.val % 128 = 127) (h0 : ¬cond1_0 (grid1.coords t)) (h1 : ¬cond1_1 (grid1.coords t)) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) h0 h1 (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, VO1_7.read (Elt F) VO1_7.junk, VO1_8.read (Elt F) VO1_8.junk, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) h0 h1 (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) h0 h1 (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.2.1 (outsAt1 V c (t.val - 1) (Nat.lt_of_le_of_lt (Nat.sub_le _ _) t.isLt)).2.2.2.2) := by
  obtain ⟨n, hn⟩ := t
  cases n with
  | zero => exact absurd rfl hz
  | succ n => exact (dif_neg hl).trans rfl

theorem outsAt1_C (c : Dev nD) (t : Fin cfg1.N) (hz : t.val ≠ 0) (hl : t.val % 128 = 127) (h0 : ¬cond1_0 (grid1.coords t)) (h1 : cond1_1 (grid1.coords t)) :
    outsAt1 V c t.val t.isLt = (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) h0 h1 (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) h0 h1 (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, out1_C_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) h0 h1 (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) h0 h1 (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) h0 h1 (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.2.1 (outsAt1 V c (t.val - 1) (Nat.lt_of_le_of_lt (Nat.sub_le _ _) t.isLt)).2.2.2.2) := by
  obtain ⟨n, hn⟩ := t
  cases n with
  | zero => exact absurd rfl hz
  | succ n => exact (dif_pos hl).trans rfl

/-- The region invariant before position `n`: before the first point the class's (every scratch at anything);
    afterwards the other scoped buffers at anything, the two scratch rows at what the point before left, and the
    generator register at some state. -/
def PhiS1 (c : Dev nD) : (n : ℕ) → n ≤ cfg1.N → sProp 𝕄
  | 0, _ => Pipeline.ΦA spec1 c
  | n + 1, hn => iprop(rest1 c ∗ owns (c : Thread nD τ) scM1_0 fullShare (outsAt1 V c n hn).2.2.2.1
      ∗ owns (c : Thread nD τ) scM1_1 fullShare (outsAt1 V c n hn).2.2.2.2 ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(rest1 c ∗ owns (c : Thread nD τ) scM1_0 fullShare (outsAt1 V c n hn).2.2.2.1
      ∗ owns (c : Thread nD τ) scM1_1 fullShare (outsAt1 V c n hn).2.2.2.2 ∗ (∃ r, prngReg c r)) := rfl
theorem PhiS1_pos (c : Dev nD) (n : ℕ) (h : n ≤ cfg1.N) (hz : n ≠ 0) :
    PhiS1 V c n h = iprop(rest1 c ∗ owns (c : Thread nD τ) scM1_0 fullShare (outsAt1 V c (n - 1) (by omega)).2.2.2.1
      ∗ owns (c : Thread nD τ) scM1_1 fullShare (outsAt1 V c (n - 1) (by omega)).2.2.2.2 ∗ (∃ r, prngReg c r)) := by
  cases n with
  | zero => exact absurd rfl hz
  | succ n => rfl

/-- The proof data of the second pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
    | ⟨7, _⟩ => (outsAt1 V c t.val t.isLt).2.1
    | ⟨8, _⟩ => (outsAt1 V c t.val t.isLt).2.2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]
theorem after1_7 (c : Dev nD) (t : Fin cfg1.N) : (dat1 V c).after 7 t = (outsAt1 V c t.val t.isLt).2.1 := by dsimp only [dat1]
theorem after1_8 (c : Dev nD) (t : Fin cfg1.N) : (dat1 V c).after 8 t = (outsAt1 V c t.val t.isLt).2.2.1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 16000000 in
/-- The body at any point. The closed forms say which case the point is in; the invariant hands the body the two scratch
    rows at what the point before left (at anything at the first point) and takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t]]
  rw [show (dat1 V c).leavesExact 1 t = owns (c : Thread nD τ) (ms1_1 t) fullShare ((dat1 V c).after 1 t) from by
    unfold Dat.leavesExact; rw [liveAt1_1 t]]
  rw [show (dat1 V c).leavesExact 2 t = owns (c : Thread nD τ) (ms1_2 t) fullShare ((dat1 V c).after 2 t) from by
    unfold Dat.leavesExact; rw [liveAt1_2 t]]
  rw [show (dat1 V c).leavesExact 3 t = owns (c : Thread nD τ) (ms1_3 t) fullShare ((dat1 V c).after 3 t) from by
    unfold Dat.leavesExact; rw [liveAt1_3 t]]
  rw [show (dat1 V c).leavesExact 4 t = owns (c : Thread nD τ) (ms1_4 t) fullShare ((dat1 V c).after 4 t) from by
    unfold Dat.leavesExact; rw [liveAt1_4 t]]
  rw [show (dat1 V c).leavesExact 5 t = owns (c : Thread nD τ) (ms1_5 t) fullShare ((dat1 V c).after 5 t) from by
    unfold Dat.leavesExact; rw [liveAt1_5 t]]
  rw [show (dat1 V c).leavesExact 6 t = owns (c : Thread nD τ) (ms1_6 t) fullShare ((dat1 V c).after 6 t) from by
    unfold Dat.leavesExact; rw [liveAt1_6 t]]
  rw [after1_0, after1_1, after1_2, after1_3, after1_4, after1_5, after1_6]
  by_cases hz : t.val = 0
  · have h0 : cond1_0 (grid1.coords t) := (hcond1_0 t).mpr (by rw [hz])
    have h1 : ¬cond1_1 (grid1.coords t) := fun h => by have h' := (hcond1_1 t).mp h; omega
    rw [Dat.leavesExact_idle (dat1 V c) 7 t (idleAt1_7 t h1) (noFlush1_7 t h1),
      Dat.leavesExact_idle (dat1 V c) 8 t (idleAt1_8 t h1) (noFlush1_8 t h1)]
    rw [outsAt1_A V c t hz h0 h1]
    unfold out1_A_6 sout1_A_0 sout1_A_1; (try dsimp only)
    rw [PhiS1_castSucc V c t, PhiS1_zero V c _ _ hz]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    ihave HΦ' := (PhiA1_split c).1 $$ HΦ
    icases HΦ' with ⟨Hrest, HS0, HS1, Hg⟩
    iapply ((kernelRun1_A c (grid1.coords t) _ _ _ _ _ _ _ _ _ _ _ _ _ _ _ _ _ _ _ _ _ _ h0 h1 (iblk1 V c 0 t) (iblk1 V c 1 t) (iblk1 V c 2 t) (iblk1 V c 3 t) (iblk1 V c 4 t) (iblk1 V c 5 t)).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    isplitl [HS1]; · iexact HS1
    iintro ⟨H0, H1, H2, H3, H4, H5, ⟨%e6, H6⟩, H7, H8, ⟨%es0, HS0⟩, ⟨%es1, HS1⟩⟩
    isplitl [Hrest HS0 HS1 Hg]
    · isplitl [Hrest]; · iexact Hrest
      isplitl [HS0]
      · unfold owns; iexists _; isplitr
        swap; · iexact HS0
        ipureintro; exact View.read_writes_of_cover _ _ _ _ _ (fun y => scover1_A_0 c _ _ _ _ _ _ _ _ _ _ _ _ _ _ _ _ _ _ _ _ _ _ _ _ _ _ _ _ _ _ _ y)
      isplitl [HS1]
      · unfold owns; iexists _; isplitr
        swap; · iexact HS1
        ipureintro; exact View.read_writes_of_cover _ _ _ _ _ (fun y => scover1_A_1 c _ _ _ _ _ _ _ _ _ _ _ _ _ _ _ _ _ _ _ _ _ _ _ _ _ _ _ _ _ _ _ y)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (fun y => cover1_A_6 c _ _ _ _ _ _ _ _ _ _ _ _ _ _ _ _ _ _ _ _ _ _ _ _ _ _ _ _ _ _ _ y)
    isplitl [H7]; · iexists _; iexact H7
    iexists _; iexact H8
  · by_cases hl : t.val % 128 = 127
    · have h0 : ¬cond1_0 (grid1.coords t) := fun h => by have h' := (hcond1_0 t).mp h; omega
      have h1 : cond1_1 (grid1.coords t) := (hcond1_1 t).mpr hl
      rw [show (dat1 V c).leavesExact 7 t = owns (c : Thread nD τ) (ms1_7 t) fullShare ((dat1 V c).after 7 t) from by
        unfold Dat.leavesExact; rw [liveAt1_7 t h1], after1_7]
      rw [show (dat1 V c).leavesExact 8 t = owns (c : Thread nD τ) (ms1_8 t) fullShare ((dat1 V c).after 8 t) from by
        unfold Dat.leavesExact; rw [liveAt1_8 t h1], after1_8]
      rw [outsAt1_C V c t hz hl h0 h1]
      unfold out1_C_6 out1_C_7 out1_C_8 sout1_C_0 sout1_C_1; (try dsimp only)
      rw [PhiS1_castSucc V c t, PhiS1_pos V c _ _ hz]
      iintro ⟨⟨Hrest, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_C c (grid1.coords t) _ _ _ _ _ _ _ _ _ _ _ _ _ _ _ _ _ _ _ _ _ _ h0 h1 (iblk1 V c 0 t) (iblk1 V c 1 t) (iblk1 V c 2 t) (iblk1 V c 3 t) (iblk1 V c 4 t) (iblk1 V c 5 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%e6, H6⟩, ⟨%e7, H7⟩, ⟨%e8, H8⟩, ⟨%es0, HS0⟩, ⟨%es1, HS1⟩⟩
      isplitl [Hrest HS0 HS1 Hg]
      · isplitl [Hrest]; · iexact Hrest
        isplitl [HS0]
        · unfold owns; iexists _; isplitr
          swap; · iexact HS0
          ipureintro; exact View.read_writes_of_cover _ _ _ _ _ (fun y => scover1_C_0 c _ _ _ _ _ _ _ _ _ _ _ _ _ _ _ _ _ _ _ _ _ _ _ _ _ _ _ _ _ _ _ _ _ y)
        isplitl [HS1]
        · unfold owns; iexists _; isplitr
          swap; · iexact HS1
          ipureintro; exact View.read_writes_of_cover _ _ _ _ _ (fun y => scover1_C_1 c _ _ _ _ _ _ _ _ _ _ _ _ _ _ _ _ _ _ _ _ _ _ _ _ _ _ _ _ _ _ _ _ _ y)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (fun y => cover1_C_6 c _ _ _ _ _ _ _ _ _ _ _ _ _ _ _ _ _ _ _ _ _ _ _ _ _ _ _ _ _ _ _ _ _ y)
      isplitl [H7]
      · unfold owns; iexists _; isplitr
        swap; · iexact H7
        ipureintro; exact View.read_writes_of_cover _ _ _ _ _ (fun y => cover1_C_7 c _ _ _ _ _ _ _ _ _ _ _ _ _ _ _ _ _ _ _ _ _ _ _ _ _ _ _ _ _ _ _ _ _ y)
      unfold owns; iexists _; isplitr
      swap; · iexact H8
      ipureintro; exact View.read_writes_of_cover _ _ _ _ _ (fun y => cover1_C_8 c _ _ _ _ _ _ _ _ _ _ _ _ _ _ _ _ _ _ _ _ _ _ _ _ _ _ _ _ _ _ _ _ _ y)
    · have h0 : ¬cond1_0 (grid1.coords t) := fun h => by have h' := (hcond1_0 t).mp h; omega
      have h1 : ¬cond1_1 (grid1.coords t) := fun h => hl ((hcond1_1 t).mp h)
      rw [Dat.leavesExact_idle (dat1 V c) 7 t (idleAt1_7 t h1) (noFlush1_7 t h1),
        Dat.leavesExact_idle (dat1 V c) 8 t (idleAt1_8 t h1) (noFlush1_8 t h1)]
      rw [outsAt1_B V c t hz hl h0 h1]
      unfold out1_B_6 sout1_B_0 sout1_B_1; (try dsimp only)
      rw [PhiS1_castSucc V c t, PhiS1_pos V c _ _ hz]
      iintro ⟨⟨Hrest, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_B c (grid1.coords t) _ _ _ _ _ _ _ _ _ _ _ _ _ _ _ _ _ _ _ _ _ _ h0 h1 (iblk1 V c 0 t) (iblk1 V c 1 t) (iblk1 V c 2 t) (iblk1 V c 3 t) (iblk1 V c 4 t) (iblk1 V c 5 t) _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [Hrest HS0 HS1 Hg]
      · isplitl [Hrest]; · iexact Hrest
        isplitl [HS0]
        · unfold owns; iexists _; isplitr
          swap; · iexact HS0
          ipureintro; exact View.read_writes_of_cover _ _ _ _ _ (fun y => scover1_B_0 c _ _ _ _ _ _ _ _ _ _ _ _ _ _ _ _ _ _ _ _ _ _ _ _ _ _ _ _ _ _ _ _ _ y)
        isplitl [HS1]
        · unfold owns; iexists _; isplitr
          swap; · iexact HS1
          ipureintro; exact View.read_writes_of_cover _ _ _ _ _ (fun y => scover1_B_1 c _ _ _ _ _ _ _ _ _ _ _ _ _ _ _ _ _ _ _ _ _ _ _ _ _ _ _ _ _ _ _ _ _ y)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (fun y => cover1_B_6 c _ _ _ _ _ _ _ _ _ _ _ _ _ _ _ _ _ _ _ _ _ _ _ _ _ _ _ _ _ _ _ _ _ y)
      isplitl [H7]; · iexists _; iexact H7
      iexists _; iexact H8

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem Phi1_in (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the scratch rows' named contents are forgotten. -/
theorem Phi1_out_of (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  iintro ⟨Hrest, HS0, HS1, Hg⟩
  iapply (PhiA1_split c).2
  isplitl [Hrest]; · iexact Hrest
  isplitl [HS0]; · iexists _; iexact HS0
  isplitl [HS1]; · iexists _; iexact HS1
  iexact Hg

/-- The same after the last point. -/
theorem Phi1_out (c : Dev nD) : (dat1 V c).Φ (Fin.last cfg1.N) ⊢ Pipeline.ΦA spec1 c :=
  Phi1_out_of V c _ (by rw [Fin.val_last]; have : cfg1.N = 128 := N_1; omega)

end

end Cert.KernelIdeal.Hand

end
-- ==== Proof.KernelIdeal.Region2.lean ====
/-
  The third pallas_call: the normalisation as one multiply-add and a ramp, 128 row tiles of 8192 rows. At a grid
  point the body loads the tile of the message array (window 0, bf16), the scale row (window 1) and the offset row
  (window 2), and stores `max (m * scale + offset) 0` over the whole output tile (window 3). Nothing is kept between
  points, so what the output's staging buffer holds after the body is one function of the three input blocks.
-/
import proofs.«154919_j73332271612005_2_alg».proof.Proof.Patched.KernelIdeal.Launch
import proofs.«154919_j73332271612005_2_alg».proof.Proof.Gen.KernelIdeal.Skeleton
import proofs.«154919_j73332271612005_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole tile and the whole row, as the rectangles the body loads and stores through. -/
abbrev r2_tile : Rect S8192x128 := Rect.unit (s := S8192x128) ![0, 0] S8192x128.size inb_S8192x128_S8192x128_0_0
abbrev r2_row : Rect S1x128 := Rect.unit (s := S1x128) ![0, 0] S1x128.size inb_S1x128_S1x128_0_0

/-- The output tile after the body: its one store, the ramp of the multiply-add of the three loaded blocks. -/
def out2_3 (x0 : Vec F S8192x128 .bf16) (x1 x2 : Vec F S1x128 .f32) : Vec F S8192x128 .f32 :=
  View.canon [⟨r2_tile, k2_pay1 (View.ld x0 r2_tile) (View.ld x1 r2_row) (View.ld x2 r2_row)⟩]

theorem cover2_3 (p0 : Vec F S8192x128 .f32) (y : S8192x128.Idx) :
    ∃ pc ∈ ([⟨r2_tile, p0⟩] : List (View.Piece (Elt F) S8192x128 .f32)), y ∈ pc.1.set :=
  View.cover_of_tiled [⟨r2_tile, p0⟩] S8192x128.size (by rfl) y

set_option maxHeartbeats 4000000 in
/-- The body on whole staging memrefs: the inputs kept, the output tile left at `out2_3` of the inputs. -/
theorem sound_kernel2 (c : Dev nD) (E : Set ℕ) (i : grid2.Coords)
    (arg1 : Memref sig .tc .vmem S8192x128 .bf16) (harg1 : arg1.IsWhole) (arg2 : Memref sig .tc .vmem S1x128 .f32) (harg2 : arg2.IsWhole)
    (arg3 : Memref sig .tc .vmem S1x128 .f32) (harg3 : arg3.IsWhole) (arg4 : Memref sig .tc .vmem S8192x128 .f32) (harg4 : arg4.IsWhole)
    (x0 : Vec F S8192x128 .bf16) (x1 x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__bn_relu_kernel i arg1 harg1 arg2 harg2 arg3 harg3 arg4 harg4) K := by
  simp only [cc2__bn_relu_kernel_eq_skeleton]; unfold cc2__bn_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of the third pipeline on core `c`: the arrays as the region finds them; after the body each input's
    buffer at its block, the output's at the ramp of the multiply-add of the input blocks; the invariant is the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation2 (c : Dev nD) : BodyObligation (dat2 (F := F) V c) (defs₀ (F := F)) Variants.none () Set.univ := fun t => by
  rw [bigSep_W2, bigSep_W2]
  exact sound_body2 V c t

end

end Cert.KernelIdeal.Hand

end
-- ==== Proof.KernelIdeal.Run.lean ====
/-
  The whole program as one run. Between two items of the program every unscoped buffer of a core sits at named contents:
  the launch memory, then each stretch of host operations applied, then, after a pallas_call, its arrays at what the
  pipeline's write-backs leave and every other buffer unchanged. The three pallas_calls are entered from and left at these
  contents, so one launch theorem gives: every weakly fair execution terminates without a fault, and every final memory
  holds every unscoped buffer at the last contents. No item writes an argument array, so each argument is read back
  through the fold to its launch contents; the result array is read off the same fold.
-/
import proofs.«154919_j73332271612005_2_alg».proof.Proof.Patched.KernelIdeal.Regions
import proofs.«154919_j73332271612005_2_alg».proof.Proof.KernelIdeal.Region0
import proofs.«154919_j73332271612005_2_alg».proof.Proof.KernelIdeal.Region1
import proofs.«154919_j73332271612005_2_alg».proof.Proof.KernelIdeal.Region2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m ((c : Dev nD), b)
/-- After the first stretch of host operations. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At pallas_call 0's exit: its arrays at what the pipeline leaves (the inputs as entered, each output's write-backs
    folded), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second stretch of host operations. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At pallas_call 1's exit: its arrays at what the pipeline leaves (the inputs as entered, each output's write-backs
    folded), every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the third stretch of host operations. -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- At pallas_call 2's exit: its arrays at what the pipeline leaves (the inputs as entered, each output's write-backs
    folded), every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-! The arguments end as launched: no host operation and no pallas_call writes one. -/
theorem W6_main_arg0 (c : Dev nD) : W6 m c (Proc.devRef .tc main_arg0) = m ((c : Thread nD τ).loc main_arg0) :=
  calc W6 m c (Proc.devRef .tc main_arg0)
    _ = W5 m c (Proc.devRef .tc main_arg0) := W6_of_ne m c main_arg0 (by decide)
    _ = W4 m c (Proc.devRef .tc main_arg0) := StableHlo.after_of_writes_sub hostOps2 _ hostOps2_writes (r := main_arg0) (by decide)
    _ = W3 m c (Proc.devRef .tc main_arg0) := W4_of_ne m c main_arg0 (by decide)
    _ = W2 m c (Proc.devRef .tc main_arg0) := StableHlo.after_of_writes_sub hostOps1 _ hostOps1_writes (r := main_arg0) (by decide)
    _ = W1 m c (Proc.devRef .tc main_arg0) := W2_of_ne m c main_arg0 (by decide)
    _ = W0 m c (Proc.devRef .tc main_arg0) := StableHlo.after_of_writes_sub hostOps0 _ hostOps0_writes (r := main_arg0) (by decide)
    _ = m ((c : Thread nD τ).loc main_arg0) := rfl
theorem W6_main_arg1 (c : Dev nD) : W6 m c (Proc.devRef .tc main_arg1) = m ((c : Thread nD τ).loc main_arg1) :=
  calc W6 m c (Proc.devRef .tc main_arg1)
    _ = W5 m c (Proc.devRef .tc main_arg1) := W6_of_ne m c main_arg1 (by decide)
    _ = W4 m c (Proc.devRef .tc main_arg1) := StableHlo.after_of_writes_sub hostOps2 _ hostOps2_writes (r := main_arg1) (by decide)
    _ = W3 m c (Proc.devRef .tc main_arg1) := W4_of_ne m c main_arg1 (by decide)
    _ = W2 m c (Proc.devRef .tc main_arg1) := StableHlo.after_of_writes_sub hostOps1 _ hostOps1_writes (r := main_arg1) (by decide)
    _ = W1 m c (Proc.devRef .tc main_arg1) := W2_of_ne m c main_arg1 (by decide)
    _ = W0 m c (Proc.devRef .tc main_arg1) := StableHlo.after_of_writes_sub hostOps0 _ hostOps0_writes (r := main_arg1) (by decide)
    _ = m ((c : Thread nD τ).loc main_arg1) := rfl
theorem W6_main_arg2 (c : Dev nD) : W6 m c (Proc.devRef .tc main_arg2) = m ((c : Thread nD τ).loc main_arg2) :=
  calc W6 m c (Proc.devRef .tc main_arg2)
    _ = W5 m c (Proc.devRef .tc main_arg2) := W6_of_ne m c main_arg2 (by decide)
    _ = W4 m c (Proc.devRef .tc main_arg2) := StableHlo.after_of_writes_sub hostOps2 _ hostOps2_writes (r := main_arg2) (by decide)
    _ = W3 m c (Proc.devRef .tc main_arg2) := W4_of_ne m c main_arg2 (by decide)
    _ = W2 m c (Proc.devRef .tc main_arg2) := StableHlo.after_of_writes_sub hostOps1 _ hostOps1_writes (r := main_arg2) (by decide)
    _ = W1 m c (Proc.devRef .tc main_arg2) := W2_of_ne m c main_arg2 (by decide)
    _ = W0 m c (Proc.devRef .tc main_arg2) := StableHlo.after_of_writes_sub hostOps0 _ hostOps0_writes (r := main_arg2) (by decide)
    _ = m ((c : Thread nD τ).loc main_arg2) := rfl
theorem W6_main_arg3 (c : Dev nD) : W6 m c (Proc.devRef .tc main_arg3) = m ((c : Thread nD τ).loc main_arg3) :=
  calc W6 m c (Proc.devRef .tc main_arg3)
    _ = W5 m c (Proc.devRef .tc main_arg3) := W6_of_ne m c main_arg3 (by decide)
    _ = W4 m c (Proc.devRef .tc main_arg3) := StableHlo.after_of_writes_sub hostOps2 _ hostOps2_writes (r := main_arg3) (by decide)
    _ = W3 m c (Proc.devRef .tc main_arg3) := W4_of_ne m c main_arg3 (by decide)
    _ = W2 m c (Proc.devRef .tc main_arg3) := StableHlo.after_of_writes_sub hostOps1 _ hostOps1_writes (r := main_arg3) (by decide)
    _ = W1 m c (Proc.devRef .tc main_arg3) := W2_of_ne m c main_arg3 (by decide)
    _ = W0 m c (Proc.devRef .tc main_arg3) := StableHlo.after_of_writes_sub hostOps0 _ hostOps0_writes (r := main_arg3) (by decide)
    _ = m ((c : Thread nD τ).loc main_arg3) := rfl
theorem W6_main_arg4 (c : Dev nD) : W6 m c (Proc.devRef .tc main_arg4) = m ((c : Thread nD τ).loc main_arg4) :=
  calc W6 m c (Proc.devRef .tc main_arg4)
    _ = W5 m c (Proc.devRef .tc main_arg4) := W6_of_ne m c main_arg4 (by decide)
    _ = W4 m c (Proc.devRef .tc main_arg4) := StableHlo.after_of_writes_sub hostOps2 _ hostOps2_writes (r := main_arg4) (by decide)
    _ = W3 m c (Proc.devRef .tc main_arg4) := W4_of_ne m c main_arg4 (by decide)
    _ = W2 m c (Proc.devRef .tc main_arg4) := StableHlo.after_of_writes_sub hostOps1 _ hostOps1_writes (r := main_arg4) (by decide)
    _ = W1 m c (Proc.devRef .tc main_arg4) := W2_of_ne m c main_arg4 (by decide)
    _ = W0 m c (Proc.devRef .tc main_arg4) := StableHlo.after_of_writes_sub hostOps0 _ hostOps0_writes (r := main_arg4) (by decide)
    _ = m ((c : Thread nD τ).loc main_arg4) := rfl
theorem W6_main_arg5 (c : Dev nD) : W6 m c (Proc.devRef .tc main_arg5) = m ((c : Thread nD τ).loc main_arg5) :=
  calc W6 m c (Proc.devRef .tc main_arg5)
    _ = W5 m c (Proc.devRef .tc main_arg5) := W6_of_ne m c main_arg5 (by decide)
    _ = W4 m c (Proc.devRef .tc main_arg5) := StableHlo.after_of_writes_sub hostOps2 _ hostOps2_writes (r := main_arg5) (by decide)
    _ = W3 m c (Proc.devRef .tc main_arg5) := W4_of_ne m c main_arg5 (by decide)
    _ = W2 m c (Proc.devRef .tc main_arg5) := StableHlo.after_of_writes_sub hostOps1 _ hostOps1_writes (r := main_arg5) (by decide)
    _ = W1 m c (Proc.devRef .tc main_arg5) := W2_of_ne m c main_arg5 (by decide)
    _ = W0 m c (Proc.devRef .tc main_arg5) := StableHlo.after_of_writes_sub hostOps0 _ hostOps0_writes (r := main_arg5) (by decide)
    _ = m ((c : Thread nD τ).loc main_arg5) := rfl
theorem W6_main_arg6 (c : Dev nD) : W6 m c (Proc.devRef .tc main_arg6) = m ((c : Thread nD τ).loc main_arg6) :=
  calc W6 m c (Proc.devRef .tc main_arg6)
    _ = W5 m c (Proc.devRef .tc main_arg6) := W6_of_ne m c main_arg6 (by decide)
    _ = W4 m c (Proc.devRef .tc main_arg6) := StableHlo.after_of_writes_sub hostOps2 _ hostOps2_writes (r := main_arg6) (by decide)
    _ = W3 m c (Proc.devRef .tc main_arg6) := W4_of_ne m c main_arg6 (by decide)
    _ = W2 m c (Proc.devRef .tc main_arg6) := StableHlo.after_of_writes_sub hostOps1 _ hostOps1_writes (r := main_arg6) (by decide)
    _ = W1 m c (Proc.devRef .tc main_arg6) := W2_of_ne m c main_arg6 (by decide)
    _ = W0 m c (Proc.devRef .tc main_arg6) := StableHlo.after_of_writes_sub hostOps0 _ hostOps0_writes (r := main_arg6) (by decide)
    _ = m ((c : Thread nD τ).loc main_arg6) := rfl
theorem W6_main_arg7 (c : Dev nD) : W6 m c (Proc.devRef .tc main_arg7) = m ((c : Thread nD τ).loc main_arg7) :=
  calc W6 m c (Proc.devRef .tc main_arg7)
    _ = W5 m c (Proc.devRef .tc main_arg7) := W6_of_ne m c main_arg7 (by decide)
    _ = W4 m c (Proc.devRef .tc main_arg7) := StableHlo.after_of_writes_sub hostOps2 _ hostOps2_writes (r := main_arg7) (by decide)
    _ = W3 m c (Proc.devRef .tc main_arg7) := W4_of_ne m c main_arg7 (by decide)
    _ = W2 m c (Proc.devRef .tc main_arg7) := StableHlo.after_of_writes_sub hostOps1 _ hostOps1_writes (r := main_arg7) (by decide)
    _ = W1 m c (Proc.devRef .tc main_arg7) := W2_of_ne m c main_arg7 (by decide)
    _ = W0 m c (Proc.devRef .tc main_arg7) := StableHlo.after_of_writes_sub hostOps0 _ hostOps0_writes (r := main_arg7) (by decide)
    _ = m ((c : Thread nD τ).loc main_arg7) := rfl
theorem W6_main_arg8 (c : Dev nD) : W6 m c (Proc.devRef .tc main_arg8) = m ((c : Thread nD τ).loc main_arg8) :=
  calc W6 m c (Proc.devRef .tc main_arg8)
    _ = W5 m c (Proc.devRef .tc main_arg8) := W6_of_ne m c main_arg8 (by decide)
    _ = W4 m c (Proc.devRef .tc main_arg8) := StableHlo.after_of_writes_sub hostOps2 _ hostOps2_writes (r := main_arg8) (by decide)
    _ = W3 m c (Proc.devRef .tc main_arg8) := W4_of_ne m c main_arg8 (by decide)
    _ = W2 m c (Proc.devRef .tc main_arg8) := StableHlo.after_of_writes_sub hostOps1 _ hostOps1_writes (r := main_arg8) (by decide)
    _ = W1 m c (Proc.devRef .tc main_arg8) := W2_of_ne m c main_arg8 (by decide)
    _ = W0 m c (Proc.devRef .tc main_arg8) := StableHlo.after_of_writes_sub hostOps0 _ hostOps0_writes (r := main_arg8) (by decide)
    _ = m ((c : Thread nD τ).loc main_arg8) := rfl
theorem W6_main_arg9 (c : Dev nD) : W6 m c (Proc.devRef .tc main_arg9) = m ((c : Thread nD τ).loc main_arg9) :=
  calc W6 m c (Proc.devRef .tc main_arg9)
    _ = W5 m c (Proc.devRef .tc main_arg9) := W6_of_ne m c main_arg9 (by decide)
    _ = W4 m c (Proc.devRef .tc main_arg9) := StableHlo.after_of_writes_sub hostOps2 _ hostOps2_writes (r := main_arg9) (by decide)
    _ = W3 m c (Proc.devRef .tc main_arg9) := W4_of_ne m c main_arg9 (by decide)
    _ = W2 m c (Proc.devRef .tc main_arg9) := StableHlo.after_of_writes_sub hostOps1 _ hostOps1_writes (r := main_arg9) (by decide)
    _ = W1 m c (Proc.devRef .tc main_arg9) := W2_of_ne m c main_arg9 (by decide)
    _ = W0 m c (Proc.devRef .tc main_arg9) := StableHlo.after_of_writes_sub hostOps0 _ hostOps0_writes (r := main_arg9) (by decide)
    _ = m ((c : Thread nD τ).loc main_arg9) := rfl
theorem W6_main_arg10 (c : Dev nD) : W6 m c (Proc.devRef .tc main_arg10) = m ((c : Thread nD τ).loc main_arg10) :=
  calc W6 m c (Proc.devRef .tc main_arg10)
    _ = W5 m c (Proc.devRef .tc main_arg10) := W6_of_ne m c main_arg10 (by decide)
    _ = W4 m c (Proc.devRef .tc main_arg10) := StableHlo.after_of_writes_sub hostOps2 _ hostOps2_writes (r := main_arg10) (by decide)
    _ = W3 m c (Proc.devRef .tc main_arg10) := W4_of_ne m c main_arg10 (by decide)
    _ = W2 m c (Proc.devRef .tc main_arg10) := StableHlo.after_of_writes_sub hostOps1 _ hostOps1_writes (r := main_arg10) (by decide)
    _ = W1 m c (Proc.devRef .tc main_arg10) := W2_of_ne m c main_arg10 (by decide)
    _ = W0 m c (Proc.devRef .tc main_arg10) := StableHlo.after_of_writes_sub hostOps0 _ hostOps0_writes (r := main_arg10) (by decide)
    _ = m ((c : Thread nD τ).loc main_arg10) := rfl

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W6 m c) ∗ ∃ r, prngReg c r)

set_option backward.isDefEq.respectTransparency.types false in
/-- Pallas_call 0 over the thread state: entered from every unscoped buffer at `W1`, left at `W2`. Its arrays are
    split out of the unscoped buffers and put back at the exit contents; the generator register goes into the region's
    invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 1 over the thread state: entered from every unscoped buffer at `W3`, left at `W4`. Its arrays are
    split out of the unscoped buffers and put back at the exit contents; the generator register goes into the region's
    invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Phi1_in (V3 m) c)
    unfold Pipeline.ΦA
    iintro ⟨Hp, -, Hr⟩
    isplitl [Hr]; · iexact Hr
    iexact Hp
  hout c := by
    rw [Pipeline.ownSems0_none]
    refine .trans (Phi1_out (V3 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 2 over the thread state: entered from every unscoped buffer at `W5`, left at `W6`. Its arrays are
    split out of the unscoped buffers and put back at the exit contents; the generator register goes into the region's
    invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's six items in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m) ]
theorem main_run (c : Dev nD) : main (F := F) c = Pipeline.Seg.run (segs m) := (main_chain c).trans (by chain_rfl)

set_option backward.isDefEq.respectTransparency.types false in
/-- THE RUN. From any memory with zero counters, every weakly fair execution of the program on the TensorCores
    terminates, nothing faulting, and every final memory holds every unscoped buffer of every core at the last contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun _ h => h)

/-- THE FRAME: every argument array ends holding its launch contents. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (W6_main_arg0 m c),
    (h c _ (mem_uc main_arg1 (by decide))).trans (W6_main_arg1 m c),
    (h c _ (mem_uc main_arg2 (by decide))).trans (W6_main_arg2 m c),
    (h c _ (mem_uc main_arg3 (by decide))).trans (W6_main_arg3 m c),
    (h c _ (mem_uc main_arg4 (by decide))).trans (W6_main_arg4 m c),
    (h c _ (mem_uc main_arg5 (by decide))).trans (W6_main_arg5 m c),
    (h c _ (mem_uc main_arg6 (by decide))).trans (W6_main_arg6 m c),
    (h c _ (mem_uc main_arg7 (by decide))).trans (W6_main_arg7 m c),
    (h c _ (mem_uc main_arg8 (by decide))).trans (W6_main_arg8 m c),
    (h c _ (mem_uc main_arg9 (by decide))).trans (W6_main_arg9 m c),
    (h c _ (mem_uc main_arg10 (by decide))).trans (W6_main_arg10 m c)⟩) (run_all m ρ)

/-- THE RESULT with the frame: the result array ends at the last contents' value for it, and every argument as launched. -/
theorem run_result (ρ : Dev nD → PrngReg) : θ_run defs (onTc (τ := τ) (main (F := F))) ⟨m, fun _ => 0, ρ⟩ (fun r => ∀ c : Dev nD,
      r.2.mem ((c.tc : Thread nD τ).loc main_v54) = W6 m c (Proc.devRef .tc main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨h c _ (mem_uc main_v54 (by decide)),
    (h c _ (mem_uc main_arg0 (by decide))).trans (W6_main_arg0 m c),
    (h c _ (mem_uc main_arg1 (by decide))).trans (W6_main_arg1 m c),
    (h c _ (mem_uc main_arg2 (by decide))).trans (W6_main_arg2 m c),
    (h c _ (mem_uc main_arg3 (by decide))).trans (W6_main_arg3 m c),
    (h c _ (mem_uc main_arg4 (by decide))).trans (W6_main_arg4 m c),
    (h c _ (mem_uc main_arg5 (by decide))).trans (W6_main_arg5 m c),
    (h c _ (mem_uc main_arg6 (by decide))).trans (W6_main_arg6 m c),
    (h c _ (mem_uc main_arg7 (by decide))).trans (W6_main_arg7 m c),
    (h c _ (mem_uc main_arg8 (by decide))).trans (W6_main_arg8 m c),
    (h c _ (mem_uc main_arg9 (by decide))).trans (W6_main_arg9 m c),
    (h c _ (mem_uc main_arg10 (by decide))).trans (W6_main_arg10 m c)⟩) (run_all m ρ)

end Cert.KernelIdeal.Hand

end
-- ==== Proof.KernelIdeal.HostVals.lean ====
/-
  What the stretches of host operations of the kernel's program compute, over any contents `W` of the buffers they
  start from. The first stretch builds the segment sums of the rows and of the gathered rows and a transposed weight
  matrix; the second gathers rows of the first pallas_call's result and of the input and transposes the other weight
  matrices. Wherever the reference's program applies the same operations to the same arguments the value is stated
  as the reference's named stage: the two programs print their operation records separately, equal by unfolding.
-/
import proofs.«154919_j73332271612005_2_alg».proof.Proof.Patched.KernelIdeal.Launch
import proofs.«154919_j73332271612005_2_alg».proof.Proof.Gen.ReferenceIdeal.Read
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (W : Valuation τ sig (Elt Ideal))

/-! ## The first stretch -/

set_option maxHeartbeats 8000000 in
/-- The segment sums of the rows. -/
theorem host0_v2 :
    (StableHlo.after (hostOps0 (F := Ideal)) W main_v2 : S65536x128.Idx → EReal)
      = Cert.ReferenceIdeal.Read.val_main_v2 (F := Ideal) (W main_arg0) (W main_arg6) := by
  simp only [hostOps0]
  after_results
  try rfl

set_option maxHeartbeats 8000000 in
/-- The segment sums of the gathered rows. -/
theorem host0_v12 :
    (StableHlo.after (hostOps0 (F := Ideal)) W main_v12 : S524288x128.Idx → EReal)
      = Cert.ReferenceIdeal.Read.val_main_v14 (F := Ideal) (W main_arg0) (W main_arg7) (W main_arg8) := by
  simp only [hostOps0]
  after_results
  try rfl

set_option maxHeartbeats 8000000 in
/-- The first weight matrix transposed. -/
theorem host0_v13 :
    (StableHlo.after (hostOps0 (F := Ideal)) W main_v13 : S128x128.Idx → EReal)
      = Cert.ReferenceIdeal.Read.val_main_v3 (F := Ideal) (W main_arg1) := by
  simp only [hostOps0]
  after_results
  try rfl

/-! ## The second stretch -/

/-- Rows of a dense result `Y` gathered at the destination indices: the reference's gather, over any `Y`. -/
def gatherDst (Y : S65536x128.Idx → EReal) (x10 : (⟨Cert.ReferenceIdeal.S524288, .i32⟩ : BufTy).Contents (Elt Ideal)) : S524288x128.Idx → EReal :=
  Host.gather Cert.ReferenceIdeal.gather_S65536x128_S524288x1_S524288x128_1_0_n_n_0_1_1128 Y (Cert.ReferenceIdeal.Read.val_main_v22 (F := Ideal) x10)

/-- The reference gathers its own dense result this way. -/
theorem ref_v23_eq (x0 : (⟨Cert.ReferenceIdeal.S262144x128, .f32⟩ : BufTy).Contents (Elt Ideal)) (x1 : (⟨Cert.ReferenceIdeal.S128x128, .f32⟩ : BufTy).Contents (Elt Ideal))
    (x6 : (⟨Cert.ReferenceIdeal.S262144, .i32⟩ : BufTy).Contents (Elt Ideal)) (x10 : (⟨Cert.ReferenceIdeal.S524288, .i32⟩ : BufTy).Contents (Elt Ideal)) :
    Cert.ReferenceIdeal.Read.val_main_v23 (F := Ideal) x0 x1 x6 x10 = gatherDst (Cert.ReferenceIdeal.Read.val_main_v4 (F := Ideal) x0 x1 x6) x10 := rfl

set_option maxHeartbeats 8000000 in
/-- The gathered rows of the first pallas_call's result. -/
theorem host1_v21 :
    (StableHlo.after (hostOps1 (F := Ideal)) W main_v21 : S524288x128.Idx → EReal)
      = gatherDst (W main_v14) (W main_arg10) := by
  simp only [hostOps1]
  after_results
  try rfl

set_option maxHeartbeats 8000000 in
/-- The gathered source rows. -/
theorem host1_v28 :
    (StableHlo.after (hostOps1 (F := Ideal)) W main_v28 : S524288x128.Idx → EReal)
      = Cert.ReferenceIdeal.Read.val_main_v31 (F := Ideal) (W main_arg0) (W main_arg9) := by
  simp only [hostOps1]
  after_results
  try rfl

set_option maxHeartbeats 8000000 in
/-- The second weight matrix transposed. -/
theorem host1_v33 :
    (StableHlo.after (hostOps1 (F := Ideal)) W main_v33 : S128x128.Idx → EReal)
      = Cert.ReferenceIdeal.Read.val_main_v15 (F := Ideal) (W main_arg2) := by
  simp only [hostOps1]
  after_results
  try rfl

set_option maxHeartbeats 8000000 in
set_option maxHeartbeats 8000000 in
/-- The two halves of the third weight matrix, each transposed. -/
theorem host1_v30 :
    (StableHlo.after (hostOps1 (F := Ideal)) W main_v30 : S128x128.Idx → EReal)
      = transpose S128x128 [1, 0] (extractStridedSlice S128x128 ![0, 0] (W main_arg3) slices_S256x128_S128x128_0_0) transposes_S128x128_S128x128_1_0 := by
  simp only [hostOps1]
  after_results
  try rfl
set_option maxHeartbeats 8000000 in
theorem host1_v32 :
    (StableHlo.after (hostOps1 (F := Ideal)) W main_v32 : S128x128.Idx → EReal)
      = transpose S128x128 [1, 0] (extractStridedSlice S128x128 ![128, 0] (W main_arg3) slices_S256x128_S128x128_128_0) transposes_S128x128_S128x128_1_0 := by
  simp only [hostOps1]
  after_results
  try rfl

end Cert.KernelIdeal.Hand

end
-- ==== Proof.KernelIdeal.ValuePay0.lean ====
/-
  The dense layer's payload read at one index of the tile. At the ideal values a change of float format is the
  identity and the matrix unit's product into a zero accumulator is the plain sum over the contracted axis, so entry
  `(p, q)` of the stored tile is `Σ_k x0 (p, k) * x1 (k, q)` of the two loaded blocks.
-/
import proofs.«154919_j73332271612005_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.TcCoe Idealize.SL.Sem
open Idealize.ShloMosaic.ValueIdx
open scoped BigOperators

/-- The product's left operand index at output index `j` and contraction position `q`: row `j 0`, column `q`. -/
theorem value_lhs0_0 (j : S8192x128.Idx) (q : dot_S8192x128_S128x128_S8192x128_1_0_0_1_n_n.contr.Idx) :
    (dot_S8192x128_S128x128_S8192x128_1_0_0_1_n_n.lhsIdx j q 0).val = (j 0).val := by
  unfold DotDims.lhsIdx
  rw [dif_neg (show ¬(0 : Fin S8192x128.rank) ∈ dot_S8192x128_S128x128_S8192x128_1_0_0_1_n_n.lhsBatch by decide), dif_pos (show (0 : Fin S8192x128.rank) ∈ dot_S8192x128_S128x128_S8192x128_1_0_0_1_n_n.lhsNonContracting by decide)]
  rfl
theorem value_lhs0_1 (j : S8192x128.Idx) (q : dot_S8192x128_S128x128_S8192x128_1_0_0_1_n_n.contr.Idx) :
    (dot_S8192x128_S128x128_S8192x128_1_0_0_1_n_n.lhsIdx j q 1).val = (q ⟨0, by decide⟩).val :=
  dot_S8192x128_S128x128_S8192x128_1_0_0_1_n_n.lhsIdx_val_of_single rfl j q
/-- The right operand index: row `q`, column `j 1`. -/
theorem value_rhs0_0 (j : S8192x128.Idx) (q : dot_S8192x128_S128x128_S8192x128_1_0_0_1_n_n.contr.Idx) :
    (dot_S8192x128_S128x128_S8192x128_1_0_0_1_n_n.rhsIdx j q 0).val = (q ⟨0, by decide⟩).val :=
  dot_S8192x128_S128x128_S8192x128_1_0_0_1_n_n.rhsIdx_val_of_single rfl j q
theorem value_rhs0_1 (j : S8192x128.Idx) (q : dot_S8192x128_S128x128_S8192x128_1_0_0_1_n_n.contr.Idx) :
    (dot_S8192x128_S128x128_S8192x128_1_0_0_1_n_n.rhsIdx j q 1).val = (j 1).val := by
  unfold DotDims.rhsIdx
  rw [dif_neg (show ¬(1 : Fin S128x128.rank) ∈ dot_S8192x128_S128x128_S8192x128_1_0_0_1_n_n.rhsBatch by decide), dif_pos (show (1 : Fin S128x128.rank) ∈ dot_S8192x128_S128x128_S8192x128_1_0_0_1_n_n.rhsNonContracting by decide)]
  rfl

/-- The stored tile at `(p, q)` is the row-by-column sum of the two loaded blocks. -/
theorem value_pay0 (x0 : Vec Ideal S8192x128 .f32) (x1 : Vec Ideal S128x128 .f32) (p : Fin 8192) (q : Fin 128) :
    k0_pay1 (F := Ideal) x0 x1 (ix2 p q) = ∑ k : Fin 128, x0 (ix2 p k) * x1 (ix2 k q) := by
  unfold k0_pay1
  simp only [shapeCast_self, matmul]
  rw [Ideal.matmul_constant_zero_apply, ← Equiv.sum_comp (ValueIdx.contrEquiv1 dot_S8192x128_S128x128_S8192x128_1_0_0_1_n_n 128 rfl rfl).symm]
  refine Finset.sum_congr rfl fun k _ => ?_
  have hk := ValueIdx.contrEquiv1_symm_val dot_S8192x128_S128x128_S8192x128_1_0_0_1_n_n 128 rfl rfl k
  have el : dot_S8192x128_S128x128_S8192x128_1_0_0_1_n_n.lhsIdx (ix2 p q) ((ValueIdx.contrEquiv1 dot_S8192x128_S128x128_S8192x128_1_0_0_1_n_n 128 rfl rfl).symm k) = ix2 p k := funext fun a => Fin.ext (by
    match a with
    | ⟨0, _⟩ => exact value_lhs0_0 _ _
    | ⟨1, _⟩ => exact (value_lhs0_1 _ _).trans hk)
  have er : dot_S8192x128_S128x128_S8192x128_1_0_0_1_n_n.rhsIdx (ix2 p q) ((ValueIdx.contrEquiv1 dot_S8192x128_S128x128_S8192x128_1_0_0_1_n_n 128 rfl rfl).symm k) = ix2 k q := funext fun a => Fin.ext (by
    match a with
    | ⟨0, _⟩ => exact (value_rhs0_0 _ _).trans hk
    | ⟨1, _⟩ => exact value_rhs0_1 _ _)
  rw [truncf_apply, truncf_apply, el, er]

end Cert.KernelIdeal.Hand

end
-- ==== Proof.KernelIdeal.Value0.lean ====
/-
  The first pallas_call's output array after its run. Point `t` of the eight writes rows `8192 t … 8192 t + 8191`
  of the output; what it writes is the product of rows `8192 t …` of the segment sums with the whole weight matrix,
  so the tiles are the restrictions of ONE function of the two arrays, the dense layer `Σ_k A (r, k) * B (k, q)`,
  and the eight tiles cover the array.
-/
import proofs.«154919_j73332271612005_2_alg».proof.Proof.KernelIdeal.Region0
import proofs.«154919_j73332271612005_2_alg».proof.Proof.KernelIdeal.ValuePay0
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-- The dense layer: row `i 0` of `A` against column `i 1` of `B`. -/
def dense0 (A : S65536x128.Idx → EReal) (B : S128x128.Idx → EReal) : S65536x128.Idx → EReal :=
  fun i => ∑ k : Fin 128, A (ix2 (i 0) k) * B (ix2 k (i 1))

theorem value_hz : (![0, 0] : Fin 2 → Nat) = fun _ => 0 := funext fun a => by fin_cases a <;> rfl

/-- The printed index maps over the eight points: the row-tiled windows sit at block row `t`, column 0; the weight
    window at block (0, 0). -/
theorem value_idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One entry of a written tile, over variables: if the first loaded block is rows `8192 T …` of `A` and the second is
    `B`, then entry `j` of the payload is the dense layer at row `8192 T + j 0`, column `j 1`. -/
theorem value_point0 (A : S65536x128.Idx → EReal) (B : S128x128.Idx → EReal)
    (x0 : Vec Ideal S8192x128 .f32) (x1 : Vec Ideal S128x128 .f32) (T : ℕ)
    (hx0 : ∀ (y : S8192x128.Idx) (z : S65536x128.Idx), (z 0).val = T * 8192 + (y 0).val → (z 1).val = (y 1).val → x0 y = A z)
    (hx1 : ∀ y : S128x128.Idx, x1 y = B y)
    (j : S8192x128.Idx) (i : S65536x128.Idx) (hi0 : (i 0).val = T * 8192 + (j 0).val) (hi1 : (i 1).val = (j 1).val) :
    k0_pay1 (F := Ideal) x0 x1 j = dense0 A B i := by
  obtain ⟨p, q, rfl⟩ : ∃ (p : Fin 8192) (q : Fin 128), j = ix2 p q := ⟨j 0, j 1, eq_ix2 j⟩
  rw [value_pay0]
  unfold dense0
  refine Finset.sum_congr rfl fun k _ => ?_
  have hB : (ix2 k (i 1) : S128x128.Idx) = ix2 k q := funext fun a => Fin.ext (by
    match a with
    | ⟨0, _⟩ => rfl
    | ⟨1, _⟩ => exact hi1)
  rw [hx0 (ix2 p k) (ix2 (i 0) k) hi0 rfl, hx1, hB]

section
variable (V : (c : Dev nD) → (b : Ref sig .tc) → Buf (Elt Ideal) ((c : Thread nD τ).loc b))

/-- The first window's block at point `t` is rows `8192 t …` of the segment sums. -/
theorem value_iblk0_0 (c : Dev nD) (t : Fin cfg0.N) (y : S8192x128.Idx) (z : S65536x128.Idx)
    (hz0 : (z 0).val = t.val * 8192 + (y 0).val) (hz1 : (z 1).val = (y 1).val) :
    (iblk0 (F := Ideal) V c 0 t : Vec Ideal S8192x128 .f32) y = (V c main_v2 : S65536x128.Idx → EReal) z := by
  obtain ⟨e0, e1, -, -, -, -⟩ := value_idx0 t
  unfold iblk0
  rw [View.read_apply]
  show (V c main_v2 : S65536x128.Idx → EReal) _ = (V c main_v2 : S65536x128.Idx → EReal) _
  congr 1
  funext a
  apply Fin.ext
  match a with
  | ⟨0, _⟩ => show win0_0.index t (0 : Fin 2) * 8192 + 1 * (y 0).val = (z 0).val; rw [e0, hz0]; omega
  | ⟨1, _⟩ => show win0_0.index t (1 : Fin 2) * 128 + 1 * (y 1).val = (z 1).val; rw [e1, hz1]; omega

/-- The second window's block at every point is the whole weight matrix. -/
theorem value_iblk0_1 (c : Dev nD) (t : Fin cfg0.N) (y : S128x128.Idx) :
    (iblk0 (F := Ideal) V c 1 t : Vec Ideal S128x128 .f32) y = (V c main_v13 : S128x128.Idx → EReal) y := by
  obtain ⟨-, -, e2, e3, -, -⟩ := value_idx0 t
  unfold iblk0
  rw [View.read_apply]
  show (V c main_v13 : S128x128.Idx → EReal) _ = (V c main_v13 : S128x128.Idx → EReal) _
  congr 1
  funext a
  apply Fin.ext
  match a with
  | ⟨0, _⟩ => show win0_1.index t (0 : Fin 2) * 128 + 1 * (y 0).val = (y 0).val; rw [e2]; omega
  | ⟨1, _⟩ => show win0_1.index t (1 : Fin 2) * 128 + 1 * (y 1).val = (y 1).val; rw [e3]; omega

/-- What point `t` writes back is block `t` of the dense layer of the two arrays as the region finds them. -/
theorem value_flushed0 (c : Dev nD) (t : Fin cfg0.N) :
    (dat0 (F := Ideal) V c).flushed 2 t
      = ((cfg0.win 2).blk t).view.read (Elt Ideal) (dense0 (V c main_v2 : S65536x128.Idx → EReal) (V c main_v13 : S128x128.Idx → EReal)) := by
  show (cfg0.win 2).cut (grid0.coords t) ((dat0 (F := Ideal) V c).after 2 t) = _
  rw [after0_2]
  unfold out0_2
  rw [View.canon_unit_zero value_hz]
  simp only [View.ld_unit_zero (S := S8192x128) value_hz, View.ld_unit_zero (S := S128x128) value_hz]
  obtain ⟨-, -, -, -, e4, e5⟩ := value_idx0 t
  funext j
  show k0_pay1 (F := Ideal) (iblk0 V c 0 t) (iblk0 V c 1 t) j
    = dense0 (V c main_v2 : S65536x128.Idx → EReal) (V c main_v13 : S128x128.Idx → EReal) (((cfg0.win 2).blk t).view.emb j)
  refine value_point0 (V c main_v2) (V c main_v13) (iblk0 V c 0 t) (iblk0 V c 1 t) t.val
    (fun y z h0 h1 => value_iblk0_0 V c t y z h0 h1) (fun y => value_iblk0_1 V c t y) j _ ?_ ?_
  · show win0_2.index t (0 : Fin 2) * 8192 + 1 * (j 0).val = t.val * 8192 + (j 0).val
    rw [e4]; omega
  · show win0_2.index t (1 : Fin 2) * 128 + 1 * (j 1).val = (j 1).val
    rw [e5]; omega

/-- An index of the output array is in point `t`'s block iff each coordinate is in the block's range on its axis. -/
theorem value_mem_blk0 (t : Fin cfg0.N) (i : S65536x128.Idx) :
    i ∈ ((cfg0.win 2).blk t).view.set ↔ ∀ a : Fin 2, win0_2.index t a * S8192x128.size a ≤ (i a).val ∧ (i a).val < win0_2.index t a * S8192x128.size a + S8192x128.size a := by
  show i ∈ ((View.whole main_v14).slice (win0_2.rect t)).set ↔ _
  rw [View.set_slice_whole, Rect.mem_set_unit]
  exact Iff.rfl

/-- Row `r` is written by point `r / 8192`: the eight tiles cover the array. -/
theorem value_cover0 (i : S65536x128.Idx) :
    ∃ t : Fin cfg0.N, (cfg0.win 2).flush t = true ∧ i ∈ ((cfg0.win 2).blk t).view.set := by
  have hi0 : (i 0).val < 65536 := (i 0).isLt
  have hi1 : (i 1).val < 128 := (i 1).isLt
  have hN : cfg0.N = 8 := N_0
  obtain ⟨t, ht⟩ : ∃ t : Fin cfg0.N, t.val = (i 0).val / 8192 := ⟨⟨(i 0).val / 8192, by rw [hN]; omega⟩, rfl⟩
  refine ⟨t, flush0_2 t, ?_⟩
  obtain ⟨-, -, -, -, e4, e5⟩ := value_idx0 t
  rw [value_mem_blk0]
  intro a
  match a with
  | ⟨0, _⟩ => show win0_2.index t (0 : Fin 2) * 8192 ≤ (i 0).val ∧ (i 0).val < win0_2.index t (0 : Fin 2) * 8192 + 8192; rw [e4, ht]; omega
  | ⟨1, _⟩ => show win0_2.index t (1 : Fin 2) * 128 ≤ (i 1).val ∧ (i 1).val < win0_2.index t (1 : Fin 2) * 128 + 128; rw [e5]; omega

/-- THE ARRAY after the first pallas_call: the dense layer of the segment sums and the weight matrix. -/
theorem final0_2 (c : Dev nD) :
    (dat0 (F := Ideal) V c).arrAt 2 cfg0.N = dense0 (V c main_v2 : S65536x128.Idx → EReal) (V c main_v13 : S128x128.Idx → EReal) :=
  (dat0 (F := Ideal) V c).arrAt_eq_of_cover 2 (dense0 (V c main_v2 : S65536x128.Idx → EReal) (V c main_v13 : S128x128.Idx → EReal))
    (fun t _ => value_flushed0 V c t) value_cover0

end

end Cert.KernelIdeal.Hand

end
-- ==== Proof.KernelIdeal.Folds.lean ====
/-
  The contents the three pallas_calls find, traced through the program. Every array the first two stretches of host
  operations hand to a pallas_call is one of the reference's named stages of the same arguments: the segment sums, the
  gathered rows, the transposed weight matrices; the gathered dense rows are the reference's once the first pallas_call's
  result is known to be the reference's dense product.
-/
import proofs.«154919_j73332271612005_2_alg».proof.Proof.KernelIdeal.Run
import proofs.«154919_j73332271612005_2_alg».proof.Proof.KernelIdeal.HostVals
import proofs.«154919_j73332271612005_2_alg».proof.Proof.KernelIdeal.Value0

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (c : Dev nD)

/-! ## The arguments at the second and third region's entries -/
theorem W2_arg0 : W2 m c (Proc.devRef .tc main_arg0) = m ((c : Thread nD τ).loc main_arg0) :=
  calc W2 m c (Proc.devRef .tc main_arg0)
    _ = W1 m c (Proc.devRef .tc main_arg0) := W2_of_ne m c main_arg0 (by decide)
    _ = W0 m c (Proc.devRef .tc main_arg0) := StableHlo.after_of_writes_sub hostOps0 _ hostOps0_writes (r := main_arg0) (by decide)
    _ = m ((c : Thread nD τ).loc main_arg0) := rfl
theorem W2_arg1 : W2 m c (Proc.devRef .tc main_arg1) = m ((c : Thread nD τ).loc main_arg1) :=
  calc W2 m c (Proc.devRef .tc main_arg1)
    _ = W1 m c (Proc.devRef .tc main_arg1) := W2_of_ne m c main_arg1 (by decide)
    _ = W0 m c (Proc.devRef .tc main_arg1) := StableHlo.after_of_writes_sub hostOps0 _ hostOps0_writes (r := main_arg1) (by decide)
    _ = m ((c : Thread nD τ).loc main_arg1) := rfl
theorem W2_arg2 : W2 m c (Proc.devRef .tc main_arg2) = m ((c : Thread nD τ).loc main_arg2) :=
  calc W2 m c (Proc.devRef .tc main_arg2)
    _ = W1 m c (Proc.devRef .tc main_arg2) := W2_of_ne m c main_arg2 (by decide)
    _ = W0 m c (Proc.devRef .tc main_arg2) := StableHlo.after_of_writes_sub hostOps0 _ hostOps0_writes (r := main_arg2) (by decide)
    _ = m ((c : Thread nD τ).loc main_arg2) := rfl
theorem W2_arg3 : W2 m c (Proc.devRef .tc main_arg3) = m ((c : Thread nD τ).loc main_arg3) :=
  calc W2 m c (Proc.devRef .tc main_arg3)
    _ = W1 m c (Proc.devRef .tc main_arg3) := W2_of_ne m c main_arg3 (by decide)
    _ = W0 m c (Proc.devRef .tc main_arg3) := StableHlo.after_of_writes_sub hostOps0 _ hostOps0_writes (r := main_arg3) (by decide)
    _ = m ((c : Thread nD τ).loc main_arg3) := rfl
theorem W2_arg4 : W2 m c (Proc.devRef .tc main_arg4) = m ((c : Thread nD τ).loc main_arg4) :=
  calc W2 m c (Proc.devRef .tc main_arg4)
    _ = W1 m c (Proc.devRef .tc main_arg4) := W2_of_ne m c main_arg4 (by decide)
    _ = W0 m c (Proc.devRef .tc main_arg4) := StableHlo.after_of_writes_sub hostOps0 _ hostOps0_writes (r := main_arg4) (by decide)
    _ = m ((c : Thread nD τ).loc main_arg4) := rfl
theorem W2_arg5 : W2 m c (Proc.devRef .tc main_arg5) = m ((c : Thread nD τ).loc main_arg5) :=
  calc W2 m c (Proc.devRef .tc main_arg5)
    _ = W1 m c (Proc.devRef .tc main_arg5) := W2_of_ne m c main_arg5 (by decide)
    _ = W0 m c (Proc.devRef .tc main_arg5) := StableHlo.after_of_writes_sub hostOps0 _ hostOps0_writes (r := main_arg5) (by decide)
    _ = m ((c : Thread nD τ).loc main_arg5) := rfl
theorem W2_arg6 : W2 m c (Proc.devRef .tc main_arg6) = m ((c : Thread nD τ).loc main_arg6) :=
  calc W2 m c (Proc.devRef .tc main_arg6)
    _ = W1 m c (Proc.devRef .tc main_arg6) := W2_of_ne m c main_arg6 (by decide)
    _ = W0 m c (Proc.devRef .tc main_arg6) := StableHlo.after_of_writes_sub hostOps0 _ hostOps0_writes (r := main_arg6) (by decide)
    _ = m ((c : Thread nD τ).loc main_arg6) := rfl
theorem W2_arg7 : W2 m c (Proc.devRef .tc main_arg7) = m ((c : Thread nD τ).loc main_arg7) :=
  calc W2 m c (Proc.devRef .tc main_arg7)
    _ = W1 m c (Proc.devRef .tc main_arg7) := W2_of_ne m c main_arg7 (by decide)
    _ = W0 m c (Proc.devRef .tc main_arg7) := StableHlo.after_of_writes_sub hostOps0 _ hostOps0_writes (r := main_arg7) (by decide)
    _ = m ((c : Thread nD τ).loc main_arg7) := rfl
theorem W2_arg8 : W2 m c (Proc.devRef .tc main_arg8) = m ((c : Thread nD τ).loc main_arg8) :=
  calc W2 m c (Proc.devRef .tc main_arg8)
    _ = W1 m c (Proc.devRef .tc main_arg8) := W2_of_ne m c main_arg8 (by decide)
    _ = W0 m c (Proc.devRef .tc main_arg8) := StableHlo.after_of_writes_sub hostOps0 _ hostOps0_writes (r := main_arg8) (by decide)
    _ = m ((c : Thread nD τ).loc main_arg8) := rfl
theorem W2_arg9 : W2 m c (Proc.devRef .tc main_arg9) = m ((c : Thread nD τ).loc main_arg9) :=
  calc W2 m c (Proc.devRef .tc main_arg9)
    _ = W1 m c (Proc.devRef .tc main_arg9) := W2_of_ne m c main_arg9 (by decide)
    _ = W0 m c (Proc.devRef .tc main_arg9) := StableHlo.after_of_writes_sub hostOps0 _ hostOps0_writes (r := main_arg9) (by decide)
    _ = m ((c : Thread nD τ).loc main_arg9) := rfl
theorem W2_arg10 : W2 m c (Proc.devRef .tc main_arg10) = m ((c : Thread nD τ).loc main_arg10) :=
  calc W2 m c (Proc.devRef .tc main_arg10)
    _ = W1 m c (Proc.devRef .tc main_arg10) := W2_of_ne m c main_arg10 (by decide)
    _ = W0 m c (Proc.devRef .tc main_arg10) := StableHlo.after_of_writes_sub hostOps0 _ hostOps0_writes (r := main_arg10) (by decide)
    _ = m ((c : Thread nD τ).loc main_arg10) := rfl
theorem W4_arg0 : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_writes_sub hostOps1 _ hostOps1_writes (r := main_arg0) (by decide)
    _ = m ((c : Thread nD τ).loc main_arg0) := W2_arg0 m c
theorem W4_arg1 : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_writes_sub hostOps1 _ hostOps1_writes (r := main_arg1) (by decide)
    _ = m ((c : Thread nD τ).loc main_arg1) := W2_arg1 m c
theorem W4_arg2 : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (r := main_arg2) (by decide)
    _ = m ((c : Thread nD τ).loc main_arg2) := W2_arg2 m c
theorem W4_arg3 : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_writes_sub hostOps1 _ hostOps1_writes (r := main_arg3) (by decide)
    _ = m ((c : Thread nD τ).loc main_arg3) := W2_arg3 m c
theorem W4_arg4 : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_writes_sub hostOps1 _ hostOps1_writes (r := main_arg4) (by decide)
    _ = m ((c : Thread nD τ).loc main_arg4) := W2_arg4 m c
theorem W4_arg5 : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := StableHlo.after_of_writes_sub hostOps1 _ hostOps1_writes (r := main_arg5) (by decide)
    _ = m ((c : Thread nD τ).loc main_arg5) := W2_arg5 m c
theorem W4_arg6 : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := StableHlo.after_of_writes_sub hostOps1 _ hostOps1_writes (r := main_arg6) (by decide)
    _ = m ((c : Thread nD τ).loc main_arg6) := W2_arg6 m c
theorem W4_arg7 : W4 m c (Proc.devRef .tc main_arg7) = m ((c : Thread nD τ).loc main_arg7) :=
  calc W4 m c (Proc.devRef .tc main_arg7)
    _ = W3 m c (Proc.devRef .tc main_arg7) := W4_of_ne m c main_arg7 (by decide)
    _ = W2 m c (Proc.devRef .tc main_arg7) := StableHlo.after_of_writes_sub hostOps1 _ hostOps1_writes (r := main_arg7) (by decide)
    _ = m ((c : Thread nD τ).loc main_arg7) := W2_arg7 m c
theorem W4_arg8 : W4 m c (Proc.devRef .tc main_arg8) = m ((c : Thread nD τ).loc main_arg8) :=
  calc W4 m c (Proc.devRef .tc main_arg8)
    _ = W3 m c (Proc.devRef .tc main_arg8) := W4_of_ne m c main_arg8 (by decide)
    _ = W2 m c (Proc.devRef .tc main_arg8) := StableHlo.after_of_writes_sub hostOps1 _ hostOps1_writes (r := main_arg8) (by decide)
    _ = m ((c : Thread nD τ).loc main_arg8) := W2_arg8 m c
theorem W4_arg9 : W4 m c (Proc.devRef .tc main_arg9) = m ((c : Thread nD τ).loc main_arg9) :=
  calc W4 m c (Proc.devRef .tc main_arg9)
    _ = W3 m c (Proc.devRef .tc main_arg9) := W4_of_ne m c main_arg9 (by decide)
    _ = W2 m c (Proc.devRef .tc main_arg9) := StableHlo.after_of_writes_sub hostOps1 _ hostOps1_writes (r := main_arg9) (by decide)
    _ = m ((c : Thread nD τ).loc main_arg9) := W2_arg9 m c
theorem W4_arg10 : W4 m c (Proc.devRef .tc main_arg10) = m ((c : Thread nD τ).loc main_arg10) :=
  calc W4 m c (Proc.devRef .tc main_arg10)
    _ = W3 m c (Proc.devRef .tc main_arg10) := W4_of_ne m c main_arg10 (by decide)
    _ = W2 m c (Proc.devRef .tc main_arg10) := StableHlo.after_of_writes_sub hostOps1 _ hostOps1_writes (r := main_arg10) (by decide)
    _ = m ((c : Thread nD τ).loc main_arg10) := W2_arg10 m c

/-! ## The first pallas_call's inputs and result -/

theorem V1_v2 : (V1 m c main_v2 : S65536x128.Idx → EReal) = Cert.ReferenceIdeal.Read.val_main_v2 (F := Ideal) (m ((c : Thread nD τ).loc main_arg0)) (m ((c : Thread nD τ).loc main_arg6)) :=
  host0_v2 (W0 m c)
theorem V1_v13 : (V1 m c main_v13 : S128x128.Idx → EReal) = Cert.ReferenceIdeal.Read.val_main_v3 (F := Ideal) (m ((c : Thread nD τ).loc main_arg1)) :=
  host0_v13 (W0 m c)
theorem V1_v12 : (V1 m c main_v12 : S524288x128.Idx → EReal) = Cert.ReferenceIdeal.Read.val_main_v14 (F := Ideal) (m ((c : Thread nD τ).loc main_arg0)) (m ((c : Thread nD τ).loc main_arg7)) (m ((c : Thread nD τ).loc main_arg8)) :=
  host0_v12 (W0 m c)

/-- The first pallas_call leaves the dense product of its two inputs. -/
theorem W2_v14 : (W2 m c (Proc.devRef .tc main_v14) : S65536x128.Idx → EReal)
    = dense0 (Cert.ReferenceIdeal.Read.val_main_v2 (F := Ideal) (m ((c : Thread nD τ).loc main_arg0)) (m ((c : Thread nD τ).loc main_arg6))) (Cert.ReferenceIdeal.Read.val_main_v3 (F := Ideal) (m ((c : Thread nD τ).loc main_arg1))) := by
  rw [← V1_v2 m c, ← V1_v13 m c]
  exact (W2_arr m c 2).trans (final0_2 (V1 m) c)

/-- The segment sums of the gathered rows pass the first pallas_call and the second stretch untouched. -/
theorem V3_v12 : (V3 m c main_v12 : S524288x128.Idx → EReal) = Cert.ReferenceIdeal.Read.val_main_v14 (F := Ideal) (m ((c : Thread nD τ).loc main_arg0)) (m ((c : Thread nD τ).loc main_arg7)) (m ((c : Thread nD τ).loc main_arg8)) := by
  rw [← V1_v12 m c]
  exact (StableHlo.after_of_writes_sub hostOps1 _ hostOps1_writes (r := main_v12) (by decide)).trans (W2_of_ne m c main_v12 (by decide))

/-! ## The second pallas_call's other inputs -/

theorem V3_v21 : (V3 m c main_v21 : S524288x128.Idx → EReal)
    = gatherDst (W2 m c (Proc.devRef .tc main_v14)) (m ((c : Thread nD τ).loc main_arg10)) := by
  rw [← W2_arg10 m c]
  exact host1_v21 (W2 m c)
theorem V3_v28 : (V3 m c main_v28 : S524288x128.Idx → EReal) = Cert.ReferenceIdeal.Read.val_main_v31 (F := Ideal) (m ((c : Thread nD τ).loc main_arg0)) (m ((c : Thread nD τ).loc main_arg9)) := by
  rw [← W2_arg0 m c, ← W2_arg9 m c]
  exact host1_v28 (W2 m c)
theorem V3_v33 : (V3 m c main_v33 : S128x128.Idx → EReal) = Cert.ReferenceIdeal.Read.val_main_v15 (F := Ideal) (m ((c : Thread nD τ).loc main_arg2)) := by
  rw [← W2_arg2 m c]
  exact host1_v33 (W2 m c)
theorem V3_v30 : (V3 m c main_v30 : S128x128.Idx → EReal)
    = transpose S128x128 [1, 0] (extractStridedSlice S128x128 ![0, 0] (m ((c : Thread nD τ).loc main_arg3)) slices_S256x128_S128x128_0_0) transposes_S128x128_S128x128_1_0 := by
  rw [← W2_arg3 m c]
  exact host1_v30 (W2 m c)
theorem V3_v32 : (V3 m c main_v32 : S128x128.Idx → EReal)
    = transpose S128x128 [1, 0] (extractStridedSlice S128x128 ![128, 0] (m ((c : Thread nD τ).loc main_arg3)) slices_S256x128_S128x128_128_0) transposes_S128x128_S128x128_1_0 := by
  rw [← W2_arg3 m c]
  exact host1_v32 (W2 m c)

end Cert.KernelIdeal.Hand

end
-- ==== Proof.Spec.lean ====
/-
  The two closed forms of one normalised entry, over the extended reals.

  A column of the message array has 2^20 rows. Write `S` for the column's sum, `Q` for the sum of its squares and
  `C` for the sum of its squared deviations from the mean `S / 2^20`. The kernel normalises an entry `x` as
  `max (x * (g * s) + (b - mean * (g * s))) 0` with `s = rsqrt (max (Q / 2^20 - mean * mean) 0 + eps)`; the reference as
  `max (((x - mean) * rsqrt (C / 2^20 + eps)) * g + b) 0`. Over real entries `Q / n - mean^2 = C / n` is nonnegative,
  so the inner `max` is the identity, and the two affine forms agree by distributivity: that needs every quantity
  finite, which is why the forms are stated here once, with the literals as the programs spell them, for both sides
  to be read against.
-/
import Idealize.ShloMosaic.PureOps.Ideal
import Idealize.ShloMosaic.Lib.ValueIdx

noncomputable section

namespace Cert.Spec

open Idealize.ShloMosaic Idealize.ShloMosaic.ValueIdx
open scoped BigOperators

/-- The row count `2^20` as both programs spell it: an f32 word. -/
def cnt : EReal := Ideal.ofBits .f32 0x49800000#32
/-- The variance offset as both programs spell it: the f32 word nearest `1e-5`. -/
def eps : EReal := Ideal.ofBits .f32 0x3727C5AC#32
/-- The f32 zero word. -/
def zero : EReal := Ideal.ofBits .f32 0x00000000#32

/-- The kernel's form of an entry `x` of a column with sum `S` and sum of squares `Q`: the variance is
    `max (Q / n - mean * mean) 0`, scale and offset are folded first and applied to `x` in one multiply-add. -/
def outK (S Q g b x : EReal) : EReal :=
  max (x * (g * Ideal.rsqrt (max (Ideal.div Q cnt - Ideal.div S cnt * Ideal.div S cnt) zero + eps))
        + (b - Ideal.div S cnt * (g * Ideal.rsqrt (max (Ideal.div Q cnt - Ideal.div S cnt * Ideal.div S cnt) zero + eps))))
    zero

/-- The reference's form of an entry `x` of a column with sum `S` and sum of squared deviations `C`: centre, scale by
    the reciprocal deviation, then by `g`, shift by `b`. -/
def outR (S C g b x : EReal) : EReal :=
  max ((((x - Ideal.div S cnt) * Ideal.rsqrt (Ideal.div C cnt + eps)) * g) + b) zero

end Cert.Spec

end
-- ==== Proof.KernelIdeal.HostVals2.lean ====
/-
  The third stretch of host operations of the kernel's program, over any contents `W` of the buffers it starts from:
  the stored messages re-laid as 2^20 rows of 128 lanes; from the two accumulated rows (column sums and column sums of
  squares) the mean, the guarded one-pass variance, and the batch-normalisation scale `g * rsqrt (var + eps)` and offset
  `b - mean * scale`, each re-laid as a row. Read at a lane these are exactly the pieces of the specification's
  kernel form.
-/
import proofs.«154919_j73332271612005_2_alg».proof.Proof.Patched.KernelIdeal.Launch
import proofs.«154919_j73332271612005_2_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo Idealize.ShloMosaic.ValueIdx

/-- The row count, the zero and the variance offset as vectors of 128 lanes. -/
def cntV : S128.Idx → EReal := broadcastInDim S128 ![] bcast_S_S128 (constant (F := Ideal) S_ .f32 0x49800000#32)
def zeroV : S128.Idx → EReal := broadcastInDim S128 ![] bcast_S_S128 (constant (F := Ideal) S_ .f32 0x00000000#32)
def epsV : S128.Idx → EReal := broadcastInDim S128 ![] bcast_S_S128 (constant (F := Ideal) S_ .f32 0x3727C5AC#32)

/-- The mean vector from the row of column sums. -/
def meanV (s1 : S1x128.Idx → EReal) : S128.Idx → EReal :=
  Host.divf (F := Ideal) (φ := .f32) (shapeCast S128 s1 shapeCasts_S1x128_S128) cntV
/-- The scale vector from the two accumulated rows and the weight vector. -/
def scaleV (s1 s2 : S1x128.Idx → EReal) (g : S128.Idx → EReal) : S128.Idx → EReal :=
  mulf (F := Ideal) (φ := .f32) g (Host.rsqrt (F := Ideal) (φ := .f32) (addf (F := Ideal) (φ := .f32)
    (maximumf (F := Ideal) (φ := .f32) (subf (F := Ideal) (φ := .f32)
      (Host.divf (F := Ideal) (φ := .f32) (shapeCast S128 s2 shapeCasts_S1x128_S128) cntV)
      (mulf (F := Ideal) (φ := .f32) (meanV s1) (meanV s1))) zeroV) epsV))
/-- The offset vector. -/
def offsetV (s1 s2 : S1x128.Idx → EReal) (g b : S128.Idx → EReal) : S128.Idx → EReal :=
  subf (F := Ideal) (φ := .f32) b (mulf (F := Ideal) (φ := .f32) (meanV s1) (scaleV s1 s2 g))

variable (W : Valuation τ sig (Elt Ideal))

set_option maxHeartbeats 16000000 in
/-- The stored messages re-laid as rows of 128 lanes. -/
theorem host2_v35 :
    (StableHlo.after (hostOps2 (F := Ideal)) W main_v35 : S1048576x128.Idx → EReal)
      = shapeCast S1048576x128 (W main_v34_0 : S524288x256.Idx → EReal) shapeCasts_S524288x256_S1048576x128 := by
  simp only [hostOps2]
  after_results
  try rfl

set_option maxHeartbeats 16000000 in
/-- The scale row. -/
theorem host2_v52 :
    (StableHlo.after (hostOps2 (F := Ideal)) W main_v52 : S1x128.Idx → EReal)
      = shapeCast S1x128 (scaleV (W main_v34_1) (W main_v34_2) (W main_arg4)) shapeCasts_S128_S1x128 := by
  simp only [hostOps2]
  after_results
  try rfl

set_option maxHeartbeats 16000000 in
/-- The offset row. -/
theorem host2_v53 :
    (StableHlo.after (hostOps2 (F := Ideal)) W main_v53 : S1x128.Idx → EReal)
      = shapeCast S1x128 (offsetV (W main_v34_1) (W main_v34_2) (W main_arg4) (W main_arg5)) shapeCasts_S128_S1x128 := by
  simp only [hostOps2]
  after_results
  try rfl

end Cert.KernelIdeal.Hand

end
-- ==== Proof.KernelIdeal.SpecReads.lean ====
/-
  The scale and offset rows read at a lane. With `S` and `Q` the lane's entries of the two accumulated rows, `g` and `b`
  the lane's weight and bias, the scale is `g * rsqrt (max (Q / n - (S / n) * (S / n)) 0 + eps)` and the offset
  `b - (S / n) * scale`; so the last pallas_call's `max (x * scale + offset) 0` is the specification's kernel form of `x`.
-/
import proofs.«154919_j73332271612005_2_alg».proof.Proof.KernelIdeal.HostVals2

noncomputable section

namespace Cert.KernelIdeal.Hand

open Cert.KernelIdeal Cert.KernelIdeal.Gen
open Idealize.ShloMosaic Idealize.ShloMosaic.ValueIdx

theorem cntV_apply (i : S128.Idx) : cntV i = Cert.Spec.cnt := rfl
theorem zeroV_apply (i : S128.Idx) : zeroV i = Cert.Spec.zero := rfl
theorem epsV_apply (i : S128.Idx) : epsV i = Cert.Spec.eps := rfl

/-- A one-row array re-laid as a vector: lane `j` is the row's entry `(0, j)`. -/
theorem row_cast_apply (s : S1x128.Idx → EReal) (j : Fin 128) :
    shapeCast S128 s shapeCasts_S1x128_S128 (ix1 j) = s (ix2 (0 : Fin 1) j) :=
  shapeCast_apply s shapeCasts_S1x128_S128 (ix1 j) (ix2 (0 : Fin 1) j)
    (by rewrite [Shape.rowMajor_val_two, Shape.rowMajor_val_one]; show 0 * 128 + j.val = j.val; omega)
/-- A vector re-laid as a one-row array: entry `(0, j)` is the vector's lane `j`. -/
theorem vec_cast_apply (v : S128.Idx → EReal) (j : Fin 128) :
    shapeCast S1x128 v shapeCasts_S128_S1x128 (ix2 (0 : Fin 1) j) = v (ix1 j) :=
  shapeCast_apply v shapeCasts_S128_S1x128 (ix2 (0 : Fin 1) j) (ix1 j)
    (by rewrite [Shape.rowMajor_val_two, Shape.rowMajor_val_one]; show j.val = 0 * 128 + j.val; omega)

theorem meanV_apply (s1 : S1x128.Idx → EReal) (j : Fin 128) :
    meanV s1 (ix1 j) = Ideal.div (s1 (ix2 (0 : Fin 1) j)) Cert.Spec.cnt := by
  show Ideal.div (shapeCast S128 s1 shapeCasts_S1x128_S128 (ix1 j)) (cntV (ix1 j)) = _
  rw [row_cast_apply, cntV_apply]

theorem scaleV_apply (s1 s2 : S1x128.Idx → EReal) (g : S128.Idx → EReal) (j : Fin 128) :
    scaleV s1 s2 g (ix1 j) = g (ix1 j) * Ideal.rsqrt (max (Ideal.div (s2 (ix2 (0 : Fin 1) j)) Cert.Spec.cnt
        - Ideal.div (s1 (ix2 (0 : Fin 1) j)) Cert.Spec.cnt * Ideal.div (s1 (ix2 (0 : Fin 1) j)) Cert.Spec.cnt) Cert.Spec.zero + Cert.Spec.eps) := by
  show g (ix1 j) * Ideal.rsqrt (max (Ideal.div (shapeCast S128 s2 shapeCasts_S1x128_S128 (ix1 j)) (cntV (ix1 j))
      - meanV s1 (ix1 j) * meanV s1 (ix1 j)) (zeroV (ix1 j)) + epsV (ix1 j)) = _
  rw [row_cast_apply, cntV_apply, meanV_apply, zeroV_apply, epsV_apply]

theorem offsetV_apply (s1 s2 : S1x128.Idx → EReal) (g b : S128.Idx → EReal) (j : Fin 128) :
    offsetV s1 s2 g b (ix1 j) = b (ix1 j) - Ideal.div (s1 (ix2 (0 : Fin 1) j)) Cert.Spec.cnt * scaleV s1 s2 g (ix1 j) := by
  show b (ix1 j) - meanV s1 (ix1 j) * scaleV s1 s2 g (ix1 j) = _
  rw [meanV_apply]

/-- The last pallas_call's entry from the scale and offset rows is the specification's kernel form. -/
theorem affine_outK (x : EReal) (s1 s2 : S1x128.Idx → EReal) (g b : S128.Idx → EReal) (j : Fin 128) :
    max (x * shapeCast S1x128 (scaleV s1 s2 g) shapeCasts_S128_S1x128 (ix2 (0 : Fin 1) j)
          + shapeCast S1x128 (offsetV s1 s2 g b) shapeCasts_S128_S1x128 (ix2 (0 : Fin 1) j)) (Ideal.ofBits .f32 0x00000000#32)
      = Cert.Spec.outK (s1 (ix2 (0 : Fin 1) j)) (s2 (ix2 (0 : Fin 1) j)) (g (ix1 j)) (b (ix1 j)) x := by
  rw [vec_cast_apply, vec_cast_apply, offsetV_apply, scaleV_apply]
  rfl

end Cert.KernelIdeal.Hand

end
-- ==== Proof.KernelIdeal.ValuePay2.lean ====
/-
  The normalisation's payload read at one index of the tile. At the ideal values the widening of the message tile
  is the identity, the scale and offset rows are broadcast down the tile's rows, and the ramp is `max · 0`: entry
  `(p, q)` of the stored tile is `max (x0 (p, q) * x1 (0, q) + x2 (0, q)) 0`, the zero as the program spells it.
-/
import proofs.«154919_j73332271612005_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.TcCoe Idealize.SL.Sem
open Idealize.ShloMosaic.ValueIdx

/-- A row broadcast down the tile, read at `(p, q)`, is the row at `(0, q)`. -/
theorem value_bcast2 (x : Vec Ideal S1x128 .f32) (p : Fin 8192) (q : Fin 128) :
    broadcastTo S8192x128 x broadcasts_S1x128_S8192x128 (ix2 p q) = x (ix2 0 q) :=
  broadcastTo_apply x broadcasts_S1x128_S8192x128 (ix2 p q) (ix2 0 q) (fun a => by
    match a with
    | ⟨0, _⟩ => rfl
    | ⟨1, _⟩ => rfl)

/-- The stored tile at `(p, q)`: the ramp of the multiply-add of the message entry with the column's scale and offset. -/
theorem value_pay2 (x0 : Vec Ideal S8192x128 .bf16) (x1 x2 : Vec Ideal S1x128 .f32) (p : Fin 8192) (q : Fin 128) :
    k2_pay1 (F := Ideal) x0 x1 x2 (ix2 p q)
      = max (x0 (ix2 p q) * x1 (ix2 0 q) + x2 (ix2 0 q)) (Ideal.ofBits .f32 0x00000000#32) := by
  unfold k2_pay1
  simp only [shapeCast_self]
  rw [maximumf_apply, addf_apply, mulf_apply, extf_apply, broadcast_apply, value_bcast2, value_bcast2]
  rfl

end Cert.KernelIdeal.Hand

end
-- ==== Proof.KernelIdeal.Value2.lean ====
/-
  The third pallas_call's output array after its run. Point `t` of the 128 writes rows `8192 t … 8192 t + 8191` of
  the output; what it writes is the ramp of the multiply-add of rows `8192 t …` of the message array with the scale
  row and the offset row, which every point reads whole. So the tiles are the restrictions of ONE function of the
  three arrays, `max (M (r, q) * scale (0, q) + offset (0, q)) 0`, and the 128 tiles cover the array.
-/
import proofs.«154919_j73332271612005_2_alg».proof.Proof.KernelIdeal.Region2
import proofs.«154919_j73332271612005_2_alg».proof.Proof.KernelIdeal.ValuePay2
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

/-- The normalisation as one multiply-add and a ramp: entry `i` of `M` with column `i 1` of the scale and offset rows. -/
def affine2 (M : S1048576x128.Idx → EReal) (sc off : S1x128.Idx → EReal) : S1048576x128.Idx → EReal :=
  fun i => max (M i * sc (ix2 0 (i 1)) + off (ix2 0 (i 1))) (Ideal.ofBits .f32 0x00000000#32)

theorem value_hz2 : (![0, 0] : Fin 2 → Nat) = fun _ => 0 := funext fun a => by fin_cases a <;> rfl

/-- The printed index maps over the 128 points: the row-tiled windows sit at block row `t`, column 0; the scale and
    offset windows at block (0, 0). -/
theorem value_idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- One entry of a written tile, over variables: if the first loaded block is rows `8192 T …` of `M` and the other two
    are the scale and offset rows, then entry `j` of the payload is the normalisation at row `8192 T + j 0`, column `j 1`. -/
theorem value_point2 (M : S1048576x128.Idx → EReal) (sc off : S1x128.Idx → EReal)
    (x0 : Vec Ideal S8192x128 .bf16) (x1 x2 : Vec Ideal S1x128 .f32) (T : ℕ)
    (hx0 : ∀ (y : S8192x128.Idx) (z : S1048576x128.Idx), (z 0).val = T * 8192 + (y 0).val → (z 1).val = (y 1).val → x0 y = M z)
    (hx1 : ∀ y : S1x128.Idx, x1 y = sc y) (hx2 : ∀ y : S1x128.Idx, x2 y = off y)
    (j : S8192x128.Idx) (i : S1048576x128.Idx) (hi0 : (i 0).val = T * 8192 + (j 0).val) (hi1 : (i 1).val = (j 1).val) :
    k2_pay1 (F := Ideal) x0 x1 x2 j = affine2 M sc off i := by
  obtain ⟨p, q, rfl⟩ : ∃ (p : Fin 8192) (q : Fin 128), j = ix2 p q := ⟨j 0, j 1, eq_ix2 j⟩
  rw [value_pay2]
  unfold affine2
  have hq : (ix2 0 (i 1) : S1x128.Idx) = ix2 0 q := funext fun a => Fin.ext (by
    match a with
    | ⟨0, _⟩ => rfl
    | ⟨1, _⟩ => exact hi1)
  rw [hx0 (ix2 p q) i hi0 hi1, hx1, hx2, hq]

section
variable (V : (c : Dev nD) → (b : Ref sig .tc) → Buf (Elt Ideal) ((c : Thread nD τ).loc b))

/-- The first window's block at point `t` is rows `8192 t …` of the message array. -/
theorem value_iblk2_0 (c : Dev nD) (t : Fin cfg2.N) (y : S8192x128.Idx) (z : S1048576x128.Idx)
    (hz0 : (z 0).val = t.val * 8192 + (y 0).val) (hz1 : (z 1).val = (y 1).val) :
    (iblk2 (F := Ideal) V c 0 t : Vec Ideal S8192x128 .bf16) y = (V c main_v35 : S1048576x128.Idx → EReal) z := by
  obtain ⟨e0, e1, -, -, -, -, -, -⟩ := value_idx2 t
  unfold iblk2
  rw [View.read_apply]
  show (V c main_v35 : S1048576x128.Idx → EReal) _ = (V c main_v35 : S1048576x128.Idx → EReal) _
  congr 1
  funext a
  apply Fin.ext
  match a with
  | ⟨0, _⟩ => show win2_0.index t (0 : Fin 2) * 8192 + 1 * (y 0).val = (z 0).val; rw [e0, hz0]; omega
  | ⟨1, _⟩ => show win2_0.index t (1 : Fin 2) * 128 + 1 * (y 1).val = (z 1).val; rw [e1, hz1]; omega

/-- The second window's block at every point is the whole scale row. -/
theorem value_iblk2_1 (c : Dev nD) (t : Fin cfg2.N) (y : S1x128.Idx) :
    (iblk2 (F := Ideal) V c 1 t : Vec Ideal S1x128 .f32) y = (V c main_v52 : S1x128.Idx → EReal) y := by
  obtain ⟨-, -, e2, e3, -, -, -, -⟩ := value_idx2 t
  unfold iblk2
  rw [View.read_apply]
  show (V c main_v52 : S1x128.Idx → EReal) _ = (V c main_v52 : S1x128.Idx → EReal) _
  congr 1
  funext a
  apply Fin.ext
  match a with
  | ⟨0, _⟩ => show win2_1.index t (0 : Fin 2) * 1 + 1 * (y 0).val = (y 0).val; rw [e2]; omega
  | ⟨1, _⟩ => show win2_1.index t (1 : Fin 2) * 128 + 1 * (y 1).val = (y 1).val; rw [e3]; omega

/-- The third window's block at every point is the whole offset row. -/
theorem value_iblk2_2 (c : Dev nD) (t : Fin cfg2.N) (y : S1x128.Idx) :
    (iblk2 (F := Ideal) V c 2 t : Vec Ideal S1x128 .f32) y = (V c main_v53 : S1x128.Idx → EReal) y := by
  obtain ⟨-, -, -, -, e4, e5, -, -⟩ := value_idx2 t
  unfold iblk2
  rw [View.read_apply]
  show (V c main_v53 : S1x128.Idx → EReal) _ = (V c main_v53 : S1x128.Idx → EReal) _
  congr 1
  funext a
  apply Fin.ext
  match a with
  | ⟨0, _⟩ => show win2_2.index t (0 : Fin 2) * 1 + 1 * (y 0).val = (y 0).val; rw [e4]; omega
  | ⟨1, _⟩ => show win2_2.index t (1 : Fin 2) * 128 + 1 * (y 1).val = (y 1).val; rw [e5]; omega

/-- What point `t` writes back is block `t` of the normalisation of the three arrays as the region finds them. -/
theorem value_flushed2 (c : Dev nD) (t : Fin cfg2.N) :
    (dat2 (F := Ideal) V c).flushed 3 t
      = ((cfg2.win 3).blk t).view.read (Elt Ideal) (affine2 (V c main_v35 : S1048576x128.Idx → EReal) (V c main_v52 : S1x128.Idx → EReal) (V c main_v53 : S1x128.Idx → EReal)) := by
  show (cfg2.win 3).cut (grid2.coords t) ((dat2 (F := Ideal) V c).after 3 t) = _
  rw [after2_3]
  unfold out2_3
  rw [View.canon_unit_zero value_hz2]
  simp only [View.ld_unit_zero (S := S8192x128) value_hz2, View.ld_unit_zero (S := S1x128) value_hz2]
  obtain ⟨-, -, -, -, -, -, e6, e7⟩ := value_idx2 t
  funext j
  show k2_pay1 (F := Ideal) (iblk2 V c 0 t) (iblk2 V c 1 t) (iblk2 V c 2 t) j
    = affine2 (V c main_v35 : S1048576x128.Idx → EReal) (V c main_v52 : S1x128.Idx → EReal) (V c main_v53 : S1x128.Idx → EReal) (((cfg2.win 3).blk t).view.emb j)
  refine value_point2 (V c main_v35) (V c main_v52) (V c main_v53) (iblk2 V c 0 t) (iblk2 V c 1 t) (iblk2 V c 2 t) t.val
    (fun y z h0 h1 => value_iblk2_0 V c t y z h0 h1) (fun y => value_iblk2_1 V c t y) (fun y => value_iblk2_2 V c t y) j _ ?_ ?_
  · show win2_3.index t (0 : Fin 2) * 8192 + 1 * (j 0).val = t.val * 8192 + (j 0).val
    rw [e6]; omega
  · show win2_3.index t (1 : Fin 2) * 128 + 1 * (j 1).val = (j 1).val
    rw [e7]; omega

/-- An index of the output array is in point `t`'s block iff each coordinate is in the block's range on its axis. -/
theorem value_mem_blk2 (t : Fin cfg2.N) (i : S1048576x128.Idx) :
    i ∈ ((cfg2.win 3).blk t).view.set ↔ ∀ a : Fin 2, win2_3.index t a * S8192x128.size a ≤ (i a).val ∧ (i a).val < win2_3.index t a * S8192x128.size a + S8192x128.size a := by
  show i ∈ ((View.whole main_v54).slice (win2_3.rect t)).set ↔ _
  rw [View.set_slice_whole, Rect.mem_set_unit]
  exact Iff.rfl

/-- Row `r` is written by point `r / 8192`: the 128 tiles cover the array. -/
theorem value_cover2 (i : S1048576x128.Idx) :
    ∃ t : Fin cfg2.N, (cfg2.win 3).flush t = true ∧ i ∈ ((cfg2.win 3).blk t).view.set := by
  have hi0 : (i 0).val < 1048576 := (i 0).isLt
  have hi1 : (i 1).val < 128 := (i 1).isLt
  have hN : cfg2.N = 128 := N_2
  obtain ⟨t, ht⟩ : ∃ t : Fin cfg2.N, t.val = (i 0).val / 8192 := ⟨⟨(i 0).val / 8192, by rw [hN]; omega⟩, rfl⟩
  refine ⟨t, flush2_3 t, ?_⟩
  obtain ⟨-, -, -, -, -, -, e6, e7⟩ := value_idx2 t
  rw [value_mem_blk2]
  intro a
  match a with
  | ⟨0, _⟩ => show win2_3.index t (0 : Fin 2) * 8192 ≤ (i 0).val ∧ (i 0).val < win2_3.index t (0 : Fin 2) * 8192 + 8192; rw [e6, ht]; omega
  | ⟨1, _⟩ => show win2_3.index t (1 : Fin 2) * 128 ≤ (i 1).val ∧ (i 1).val < win2_3.index t (1 : Fin 2) * 128 + 128; rw [e7]; omega

/-- THE ARRAY after the third pallas_call: the normalisation of the message array by the scale and offset rows. -/
theorem final2_3 (c : Dev nD) :
    (dat2 (F := Ideal) V c).arrAt 3 cfg2.N
      = affine2 (V c main_v35 : S1048576x128.Idx → EReal) (V c main_v52 : S1x128.Idx → EReal) (V c main_v53 : S1x128.Idx → EReal) :=
  (dat2 (F := Ideal) V c).arrAt_eq_of_cover 3
    (affine2 (V c main_v35 : S1048576x128.Idx → EReal) (V c main_v52 : S1x128.Idx → EReal) (V c main_v53 : S1x128.Idx → EReal))
    (fun t _ => value_flushed2 V c t) value_cover2

end

end Cert.KernelIdeal.Hand

end
-- ==== Proof.MsgSpec.lean ====
/-
  The message array as one function. Message `e` has two rows of 128 lanes, stored side by side as lanes [0,128) and
  [128,256) of row `e` of a [524288, 256] array: lane `c` holds
  `(Yd[e, c mod 128] + Σ_k Si[e, k] * Wi[k, c mod 128]) + Σ_k Xs[e, k] * Wh[k, c mod 128]` with `Wh` the first half's matrix for
  `c < 128` and the second half's otherwise. Viewed as 2^20 rows of 128 lanes, row `row` lane `j` is message `row / 2`,
  lane `128 * (row mod 2) + j`.
-/
import Idealize.ShloMosaic.PureOps.Ideal
import Idealize.ShloMosaic.Lib.ValueIdx

noncomputable section

namespace Cert.Spec

open Idealize.ShloMosaic Idealize.ShloMosaic.ValueIdx
open scoped BigOperators

/-- Entry `i` of the stored message array from the gathered dense rows `Yd`, the gathered-row sums `Si`, the source rows
    `Xs` and the three weight matrices as the kernel is handed them (already transposed: `[k, lane]`). -/
def msgArr (Yd Si Xs : (⟨2, ![524288, 128]⟩ : Shape).Idx → EReal) (W0 W1 Wi : (⟨2, ![128, 128]⟩ : Shape).Idx → EReal) :
    (⟨2, ![524288, 256]⟩ : Shape).Idx → EReal := fun i =>
  (Yd (ix2 (i 0) ⟨(i 1).val % 128, Nat.mod_lt _ (by norm_num)⟩) + ∑ k : Fin 128, Si (ix2 (i 0) k) * Wi (ix2 k ⟨(i 1).val % 128, Nat.mod_lt _ (by norm_num)⟩))
    + ∑ k : Fin 128, Xs (ix2 (i 0) k) * (if (i 1).val < 128 then W0 (ix2 k ⟨(i 1).val % 128, Nat.mod_lt _ (by norm_num)⟩) else W1 (ix2 k ⟨(i 1).val % 128, Nat.mod_lt _ (by norm_num)⟩))

/-- Row `row`, lane `j` of a [524288, 256] array viewed as [1048576, 128]. -/
def msgRow (A : (⟨2, ![524288, 256]⟩ : Shape).Idx → EReal) (row : Fin 1048576) (j : Fin 128) : EReal :=
  A (ix2 (⟨row.val / 2, by omega⟩ : Fin 524288) (⟨128 * (row.val % 2) + j.val, by omega⟩ : Fin 256))

end Cert.Spec

end
-- ==== Proof.Math.Consts.lean ====
/-
  The three float words of the specification as the extended reals they denote: the row count is the real
  number 2^20, the zero word is 0, and the variance offset is a positive real number.
-/
import proofs.«154919_j73332271612005_2_alg».proof.Proof.Spec

noncomputable section

namespace Cert.Spec

open Idealize.ShloMosaic

/-- The word 0x49800000 has exponent field 147 and an empty fraction: it denotes 2^23 * 2^(147 - 127 - 23) = 2^20. -/
theorem cnt_eq : Cert.Spec.cnt = ((1048576 : ℝ) : EReal) := by
  unfold Cert.Spec.cnt
  simp [Ideal.ofBits, Ideal.ieee, -EReal.coe_mul]; norm_num

/-- The all-zero word denotes 0. -/
theorem zero_eq : Cert.Spec.zero = (0 : EReal) := by
  unfold Cert.Spec.zero
  simp [Ideal.ofBits, Ideal.ieee]

/-- The word 0x3727C5AC has a clear sign bit and a normal exponent: it denotes a positive real number. -/
theorem eps_pos : ∃ e : ℝ, 0 < e ∧ Cert.Spec.eps = (e : EReal) := by
  unfold Cert.Spec.eps
  simp [Ideal.ofBits, Ideal.ieee, -EReal.coe_mul]

end Cert.Spec

end
-- ==== Proof.Math.Coe.lean ====
/-
  Real numbers inside the extended reals are closed under finite sums and products: the coercion of a finite
  sum of reals is the sum of the coercions, and a message entry, an initial real plus two dot products of real
  vectors, is a real number.
-/
import Idealize.ShloMosaic.PureOps.Ideal

noncomputable section

namespace Cert.Spec

open scoped BigOperators

namespace Alg

/-- The coercion from the reals to the extended reals commutes with finite sums. -/
theorem coe_sum {ι : Type*} (s : Finset ι) (F : ι → ℝ) :
    (∑ i ∈ s, ((F i : ℝ) : EReal)) = ((∑ i ∈ s, F i : ℝ) : EReal) := by
  classical
  induction s using Finset.induction_on with
  | empty => simp
  | insert a s ha ih => rw [Finset.sum_insert ha, Finset.sum_insert ha, ih, EReal.coe_add]

end Alg

open Alg

/-- A dot product of two vectors of real entries is a real number. -/
theorem dot_real (u v : Fin 128 → EReal) (hu : ∀ k, ∃ y : ℝ, u k = (y : EReal))
    (hv : ∀ k, ∃ y : ℝ, v k = (y : EReal)) : ∃ y : ℝ, ∑ k, u k * v k = (y : EReal) := by
  choose a ha using hu
  choose c hc using hv
  refine ⟨∑ k, a k * c k, ?_⟩
  simp only [ha, hc, ← EReal.coe_mul]
  exact coe_sum _ _

/-- Real entries are closed under what builds a message entry: an initial real plus two dot products. -/
theorem msg_entry_real (a : EReal) (ha : ∃ y : ℝ, a = (y : EReal)) (u v w z : Fin 128 → EReal)
    (hu : ∀ k, ∃ y : ℝ, u k = (y : EReal)) (hv : ∀ k, ∃ y : ℝ, v k = (y : EReal))
    (hw : ∀ k, ∃ y : ℝ, w k = (y : EReal)) (hz : ∀ k, ∃ y : ℝ, z k = (y : EReal)) :
    ∃ y : ℝ, (a + ∑ k, u k * v k) + ∑ k, w k * z k = (y : EReal) := by
  obtain ⟨a₀, rfl⟩ := ha
  obtain ⟨d₁, h₁⟩ := dot_real u v hu hv
  obtain ⟨d₂, h₂⟩ := dot_real w z hw hz
  exact ⟨a₀ + d₁ + d₂, by rw [h₁, h₂, ← EReal.coe_add, ← EReal.coe_add]⟩

end Cert.Spec

end
-- ==== Proof.Math.RealCore.lean ====
/-
  The real-number core of the normalisation law, over an abstract finite index type.

  For a finite family `F` of real numbers with `n` members, mean `μ = (Σ F) / n`:
  the mean of the squared deviations `Σ (F - μ)^2 / n` equals `(Σ F^2) / n - μ^2` and is nonnegative;
  and the folded affine form `x * (g * s) + (b - μ * (g * s))` equals the centred form `((x - μ) * s) * g + b`.
-/
import Idealize.ShloMosaic.PureOps.Ideal

noncomputable section

namespace Cert.Spec.Alg

open scoped BigOperators

/-- The sum of squared deviations from `μ`, expanded. -/
theorem sum_sq_dev_expand {ι : Type*} [Fintype ι] (F : ι → ℝ) (μ : ℝ) :
    (∑ r, (F r - μ) * (F r - μ))
      = (∑ r, F r * F r) - 2 * μ * (∑ r, F r) + (Fintype.card ι : ℝ) * (μ * μ) := by
  have h1 : ∀ r, (F r - μ) * (F r - μ) = F r * F r - 2 * μ * F r + μ * μ := fun r => by ring
  simp only [h1, Finset.sum_add_distrib, Finset.sum_sub_distrib, ← Finset.mul_sum, Finset.sum_const,
    Finset.card_univ, nsmul_eq_mul]
  ring

/-- The variance identity: the mean squared deviation from the mean is the mean square minus the squared mean. -/
theorem var_identity {ι : Type*} [Fintype ι] (F : ι → ℝ) (n : ℝ) (hn : n ≠ 0)
    (hcard : (Fintype.card ι : ℝ) = n) :
    (∑ r, (F r - (∑ r', F r') * (1 / n)) * (F r - (∑ r', F r') * (1 / n))) * (1 / n)
      = (∑ r, F r * F r) * (1 / n) - ((∑ r', F r') * (1 / n)) * ((∑ r', F r') * (1 / n)) := by
  rw [sum_sq_dev_expand, hcard]
  field_simp
  ring

/-- The mean squared deviation is nonnegative. -/
theorem var_nonneg {ι : Type*} [Fintype ι] (F : ι → ℝ) (μ n : ℝ) (hn : 0 < n) :
    0 ≤ (∑ r, (F r - μ) * (F r - μ)) * (1 / n) :=
  mul_nonneg (Finset.sum_nonneg fun r _ => mul_self_nonneg _) (by positivity)

/-- Scale and offset folded first, or centre first: the same affine map of `x`. -/
theorem affine_fold (x g b μ s : ℝ) : x * (g * s) + (b - μ * (g * s)) = ((x - μ) * s) * g + b := by
  ring

end Cert.Spec.Alg

end
-- ==== Proof.Math.Law.lean ====
/-
  The law that joins the two programs. For a column of 2^20 real entries, the kernel's normalised entry, computed
  from the column's sum and sum of squares with the variance `max (Q / n - mean^2) 0` and with scale and offset folded
  first, is the reference's, computed from the sum and the sum of squared deviations from the mean.

  Every quantity is a real number, so the coercion from the reals is pushed outward through sums, products, the
  quotient by the nonzero count and the reciprocal root of the positive `variance + eps`; what remains is the
  variance identity, its nonnegativity and one affine identity, all in the reals.
-/
import proofs.«154919_j73332271612005_2_alg».proof.Proof.Math.Consts
import proofs.«154919_j73332271612005_2_alg».proof.Proof.Math.Coe
import proofs.«154919_j73332271612005_2_alg».proof.Proof.Math.RealCore

noncomputable section

namespace Cert.Spec

open Idealize.ShloMosaic
open scoped BigOperators

namespace Alg

/-- The reciprocal root of a positive real is the real `(√v)⁻¹`. -/
theorem rsqrt_coe_pos {v : ℝ} (hv : 0 < v) : Ideal.rsqrt (v : EReal) = (((Real.sqrt v)⁻¹ : ℝ) : EReal) := by
  rw [Ideal.rsqrt_coe, if_neg (not_lt.mpr hv.le), if_neg hv.ne']

/-- The quotient of a real by a nonzero real is a real. -/
theorem div_coe_coe (x : ℝ) {y : ℝ} (hy : y ≠ 0) :
    Ideal.div (x : EReal) (y : EReal) = ((x * (1 / y) : ℝ) : EReal) := by
  rw [Ideal.div_coe hy, ← EReal.coe_mul]

/-- The two forms over real data: `s` the sum, `q` the sum of squares, `c` the sum of squared deviations, with
    `c / n = q / n - (s / n)^2` nonnegative. -/
theorem forms_agree (n e s q c g b x : ℝ) (hn : n ≠ 0) (he : 0 < e)
    (hvar : c * (1 / n) = q * (1 / n) - (s * (1 / n)) * (s * (1 / n))) (hc : 0 ≤ c * (1 / n)) :
    max ((x : EReal) * ((g : EReal) * Ideal.rsqrt (max (Ideal.div (q : EReal) (n : EReal)
            - Ideal.div (s : EReal) (n : EReal) * Ideal.div (s : EReal) (n : EReal)) 0 + (e : EReal)))
          + ((b : EReal) - Ideal.div (s : EReal) (n : EReal) * ((g : EReal) * Ideal.rsqrt (max (Ideal.div (q : EReal) (n : EReal)
            - Ideal.div (s : EReal) (n : EReal) * Ideal.div (s : EReal) (n : EReal)) 0 + (e : EReal))))) 0
      = max (((((x : EReal) - Ideal.div (s : EReal) (n : EReal)) * Ideal.rsqrt (Ideal.div (c : EReal) (n : EReal) + (e : EReal)))
          * (g : EReal)) + (b : EReal)) 0 := by
  have hmax : max (Ideal.div (q : EReal) (n : EReal)
      - Ideal.div (s : EReal) (n : EReal) * Ideal.div (s : EReal) (n : EReal)) 0 = ((c * (1 / n) : ℝ) : EReal) := by
    rw [div_coe_coe q hn, div_coe_coe s hn, ← EReal.coe_mul, ← EReal.coe_sub, ← hvar]
    exact max_eq_left (EReal.coe_nonneg.mpr hc)
  have hpos : 0 < c * (1 / n) + e := by linarith
  rw [hmax, div_coe_coe c hn, div_coe_coe s hn, ← EReal.coe_add, rsqrt_coe_pos hpos]
  simp only [← EReal.coe_mul, ← EReal.coe_add, ← EReal.coe_sub]
  rw [affine_fold]

end Alg

open Alg

/-- THE LAW. For a column `f` of real entries and real `g`, `b`, the kernel's form from the plain sum and sum of
    squares is the reference's form from the sums with their initial zero word. -/
theorem outK_eq_outR (f : Fin 1048576 → EReal) (hf : ∀ r, ∃ y : ℝ, f r = (y : EReal)) (g b : EReal)
    (hg : ∃ y : ℝ, g = (y : EReal)) (hb : ∃ y : ℝ, b = (y : EReal)) (r₀ : Fin 1048576) :
    outK (∑ r, f r) (∑ r, f r * f r) g b (f r₀)
      = outR (zero + ∑ r, f r)
             (zero + ∑ r, (f r - Ideal.div (zero + ∑ r', f r') cnt) * (f r - Ideal.div (zero + ∑ r', f r') cnt))
             g b (f r₀) := by
  obtain ⟨e, hepos, he⟩ := eps_pos
  obtain ⟨G, rfl⟩ := hg
  obtain ⟨B, rfl⟩ := hb
  choose F hF using hf
  have hn : (1048576 : ℝ) ≠ 0 := by norm_num
  have hn0 : (0 : ℝ) < 1048576 := by norm_num
  have hcard : (Fintype.card (Fin 1048576) : ℝ) = 1048576 := by
    rw [Fintype.card_fin]; norm_cast
  have hS : (∑ r, f r) = ((∑ r, F r : ℝ) : EReal) := by
    simp only [hF]; exact coe_sum _ _
  have hQ : (∑ r, f r * f r) = ((∑ r, F r * F r : ℝ) : EReal) := by
    simp only [hF, ← EReal.coe_mul]; exact coe_sum _ _
  have hC : (∑ r, (f r - (((∑ r', F r') * (1 / 1048576) : ℝ) : EReal)) * (f r - (((∑ r', F r') * (1 / 1048576) : ℝ) : EReal)))
      = ((∑ r, (F r - (∑ r', F r') * (1 / 1048576)) * (F r - (∑ r', F r') * (1 / 1048576)) : ℝ) : EReal) := by
    simp only [hF, ← EReal.coe_sub, ← EReal.coe_mul]; exact coe_sum _ _
  unfold outK outR
  rw [he, cnt_eq, zero_eq]
  simp only [zero_add]
  rw [hS, hQ, div_coe_coe (∑ r, F r) hn, hC, hF r₀, ← div_coe_coe (∑ r, F r) hn]
  exact forms_agree 1048576 e _ _ _ G B (F r₀) hn hepos (var_identity F 1048576 hn hcard)
    (var_nonneg F _ 1048576 hn0)

end Cert.Spec

end
-- ==== Proof.Ref.Tail.lean ====
/-
  The normalisation tail of the reference, read at an index.

  Write M for the message array (2^20 rows, 128 columns). Column j has the sum zero + sum_r M[r,j]; the mean is
  that sum divided by the row count; the sum of squared deviations is zero + sum_r (M[r,j] - mean)^2. Every
  row-vector that the program broadcasts down the rows is read back at its column.
-/
import proofs.«154919_j73332271612005_2_alg».proof.Proof.Gen.ReferenceIdeal.Read
import proofs.«154919_j73332271612005_2_alg».proof.Proof.Spec
import Idealize.ShloMosaic.Lib.ValueIdx

noncomputable section

namespace Cert.RefSide

open Cert.ReferenceIdeal Cert.ReferenceIdeal.Read Idealize.ShloMosaic Idealize.ShloMosaic.ValueIdx
open scoped BigOperators

variable (x0 : (⟨S262144x128, .f32⟩ : BufTy).Contents (Elt Ideal)) (x1 x2 : (⟨S128x128, .f32⟩ : BufTy).Contents (Elt Ideal))
  (x3 : (⟨S256x128, .f32⟩ : BufTy).Contents (Elt Ideal)) (x4 x5 : (⟨S128, .f32⟩ : BufTy).Contents (Elt Ideal))
  (x6 : (⟨S262144, .i32⟩ : BufTy).Contents (Elt Ideal)) (x7 x8 : (⟨S1048576, .i32⟩ : BufTy).Contents (Elt Ideal))
  (x9 x10 : (⟨S524288, .i32⟩ : BufTy).Contents (Elt Ideal))

/-! ## Index equations: a row-vector broadcast down the rows is read at its column -/

theorem col_of_bcast (r : Fin 1048576) (j : Fin 128) :
    idx_main_v42 (idx_main_v43 (ix2 r j)) = ix1 j := by
  funext a; match a with | ⟨0, _⟩ => rfl

theorem red_idx (j : Fin 128) (r : Fin 1048576) : idx_main_v39 (ix1 j) r = ix2 r j := by
  funext a; match a with | ⟨0, _⟩ => rfl | ⟨1, _⟩ => rfl

/-- The column mean: the column's sum, started from the zero word, over the row count. -/
theorem mean_apply (j : Fin 128) :
    val_main_v41 (F := Ideal) x0 x1 x2 x3 x6 x7 x8 x9 x10 (ix1 j)
      = Ideal.div (Cert.Spec.zero + ∑ r : Fin 1048576, val_main_v38 (F := Ideal) x0 x1 x2 x3 x6 x7 x8 x9 x10 (ix2 r j)) Cert.Spec.cnt := by
  rw [val_main_v41_apply, val_main_v39_apply, val_main_v40_apply, val_main_cst_7_apply, val_main_cst_6_apply]
  simp only [red_idx, Ideal.hostDivf_def, Ideal.ofBits_def]
  rfl

theorem col_of_bcast' (r : Fin 1048576) (j : Fin 128) :
    idx_main_v49 (idx_main_v50 (ix2 r j)) = ix1 j := by
  funext a; match a with | ⟨0, _⟩ => rfl

theorem col_of_bcast_rs (r : Fin 1048576) (j : Fin 128) :
    idx_main_v55 (idx_main_v56 (ix2 r j)) = ix1 j := by
  funext a; match a with | ⟨0, _⟩ => rfl

theorem col_of_bcast_g (r : Fin 1048576) (j : Fin 128) :
    idx_main_v58 (idx_main_v59 (ix2 r j)) = ix1 j := by
  funext a; match a with | ⟨0, _⟩ => rfl

theorem col_of_bcast_b (r : Fin 1048576) (j : Fin 128) :
    idx_main_v61 (idx_main_v62 (ix2 r j)) = ix1 j := by
  funext a; match a with | ⟨0, _⟩ => rfl

theorem red_idx' (j : Fin 128) (r : Fin 1048576) : idx_main_v46 (ix1 j) r = ix2 r j := by
  funext a; match a with | ⟨0, _⟩ => rfl | ⟨1, _⟩ => rfl

/-- The mean, broadcast down the rows for the deviations, read at a row. -/
theorem mean_row_apply (r : Fin 1048576) (j : Fin 128) :
    val_main_v43 (F := Ideal) x0 x1 x2 x3 x6 x7 x8 x9 x10 (ix2 r j) = Ideal.div (Cert.Spec.zero + ∑ r' : Fin 1048576, val_main_v38 (F := Ideal) x0 x1 x2 x3 x6 x7 x8 x9 x10 (ix2 r' j)) Cert.Spec.cnt := by
  rw [val_main_v43_apply, val_main_v42_apply, col_of_bcast, mean_apply]

/-- The mean, broadcast down the rows for the centring, read at a row. -/
theorem mean_row_apply' (r : Fin 1048576) (j : Fin 128) :
    val_main_v50 (F := Ideal) x0 x1 x2 x3 x6 x7 x8 x9 x10 (ix2 r j) = Ideal.div (Cert.Spec.zero + ∑ r' : Fin 1048576, val_main_v38 (F := Ideal) x0 x1 x2 x3 x6 x7 x8 x9 x10 (ix2 r' j)) Cert.Spec.cnt := by
  rw [val_main_v50_apply, val_main_v49_apply, col_of_bcast', mean_apply]

/-- One squared deviation from the mean. -/
theorem sqdev_row_apply (r : Fin 1048576) (j : Fin 128) :
    val_main_v45 (F := Ideal) x0 x1 x2 x3 x6 x7 x8 x9 x10 (ix2 r j)
      = (val_main_v38 (F := Ideal) x0 x1 x2 x3 x6 x7 x8 x9 x10 (ix2 r j) - Ideal.div (Cert.Spec.zero + ∑ r' : Fin 1048576, val_main_v38 (F := Ideal) x0 x1 x2 x3 x6 x7 x8 x9 x10 (ix2 r' j)) Cert.Spec.cnt) * (val_main_v38 (F := Ideal) x0 x1 x2 x3 x6 x7 x8 x9 x10 (ix2 r j) - Ideal.div (Cert.Spec.zero + ∑ r' : Fin 1048576, val_main_v38 (F := Ideal) x0 x1 x2 x3 x6 x7 x8 x9 x10 (ix2 r' j)) Cert.Spec.cnt) := by
  rw [val_main_v45_apply, val_main_v44_apply, mean_row_apply, Ideal.mulf_def, Ideal.subf_def]

/-- The column's sum of squared deviations from the mean, started from the zero word. -/
theorem devsum_apply (j : Fin 128) :
    val_main_v46 (F := Ideal) x0 x1 x2 x3 x6 x7 x8 x9 x10 (ix1 j)
      = Cert.Spec.zero + ∑ r : Fin 1048576,
          (val_main_v38 (F := Ideal) x0 x1 x2 x3 x6 x7 x8 x9 x10 (ix2 r j) - Ideal.div (Cert.Spec.zero + ∑ r' : Fin 1048576, val_main_v38 (F := Ideal) x0 x1 x2 x3 x6 x7 x8 x9 x10 (ix2 r' j)) Cert.Spec.cnt) * (val_main_v38 (F := Ideal) x0 x1 x2 x3 x6 x7 x8 x9 x10 (ix2 r j) - Ideal.div (Cert.Spec.zero + ∑ r' : Fin 1048576, val_main_v38 (F := Ideal) x0 x1 x2 x3 x6 x7 x8 x9 x10 (ix2 r' j)) Cert.Spec.cnt) := by
  rw [val_main_v46_apply, val_main_cst_8_apply, Ideal.ofBits_def]
  simp only [red_idx', sqdev_row_apply]
  rfl

/-- The reciprocal deviation, broadcast down the rows, read at a row. -/
theorem rstd_row_apply (r : Fin 1048576) (j : Fin 128) :
    val_main_v56 (F := Ideal) x0 x1 x2 x3 x6 x7 x8 x9 x10 (ix2 r j)
      = Ideal.rsqrt (Ideal.div (val_main_v46 (F := Ideal) x0 x1 x2 x3 x6 x7 x8 x9 x10 (ix1 j)) Cert.Spec.cnt + Cert.Spec.eps) := by
  rw [val_main_v56_apply, val_main_v55_apply, col_of_bcast_rs, val_main_v54_apply, val_main_v53_apply,
    val_main_v48_apply, val_main_v47_apply, val_main_cst_9_apply, val_main_v52_apply, val_main_cst_10_apply]
  simp only [Ideal.hostUnary_rsqrt_def, Ideal.addf_def, Ideal.hostDivf_def, Ideal.ofBits_def]
  rfl

theorem scale_row_apply (r : Fin 1048576) (j : Fin 128) :
    val_main_v59 (F := Ideal) x4 (ix2 r j) = x4 (ix1 j) := by
  rw [val_main_v59_apply, val_main_v58_apply, col_of_bcast_g]

theorem shift_row_apply (r : Fin 1048576) (j : Fin 128) :
    val_main_v62 (F := Ideal) x5 (ix2 r j) = x5 (ix1 j) := by
  rw [val_main_v62_apply, val_main_v61_apply, col_of_bcast_b]

/-! ## The result -/

theorem out_apply (row : Fin 1048576) (j : Fin 128) :
    val_main_v64 (F := Ideal) x0 x1 x2 x3 x4 x5 x6 x7 x8 x9 x10 (ix2 row j)
      = Cert.Spec.outR
          (Cert.Spec.zero + ∑ r : Fin 1048576, val_main_v38 (F := Ideal) x0 x1 x2 x3 x6 x7 x8 x9 x10 (ix2 r j))
          (Cert.Spec.zero + ∑ r : Fin 1048576,
              (val_main_v38 (F := Ideal) x0 x1 x2 x3 x6 x7 x8 x9 x10 (ix2 r j)
                - Ideal.div (Cert.Spec.zero + ∑ r' : Fin 1048576, val_main_v38 (F := Ideal) x0 x1 x2 x3 x6 x7 x8 x9 x10 (ix2 r' j)) Cert.Spec.cnt)
              * (val_main_v38 (F := Ideal) x0 x1 x2 x3 x6 x7 x8 x9 x10 (ix2 r j)
                - Ideal.div (Cert.Spec.zero + ∑ r' : Fin 1048576, val_main_v38 (F := Ideal) x0 x1 x2 x3 x6 x7 x8 x9 x10 (ix2 r' j)) Cert.Spec.cnt))
          (x4 (ix1 j)) (x5 (ix1 j))
          (val_main_v38 (F := Ideal) x0 x1 x2 x3 x6 x7 x8 x9 x10 (ix2 row j)) := by
  rw [val_main_v64_apply, val_main_v63_apply, val_main_v60_apply, val_main_v57_apply, val_main_v51_apply,
    mean_row_apply', rstd_row_apply, devsum_apply, scale_row_apply, shift_row_apply, val_main_call0_v0_apply,
    val_main_call0_cst_apply, Ideal.maximumf_def, Ideal.addf_def, Ideal.mulf_def, Ideal.mulf_def, Ideal.subf_def,
    Ideal.ofBits_def]
  rfl

end Cert.RefSide

end
-- ==== Proof.Ref.FinitePre.lean ====
/-
  The precondition "every float input is finite", read back entry by entry.

  The precondition is the conjunction, over the six float inputs, of "every entry has absolute value below +inf":
  an and-reduction over all axes of an elementwise comparison. The reduction is 1 only if every compared entry is 1,
  and an extended real whose absolute value max(a, -a) is strictly below +inf is neither infinity, so it is a real
  number.
-/
import proofs.«154919_j73332271612005_2_alg».proof.Pre_finite_inputs
import proofs.«154919_j73332271612005_2_alg».proof.Proof.Gen.ReferenceIdeal.Read
import Idealize.ShloMosaic.Lib.ReduceAll
import Idealize.ShloMosaic.Lib.ValueIdx
import Idealize.ShloMosaic.PureOps.Ideal.Laws

noncomputable section

namespace Cert.RefSide

open Cert.ReferenceIdeal Cert.ReferenceIdeal.Read Idealize.ShloMosaic Idealize.ShloMosaic.ValueIdx
open scoped BigOperators

/-- The f32 word of +inf is the top extended real. -/
theorem ofBits_inf_f32 : Ideal.ofBits .f32 0x7F800000#32 = (⊤ : EReal) := by
  simp [Ideal.ofBits, Ideal.ieee]

/-- An extended real whose absolute value `max a (-a)` compares below +inf is a real number. -/
theorem real_of_abs_lt_inf (a : EReal)
    (h : Ideal.cmp .olt (max a (-a)) (Ideal.ofBits .f32 0x7F800000#32) = 1#1) : ∃ y : ℝ, a = (y : EReal) := by
  rw [ofBits_inf_f32] at h
  induction a using EReal.rec with
  | bot => simp [Ideal.cmp] at h
  | top => simp [Ideal.cmp] at h
  | coe r => exact ⟨r, rfl⟩

instance : Subsingleton (⟨0, ![]⟩ : Shape).Idx := ⟨fun a b => funext fun d => d.elim0⟩

/-- If the and-reduction over all axes of "|x| < +inf" is 1, every entry of `x` is a real number. -/
theorem allReal_of_all {S : Shape} {axes : List (Fin S.rank)} {dims : Fin (⟨0, ![]⟩ : Shape).rank → Fin S.rank}
    (x : FVec Ideal S .f32) (bc : (⟨0, ![]⟩ : Shape).BroadcastsInDim S dims)
    (rd : S.ReducesTo axes (⟨0, ![]⟩ : Shape)) (hu : 0 < (⟨0, ![]⟩ : Shape).numel)
    (h : Host.reduce IntOp.andi
          (cmpf (F := Ideal) .olt (Host.absf x)
            (broadcastInDim S dims bc (constant (F := Ideal) (⟨0, ![]⟩ : Shape) .f32 0x7F800000#32)))
          (constantI (⟨0, ![]⟩ : Shape) 1 1#1) rd hu ix0 = 1#1) :
    ∀ i, ∃ y : ℝ, x i = (y : EReal) := by
  intro i
  have hi := Host.reduce_andi_all _ _ rd hu ix0 h i
  exact real_of_abs_lt_inf (x i) hi

variable [Cert.Pre_finite_inputs.Facts]

variable (x0 : (⟨S262144x128, .f32⟩ : BufTy).Contents (Elt Ideal)) (x1 x2 : (⟨S128x128, .f32⟩ : BufTy).Contents (Elt Ideal))
  (x3 : (⟨S256x128, .f32⟩ : BufTy).Contents (Elt Ideal)) (x4 x5 : (⟨S128, .f32⟩ : BufTy).Contents (Elt Ideal))
  (x6 : (⟨S262144, .i32⟩ : BufTy).Contents (Elt Ideal)) (x7 x8 : (⟨S1048576, .i32⟩ : BufTy).Contents (Elt Ideal))
  (x9 x10 : (⟨S524288, .i32⟩ : BufTy).Contents (Elt Ideal))

theorem finite_of_pre (h : Cert.Pre_finite_inputs.fn (F := Ideal) x0 x1 x2 x3 x4 x5 x6 x7 x8 x9 x10 = (fun _ => 1#1)) :
    (∀ i, ∃ y : ℝ, x0 i = (y : EReal)) ∧ (∀ i, ∃ y : ℝ, x1 i = (y : EReal)) ∧ (∀ i, ∃ y : ℝ, x2 i = (y : EReal))
      ∧ (∀ i, ∃ y : ℝ, x3 i = (y : EReal)) ∧ (∀ i, ∃ y : ℝ, x4 i = (y : EReal)) ∧ (∀ i, ∃ y : ℝ, x5 i = (y : EReal)) := by
  have h' := congrFun h ix0
  dsimp only [Cert.Pre_finite_inputs.fn, Cert.Pre_finite_inputs.fn_part1] at h'
  obtain ⟨h', e5⟩ := IntOp.andi_eq_one.1 h'
  obtain ⟨h', e4⟩ := IntOp.andi_eq_one.1 h'
  obtain ⟨h', e3⟩ := IntOp.andi_eq_one.1 h'
  obtain ⟨h', e2⟩ := IntOp.andi_eq_one.1 h'
  obtain ⟨e0, e1⟩ := IntOp.andi_eq_one.1 h'
  exact ⟨allReal_of_all x0 _ _ _ e0, allReal_of_all x1 _ _ _ e1, allReal_of_all x2 _ _ _ e2,
    allReal_of_all x3 _ _ _ e3, allReal_of_all x4 _ _ _ e4, allReal_of_all x5 _ _ _ e5⟩

end Cert.RefSide

end
-- ==== Proof.LibRealEntries.lean ====
/-
  EVERY ENTRY IS A REAL NUMBER: the calculus of one graph-convolution layer's host operations.

  On the extended reals multiplication does not distribute over addition at an infinity, so the two ways of
  writing a batch-norm step, h·(γ·s) + (β − (μ·γ)·s) and ((h − μ)·s)·γ + β, agree only where every quantity is a real
  number. This file carries "every entry is a real number" (and, where a reciprocal square root needs it, "every entry
  is a nonnegative / positive real number, or a real number at least one") through each operation of a layer: a
  constant and its broadcasts, re-indexings (broadcast, reshape, slice, gather: an entry of the result IS an entry of
  the operand, whatever the start indices), sums, differences and products entry by entry, a scatter-add and a sum
  along an axis (an entry plus a finite sum of entries), a quotient by a nonzero real, a maximum, a selection, a
  contraction (a finite sum of products), and the reciprocal square root of a positive real. Every statement is over an
  arbitrary shape and an arbitrary dimension record, so it serves both programs and every layer width.
-/
import Idealize.ShloMosaic.PureOps.Ideal
import Idealize.ShloMosaic.PureOps.Ideal.Laws
import Idealize.ShloMosaic.PureOps.Reduce
import Idealize.ShloMosaic.Lib.ValueIdx
import Idealize.ShloMosaic.Lib.IdealHost

noncomputable section

namespace Cert.GcnReal

open Idealize.ShloMosaic
open scoped BigOperators

/-! ## The four predicates -/

/-- Every entry is a real number. -/
def AllReal {S : Shape} (v : S.Idx → EReal) : Prop := ∀ i, ∃ r : ℝ, v i = (r : EReal)

/-- Every entry is a nonnegative real number. -/
def NonnegReal {S : Shape} (v : S.Idx → EReal) : Prop := ∀ i, ∃ r : ℝ, 0 ≤ r ∧ v i = (r : EReal)

/-- Every entry is a positive real number. -/
def PosReal {S : Shape} (v : S.Idx → EReal) : Prop := ∀ i, ∃ r : ℝ, 0 < r ∧ v i = (r : EReal)

/-- Every entry is a real number at least one. -/
def GeOneReal {S : Shape} (v : S.Idx → EReal) : Prop := ∀ i, ∃ r : ℝ, 1 ≤ r ∧ v i = (r : EReal)

/-- Every entry is a nonzero real number. -/
def NonzeroReal {S : Shape} (v : S.Idx → EReal) : Prop := ∀ i, ∃ r : ℝ, r ≠ 0 ∧ v i = (r : EReal)

theorem NonnegReal.allReal {S : Shape} {v : S.Idx → EReal} (h : NonnegReal v) : AllReal v :=
  fun i => let ⟨r, _, e⟩ := h i; ⟨r, e⟩

theorem PosReal.nonnegReal {S : Shape} {v : S.Idx → EReal} (h : PosReal v) : NonnegReal v :=
  fun i => let ⟨r, hr, e⟩ := h i; ⟨r, hr.le, e⟩

theorem PosReal.allReal {S : Shape} {v : S.Idx → EReal} (h : PosReal v) : AllReal v := h.nonnegReal.allReal

theorem PosReal.nonzeroReal {S : Shape} {v : S.Idx → EReal} (h : PosReal v) : NonzeroReal v :=
  fun i => let ⟨r, hr, e⟩ := h i; ⟨r, hr.ne', e⟩

theorem GeOneReal.posReal {S : Shape} {v : S.Idx → EReal} (h : GeOneReal v) : PosReal v :=
  fun i => let ⟨r, hr, e⟩ := h i; ⟨r, lt_of_lt_of_le one_pos hr, e⟩

theorem GeOneReal.allReal {S : Shape} {v : S.Idx → EReal} (h : GeOneReal v) : AllReal v := h.posReal.allReal

theorem NonzeroReal.allReal {S : Shape} {v : S.Idx → EReal} (h : NonzeroReal v) : AllReal v :=
  fun i => let ⟨r, _, e⟩ := h i; ⟨r, e⟩

/-! ## Finite sums of real numbers -/

/-- The inclusion of the reals in the extended reals commutes with a finite sum. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real numbers is a real number: the sum of the witnesses. -/
theorem sum_real {ι : Type*} (s : Finset ι) (f : ι → EReal) (g : ι → ℝ) (h : ∀ i, f i = (g i : EReal)) :
    ∑ i ∈ s, f i = ((∑ i ∈ s, g i : ℝ) : EReal) := by
  rw [coe_finset_sum]; exact Finset.sum_congr rfl fun i _ => h i

/-! ## Re-indexings: an entry of the result is an entry of the operand

A broadcast, a reshape, a slice and a gather all read the operand at an index computed from the result's index (for a
gather, from the start indices too, clamped into range): whatever that index is, the entry there is an entry of the
operand. -/

theorem AllReal.reindex {S T : Shape} {v : S.Idx → EReal} (h : AllReal v) (f : T.Idx → S.Idx) :
    AllReal (S := T) fun j => v (f j) := fun j => h (f j)
theorem NonnegReal.reindex {S T : Shape} {v : S.Idx → EReal} (h : NonnegReal v) (f : T.Idx → S.Idx) :
    NonnegReal (S := T) fun j => v (f j) := fun j => h (f j)
theorem PosReal.reindex {S T : Shape} {v : S.Idx → EReal} (h : PosReal v) (f : T.Idx → S.Idx) :
    PosReal (S := T) fun j => v (f j) := fun j => h (f j)
theorem GeOneReal.reindex {S T : Shape} {v : S.Idx → EReal} (h : GeOneReal v) (f : T.Idx → S.Idx) :
    GeOneReal (S := T) fun j => v (f j) := fun j => h (f j)
theorem NonzeroReal.reindex {S T : Shape} {v : S.Idx → EReal} (h : NonzeroReal v) (f : T.Idx → S.Idx) :
    NonzeroReal (S := T) fun j => v (f j) := fun j => h (f j)

section Layout
variable {S T : Shape} {v : S.Idx → EReal}

/-- A broadcast along any axes (every broadcast record). -/
theorem AllReal.broadcastInDim (h : AllReal v) (dims : Fin S.rank → Fin T.rank) (hb : S.BroadcastsInDim T dims) :
    AllReal (broadcastInDim T dims hb v) := fun _ => h _
theorem NonnegReal.broadcastInDim (h : NonnegReal v) (dims : Fin S.rank → Fin T.rank) (hb : S.BroadcastsInDim T dims) :
    NonnegReal (broadcastInDim T dims hb v) := fun _ => h _
theorem PosReal.broadcastInDim (h : PosReal v) (dims : Fin S.rank → Fin T.rank) (hb : S.BroadcastsInDim T dims) :
    PosReal (broadcastInDim T dims hb v) := fun _ => h _
theorem GeOneReal.broadcastInDim (h : GeOneReal v) (dims : Fin S.rank → Fin T.rank) (hb : S.BroadcastsInDim T dims) :
    GeOneReal (broadcastInDim T dims hb v) := fun _ => h _
theorem NonzeroReal.broadcastInDim (h : NonzeroReal v) (dims : Fin S.rank → Fin T.rank) (hb : S.BroadcastsInDim T dims) :
    NonzeroReal (broadcastInDim T dims hb v) := fun _ => h _

/-- A reshape (every shape-cast record). -/
theorem AllReal.shapeCast (h : AllReal v) (hc : S.ShapeCasts T) : AllReal (shapeCast T v hc) := fun _ => h _
theorem NonnegReal.shapeCast (h : NonnegReal v) (hc : S.ShapeCasts T) : NonnegReal (shapeCast T v hc) := fun _ => h _
theorem PosReal.shapeCast (h : PosReal v) (hc : S.ShapeCasts T) : PosReal (shapeCast T v hc) := fun _ => h _

/-- A gather: each entry of the result is the operand's entry at the clamped start plus the offset. -/
theorem AllReal.gather {si : Shape} {w : Nat} (h : AllReal v) (d : GatherDims S si T) (idx : IVec si w) :
    AllReal (Host.gather d v idx) := fun _ => h _
theorem NonnegReal.gather {si : Shape} {w : Nat} (h : NonnegReal v) (d : GatherDims S si T) (idx : IVec si w) :
    NonnegReal (Host.gather d v idx) := fun _ => h _
theorem PosReal.gather {si : Shape} {w : Nat} (h : PosReal v) (d : GatherDims S si T) (idx : IVec si w) :
    PosReal (Host.gather d v idx) := fun _ => h _

end Layout

/-! ## Constants

A constant array holds one word everywhere; which real number the word denotes is a fact about the word. -/

/-- The single-precision word of one is the real number one. -/
theorem ofBits_one_f32_coe : Ideal.ofBits .f32 0x3F800000#32 = ((1 : ℝ) : EReal) := by
  rw [Ideal.ofBits_one_f32, EReal.coe_one]

/-- The all-zero single-precision word is the real number zero. -/
theorem ofBits_zero_f32_coe : Ideal.ofBits .f32 0x00000000#32 = ((0 : ℝ) : EReal) := by
  rw [Ideal.ofBits_zero_f32, EReal.coe_zero]

/-- The word 0x47435000 (exponent 142, fraction 4411392) is the real number 12800000 · 2⁻⁸ = 50000: the number of rows
    a column mean divides by. -/
theorem ofBits_rows_f32_coe : Ideal.ofBits .f32 0x47435000#32 = ((50000 : ℝ) : EReal) := by
  simp [Ideal.ofBits, Ideal.ieee, -EReal.coe_mul]; norm_num

/-- The word 0x3727C5AC (exponent 110, fraction 2606508) is a positive real number, 10995116 · 2⁻⁴⁰: the ε a variance
    is shifted by before its reciprocal square root. -/
theorem ofBits_eps_f32_pos : ∃ r : ℝ, 0 < r ∧ Ideal.ofBits .f32 0x3727C5AC#32 = (r : EReal) := by
  refine ⟨10995116 * (2 : ℝ) ^ (-40 : ℤ), by positivity, ?_⟩
  simp [Ideal.ofBits, Ideal.ieee, -EReal.coe_mul]

section Constants
variable {S : Shape} {φ : FTy} {b : BitVec φ.bits}

theorem AllReal.constant (h : ∃ r : ℝ, Ideal.ofBits φ b = (r : EReal)) : AllReal (constant (F := Ideal) S φ b) :=
  fun _ => h
theorem NonnegReal.constant (h : ∃ r : ℝ, 0 ≤ r ∧ Ideal.ofBits φ b = (r : EReal)) :
    NonnegReal (constant (F := Ideal) S φ b) := fun _ => h
theorem PosReal.constant (h : ∃ r : ℝ, 0 < r ∧ Ideal.ofBits φ b = (r : EReal)) :
    PosReal (constant (F := Ideal) S φ b) := fun _ => h
theorem GeOneReal.constant (h : ∃ r : ℝ, 1 ≤ r ∧ Ideal.ofBits φ b = (r : EReal)) :
    GeOneReal (constant (F := Ideal) S φ b) := fun _ => h

end Constants

/-- The constant one: every entry is a real number at least one. -/
theorem geOneReal_one (S : Shape) : GeOneReal (constant (F := Ideal) S .f32 0x3F800000#32) :=
  GeOneReal.constant ⟨1, le_refl _, ofBits_one_f32_coe⟩
/-- The constant zero: every entry is a nonnegative real number. -/
theorem nonnegReal_zero (S : Shape) : NonnegReal (constant (F := Ideal) S .f32 0x00000000#32) :=
  NonnegReal.constant ⟨0, le_refl _, ofBits_zero_f32_coe⟩
/-- The constant 50000: every entry is a positive real number. -/
theorem posReal_rows (S : Shape) : PosReal (constant (F := Ideal) S .f32 0x47435000#32) :=
  PosReal.constant ⟨50000, by norm_num, ofBits_rows_f32_coe⟩
/-- The constant ε: every entry is a positive real number. -/
theorem posReal_eps (S : Shape) : PosReal (constant (F := Ideal) S .f32 0x3727C5AC#32) :=
  PosReal.constant ofBits_eps_f32_pos

/-- An integer read as a float is that integer, a real number. -/
theorem allReal_sitofp {S : Shape} {w : Nat} (φ : FTy) (x : IVec S w) : AllReal (sitofp (F := Ideal) φ x) :=
  fun i => ⟨((x i).toInt : ℝ), rfl⟩

/-- The integer zero read as a float is the real number zero. -/
theorem sitofp_zero_apply {S : Shape} (φ : FTy) (i : S.Idx) :
    sitofp (F := Ideal) φ (constantI S 32 0#32) i = ((0 : ℝ) : EReal) := by
  show ((((0#32 : BitVec 32).toInt : ℤ) : ℝ) : EReal) = _
  norm_num

/-! ## Sums, differences and products entry by entry -/

section Pointwise
variable {S : Shape} {φ : FTy} {x y : FVec Ideal S φ}

theorem AllReal.addf (hx : AllReal x) (hy : AllReal y) : AllReal (addf (F := Ideal) x y) := fun i => by
  obtain ⟨a, ha⟩ := hx i; obtain ⟨b, hb⟩ := hy i
  exact ⟨a + b, by show x i + y i = _; rw [ha, hb, EReal.coe_add]⟩

theorem AllReal.subf (hx : AllReal x) (hy : AllReal y) : AllReal (subf (F := Ideal) x y) := fun i => by
  obtain ⟨a, ha⟩ := hx i; obtain ⟨b, hb⟩ := hy i
  exact ⟨a - b, by show x i - y i = _; rw [ha, hb, EReal.coe_sub]⟩

theorem AllReal.mulf (hx : AllReal x) (hy : AllReal y) : AllReal (mulf (F := Ideal) x y) := fun i => by
  obtain ⟨a, ha⟩ := hx i; obtain ⟨b, hb⟩ := hy i
  exact ⟨a * b, by show x i * y i = _; rw [ha, hb, EReal.coe_mul]⟩

theorem NonnegReal.addf (hx : NonnegReal x) (hy : NonnegReal y) : NonnegReal (addf (F := Ideal) x y) := fun i => by
  obtain ⟨a, ha0, ha⟩ := hx i; obtain ⟨b, hb0, hb⟩ := hy i
  exact ⟨a + b, add_nonneg ha0 hb0, by show x i + y i = _; rw [ha, hb, EReal.coe_add]⟩

theorem NonnegReal.mulf (hx : NonnegReal x) (hy : NonnegReal y) : NonnegReal (mulf (F := Ideal) x y) := fun i => by
  obtain ⟨a, ha0, ha⟩ := hx i; obtain ⟨b, hb0, hb⟩ := hy i
  exact ⟨a * b, mul_nonneg ha0 hb0, by show x i * y i = _; rw [ha, hb, EReal.coe_mul]⟩

theorem PosReal.mulf (hx : PosReal x) (hy : PosReal y) : PosReal (mulf (F := Ideal) x y) := fun i => by
  obtain ⟨a, ha0, ha⟩ := hx i; obtain ⟨b, hb0, hb⟩ := hy i
  exact ⟨a * b, mul_pos ha0 hb0, by show x i * y i = _; rw [ha, hb, EReal.coe_mul]⟩

/-- The square of a real number is a nonnegative real number. -/
theorem AllReal.mulf_self (hx : AllReal x) : NonnegReal (Idealize.ShloMosaic.mulf (F := Ideal) x x) := fun i => by
  obtain ⟨a, ha⟩ := hx i
  exact ⟨a * a, mul_self_nonneg a, by show x i * x i = _; rw [ha, EReal.coe_mul]⟩

/-- A nonnegative real number plus a real number at least one is at least one: a count plus the self-loop's one. -/
theorem NonnegReal.addf_geOne (hx : NonnegReal x) (hy : GeOneReal y) :
    GeOneReal (Idealize.ShloMosaic.addf (F := Ideal) x y) := fun i => by
  obtain ⟨a, ha0, ha⟩ := hx i; obtain ⟨b, hb1, hb⟩ := hy i
  exact ⟨a + b, by linarith, by show x i + y i = _; rw [ha, hb, EReal.coe_add]⟩

/-- A nonnegative real number plus a positive one is positive: a variance plus ε. -/
theorem NonnegReal.addf_pos (hx : NonnegReal x) (hy : PosReal y) :
    PosReal (Idealize.ShloMosaic.addf (F := Ideal) x y) := fun i => by
  obtain ⟨a, ha0, ha⟩ := hx i; obtain ⟨b, hb0, hb⟩ := hy i
  exact ⟨a + b, by linarith, by show x i + y i = _; rw [ha, hb, EReal.coe_add]⟩

/-- A positive real number minus zero is positive: the row count minus the zero degrees of freedom. -/
theorem PosReal.subf_zero (hx : PosReal x) (hy : ∀ i, y i = ((0 : ℝ) : EReal)) : PosReal (subf (F := Ideal) x y) :=
  fun i => by
    obtain ⟨a, ha0, ha⟩ := hx i
    exact ⟨a - 0, by linarith, by show x i - y i = _; rw [ha, hy i, EReal.coe_sub]⟩

/-! ## A maximum and a selection -/

/-- The larger of two real numbers, taken among the extended reals, is the larger taken among the reals. -/
theorem max_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

theorem AllReal.maximumf (hx : AllReal x) (hy : AllReal y) : AllReal (maximumf (F := Ideal) x y) := fun i => by
  obtain ⟨a, ha⟩ := hx i; obtain ⟨b, hb⟩ := hy i
  exact ⟨max a b, by show max (x i) (y i) = _; rw [ha, hb, max_coe]⟩

/-- The larger of a real number and a nonnegative one (the rectifier's zero) is nonnegative. -/
theorem AllReal.maximumf_nonneg (hx : AllReal x) (hy : NonnegReal y) :
    NonnegReal (Idealize.ShloMosaic.maximumf (F := Ideal) x y) :=
  fun i => by
    obtain ⟨a, ha⟩ := hx i; obtain ⟨b, hb0, hb⟩ := hy i
    exact ⟨max a b, le_trans hb0 (le_max_right a b), by show max (x i) (y i) = _; rw [ha, hb, max_coe]⟩

end Pointwise

section Select
variable {S : Shape}

/-- A selection between two arrays of real numbers, under any predicate, is an array of real numbers. -/
theorem AllReal.select {a b : S.Idx → EReal} (c : IVec S 1) (ha : AllReal a) (hb : AllReal b) :
    AllReal (select c a b) := fun i => by
  show ∃ r : ℝ, (if c i = 1 then a i else b i) = (r : EReal)
  split
  · exact ha i
  · exact hb i

/-- Where the predicate holds everywhere, a selection IS its first branch, whatever the second holds (a junk value,
    for instance). -/
theorem select_eq_left {α : Type} (c : IVec S 1) (a b : S.Idx → α) (hc : ∀ i, c i = 1#1) : select c a b = a :=
  funext fun i => by
    show (if c i = 1 then a i else b i) = a i
    exact if_pos (hc i)

/-- A broadcast of a predicate that holds everywhere holds everywhere. -/
theorem broadcastInDim_eq_one {T : Shape} (p : IVec S 1) (dims : Fin S.rank → Fin T.rank)
    (hb : S.BroadcastsInDim T dims) (hp : ∀ i, p i = 1#1) (j : T.Idx) : broadcastInDim T dims hb p j = 1#1 := hp _

/-- "Greater than" between a positive real number and zero holds. -/
theorem cmpf_ogt_pos_zero {φ : FTy} {x y : FVec Ideal S φ} (hx : PosReal x) (hy : ∀ i, y i = 0) (i : S.Idx) :
    cmpf (F := Ideal) .ogt x y i = 1#1 := by
  obtain ⟨a, ha0, ha⟩ := hx i
  have hlt : y i < x i := by rw [hy i, ha]; exact EReal.coe_pos.mpr ha0
  show BitVec.ofBool (decide (y i < x i)) = 1#1
  rw [decide_eq_true hlt]; rfl

end Select

/-! ## An entry plus a finite sum of entries: a scatter-add and a sum along an axis

At an index, a scatter-add is the operand's entry plus the sum of the updates that land there (none, if every start index
falls outside), and a sum along an axis is the initial value plus the sum of the entries that reduce there. Which
updates land where depends on the integer operands; that the result is a real number does not. -/

/-- A real number plus a finite sum of real numbers is a real number. -/
theorem add_sum_isReal {ι : Type*} (s : Finset ι) (f : ι → EReal) (x : EReal) (hx : ∃ a : ℝ, x = (a : EReal))
    (hf : ∀ i, ∃ r : ℝ, f i = (r : EReal)) : ∃ r : ℝ, x + ∑ i ∈ s, f i = (r : EReal) := by
  obtain ⟨a, ha⟩ := hx
  choose g hg using hf
  exact ⟨a + ∑ i ∈ s, g i, by rw [ha, sum_real s f g hg, EReal.coe_add]⟩

/-- A nonnegative real number plus a finite sum of nonnegative real numbers is a nonnegative real number. -/
theorem add_sum_isNonnegReal {ι : Type*} (s : Finset ι) (f : ι → EReal) (x : EReal)
    (hx : ∃ a : ℝ, 0 ≤ a ∧ x = (a : EReal)) (hf : ∀ i, ∃ r : ℝ, 0 ≤ r ∧ f i = (r : EReal)) :
    ∃ r : ℝ, 0 ≤ r ∧ x + ∑ i ∈ s, f i = (r : EReal) := by
  obtain ⟨a, ha0, ha⟩ := hx
  choose g hg0 hg using hf
  exact ⟨a + ∑ i ∈ s, g i, add_nonneg ha0 (Finset.sum_nonneg fun i _ => hg0 i),
    by rw [ha, sum_real s f g hg, EReal.coe_add]⟩

section ScatterReduce
variable {S T U si su : Shape} {φ : FTy} {w : Nat}

/-- A scatter-add of real updates into a real operand, at any start indices (every scatter record). -/
theorem AllReal.scatterAdd {x : FVec Ideal S φ} {upd : FVec Ideal su φ} (hx : AllReal x) (hu : AllReal upd)
    (d : ScatterDims S si su) (idx : IVec si w) : AllReal (Host.scatterAdd (F := Ideal) d x idx upd) := fun i => by
  show ∃ r : ℝ, Ideal.hostScatterAdd d x idx upd i = (r : EReal)
  unfold Ideal.hostScatterAdd
  exact add_sum_isReal _ _ _ (hx i) hu

/-- A scatter-add of nonnegative real updates into a nonnegative real operand, at any start indices: a count. -/
theorem NonnegReal.scatterAdd {x : FVec Ideal S φ} {upd : FVec Ideal su φ} (hx : NonnegReal x) (hu : NonnegReal upd)
    (d : ScatterDims S si su) (idx : IVec si w) : NonnegReal (Host.scatterAdd (F := Ideal) d x idx upd) := fun i => by
  show ∃ r : ℝ, 0 ≤ r ∧ Ideal.hostScatterAdd d x idx upd i = (r : EReal)
  unfold Ideal.hostScatterAdd
  exact add_sum_isNonnegReal _ _ _ (hx i) hu

/-- A sum of real numbers along any axes from a real initial value (every reduce record). -/
theorem AllReal.reduceAdd {axes : List (Fin S.rank)} {x : FVec Ideal S φ} {init : U.Idx → Ideal φ} (hx : AllReal x)
    (hi : AllReal init) (h : S.ReducesTo axes T) (hu : 0 < U.numel) :
    AllReal (Host.reduceAdd (F := Ideal) x init h hu) := fun j => by
  show ∃ r : ℝ, Ideal.hostReduceAdd h x (init (Shape.Idx.first hu)) j = (r : EReal)
  unfold Ideal.hostReduceAdd
  exact add_sum_isReal _ _ _ (hi _) hx

/-- A sum of nonnegative real numbers along any axes from a nonnegative real initial value. -/
theorem NonnegReal.reduceAdd {axes : List (Fin S.rank)} {x : FVec Ideal S φ} {init : U.Idx → Ideal φ}
    (hx : NonnegReal x) (hi : NonnegReal init) (h : S.ReducesTo axes T) (hu : 0 < U.numel) :
    NonnegReal (Host.reduceAdd (F := Ideal) x init h hu) := fun j => by
  show ∃ r : ℝ, 0 ≤ r ∧ Ideal.hostReduceAdd h x (init (Shape.Idx.first hu)) j = (r : EReal)
  unfold Ideal.hostReduceAdd
  exact add_sum_isNonnegReal _ _ _ (hi _) hx

end ScatterReduce

/-! ## A quotient by a nonzero real number, and the reciprocal square root of a positive one -/

section DivRsqrt
variable {S : Shape} {φ : FTy} {x y : FVec Ideal S φ}

/-- A real number over a nonzero real number is their real quotient. -/
theorem AllReal.hostDivf (hx : AllReal x) (hy : NonzeroReal y) : AllReal (Host.divf (F := Ideal) x y) := fun i => by
  obtain ⟨a, ha⟩ := hx i; obtain ⟨b, hb0, hb⟩ := hy i
  refine ⟨a * (1 / b), ?_⟩
  show Ideal.div (x i) (y i) = _
  rw [ha, hb, Ideal.div_coe hb0, EReal.coe_mul]

/-- A nonnegative real number over a positive one is nonnegative. -/
theorem NonnegReal.hostDivf (hx : NonnegReal x) (hy : PosReal y) : NonnegReal (Host.divf (F := Ideal) x y) :=
  fun i => by
    obtain ⟨a, ha0, ha⟩ := hx i; obtain ⟨b, hb0, hb⟩ := hy i
    refine ⟨a * (1 / b), mul_nonneg ha0 (one_div_nonneg.mpr hb0.le), ?_⟩
    show Ideal.div (x i) (y i) = _
    rw [ha, hb, Ideal.div_coe hb0.ne', EReal.coe_mul]

/-- The reciprocal square root of a positive real number r is the positive real number (√r)⁻¹ (at zero it would be +∞,
    below zero a junk value). -/
theorem rsqrt_pos_coe {a : ℝ} (ha : 0 < a) : Ideal.rsqrt (a : EReal) = (((Real.sqrt a)⁻¹ : ℝ) : EReal) := by
  rw [Ideal.rsqrt_coe, if_neg (not_lt.mpr ha.le), if_neg ha.ne']

/-- The host's reciprocal square root of positive real numbers: positive real numbers. -/
theorem PosReal.hostRsqrt (hx : PosReal x) : PosReal (Host.rsqrt (F := Ideal) x) := fun i => by
  obtain ⟨a, ha0, ha⟩ := hx i
  refine ⟨(Real.sqrt a)⁻¹, inv_pos.mpr (Real.sqrt_pos.mpr ha0), ?_⟩
  show Ideal.rsqrt (x i) = _
  rw [ha, rsqrt_pos_coe ha0]

/-- A kernel body's reciprocal square root of positive real numbers, likewise. -/
theorem PosReal.rsqrt (hx : PosReal x) : PosReal (Idealize.ShloMosaic.rsqrt (F := Ideal) x) := fun i => by
  obtain ⟨a, ha0, ha⟩ := hx i
  refine ⟨(Real.sqrt a)⁻¹, inv_pos.mpr (Real.sqrt_pos.mpr ha0), ?_⟩
  show Ideal.rsqrt (x i) = _
  rw [ha, rsqrt_pos_coe ha0]

end DivRsqrt

/-! ## A contraction: a finite sum of products -/

/-- A finite sum of products of real numbers is a real number. -/
theorem sum_mul_isReal {ι : Type*} (s : Finset ι) (f g : ι → EReal) (hf : ∀ k, ∃ r : ℝ, f k = (r : EReal))
    (hg : ∀ k, ∃ r : ℝ, g k = (r : EReal)) : ∃ r : ℝ, ∑ k ∈ s, f k * g k = (r : EReal) := by
  choose a ha using hf
  choose b hb using hg
  exact ⟨∑ k ∈ s, a k * b k, sum_real s _ _ fun k => by rw [ha k, hb k, EReal.coe_mul]⟩

/-- A matrix product written as a sum over the inner coordinate: entry (r, q) of x·w is a real number. -/
theorem AllReal.dot_ix2 {m k n : Nat} {x : (⟨2, ![m, k]⟩ : Shape).Idx → EReal}
    {w : (⟨2, ![k, n]⟩ : Shape).Idx → EReal} (hx : AllReal x) (hw : AllReal w) (r : Fin m) (q : Fin n) :
    ∃ s : ℝ, ∑ t : Fin k, x (ValueIdx.ix2 r t) * w (ValueIdx.ix2 t q) = (s : EReal) :=
  sum_mul_isReal _ _ _ (fun _ => hx _) (fun _ => hw _)

section Contraction
variable {sl sr so : Shape}

/-- A matrix unit's product into an accumulator, over any contraction record. -/
theorem AllReal.matmul {lhs : sl.Idx → EReal} {rhs : sr.Idx → EReal} {acc : so.Idx → EReal} (hl : AllReal lhs)
    (hr : AllReal rhs) (ha : AllReal acc) (d : DotDims sl sr so) : AllReal (Ideal.matmul d lhs rhs acc) := fun j => by
  obtain ⟨a, ha'⟩ := ha j
  obtain ⟨p, hp⟩ := sum_mul_isReal Finset.univ (fun k => lhs (d.lhsIdx j k)) (fun k => rhs (d.rhsIdx j k))
    (fun _ => hl _) (fun _ => hr _)
  exact ⟨a + p, by unfold Ideal.matmul; rw [ha', hp, EReal.coe_add]⟩

/-- A matrix unit's pass with no accumulator, over any contraction record. -/
theorem AllReal.mxuPass {lhs : sl.Idx → EReal} {rhs : sr.Idx → EReal} (hl : AllReal lhs) (hr : AllReal rhs)
    (d : DotDims sl sr so) : AllReal (Ideal.mxuPass d lhs rhs) := fun j => by
  unfold Ideal.mxuPass
  exact sum_mul_isReal Finset.univ (fun k => lhs (d.lhsIdx j k)) (fun k => rhs (d.rhsIdx j k)) (fun _ => hl _)
    (fun _ => hr _)

/-- The host's general contraction, over any contraction record, precision and schedule. -/
theorem AllReal.dotGeneral {φ₁ φ₂ : FTy} {lhs : FVec Ideal sl φ₁} {rhs : FVec Ideal sr φ₂} (hl : AllReal lhs)
    (hr : AllReal rhs) (d : DotDims sl sr so) (prec : Option ContractPrecision) (sched : HostSchedule) :
    AllReal (FloatOps.dotGeneral d prec sched lhs rhs) := fun j => by
  rw [Ideal.dotGeneral_apply]
  exact sum_mul_isReal Finset.univ (fun k => lhs (d.lhsIdx j k)) (fun k => rhs (d.rhsIdx j k)) (fun _ => hl _)
    (fun _ => hr _)

end Contraction

/-! ## The two positivity facts a layer needs

(i) A node's degree is a count of edges plus one for its self-loop, so it is at least one and its reciprocal square root
is a positive real number, whatever the edge list. (ii) A column's variance, the mean of squared deviations from any
real centre, is a nonnegative real number, so after the shift by a positive ε its reciprocal square root is a positive
real number. -/

section Degree
variable {S si su : Shape} {φ : FTy} {w : Nat} {zeros ones' : FVec Ideal S φ} {ones : FVec Ideal su φ}

/-- A count (a scatter-add of nonnegative numbers into nonnegative numbers, at any indices) plus a number at least one
    is at least one. -/
theorem geOneReal_degree (d : ScatterDims S si su) (idx : IVec si w) (hz : NonnegReal zeros) (ho : NonnegReal ones)
    (ho' : GeOneReal ones') :
    GeOneReal (addf (F := Ideal) (Host.scatterAdd (F := Ideal) d zeros idx ones) ones') :=
  (hz.scatterAdd ho d idx).addf_geOne ho'

/-- The reciprocal square root of a degree is a positive real number. -/
theorem posReal_rsqrt_degree (d : ScatterDims S si su) (idx : IVec si w) (hz : NonnegReal zeros) (ho : NonnegReal ones)
    (ho' : GeOneReal ones') :
    PosReal (Host.rsqrt (F := Ideal) (addf (F := Ideal) (Host.scatterAdd (F := Ideal) d zeros idx ones) ones')) :=
  (geOneReal_degree d idx hz ho ho').posReal.hostRsqrt

end Degree

/-- The same with the operands as a layer writes them: zeros and ones are broadcasts of the constant words, under any
    broadcast records. -/
theorem posReal_rsqrt_degree_of_constants {S0 S si su : Shape} {w : Nat} (d : ScatterDims S si su) (idx : IVec si w)
    (dz : Fin S0.rank → Fin S.rank) (bz : S0.BroadcastsInDim S dz) (du : Fin S0.rank → Fin su.rank)
    (bu : S0.BroadcastsInDim su du) :
    PosReal (Host.rsqrt (F := Ideal) (addf (F := Ideal)
      (Host.scatterAdd (F := Ideal) d (broadcastInDim S dz bz (constant (F := Ideal) S0 .f32 0x00000000#32)) idx
        (broadcastInDim su du bu (constant (F := Ideal) S0 .f32 0x3F800000#32)))
      (broadcastInDim S dz bz (constant (F := Ideal) S0 .f32 0x3F800000#32)))) :=
  posReal_rsqrt_degree d idx ((nonnegReal_zero S0).broadcastInDim dz bz)
    ((geOneReal_one S0).posReal.nonnegReal.broadcastInDim du bu) ((geOneReal_one S0).broadcastInDim dz bz)

section Variance
variable {S T U : Shape} {φ : FTy} {axes : List (Fin S.rank)} {a m : FVec Ideal S φ} {init : U.Idx → Ideal φ}
  {n e : FVec Ideal T φ}

/-- A column mean: the sum of real entries from a real initial value, over a nonzero real count, is a real number. -/
theorem allReal_mean (h : S.ReducesTo axes T) (hu : 0 < U.numel) (ha : AllReal a) (hi : AllReal init)
    (hn : NonzeroReal n) : AllReal (Host.divf (F := Ideal) (Host.reduceAdd (F := Ideal) a init h hu) n) :=
  (ha.reduceAdd hi h hu).hostDivf hn

/-- A column variance: the sum of the squared deviations of real entries from any real centre, from a nonnegative
    initial value, over a positive real count, is a nonnegative real number. -/
theorem nonnegReal_variance (h : S.ReducesTo axes T) (hu : 0 < U.numel) (ha : AllReal a) (hm : AllReal m)
    (hi : NonnegReal init) (hn : PosReal n) :
    NonnegReal (Host.divf (F := Ideal)
      (Host.reduceAdd (F := Ideal) (mulf (F := Ideal) (subf (F := Ideal) a m) (subf (F := Ideal) a m)) init h hu) n) :=
  ((ha.subf hm).mulf_self.reduceAdd hi h hu).hostDivf hn

/-- The reciprocal square root of a nonnegative real number shifted by a positive one is a positive real number. -/
theorem posReal_rsqrt_shifted {v : FVec Ideal T φ} (hv : NonnegReal v) (he : PosReal e) :
    PosReal (Host.rsqrt (F := Ideal) (addf (F := Ideal) v e)) := (hv.addf_pos he).hostRsqrt

/-- The reciprocal standard deviation of a column: the reciprocal square root of its variance plus a positive ε is a
    positive real number. -/
theorem posReal_rsqrt_variance_eps (h : S.ReducesTo axes T) (hu : 0 < U.numel) (ha : AllReal a) (hm : AllReal m)
    (hi : NonnegReal init) (hn : PosReal n) (he : PosReal e) :
    PosReal (Host.rsqrt (F := Ideal) (addf (F := Ideal) (Host.divf (F := Ideal)
      (Host.reduceAdd (F := Ideal) (mulf (F := Ideal) (subf (F := Ideal) a m) (subf (F := Ideal) a m)) init h hu) n) e)) :=
  posReal_rsqrt_shifted (nonnegReal_variance h hu ha hm hi hn) he

end Variance

end Cert.GcnReal
-- ==== Proof.Ref.Msg.lean ====
/-
  One entry of the message array, read from the three matrix products.

  Row 2e+r, column j of the message array is (y_sum[dom_dst[e], j] + y_int[e, j]) + x_msg[e, 128 r + j]: the reshape
  of the [524288, 2, 128] sum to 2^20 rows is row-major, so flat position (2e+r)*128 + j splits as (e, r, j), and the
  reshape of the [524288, 256] product to [524288, 2, 128] sends (e, r, j) to column 128 r + j. Each product with a
  transposed weight reads the weight at (output column, k).
-/
import proofs.«154919_j73332271612005_2_alg».proof.Proof.Gen.ReferenceIdeal.Read
import proofs.«154919_j73332271612005_2_alg».proof.Proof.Spec
import Idealize.ShloMosaic.Lib.ValueIdx

noncomputable section

namespace Cert.RefSide

open Cert.ReferenceIdeal Cert.ReferenceIdeal.Read Idealize.ShloMosaic Idealize.ShloMosaic.ValueIdx
open scoped BigOperators

variable (x0 : (⟨S262144x128, .f32⟩ : BufTy).Contents (Elt Ideal)) (x1 x2 : (⟨S128x128, .f32⟩ : BufTy).Contents (Elt Ideal))
  (x3 : (⟨S256x128, .f32⟩ : BufTy).Contents (Elt Ideal)) (x4 x5 : (⟨S128, .f32⟩ : BufTy).Contents (Elt Ideal))
  (x6 : (⟨S262144, .i32⟩ : BufTy).Contents (Elt Ideal)) (x7 x8 : (⟨S1048576, .i32⟩ : BufTy).Contents (Elt Ideal))
  (x9 x10 : (⟨S524288, .i32⟩ : BufTy).Contents (Elt Ideal))

/-! ## Index equations -/

/-- Flat position `(2e+r)*128 + j` of the [2^20, 128] array is position `(e, r, j)` of the [524288, 2, 128] array. -/
theorem split_row (e : Fin 524288) (r : Fin 2) (j : Fin 128) (h : 2 * e.val + r.val < 1048576) :
    idx_main_v38 (ix2 (⟨2 * e.val + r.val, h⟩ : Fin 1048576) j) = ix3 e r j := by
  have he := e.isLt; have hr := r.isLt; have hj := j.isLt
  funext a
  match a with
  | ⟨0, _⟩ => exact Fin.ext (by show ((2 * e.val + r.val) * 128 + j.val) / 256 = e.val; omega)
  | ⟨1, _⟩ => exact Fin.ext (by show ((2 * e.val + r.val) * 128 + j.val) / 128 % 2 = r.val; omega)
  | ⟨2, _⟩ => exact Fin.ext (by show ((2 * e.val + r.val) * 128 + j.val) % 128 = j.val; omega)

/-- Position `(e, r, j)` of the [524288, 2, 128] array is column `128 r + j` of row `e` of the [524288, 256] product. -/
theorem join_col (e : Fin 524288) (r : Fin 2) (j : Fin 128) (h : 128 * r.val + j.val < 256) :
    idx_main_v34 (ix3 e r j) = ix2 e (⟨128 * r.val + j.val, h⟩ : Fin 256) := by
  have he := e.isLt; have hr := r.isLt; have hj := j.isLt
  funext a
  match a with
  | ⟨0, _⟩ => exact Fin.ext (by show ((e.val * 2 + r.val) * 128 + j.val) / 256 = e.val; omega)
  | ⟨1, _⟩ => exact Fin.ext (by show ((e.val * 2 + r.val) * 128 + j.val) % 256 = 128 * r.val + j.val; omega)

theorem bcast_pair (e : Fin 524288) (r : Fin 2) (j : Fin 128) :
    idx_main_v35 (idx_main_v36 (ix3 e r j)) = ix2 e j := by
  funext a; match a with | ⟨0, _⟩ => rfl | ⟨1, _⟩ => rfl

theorem lidx16 (e : Fin 524288) (j k : Fin 128) : lidx_main_v16 (ix2 e j) k = ix2 e k := by
  funext a; match a with | ⟨0, _⟩ => rfl | ⟨1, _⟩ => rfl

theorem ridx16 (e : Fin 524288) (j k : Fin 128) : idx_main_v15 (ridx_main_v16 (ix2 e j) k) = ix2 j k := by
  funext a; match a with | ⟨0, _⟩ => rfl | ⟨1, _⟩ => rfl

theorem lidx33 (e : Fin 524288) (c : Fin 256) (k : Fin 128) : lidx_main_v33 (ix2 e c) k = ix2 e k := by
  funext a; match a with | ⟨0, _⟩ => rfl | ⟨1, _⟩ => rfl

theorem ridx33 (e : Fin 524288) (c : Fin 256) (k : Fin 128) : idx_main_v32 (ridx_main_v33 (ix2 e c) k) = ix2 c k := by
  funext a; match a with | ⟨0, _⟩ => rfl | ⟨1, _⟩ => rfl

/-! ## The products with the transposed weights -/

/-- `y_int[e, j] = sum_k seg[e, k] * W_int[j, k]`. -/
theorem yint_apply (e : Fin 524288) (j : Fin 128) :
    val_main_v16 (F := Ideal) x0 x2 x7 x8 (ix2 e j)
      = ∑ k : Fin 128, val_main_v14 (F := Ideal) x0 x7 x8 (ix2 e k) * x2 (ix2 j k) := by
  rw [val_main_v16_apply]
  simp only [val_main_v15_apply, lidx16, ridx16]

/-- `(x[dom_src] W_x^T)[e, c] = sum_k x[dom_src[e], k] * W_x[c, k]`. -/
theorem xmsg_apply (e : Fin 524288) (c : Fin 256) :
    val_main_v33 (F := Ideal) x0 x3 x9 (ix2 e c)
      = ∑ k : Fin 128, val_main_v31 (F := Ideal) x0 x9 (ix2 e k) * x3 (ix2 c k) := by
  rw [val_main_v33_apply]
  simp only [val_main_v32_apply, lidx33, ridx33]

/-! ## The message entry -/

theorem msg_apply (e : Fin 524288) (r : Fin 2) (j : Fin 128) :
    val_main_v38 (F := Ideal) x0 x1 x2 x3 x6 x7 x8 x9 x10 (ix2 (⟨2 * e.val + r.val, by omega⟩ : Fin 1048576) j)
      = (val_main_v23 (F := Ideal) x0 x1 x6 x10 (ix2 e j) + ∑ k : Fin 128, val_main_v14 (F := Ideal) x0 x7 x8 (ix2 e k) * x2 (ix2 j k))
        + ∑ k : Fin 128, val_main_v31 (F := Ideal) x0 x9 (ix2 e k) * x3 (ix2 (⟨128 * r.val + j.val, by omega⟩ : Fin 256) k) := by
  rw [val_main_v38_apply, split_row, val_main_v37_apply, val_main_v36_apply, val_main_v35_apply, bcast_pair,
    val_main_v24_apply, yint_apply, val_main_v34_apply, join_col, xmsg_apply, Ideal.addf_def, Ideal.addf_def]

end Cert.RefSide

end
-- ==== Proof.Ref.Ysum.lean ====
/-
  One entry of y_sum: the segment sums times the transposed weight.

  `y_sum[d, j] = sum_k seg[d, k] * W_sum[j, k]`: the product contracts the segment sums' column with the transposed
  weight's row, and the transposed weight at (k, j) is the weight at (j, k).
-/
import proofs.«154919_j73332271612005_2_alg».proof.Proof.Gen.ReferenceIdeal.Read
import proofs.«154919_j73332271612005_2_alg».proof.Proof.Spec
import Idealize.ShloMosaic.Lib.ValueIdx

noncomputable section

namespace Cert.RefSide

open Cert.ReferenceIdeal Cert.ReferenceIdeal.Read Idealize.ShloMosaic Idealize.ShloMosaic.ValueIdx
open scoped BigOperators

variable (x0 : (⟨S262144x128, .f32⟩ : BufTy).Contents (Elt Ideal)) (x1 x2 : (⟨S128x128, .f32⟩ : BufTy).Contents (Elt Ideal))
  (x3 : (⟨S256x128, .f32⟩ : BufTy).Contents (Elt Ideal)) (x4 x5 : (⟨S128, .f32⟩ : BufTy).Contents (Elt Ideal))
  (x6 : (⟨S262144, .i32⟩ : BufTy).Contents (Elt Ideal)) (x7 x8 : (⟨S1048576, .i32⟩ : BufTy).Contents (Elt Ideal))
  (x9 x10 : (⟨S524288, .i32⟩ : BufTy).Contents (Elt Ideal))

theorem lidx4 (d : Fin 65536) (j k : Fin 128) : lidx_main_v4 (ix2 d j) k = ix2 d k := by
  funext a; match a with | ⟨0, _⟩ => rfl | ⟨1, _⟩ => rfl

theorem ridx4 (d : Fin 65536) (j k : Fin 128) : idx_main_v3 (ridx_main_v4 (ix2 d j) k) = ix2 j k := by
  funext a; match a with | ⟨0, _⟩ => rfl | ⟨1, _⟩ => rfl

theorem ysum_apply (d : Fin 65536) (j : Fin 128) :
    val_main_v4 (F := Ideal) x0 x1 x6 (ix2 d j) = ∑ k : Fin 128, val_main_v2 (F := Ideal) x0 x6 (ix2 d k) * x1 (ix2 j k) := by
  rw [val_main_v4_apply]
  simp only [val_main_v3_apply, lidx4, ridx4]

end Cert.RefSide

end
-- ==== Proof.Ref.FiniteMsg.lean ====
/-
  Every entry of the message array is a real number when the float inputs are.

  A segment sum is a zero array plus, at each entry, a finite sum of entries of the updates; a gather reads an entry
  of its operand, whatever the integer indices are; a product with a weight is a finite sum of products. So real
  inputs give real segment sums, real gathered rows, and a real message entry: a real number plus two finite sums of
  products of real numbers.
-/
import proofs.«154919_j73332271612005_2_alg».proof.Proof.Gen.ReferenceIdeal.Read
import proofs.«154919_j73332271612005_2_alg».proof.Proof.Spec
import Idealize.ShloMosaic.Lib.ValueIdx
import proofs.«154919_j73332271612005_2_alg».proof.Proof.Math.Coe
import proofs.«154919_j73332271612005_2_alg».proof.Proof.LibRealEntries
import proofs.«154919_j73332271612005_2_alg».proof.Proof.Ref.Msg
import proofs.«154919_j73332271612005_2_alg».proof.Proof.Ref.Ysum

noncomputable section

namespace Cert.RefSide

open Cert.ReferenceIdeal Cert.ReferenceIdeal.Read Idealize.ShloMosaic Idealize.ShloMosaic.ValueIdx
open scoped BigOperators

open Cert.GcnReal

variable (x0 : (⟨S262144x128, .f32⟩ : BufTy).Contents (Elt Ideal)) (x1 x2 : (⟨S128x128, .f32⟩ : BufTy).Contents (Elt Ideal))
  (x3 : (⟨S256x128, .f32⟩ : BufTy).Contents (Elt Ideal)) (x4 x5 : (⟨S128, .f32⟩ : BufTy).Contents (Elt Ideal))
  (x6 : (⟨S262144, .i32⟩ : BufTy).Contents (Elt Ideal)) (x7 x8 : (⟨S1048576, .i32⟩ : BufTy).Contents (Elt Ideal))
  (x9 x10 : (⟨S524288, .i32⟩ : BufTy).Contents (Elt Ideal))

/-- The segment sums of `x` over the domains are real. -/
theorem seg_real (h0 : ∀ i, ∃ y : ℝ, x0 i = (y : EReal)) : AllReal (val_main_v2 (F := Ideal) x0 x6) := by
  unfold val_main_v2 val_main_v0 val_main_cst
  exact AllReal.scatterAdd (((nonnegReal_zero S_).allReal).broadcastInDim _ _) h0 _ _

/-- The dense output `y_sum` is real. -/
theorem ysum_real (h0 : ∀ i, ∃ y : ℝ, x0 i = (y : EReal)) (h1 : ∀ i, ∃ y : ℝ, x1 i = (y : EReal)) :
    AllReal (val_main_v4 (F := Ideal) x0 x1 x6) := by
  intro i
  obtain ⟨d, j, rfl⟩ : ∃ (d : Fin 65536) (j : Fin 128), i = ix2 d j := ⟨i 0, i 1, eq_ix2 i⟩
  rw [ysum_apply]
  exact Cert.Spec.dot_real _ _ (fun k => seg_real x0 x6 h0 _) (fun k => h1 _)

/-- The rows of `y_sum` gathered at the destination domains are real. -/
theorem ydst_real (h0 : ∀ i, ∃ y : ℝ, x0 i = (y : EReal)) (h1 : ∀ i, ∃ y : ℝ, x1 i = (y : EReal)) :
    AllReal (val_main_v23 (F := Ideal) x0 x1 x6 x10) := by
  unfold val_main_v23
  exact AllReal.gather (ysum_real x0 x1 x6 h0 h1) _ _

/-- The segment sums of the gathered rows of `x` over the intersections are real. -/
theorem segint_real (h0 : ∀ i, ∃ y : ℝ, x0 i = (y : EReal)) : AllReal (val_main_v14 (F := Ideal) x0 x7 x8) := by
  unfold val_main_v14 val_main_v12 val_main_cst_1 val_main_v11
  exact AllReal.scatterAdd (((nonnegReal_zero S_).allReal).broadcastInDim _ _) (AllReal.gather h0 _ _) _ _

/-- The rows of `x` gathered at the source nodes are real. -/
theorem xsrc_real (h0 : ∀ i, ∃ y : ℝ, x0 i = (y : EReal)) : AllReal (val_main_v31 (F := Ideal) x0 x9) := by
  unfold val_main_v31
  exact AllReal.gather h0 _ _

/-- Every row index below 2^20 is `2e + r` with `r < 2`. -/
theorem row_split (row : Fin 1048576) :
    ∃ (e : Fin 524288) (r : Fin 2) (h : 2 * e.val + r.val < 1048576), row = ⟨2 * e.val + r.val, h⟩ := by
  have hr := row.isLt
  exact ⟨⟨row.val / 2, by omega⟩, ⟨row.val % 2, by omega⟩, by show 2 * (row.val / 2) + row.val % 2 < 1048576; omega,
    Fin.ext (by show row.val = 2 * (row.val / 2) + row.val % 2; omega)⟩

theorem msg_real (h0 : ∀ i, ∃ y : ℝ, x0 i = (y : EReal)) (h1 : ∀ i, ∃ y : ℝ, x1 i = (y : EReal)) (h2 : ∀ i, ∃ y : ℝ, x2 i = (y : EReal)) (h3 : ∀ i, ∃ y : ℝ, x3 i = (y : EReal)) :
    ∀ i, ∃ y : ℝ, val_main_v38 (F := Ideal) x0 x1 x2 x3 x6 x7 x8 x9 x10 i = (y : EReal) := by
  intro i
  obtain ⟨row, j, rfl⟩ : ∃ (row : Fin 1048576) (j : Fin 128), i = ix2 row j := ⟨i 0, i 1, eq_ix2 i⟩
  obtain ⟨e, r, h, rfl⟩ := row_split row
  rw [msg_apply]
  exact Cert.Spec.msg_entry_real _ (ydst_real x0 x1 x6 x10 h0 h1 _) _ _ _ _
    (fun k => segint_real x0 x7 x8 h0 _) (fun k => h2 _) (fun k => xsrc_real x0 x9 h0 _) (fun k => h3 _)

end Cert.RefSide

end
-- ==== Proof.Ref.Bridge.lean ====
/-
  The message array as the kernel stores it is the reference's message array.

  The kernel keeps message e as one row of 256 lanes: lane c holds the gathered dense entry plus the intersection
  product at lane c mod 128, plus the product of the source row with the first transposed half of W_x for c < 128 and
  with the second half otherwise. Row 2e+r, lane j of the reference's array is lane 128 r + j of that row, and the
  transposed half h of W_x at (k, j) is W_x at (128 h + j, k): the two arrays agree entry by entry.
-/
import proofs.«154919_j73332271612005_2_alg».proof.Proof.Gen.ReferenceIdeal.Read
import proofs.«154919_j73332271612005_2_alg».proof.Proof.Spec
import Idealize.ShloMosaic.Lib.ValueIdx
import proofs.«154919_j73332271612005_2_alg».proof.Proof.Gen.KernelIdeal
import proofs.«154919_j73332271612005_2_alg».proof.Proof.MsgSpec
import proofs.«154919_j73332271612005_2_alg».proof.Proof.Ref.Msg
import Idealize.ShloMosaic.Lib.ValueLayout

noncomputable section

namespace Cert.RefSide

open Cert.ReferenceIdeal Cert.ReferenceIdeal.Read Idealize.ShloMosaic Idealize.ShloMosaic.ValueIdx
open scoped BigOperators

/-! ## The two transposed halves of the [256, 128] weight -/

theorem halfT_apply_lo (x3 : Cert.KernelIdeal.S256x128.Idx → EReal) (k j : Fin 128) :
    transpose Cert.KernelIdeal.S128x128 [1, 0] (extractStridedSlice Cert.KernelIdeal.S128x128 ![0, 0] x3 Cert.KernelIdeal.Gen.slices_S256x128_S128x128_0_0) Cert.KernelIdeal.Gen.transposes_S128x128_S128x128_1_0 (ix2 k j) = x3 (ix2 (⟨j.val, by omega⟩ : Fin 256) k) := by
  rw [transpose_apply [1, 0] _ Cert.KernelIdeal.Gen.transposes_S128x128_S128x128_1_0 (ix2 k j) (ix2 j k)
    (fun b => match b with | ⟨0, _⟩ => rfl | ⟨1, _⟩ => rfl)]
  exact slice2_axis0_apply 0 x3 _ j k _ (Nat.zero_add _).symm

theorem halfT_apply_hi (x3 : Cert.KernelIdeal.S256x128.Idx → EReal) (k j : Fin 128) :
    transpose Cert.KernelIdeal.S128x128 [1, 0] (extractStridedSlice Cert.KernelIdeal.S128x128 ![128, 0] x3 Cert.KernelIdeal.Gen.slices_S256x128_S128x128_128_0) Cert.KernelIdeal.Gen.transposes_S128x128_S128x128_1_0 (ix2 k j) = x3 (ix2 (⟨128 + j.val, by omega⟩ : Fin 256) k) := by
  rw [transpose_apply [1, 0] _ Cert.KernelIdeal.Gen.transposes_S128x128_S128x128_1_0 (ix2 k j) (ix2 j k)
    (fun b => match b with | ⟨0, _⟩ => rfl | ⟨1, _⟩ => rfl)]
  exact slice2_axis0_apply 128 x3 _ j k _ rfl

/-! ## The stored array at row 2e+r, lane j -/

/-- Row `2e+r`, lane `j` of the stored array, in the coordinates `(e, r, j)`. -/
theorem msgRow_msgArr (Yd Si Xs : (⟨2, ![524288, 128]⟩ : Shape).Idx → EReal)
    (W0 W1 Wi : (⟨2, ![128, 128]⟩ : Shape).Idx → EReal) (e : Fin 524288) (r : Fin 2) (j : Fin 128)
    (h : 2 * e.val + r.val < 1048576) :
    Cert.Spec.msgRow (Cert.Spec.msgArr Yd Si Xs W0 W1 Wi) ⟨2 * e.val + r.val, h⟩ j
      = (Yd (ix2 e j) + ∑ k : Fin 128, Si (ix2 e k) * Wi (ix2 k j))
        + ∑ k : Fin 128, Xs (ix2 e k) * (if r.val = 0 then W0 (ix2 k j) else W1 (ix2 k j)) := by
  have he := e.isLt; have hr := r.isLt; have hj := j.isLt
  have hE' : (2 * e.val + r.val) / 2 < 524288 := by omega
  have hJ' : (128 * ((2 * e.val + r.val) % 2) + j.val) % 128 < 128 := by omega
  have hE : (⟨(2 * e.val + r.val) / 2, hE'⟩ : Fin 524288) = e := Fin.ext (by show (2 * e.val + r.val) / 2 = e.val; omega)
  have hJ : (⟨(128 * ((2 * e.val + r.val) % 2) + j.val) % 128, hJ'⟩ : Fin 128) = j :=
    Fin.ext (by show (128 * ((2 * e.val + r.val) % 2) + j.val) % 128 = j.val; omega)
  have hI : (128 * ((2 * e.val + r.val) % 2) + j.val < 128) ↔ r.val = 0 := by omega
  show (Yd (ix2 (⟨(2 * e.val + r.val) / 2, hE'⟩ : Fin 524288) (⟨(128 * ((2 * e.val + r.val) % 2) + j.val) % 128, hJ'⟩ : Fin 128)) + ∑ k : Fin 128, Si (ix2 (⟨(2 * e.val + r.val) / 2, hE'⟩ : Fin 524288) k) * Wi (ix2 k (⟨(128 * ((2 * e.val + r.val) % 2) + j.val) % 128, hJ'⟩ : Fin 128)))
        + ∑ k : Fin 128, Xs (ix2 (⟨(2 * e.val + r.val) / 2, hE'⟩ : Fin 524288) k)
            * (if 128 * ((2 * e.val + r.val) % 2) + j.val < 128 then W0 (ix2 k (⟨(128 * ((2 * e.val + r.val) % 2) + j.val) % 128, hJ'⟩ : Fin 128)) else W1 (ix2 k (⟨(128 * ((2 * e.val + r.val) % 2) + j.val) % 128, hJ'⟩ : Fin 128))) = _
  simp only [hE, hJ, hI]

/-- Every row index below 2^20 is `2e + r` with `r < 2`. -/
theorem row_two_mul_add (row : Fin 1048576) :
    ∃ (e : Fin 524288) (r : Fin 2) (h : 2 * e.val + r.val < 1048576), row = ⟨2 * e.val + r.val, h⟩ := by
  have hr := row.isLt
  exact ⟨⟨row.val / 2, by omega⟩, ⟨row.val % 2, by omega⟩, by show 2 * (row.val / 2) + row.val % 2 < 1048576; omega,
    Fin.ext (by show row.val = 2 * (row.val / 2) + row.val % 2; omega)⟩

variable (x0 : (⟨S262144x128, .f32⟩ : BufTy).Contents (Elt Ideal)) (x1 x2 : (⟨S128x128, .f32⟩ : BufTy).Contents (Elt Ideal))
  (x3 : (⟨S256x128, .f32⟩ : BufTy).Contents (Elt Ideal)) (x4 x5 : (⟨S128, .f32⟩ : BufTy).Contents (Elt Ideal))
  (x6 : (⟨S262144, .i32⟩ : BufTy).Contents (Elt Ideal)) (x7 x8 : (⟨S1048576, .i32⟩ : BufTy).Contents (Elt Ideal))
  (x9 x10 : (⟨S524288, .i32⟩ : BufTy).Contents (Elt Ideal))

theorem wint_T (k j : Fin 128) : val_main_v15 (F := Ideal) x2 (ix2 k j) = x2 (ix2 j k) := by
  rw [val_main_v15_apply]
  exact congrArg x2 (funext fun a => match a with | ⟨0, _⟩ => rfl | ⟨1, _⟩ => rfl)

/-- The transposed half `r` of the [256, 128] weight at `(k, j)` is the weight at `(128 r + j, k)`. -/
theorem half_select (x3 : Cert.KernelIdeal.S256x128.Idx → EReal) (r : Fin 2) (j k : Fin 128) :
    (if r.val = 0 then (transpose Cert.KernelIdeal.S128x128 [1, 0] (extractStridedSlice Cert.KernelIdeal.S128x128 ![0, 0] x3 Cert.KernelIdeal.Gen.slices_S256x128_S128x128_0_0) Cert.KernelIdeal.Gen.transposes_S128x128_S128x128_1_0) (ix2 k j)
      else (transpose Cert.KernelIdeal.S128x128 [1, 0] (extractStridedSlice Cert.KernelIdeal.S128x128 ![128, 0] x3 Cert.KernelIdeal.Gen.slices_S256x128_S128x128_128_0) Cert.KernelIdeal.Gen.transposes_S128x128_S128x128_1_0) (ix2 k j))
      = x3 (ix2 (⟨128 * r.val + j.val, by omega⟩ : Fin 256) k) := by
  have hr := r.isLt
  rw [halfT_apply_lo, halfT_apply_hi]
  by_cases h0 : r.val = 0
  · rw [if_pos h0]
    exact congrArg x3 (funext fun a => match a with
      | ⟨0, _⟩ => Fin.ext (by show j.val = 128 * r.val + j.val; omega)
      | ⟨1, _⟩ => rfl)
  · rw [if_neg h0]
    exact congrArg x3 (funext fun a => match a with
      | ⟨0, _⟩ => Fin.ext (by show 128 + j.val = 128 * r.val + j.val; omega)
      | ⟨1, _⟩ => rfl)

theorem msgRow_eq_ref (row : Fin 1048576) (j : Fin 128) :
    Cert.Spec.msgRow (Cert.Spec.msgArr (val_main_v23 (F := Ideal) x0 x1 x6 x10) (val_main_v14 (F := Ideal) x0 x7 x8) (val_main_v31 (F := Ideal) x0 x9)
        (transpose Cert.KernelIdeal.S128x128 [1, 0] (extractStridedSlice Cert.KernelIdeal.S128x128 ![0, 0] x3 Cert.KernelIdeal.Gen.slices_S256x128_S128x128_0_0) Cert.KernelIdeal.Gen.transposes_S128x128_S128x128_1_0)
        (transpose Cert.KernelIdeal.S128x128 [1, 0] (extractStridedSlice Cert.KernelIdeal.S128x128 ![128, 0] x3 Cert.KernelIdeal.Gen.slices_S256x128_S128x128_128_0) Cert.KernelIdeal.Gen.transposes_S128x128_S128x128_1_0)
        (val_main_v15 (F := Ideal) x2)) row j
      = val_main_v38 (F := Ideal) x0 x1 x2 x3 x6 x7 x8 x9 x10 (ix2 row j) := by
  obtain ⟨e, r, h, rfl⟩ := row_two_mul_add row
  rw [msg_apply, msgRow_msgArr]
  simp only [wint_T]
  exact congrArg₂ (· + ·) rfl
    (Finset.sum_congr rfl fun k _ => congrArg₂ (· * ·) rfl (half_select x3 r j k))

end Cert.RefSide

end
-- ==== Proof.Ref.BridgeDense.lean ====
/-
  The first product as the kernel computes it is the reference's y_sum.

  The kernel's first call multiplies the segment sums by the transposed weight, entry (d, j) being
  sum_k seg[d, k] * W^T[k, j]; the reference's product reads the same two arrays at the same entries.
-/
import proofs.«154919_j73332271612005_2_alg».proof.Proof.Gen.ReferenceIdeal.Read
import proofs.«154919_j73332271612005_2_alg».proof.Proof.Spec
import Idealize.ShloMosaic.Lib.ValueIdx
import proofs.«154919_j73332271612005_2_alg».proof.Proof.KernelIdeal.Value0
import proofs.«154919_j73332271612005_2_alg».proof.Proof.Ref.Ysum

noncomputable section

namespace Cert.RefSide

open Cert.ReferenceIdeal Cert.ReferenceIdeal.Read Idealize.ShloMosaic Idealize.ShloMosaic.ValueIdx
open scoped BigOperators

variable (x0 : (⟨S262144x128, .f32⟩ : BufTy).Contents (Elt Ideal)) (x1 x2 : (⟨S128x128, .f32⟩ : BufTy).Contents (Elt Ideal))
  (x3 : (⟨S256x128, .f32⟩ : BufTy).Contents (Elt Ideal)) (x4 x5 : (⟨S128, .f32⟩ : BufTy).Contents (Elt Ideal))
  (x6 : (⟨S262144, .i32⟩ : BufTy).Contents (Elt Ideal)) (x7 x8 : (⟨S1048576, .i32⟩ : BufTy).Contents (Elt Ideal))
  (x9 x10 : (⟨S524288, .i32⟩ : BufTy).Contents (Elt Ideal))

theorem wsum_T (k j : Fin 128) : val_main_v3 (F := Ideal) x1 (ix2 k j) = x1 (ix2 j k) := by
  rw [val_main_v3_apply]
  exact congrArg x1 (funext fun a => match a with | ⟨0, _⟩ => rfl | ⟨1, _⟩ => rfl)

theorem dense_eq_ref : Cert.KernelIdeal.Hand.dense0 (val_main_v2 (F := Ideal) x0 x6) (val_main_v3 (F := Ideal) x1) = val_main_v4 (F := Ideal) x0 x1 x6 := by
  funext i
  obtain ⟨d, j, rfl⟩ : ∃ (d : Fin 65536) (j : Fin 128), i = ix2 d j := ⟨i 0, i 1, eq_ix2 i⟩
  rw [ysum_apply]
  show ∑ k : Fin 128, val_main_v2 (F := Ideal) x0 x6 (ix2 d k) * val_main_v3 (F := Ideal) x1 (ix2 k j) = _
  exact Finset.sum_congr rfl fun k _ => by rw [wsum_T]

end Cert.RefSide

end
-- ==== Proof.KernelIdeal.BridgeCore.lean ====
/-
  The join. Given what the second pallas_call leaves — the message array and the two rows of column sums and column
  sums of squares, all over the arrays the region finds — the kernel's result array is the reference's.
  The message array over the region's inputs is the message array over the reference's own stages (the fold lemmas and
  the first pallas_call's dense product), hence row by row the reference's message array. The last pallas_call's entry
  is then the specification's kernel form at the column's plain sum and sum of squares, which for a column of real
  entries is the reference's form; and that is what the reference's last stage reads.
-/
import proofs.«154919_j73332271612005_2_alg».proof.Proof.KernelIdeal.Folds
import proofs.«154919_j73332271612005_2_alg».proof.Proof.KernelIdeal.HostVals2
import proofs.«154919_j73332271612005_2_alg».proof.Proof.KernelIdeal.SpecReads
import proofs.«154919_j73332271612005_2_alg».proof.Proof.KernelIdeal.Value2
import proofs.«154919_j73332271612005_2_alg».proof.Proof.MsgSpec
import proofs.«154919_j73332271612005_2_alg».proof.Proof.Math.Law
import proofs.«154919_j73332271612005_2_alg».proof.Proof.Ref.Tail
import proofs.«154919_j73332271612005_2_alg».proof.Proof.Ref.FinitePre
import proofs.«154919_j73332271612005_2_alg».proof.Proof.Ref.FiniteMsg
import proofs.«154919_j73332271612005_2_alg».proof.Proof.Ref.Bridge
import proofs.«154919_j73332271612005_2_alg».proof.Proof.Ref.BridgeDense

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo Idealize.ShloMosaic.ValueIdx
open scoped BigOperators

variable [Cert.Pre_finite_inputs.Facts]
variable (m : (ℓ : Loc nD τ sig) → Buf (Elt Ideal) ℓ) (c : Dev nD)

/-- The message array over the arrays the second pallas_call finds is the message array over the reference's stages. -/
theorem msgArr_V3 :
    Cert.Spec.msgArr (V3 m c main_v21 : S524288x128.Idx → EReal) (V3 m c main_v12 : S524288x128.Idx → EReal) (V3 m c main_v28 : S524288x128.Idx → EReal)
        (V3 m c main_v30 : S128x128.Idx → EReal) (V3 m c main_v32 : S128x128.Idx → EReal) (V3 m c main_v33 : S128x128.Idx → EReal)
      = (Cert.Spec.msgArr (Cert.ReferenceIdeal.Read.val_main_v23 (F := Ideal) (m ((c : Thread nD τ).loc main_arg0)) (m ((c : Thread nD τ).loc main_arg1)) (m ((c : Thread nD τ).loc main_arg6)) (m ((c : Thread nD τ).loc main_arg10)))
      (Cert.ReferenceIdeal.Read.val_main_v14 (F := Ideal) (m ((c : Thread nD τ).loc main_arg0)) (m ((c : Thread nD τ).loc main_arg7)) (m ((c : Thread nD τ).loc main_arg8)))
      (Cert.ReferenceIdeal.Read.val_main_v31 (F := Ideal) (m ((c : Thread nD τ).loc main_arg0)) (m ((c : Thread nD τ).loc main_arg9)))
      (transpose S128x128 [1, 0] (extractStridedSlice S128x128 ![0, 0] (m ((c : Thread nD τ).loc main_arg3)) slices_S256x128_S128x128_0_0) transposes_S128x128_S128x128_1_0)
      (transpose S128x128 [1, 0] (extractStridedSlice S128x128 ![128, 0] (m ((c : Thread nD τ).loc main_arg3)) slices_S256x128_S128x128_128_0) transposes_S128x128_S128x128_1_0)
      (Cert.ReferenceIdeal.Read.val_main_v15 (F := Ideal) (m ((c : Thread nD τ).loc main_arg2)))) := by
  rw [V3_v21 m c, W2_v14 m c, Cert.RefSide.dense_eq_ref, ← ref_v23_eq, V3_v12 m c, V3_v28 m c, V3_v30 m c, V3_v32 m c, V3_v33 m c]

/-- A row of the re-laid message array is the row of the stored one. -/
theorem relaid_apply (A : S524288x256.Idx → EReal) (row : Fin 1048576) (j : Fin 128) :
    shapeCast S1048576x128 A shapeCasts_S524288x256_S1048576x128 (ix2 row j) = Cert.Spec.msgRow A row j :=
  shapeCast_apply A shapeCasts_S524288x256_S1048576x128 (ix2 row j) _
    (by rewrite [Shape.rowMajor_val_two, Shape.rowMajor_val_two]
        show row.val / 2 * 256 + (128 * (row.val % 2) + j.val) = row.val * 128 + j.val
        omega)

/-- THE RESULT, given the second pallas_call's three outputs. -/
theorem result_eq_of
    (h6 : (W4 m c (Proc.devRef .tc main_v34_0) : S524288x256.Idx → EReal)
      = Cert.Spec.msgArr (V3 m c main_v21 : S524288x128.Idx → EReal) (V3 m c main_v12 : S524288x128.Idx → EReal) (V3 m c main_v28 : S524288x128.Idx → EReal)
          (V3 m c main_v30 : S128x128.Idx → EReal) (V3 m c main_v32 : S128x128.Idx → EReal) (V3 m c main_v33 : S128x128.Idx → EReal))
    (h7 : (W4 m c (Proc.devRef .tc main_v34_1) : S1x128.Idx → EReal)
      = fun i => ∑ row : Fin 1048576, Cert.Spec.msgRow (W4 m c (Proc.devRef .tc main_v34_0) : S524288x256.Idx → EReal) row (i 1))
    (h8 : (W4 m c (Proc.devRef .tc main_v34_2) : S1x128.Idx → EReal)
      = fun i => ∑ row : Fin 1048576, Cert.Spec.msgRow (W4 m c (Proc.devRef .tc main_v34_0) : S524288x256.Idx → EReal) row (i 1)
          * Cert.Spec.msgRow (W4 m c (Proc.devRef .tc main_v34_0) : S524288x256.Idx → EReal) row (i 1))
    (hpre : Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) = (fun _ => 1#1)) :
    (W6 m c (Proc.devRef .tc main_v54) : S1048576x128.Idx → EReal)
      = Cert.ReferenceIdeal.Read.val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  obtain ⟨h0, h1, h2, h3, h4, h5⟩ := Cert.RefSide.finite_of_pre _ _ _ _ _ _ _ _ _ _ _ hpre
  have hA : (W4 m c (Proc.devRef .tc main_v34_0) : S524288x256.Idx → EReal) = (Cert.Spec.msgArr (Cert.ReferenceIdeal.Read.val_main_v23 (F := Ideal) (m ((c : Thread nD τ).loc main_arg0)) (m ((c : Thread nD τ).loc main_arg1)) (m ((c : Thread nD τ).loc main_arg6)) (m ((c : Thread nD τ).loc main_arg10)))
      (Cert.ReferenceIdeal.Read.val_main_v14 (F := Ideal) (m ((c : Thread nD τ).loc main_arg0)) (m ((c : Thread nD τ).loc main_arg7)) (m ((c : Thread nD τ).loc main_arg8)))
      (Cert.ReferenceIdeal.Read.val_main_v31 (F := Ideal) (m ((c : Thread nD τ).loc main_arg0)) (m ((c : Thread nD τ).loc main_arg9)))
      (transpose S128x128 [1, 0] (extractStridedSlice S128x128 ![0, 0] (m ((c : Thread nD τ).loc main_arg3)) slices_S256x128_S128x128_0_0) transposes_S128x128_S128x128_1_0)
      (transpose S128x128 [1, 0] (extractStridedSlice S128x128 ![128, 0] (m ((c : Thread nD τ).loc main_arg3)) slices_S256x128_S128x128_128_0) transposes_S128x128_S128x128_1_0)
      (Cert.ReferenceIdeal.Read.val_main_v15 (F := Ideal) (m ((c : Thread nD τ).loc main_arg2)))) := h6.trans (msgArr_V3 m c)
  have hrow : ∀ (row : Fin 1048576) (j : Fin 128),
      Cert.Spec.msgRow (W4 m c (Proc.devRef .tc main_v34_0) : S524288x256.Idx → EReal) row j = (Cert.ReferenceIdeal.Read.val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10))) (ix2 row j) := fun row j => by
    rw [hA]; exact Cert.RefSide.msgRow_eq_ref _ _ _ _ _ _ _ _ _ row j
  have e35 : (V5 m c main_v35 : S1048576x128.Idx → EReal)
      = shapeCast S1048576x128 (W4 m c (Proc.devRef .tc main_v34_0) : S524288x256.Idx → EReal) shapeCasts_S524288x256_S1048576x128 := host2_v35 (W4 m c)
  have e52 : (V5 m c main_v52 : S1x128.Idx → EReal)
      = shapeCast S1x128 (scaleV (W4 m c (Proc.devRef .tc main_v34_1)) (W4 m c (Proc.devRef .tc main_v34_2)) (m ((c : Thread nD τ).loc main_arg4))) shapeCasts_S128_S1x128 := by
    rw [← W4_arg4 m c]; exact host2_v52 (W4 m c)
  have e53 : (V5 m c main_v53 : S1x128.Idx → EReal)
      = shapeCast S1x128 (offsetV (W4 m c (Proc.devRef .tc main_v34_1)) (W4 m c (Proc.devRef .tc main_v34_2)) (m ((c : Thread nD τ).loc main_arg4)) (m ((c : Thread nD τ).loc main_arg5))) shapeCasts_S128_S1x128 := by
    rw [← W4_arg4 m c, ← W4_arg5 m c]; exact host2_v53 (W4 m c)
  refine ((W6_arr m c 3).trans (final2_3 (V5 m) c)).trans ?_
  rw [e35, e52, e53]
  funext i
  obtain ⟨row, j, rfl⟩ : ∃ (row : Fin 1048576) (j : Fin 128), i = ix2 row j := ⟨i 0, i 1, eq_ix2 i⟩
  refine (affine_outK _ _ _ _ _ j).trans ?_
  have h7j : @Eq EReal ((W4 m c (Proc.devRef .tc main_v34_1) : S1x128.Idx → EReal) (ix2 (0 : Fin 1) j))
      (∑ r : Fin 1048576, (Cert.ReferenceIdeal.Read.val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10))) (ix2 r j)) := by
    rw [h7]; exact Finset.sum_congr rfl (fun r _ => hrow r j)
  have h8j : @Eq EReal ((W4 m c (Proc.devRef .tc main_v34_2) : S1x128.Idx → EReal) (ix2 (0 : Fin 1) j))
      (∑ r : Fin 1048576, (Cert.ReferenceIdeal.Read.val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10))) (ix2 r j) * (Cert.ReferenceIdeal.Read.val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10))) (ix2 r j)) := by
    rw [h8]
    refine Finset.sum_congr rfl (fun r _ => ?_)
    show Cert.Spec.msgRow (W4 m c (Proc.devRef .tc main_v34_0) : S524288x256.Idx → EReal) r j
        * Cert.Spec.msgRow (W4 m c (Proc.devRef .tc main_v34_0) : S524288x256.Idx → EReal) r j = _
    rw [hrow r j]
  rw [relaid_apply, hrow row j, h7j, h8j]
  have key := Cert.Spec.outK_eq_outR (fun r : Fin 1048576 => (Cert.ReferenceIdeal.Read.val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10))) (ix2 r j))
    (fun r => Cert.RefSide.msg_real (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) h0 h1 h2 h3 (ix2 r j))
    ((m ((c : Thread nD τ).loc main_arg4)) (ix1 j)) ((m ((c : Thread nD τ).loc main_arg5)) (ix1 j)) (h4 (ix1 j)) (h5 (ix1 j)) row
  have ref := Cert.RefSide.out_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) row j
  exact key.trans ref.symm

end Cert.KernelIdeal.Hand

end
-- ==== Proof.KernelIdeal.Value1Pieces.lean ====
/-
  What each control case of the combine step leaves in the message tile, the two scratch rows and the two one-row
  outputs, as values of the loaded blocks. Every case stores the same message tile: the two lane halves. Every case
  leaves in a scratch row what the row held plus the tile's column sums (of squares, for the second row); the first
  point's "what the row held" is the zero row it has just stored, and the last point copies the rows' new contents
  to the one-row outputs.
-/
import proofs.«154919_j73332271612005_2_alg».proof.Proof.KernelIdeal.Region1
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem Idealize.ShloMosaic.Tactic
open Idealize.ShloMosaic.ValueIdx
open Idealize.ShloMosaic.Pipeline (Dat)

variable {F : FTy → Type} [FloatOps F]

theorem value1_hz : (![0, 0] : Fin 2 → Nat) = fun _ => 0 := funext fun a => by fin_cases a <;> rfl

/-- The message tile every case stores: lanes 128–255 hold the second rows, lanes 0–127 the first rows. -/
def value1_tile (x0 x1 x2 : Vec F S4096x128 .f32) (x3 x4 x5 : Vec F S128x128 .f32) : Vec F S4096x256 .bf16 :=
  View.canon [⟨Rect.unit (s := S4096x256) ![0, 128] S4096x128.size inb_S4096x256_S4096x128_0_128, k1_pay10 x1 x5 x0 x2 x4⟩,
    ⟨Rect.unit (s := S4096x256) ![0, 0] S4096x128.size inb_S4096x256_S4096x128_0_0, k1_pay9 x1 x5 x0 x2 x3⟩]

/-- The first scratch row after a point: what it held plus the column sums of the first and of the second rows. -/
def value1_row0 (x0 x1 x2 : Vec F S4096x128 .f32) (x3 x4 x5 : Vec F S128x128 .f32) (z : Vec F S1x128 .f32) : Vec F S1x128 .f32 :=
  k1_pay1 (k1_pay11 x1 x5 x0 x2 x3) (k1_pay12 x1 x5 x0 x2 x4) z

/-- The second scratch row after a point: what it held plus the column sums of the squares. -/
def value1_row1 (x0 x1 x2 : Vec F S4096x128 .f32) (x3 x4 x5 : Vec F S128x128 .f32) (z : Vec F S1x128 .f32) : Vec F S1x128 .f32 :=
  k1_pay2 (k1_pay7 x1 x5 x0 x2 x3) (k1_pay8 x1 x5 x0 x2 x4) z

theorem value1_out1_A_6 (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4096x256 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond1_0 i) (hc1 : ¬cond1_1 i) (x0 x1 x2 : Vec F S4096x128 .f32) (x3 x4 x5 : Vec F S128x128 .f32) :
    out1_A_6 c i arg1 harg1 arg2 harg2 arg3 harg3 arg4 harg4 arg5 harg5 arg6 harg6 arg7 harg7 arg8 harg8 arg9 harg9 arg10 harg10 arg11 harg11 hc0 hc1 x0 x1 x2 x3 x4 x5 = value1_tile x0 x1 x2 x3 x4 x5 := by
  unfold out1_A_6
  rw [View.read_writes_eq_canon _ _ _ (cover1_A_6 c i arg1 harg1 arg2 harg2 arg3 harg3 arg4 harg4 arg5 harg5 arg6 harg6 arg7 harg7 arg8 harg8 arg9 harg9 arg10 harg10 arg11 harg11 hc0 hc1 x0 x1 x2 x3 x4 x5)]
  unfold kernelRun1_A
  dsimp only
  sl_unfold_words
  unfold value1_tile
  simp only [View.readAt_eq_ld, harg1.read_unread, harg2.read_unread, harg3.read_unread, harg4.read_unread, harg5.read_unread, harg6.read_unread, harg10.read_unread, harg11.read_unread, View.ld_unit_zero (S := S1x128) value1_hz, View.ld_unit_zero (S := S4096x128) value1_hz, View.ld_unit_zero (S := S128x128) value1_hz]
theorem value1_sout1_A_0 (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4096x256 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond1_0 i) (hc1 : ¬cond1_1 i) (x0 x1 x2 : Vec F S4096x128 .f32) (x3 x4 x5 : Vec F S128x128 .f32) :
    sout1_A_0 c i arg1 harg1 arg2 harg2 arg3 harg3 arg4 harg4 arg5 harg5 arg6 harg6 arg7 harg7 arg8 harg8 arg9 harg9 arg10 harg10 arg11 harg11 hc0 hc1 x0 x1 x2 x3 x4 x5 = value1_row0 x0 x1 x2 x3 x4 x5 (k1_pay3 (F := F)) := by
  unfold sout1_A_0
  rw [View.read_writes_eq_canon _ _ _ (scover1_A_0 c i arg1 harg1 arg2 harg2 arg3 harg3 arg4 harg4 arg5 harg5 arg6 harg6 arg7 harg7 arg8 harg8 arg9 harg9 arg10 harg10 arg11 harg11 hc0 hc1 x0 x1 x2 x3 x4 x5)]
  unfold kernelRun1_A
  dsimp only
  sl_unfold_words
  rw [View.canon_cons_unit_zero (S := S1x128) value1_hz, View.readCov_unit_zero (S := S1x128) _ value1_hz]
  simp only [View.readAt_eq_ld, harg1.read_unread, harg2.read_unread, harg3.read_unread, harg4.read_unread, harg5.read_unread, harg6.read_unread, harg10.read_unread, harg11.read_unread, View.ld_unit_zero (S := S1x128) value1_hz, View.ld_unit_zero (S := S4096x128) value1_hz, View.ld_unit_zero (S := S128x128) value1_hz]
  rfl
theorem value1_sout1_A_1 (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4096x256 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond1_0 i) (hc1 : ¬cond1_1 i) (x0 x1 x2 : Vec F S4096x128 .f32) (x3 x4 x5 : Vec F S128x128 .f32) :
    sout1_A_1 c i arg1 harg1 arg2 harg2 arg3 harg3 arg4 harg4 arg5 harg5 arg6 harg6 arg7 harg7 arg8 harg8 arg9 harg9 arg10 harg10 arg11 harg11 hc0 hc1 x0 x1 x2 x3 x4 x5 = value1_row1 x0 x1 x2 x3 x4 x5 (k1_pay4 (F := F)) := by
  unfold sout1_A_1
  rw [View.read_writes_eq_canon _ _ _ (scover1_A_1 c i arg1 harg1 arg2 harg2 arg3 harg3 arg4 harg4 arg5 harg5 arg6 harg6 arg7 harg7 arg8 harg8 arg9 harg9 arg10 harg10 arg11 harg11 hc0 hc1 x0 x1 x2 x3 x4 x5)]
  unfold kernelRun1_A
  dsimp only
  sl_unfold_words
  rw [View.canon_cons_unit_zero (S := S1x128) value1_hz, View.readCov_unit_zero (S := S1x128) _ value1_hz]
  simp only [View.readAt_eq_ld, harg1.read_unread, harg2.read_unread, harg3.read_unread, harg4.read_unread, harg5.read_unread, harg6.read_unread, harg10.read_unread, harg11.read_unread, View.ld_unit_zero (S := S1x128) value1_hz, View.ld_unit_zero (S := S4096x128) value1_hz, View.ld_unit_zero (S := S128x128) value1_hz]
  rfl
theorem value1_out1_B_6 (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4096x256 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : ¬cond1_1 i) (x0 x1 x2 : Vec F S4096x128 .f32) (x3 x4 x5 : Vec F S128x128 .f32) (xs0 xs1 : Vec F S1x128 .f32) :
    out1_B_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = value1_tile x0 x1 x2 x3 x4 x5 := by
  unfold out1_B_6
  rw [View.read_writes_eq_canon _ _ _ (cover1_B_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun1_B
  dsimp only
  sl_unfold_words
  unfold value1_tile
  simp only [View.readAt_eq_ld, harg1.read_unread, harg2.read_unread, harg3.read_unread, harg4.read_unread, harg5.read_unread, harg6.read_unread, harg10.read_unread, harg11.read_unread, View.ld_unit_zero (S := S1x128) value1_hz, View.ld_unit_zero (S := S4096x128) value1_hz, View.ld_unit_zero (S := S128x128) value1_hz]
theorem value1_sout1_B_0 (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4096x256 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : ¬cond1_1 i) (x0 x1 x2 : Vec F S4096x128 .f32) (x3 x4 x5 : Vec F S128x128 .f32) (xs0 xs1 : Vec F S1x128 .f32) :
    sout1_B_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = value1_row0 x0 x1 x2 x3 x4 x5 xs0 := by
  unfold sout1_B_0
  rw [View.read_writes_eq_canon _ _ _ (scover1_B_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun1_B
  dsimp only
  sl_unfold_words
  rw [View.canon_unit_zero value1_hz]
  simp only [View.readAt_eq_ld, harg1.read_unread, harg2.read_unread, harg3.read_unread, harg4.read_unread, harg5.read_unread, harg6.read_unread, harg10.read_unread, harg11.read_unread, View.ld_unit_zero (S := S1x128) value1_hz, View.ld_unit_zero (S := S4096x128) value1_hz, View.ld_unit_zero (S := S128x128) value1_hz]
  rfl
theorem value1_sout1_B_1 (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4096x256 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : ¬cond1_1 i) (x0 x1 x2 : Vec F S4096x128 .f32) (x3 x4 x5 : Vec F S128x128 .f32) (xs0 xs1 : Vec F S1x128 .f32) :
    sout1_B_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = value1_row1 x0 x1 x2 x3 x4 x5 xs1 := by
  unfold sout1_B_1
  rw [View.read_writes_eq_canon _ _ _ (scover1_B_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun1_B
  dsimp only
  sl_unfold_words
  rw [View.canon_unit_zero value1_hz]
  simp only [View.readAt_eq_ld, harg1.read_unread, harg2.read_unread, harg3.read_unread, harg4.read_unread, harg5.read_unread, harg6.read_unread, harg10.read_unread, harg11.read_unread, View.ld_unit_zero (S := S1x128) value1_hz, View.ld_unit_zero (S := S4096x128) value1_hz, View.ld_unit_zero (S := S128x128) value1_hz]
  rfl
theorem value1_out1_C_6 (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4096x256 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : cond1_1 i) (x0 x1 x2 : Vec F S4096x128 .f32) (x3 x4 x5 : Vec F S128x128 .f32) (xs0 xs1 : Vec F S1x128 .f32) :
    out1_C_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = value1_tile x0 x1 x2 x3 x4 x5 := by
  unfold out1_C_6
  rw [View.read_writes_eq_canon _ _ _ (cover1_C_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun1_C
  dsimp only
  sl_unfold_words
  unfold value1_tile
  simp only [View.readAt_eq_ld, harg1.read_unread, harg2.read_unread, harg3.read_unread, harg4.read_unread, harg5.read_unread, harg6.read_unread, harg10.read_unread, harg11.read_unread, View.ld_unit_zero (S := S1x128) value1_hz, View.ld_unit_zero (S := S4096x128) value1_hz, View.ld_unit_zero (S := S128x128) value1_hz]
theorem value1_out1_C_7 (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4096x256 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : cond1_1 i) (x0 x1 x2 : Vec F S4096x128 .f32) (x3 x4 x5 : Vec F S128x128 .f32) (xs0 xs1 : Vec F S1x128 .f32) :
    out1_C_7 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = value1_row0 x0 x1 x2 x3 x4 x5 xs0 := by
  unfold out1_C_7
  rw [View.read_writes_eq_canon _ _ _ (cover1_C_7 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun1_C
  dsimp only
  sl_unfold_words
  rw [View.canon_unit_zero value1_hz, View.readCov_unit_zero (S := S1x128) _ value1_hz]
  simp only [View.readAt_eq_ld, harg1.read_unread, harg2.read_unread, harg3.read_unread, harg4.read_unread, harg5.read_unread, harg6.read_unread, harg10.read_unread, harg11.read_unread, View.ld_unit_zero (S := S1x128) value1_hz, View.ld_unit_zero (S := S4096x128) value1_hz, View.ld_unit_zero (S := S128x128) value1_hz]
  rfl
theorem value1_out1_C_8 (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4096x256 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : cond1_1 i) (x0 x1 x2 : Vec F S4096x128 .f32) (x3 x4 x5 : Vec F S128x128 .f32) (xs0 xs1 : Vec F S1x128 .f32) :
    out1_C_8 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = value1_row1 x0 x1 x2 x3 x4 x5 xs1 := by
  unfold out1_C_8
  rw [View.read_writes_eq_canon _ _ _ (cover1_C_8 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun1_C
  dsimp only
  sl_unfold_words
  rw [View.canon_unit_zero value1_hz, View.readCov_unit_zero (S := S1x128) _ value1_hz]
  simp only [View.readAt_eq_ld, harg1.read_unread, harg2.read_unread, harg3.read_unread, harg4.read_unread, harg5.read_unread, harg6.read_unread, harg10.read_unread, harg11.read_unread, View.ld_unit_zero (S := S1x128) value1_hz, View.ld_unit_zero (S := S4096x128) value1_hz, View.ld_unit_zero (S := S128x128) value1_hz]
  rfl
theorem value1_sout1_C_0 (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4096x256 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : cond1_1 i) (x0 x1 x2 : Vec F S4096x128 .f32) (x3 x4 x5 : Vec F S128x128 .f32) (xs0 xs1 : Vec F S1x128 .f32) :
    sout1_C_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = value1_row0 x0 x1 x2 x3 x4 x5 xs0 := by
  unfold sout1_C_0
  rw [View.read_writes_eq_canon _ _ _ (scover1_C_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun1_C
  dsimp only
  sl_unfold_words
  rw [View.canon_unit_zero value1_hz]
  simp only [View.readAt_eq_ld, harg1.read_unread, harg2.read_unread, harg3.read_unread, harg4.read_unread, harg5.read_unread, harg6.read_unread, harg10.read_unread, harg11.read_unread, View.ld_unit_zero (S := S1x128) value1_hz, View.ld_unit_zero (S := S4096x128) value1_hz, View.ld_unit_zero (S := S128x128) value1_hz]
  rfl
theorem value1_sout1_C_1 (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S4096x256 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : cond1_1 i) (x0 x1 x2 : Vec F S4096x128 .f32) (x3 x4 x5 : Vec F S128x128 .f32) (xs0 xs1 : Vec F S1x128 .f32) :
    sout1_C_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = value1_row1 x0 x1 x2 x3 x4 x5 xs1 := by
  unfold sout1_C_1
  rw [View.read_writes_eq_canon _ _ _ (scover1_C_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun1_C
  dsimp only
  sl_unfold_words
  rw [View.canon_unit_zero value1_hz]
  simp only [View.readAt_eq_ld, harg1.read_unread, harg2.read_unread, harg3.read_unread, harg4.read_unread, harg5.read_unread, harg6.read_unread, harg10.read_unread, harg11.read_unread, View.ld_unit_zero (S := S1x128) value1_hz, View.ld_unit_zero (S := S4096x128) value1_hz, View.ld_unit_zero (S := S128x128) value1_hz]
  rfl

end Cert.KernelIdeal.Hand

end
-- ==== Proof.KernelIdeal.Value1Scr.lean ====
/-
  The two scratch rows of the combine step from point to point. At the first point each row is the zero row the
  body has just stored plus that point's column sums; at every later point it is what the point before left plus
  that point's column sums; and at the last point the two one-row outputs receive the rows' new contents.
-/
import proofs.«154919_j73332271612005_2_alg».proof.Proof.KernelIdeal.Value1Pieces

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (V : (c : Dev nD) → (b : Ref sig .tc) → Buf (Elt F) ((c : Thread nD τ).loc b))

/-- The scratch rows after the first point. -/
theorem value1_scr_zero (c : Dev nD) (t : Fin cfg1.N) (hz : t.val = 0) :
    (outsAt1 V c t.val t.isLt).2.2.2.1 = value1_row0 (iblk1 V c 0 t) (iblk1 V c 1 t) (iblk1 V c 2 t) (iblk1 V c 3 t) (iblk1 V c 4 t) (iblk1 V c 5 t) (k1_pay3 (F := F))
    ∧ (outsAt1 V c t.val t.isLt).2.2.2.2 = value1_row1 (iblk1 V c 0 t) (iblk1 V c 1 t) (iblk1 V c 2 t) (iblk1 V c 3 t) (iblk1 V c 4 t) (iblk1 V c 5 t) (k1_pay4 (F := F)) := by
  have hN : t.val < 128 := lt_of_lt_of_eq t.isLt (show cfg1.N = 128 from N_1)
  have h0 : cond1_0 (grid1.coords t) := (hcond1_0 t).mpr (by rw [hz])
  have h1 : ¬cond1_1 (grid1.coords t) := fun h => by have h' := (hcond1_1 t).mp h; omega
  rw [outsAt1_A V c t hz h0 h1]
  dsimp only
  exact ⟨value1_sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) h0 h1 (iblk1 V c 0 t) (iblk1 V c 1 t) (iblk1 V c 2 t) (iblk1 V c 3 t) (iblk1 V c 4 t) (iblk1 V c 5 t), value1_sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) h0 h1 (iblk1 V c 0 t) (iblk1 V c 1 t) (iblk1 V c 2 t) (iblk1 V c 3 t) (iblk1 V c 4 t) (iblk1 V c 5 t)⟩

/-- The scratch rows after a later point, from what the point before left. -/
theorem value1_scr_succ (c : Dev nD) (t : Fin cfg1.N) (hz : t.val ≠ 0) :
    (outsAt1 V c t.val t.isLt).2.2.2.1 = value1_row0 (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.2.1
    ∧ (outsAt1 V c t.val t.isLt).2.2.2.2 = value1_row1 (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.2.2 := by
  have hN : t.val < 128 := lt_of_lt_of_eq t.isLt (show cfg1.N = 128 from N_1)
  by_cases hl : t.val % 128 = 127
  · have h0 : ¬cond1_0 (grid1.coords t) := fun h => by have h' := (hcond1_0 t).mp h; omega
    have h1 : cond1_1 (grid1.coords t) := (hcond1_1 t).mpr hl
    rw [outsAt1_C V c t hz hl h0 h1]
    dsimp only
    exact ⟨value1_sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) h0 h1 (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, value1_sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) h0 h1 (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.2.1 (outsAt1 V c (t.val - 1) (Nat.lt_of_le_of_lt (Nat.sub_le _ _) t.isLt)).2.2.2.2⟩
  · have h0 : ¬cond1_0 (grid1.coords t) := fun h => by have h' := (hcond1_0 t).mp h; omega
    have h1 : ¬cond1_1 (grid1.coords t) := fun h => hl ((hcond1_1 t).mp h)
    rw [outsAt1_B V c t hz hl h0 h1]
    dsimp only
    exact ⟨value1_sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) h0 h1 (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, value1_sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) h0 h1 (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.2.1 (outsAt1 V c (t.val - 1) (Nat.lt_of_le_of_lt (Nat.sub_le _ _) t.isLt)).2.2.2.2⟩

/-- At the last point the one-row outputs receive the scratch rows' new contents. -/
theorem value1_out78 (c : Dev nD) (t : Fin cfg1.N) (hl : t.val % 128 = 127) :
    (outsAt1 V c t.val t.isLt).2.1 = (outsAt1 V c t.val t.isLt).2.2.2.1
    ∧ (outsAt1 V c t.val t.isLt).2.2.1 = (outsAt1 V c t.val t.isLt).2.2.2.2 := by
  have hN : t.val < 128 := lt_of_lt_of_eq t.isLt (show cfg1.N = 128 from N_1)
  have hz : t.val ≠ 0 := by omega
  have h0 : ¬cond1_0 (grid1.coords t) := fun h => by have h' := (hcond1_0 t).mp h; omega
  have h1 : cond1_1 (grid1.coords t) := (hcond1_1 t).mpr hl
  rw [outsAt1_C V c t hz hl h0 h1]
  dsimp only
  exact ⟨(value1_out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) h0 h1 (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.2.1 (outsAt1 V c (t.val - 1) (Nat.lt_of_le_of_lt (Nat.sub_le _ _) t.isLt)).2.2.2.2).trans (value1_sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) h0 h1 (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.2.1 (outsAt1 V c (t.val - 1) (Nat.lt_of_le_of_lt (Nat.sub_le _ _) t.isLt)).2.2.2.2).symm,
    (value1_out1_C_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) h0 h1 (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.2.1 (outsAt1 V c (t.val - 1) (Nat.lt_of_le_of_lt (Nat.sub_le _ _) t.isLt)).2.2.2.2).trans (value1_sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) h0 h1 (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.2.1 (outsAt1 V c (t.val - 1) (Nat.lt_of_le_of_lt (Nat.sub_le _ _) t.isLt)).2.2.2.2).symm⟩

end Cert.KernelIdeal.Hand

end
-- ==== Proof.KernelIdeal.Value1Blocks.lean ====
/-
  The combine step's input blocks as parts of their arrays, and the message tile every point stores. The three
  row-tiled windows' blocks at point `t` are rows `4096 t … 4096 t + 4095` of their arrays, the three weight windows'
  blocks are the whole matrices, and whatever the control case the message tile after the body is the same function
  of the six blocks.
-/
import proofs.«154919_j73332271612005_2_alg».proof.Proof.KernelIdeal.Value1Pieces

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

/-- The printed index maps of the row-tiled windows over the 128 points: block row `t`, column 0. -/
theorem value1_idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_6.index t (0 : Fin 2) = t.val ∧ win1_6.index t (1 : Fin 2) = 0 :=
  (by decide +kernel : ∀ t : Fin grid1.N, _)

/-- The printed index maps of the windows every point reads or writes whole: block (0, 0). -/
theorem value1_idxw : ∀ t : Fin cfg1.N, win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

section
variable (V : (c : Dev nD) → (b : Ref sig .tc) → Buf (Elt Ideal) ((c : Thread nD τ).loc b))

/-- Window 0's block at point `t` is rows `4096 t …` of its array. -/
theorem value1_iblk_0 (c : Dev nD) (t : Fin cfg1.N) (y : S4096x128.Idx) (z : S524288x128.Idx)
    (hz0 : (z 0).val = t.val * 4096 + (y 0).val) (hz1 : (z 1).val = (y 1).val) :
    (iblk1 (F := Ideal) V c 0 t : Vec Ideal S4096x128 .f32) y = (V c main_v21 : S524288x128.Idx → EReal) z := by
  have e0 : win1_0.index t (0 : Fin 2) = t.val := (value1_idx1 t).1
  have e1 : win1_0.index t (1 : Fin 2) = 0 := (value1_idx1 t).2.1
  unfold iblk1
  rw [View.read_apply]
  show (V c main_v21 : S524288x128.Idx → EReal) _ = (V c main_v21 : S524288x128.Idx → EReal) _
  congr 1
  funext a
  apply Fin.ext
  match a with
  | ⟨0, _⟩ => show win1_0.index t (0 : Fin 2) * 4096 + 1 * (y 0).val = (z 0).val; rw [e0, hz0]; omega
  | ⟨1, _⟩ => show win1_0.index t (1 : Fin 2) * 128 + 1 * (y 1).val = (z 1).val; rw [e1, hz1]; omega

/-- Window 1's block at point `t` is rows `4096 t …` of its array. -/
theorem value1_iblk_1 (c : Dev nD) (t : Fin cfg1.N) (y : S4096x128.Idx) (z : S524288x128.Idx)
    (hz0 : (z 0).val = t.val * 4096 + (y 0).val) (hz1 : (z 1).val = (y 1).val) :
    (iblk1 (F := Ideal) V c 1 t : Vec Ideal S4096x128 .f32) y = (V c main_v12 : S524288x128.Idx → EReal) z := by
  have e0 : win1_1.index t (0 : Fin 2) = t.val := (value1_idx1 t).2.2.1
  have e1 : win1_1.index t (1 : Fin 2) = 0 := (value1_idx1 t).2.2.2.1
  unfold iblk1
  rw [View.read_apply]
  show (V c main_v12 : S524288x128.Idx → EReal) _ = (V c main_v12 : S524288x128.Idx → EReal) _
  congr 1
  funext a
  apply Fin.ext
  match a with
  | ⟨0, _⟩ => show win1_1.index t (0 : Fin 2) * 4096 + 1 * (y 0).val = (z 0).val; rw [e0, hz0]; omega
  | ⟨1, _⟩ => show win1_1.index t (1 : Fin 2) * 128 + 1 * (y 1).val = (z 1).val; rw [e1, hz1]; omega

/-- Window 2's block at point `t` is rows `4096 t …` of its array. -/
theorem value1_iblk_2 (c : Dev nD) (t : Fin cfg1.N) (y : S4096x128.Idx) (z : S524288x128.Idx)
    (hz0 : (z 0).val = t.val * 4096 + (y 0).val) (hz1 : (z 1).val = (y 1).val) :
    (iblk1 (F := Ideal) V c 2 t : Vec Ideal S4096x128 .f32) y = (V c main_v28 : S524288x128.Idx → EReal) z := by
  have e0 : win1_2.index t (0 : Fin 2) = t.val := (value1_idx1 t).2.2.2.2.1
  have e1 : win1_2.index t (1 : Fin 2) = 0 := (value1_idx1 t).2.2.2.2.2.1
  unfold iblk1
  rw [View.read_apply]
  show (V c main_v28 : S524288x128.Idx → EReal) _ = (V c main_v28 : S524288x128.Idx → EReal) _
  congr 1
  funext a
  apply Fin.ext
  match a with
  | ⟨0, _⟩ => show win1_2.index t (0 : Fin 2) * 4096 + 1 * (y 0).val = (z 0).val; rw [e0, hz0]; omega
  | ⟨1, _⟩ => show win1_2.index t (1 : Fin 2) * 128 + 1 * (y 1).val = (z 1).val; rw [e1, hz1]; omega

/-- Window 3's block at every point is its whole weight matrix. -/
theorem value1_iblk_3 (c : Dev nD) (t : Fin cfg1.N) (y : S128x128.Idx) :
    (iblk1 (F := Ideal) V c 3 t : Vec Ideal S128x128 .f32) y = (V c main_v30 : S128x128.Idx → EReal) y := by
  have e0 : win1_3.index t (0 : Fin 2) = 0 := (value1_idxw t).1
  have e1 : win1_3.index t (1 : Fin 2) = 0 := (value1_idxw t).2.1
  unfold iblk1
  rw [View.read_apply]
  show (V c main_v30 : S128x128.Idx → EReal) _ = (V c main_v30 : S128x128.Idx → EReal) _
  congr 1
  funext a
  apply Fin.ext
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

/-- Window 4's block at every point is its whole weight matrix. -/
theorem value1_iblk_4 (c : Dev nD) (t : Fin cfg1.N) (y : S128x128.Idx) :
    (iblk1 (F := Ideal) V c 4 t : Vec Ideal S128x128 .f32) y = (V c main_v32 : S128x128.Idx → EReal) y := by
  have e0 : win1_4.index t (0 : Fin 2) = 0 := (value1_idxw t).2.2.1
  have e1 : win1_4.index t (1 : Fin 2) = 0 := (value1_idxw t).2.2.2.1
  unfold iblk1
  rw [View.read_apply]
  show (V c main_v32 : S128x128.Idx → EReal) _ = (V c main_v32 : S128x128.Idx → EReal) _
  congr 1
  funext a
  apply Fin.ext
  match a with
  | ⟨0, _⟩ => show win1_4.index t (0 : Fin 2) * 128 + 1 * (y 0).val = (y 0).val; rw [e0]; omega
  | ⟨1, _⟩ => show win1_4.index t (1 : Fin 2) * 128 + 1 * (y 1).val = (y 1).val; rw [e1]; omega

/-- Window 5's block at every point is its whole weight matrix. -/
theorem value1_iblk_5 (c : Dev nD) (t : Fin cfg1.N) (y : S128x128.Idx) :
    (iblk1 (F := Ideal) V c 5 t : Vec Ideal S128x128 .f32) y = (V c main_v33 : S128x128.Idx → EReal) y := by
  have e0 : win1_5.index t (0 : Fin 2) = 0 := (value1_idxw t).2.2.2.2.1
  have e1 : win1_5.index t (1 : Fin 2) = 0 := (value1_idxw t).2.2.2.2.2
  unfold iblk1
  rw [View.read_apply]
  show (V c main_v33 : S128x128.Idx → EReal) _ = (V c main_v33 : S128x128.Idx → EReal) _
  congr 1
  funext a
  apply Fin.ext
  match a with
  | ⟨0, _⟩ => show win1_5.index t (0 : Fin 2) * 128 + 1 * (y 0).val = (y 0).val; rw [e0]; omega
  | ⟨1, _⟩ => show win1_5.index t (1 : Fin 2) * 128 + 1 * (y 1).val = (y 1).val; rw [e1]; omega

end

section
variable {F : FTy → Type} [FloatOps F]
variable (V : (c : Dev nD) → (b : Ref sig .tc) → Buf (Elt F) ((c : Thread nD τ).loc b))

/-- Whatever the control case, the message tile after the body at point `t` is the two stored halves of that point's
    blocks. -/
theorem value1_after6 (c : Dev nD) (t : Fin cfg1.N) :
    (outsAt1 V c t.val t.isLt).1
      = value1_tile (iblk1 V c 0 t) (iblk1 V c 1 t) (iblk1 V c 2 t) (iblk1 V c 3 t) (iblk1 V c 4 t) (iblk1 V c 5 t) := by
  have hN : t.val < 128 := lt_of_lt_of_eq t.isLt (show cfg1.N = 128 from N_1)
  by_cases hz : t.val = 0
  · have h0 : cond1_0 (grid1.coords t) := (hcond1_0 t).mpr (by rw [hz])
    have h1 : ¬cond1_1 (grid1.coords t) := fun h => by have h' := (hcond1_1 t).mp h; omega
    rw [outsAt1_A V c t hz h0 h1]
    dsimp only
    exact value1_out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) h0 h1 (iblk1 V c 0 t) (iblk1 V c 1 t) (iblk1 V c 2 t) (iblk1 V c 3 t) (iblk1 V c 4 t) (iblk1 V c 5 t)
  · by_cases hl : t.val % 128 = 127
    · have h0 : ¬cond1_0 (grid1.coords t) := fun h => by have h' := (hcond1_0 t).mp h; omega
      have h1 : cond1_1 (grid1.coords t) := (hcond1_1 t).mpr hl
      rw [outsAt1_C V c t hz hl h0 h1]
      dsimp only
      exact value1_out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) h0 h1 (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.2.1 (outsAt1 V c (t.val - 1) (Nat.lt_of_le_of_lt (Nat.sub_le _ _) t.isLt)).2.2.2.2
    · have h0 : ¬cond1_0 (grid1.coords t) := fun h => by have h' := (hcond1_0 t).mp h; omega
      have h1 : ¬cond1_1 (grid1.coords t) := fun h => hl ((hcond1_1 t).mp h)
      rw [outsAt1_B V c t hz hl h0 h1]
      dsimp only
      exact value1_out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) h0 h1 (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.2.1 (outsAt1 V c (t.val - 1) (Nat.lt_of_le_of_lt (Nat.sub_le _ _) t.isLt)).2.2.2.2

end

end Cert.KernelIdeal.Hand

end
-- ==== Proof.KernelIdeal.Value1Pay.lean ====
/-
  The combine step's payloads read at one index, at the ideal values. A change of float format is the identity and a
  product into a zero accumulator is the plain sum over the contracted axis, so with `v10` the gathered dense rows,
  `v3` the gathered-row sums, `v6` their weight matrix, `v13` the source rows and `v16` / `v19` the two halves of
  the source weight matrix, the first row of message `p` at lane `q` is
  `(v10 (p, q) + Σ_k v3 (p, k) * v6 (k, q)) + Σ_k v13 (p, k) * v16 (k, q)`, the second row the same with `v19`;
  the stored halves are these, a column sum is the sum over the tile's 4096 messages, and a scratch row's new
  contents are its old contents plus the two column sums.
-/
import proofs.«154919_j73332271612005_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.TcCoe Idealize.SL.Sem
open Idealize.ShloMosaic.ValueIdx
open scoped BigOperators

theorem value1_lhs_0 (j : S4096x128.Idx) (q : dot_S4096x128_S128x128_S4096x128_1_0_0_1_n_n.contr.Idx) :
    (dot_S4096x128_S128x128_S4096x128_1_0_0_1_n_n.lhsIdx j q 0).val = (j 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem value1_lhs_1 (j : S4096x128.Idx) (q : dot_S4096x128_S128x128_S4096x128_1_0_0_1_n_n.contr.Idx) :
    (dot_S4096x128_S128x128_S4096x128_1_0_0_1_n_n.lhsIdx j q 1).val = (q ⟨0, by decide⟩).val :=
  dot_S4096x128_S128x128_S4096x128_1_0_0_1_n_n.lhsIdx_val_of_single rfl j q
theorem value1_rhs_0 (j : S4096x128.Idx) (q : dot_S4096x128_S128x128_S4096x128_1_0_0_1_n_n.contr.Idx) :
    (dot_S4096x128_S128x128_S4096x128_1_0_0_1_n_n.rhsIdx j q 0).val = (q ⟨0, by decide⟩).val :=
  dot_S4096x128_S128x128_S4096x128_1_0_0_1_n_n.rhsIdx_val_of_single rfl j q
theorem value1_rhs_1 (j : S4096x128.Idx) (q : dot_S4096x128_S128x128_S4096x128_1_0_0_1_n_n.contr.Idx) :
    (dot_S4096x128_S128x128_S4096x128_1_0_0_1_n_n.rhsIdx j q 1).val = (j 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- A tile times a weight matrix into the zero accumulator, at `(p, q)`: the row-by-column sum. -/
theorem value1_mm {φ₁ φ₂ : FTy} (l : FVec Ideal S4096x128 φ₁) (r : FVec Ideal S128x128 φ₂) (p : Fin 4096) (q : Fin 128) :
    FloatOps.matmul dot_S4096x128_S128x128_S4096x128_1_0_0_1_n_n none l r (constant (F := Ideal) S4096x128 .f32 0x00000000#32) (ix2 p q)
      = ∑ k : Fin 128, l (ix2 p k) * r (ix2 k q) := by
  rw [Ideal.matmul_constant_zero_apply, ← Equiv.sum_comp (ValueIdx.contrEquiv1 dot_S4096x128_S128x128_S4096x128_1_0_0_1_n_n 128 rfl rfl).symm]
  refine Finset.sum_congr rfl fun k _ => ?_
  have hk := ValueIdx.contrEquiv1_symm_val dot_S4096x128_S128x128_S4096x128_1_0_0_1_n_n 128 rfl rfl k
  have el : dot_S4096x128_S128x128_S4096x128_1_0_0_1_n_n.lhsIdx (ix2 p q) ((ValueIdx.contrEquiv1 dot_S4096x128_S128x128_S4096x128_1_0_0_1_n_n 128 rfl rfl).symm k) = ix2 p k := funext fun a => Fin.ext (by
    match a with
    | ⟨0, _⟩ => exact value1_lhs_0 _ _
    | ⟨1, _⟩ => exact (value1_lhs_1 _ _).trans hk)
  have er : dot_S4096x128_S128x128_S4096x128_1_0_0_1_n_n.rhsIdx (ix2 p q) ((ValueIdx.contrEquiv1 dot_S4096x128_S128x128_S4096x128_1_0_0_1_n_n 128 rfl rfl).symm k) = ix2 k q := funext fun a => Fin.ext (by
    match a with
    | ⟨0, _⟩ => exact (value1_rhs_0 _ _).trans hk
    | ⟨1, _⟩ => exact value1_rhs_1 _ _)
  rw [el, er]

/-- One row of a message at lane `q`, from the tile's loaded blocks and one half `w` of the source weight matrix. -/
def value1_msg (v3 : Vec Ideal S4096x128 .f32) (v6 : Vec Ideal S128x128 .f32) (v10 v13 : Vec Ideal S4096x128 .f32)
    (w : Vec Ideal S128x128 .f32) (p : Fin 4096) (q : Fin 128) : EReal :=
  (v10 (ix2 p q) + ∑ k : Fin 128, v3 (ix2 p k) * v6 (ix2 k q)) + ∑ k : Fin 128, v13 (ix2 p k) * w (ix2 k q)

theorem value1_pay5 (v3 : Vec Ideal S4096x128 .f32) (v6 : Vec Ideal S128x128 .f32) (v10 : Vec Ideal S4096x128 .f32) (p : Fin 4096) (q : Fin 128) :
    k1_pay5 (F := Ideal) v3 v6 v10 (ix2 p q) = v10 (ix2 p q) + ∑ k : Fin 128, v3 (ix2 p k) * v6 (ix2 k q) := by
  unfold k1_pay5
  simp only [shapeCast_self, matmul]
  rw [addf_apply, value1_mm]
  rfl

theorem value1_pay7 (v3 : Vec Ideal S4096x128 .f32) (v6 : Vec Ideal S128x128 .f32) (v10 v13 : Vec Ideal S4096x128 .f32) (v16 : Vec Ideal S128x128 .f32)
    (p : Fin 4096) (q : Fin 128) : k1_pay7 (F := Ideal) v3 v6 v10 v13 v16 (ix2 p q) = value1_msg v3 v6 v10 v13 v16 p q := by
  unfold k1_pay7 k1_pay6
  simp only [shapeCast_self, matmul]
  rw [addf_apply, value1_mm, value1_pay5]
  rfl

theorem value1_pay8 (v3 : Vec Ideal S4096x128 .f32) (v6 : Vec Ideal S128x128 .f32) (v10 v13 : Vec Ideal S4096x128 .f32) (v19 : Vec Ideal S128x128 .f32)
    (p : Fin 4096) (q : Fin 128) : k1_pay8 (F := Ideal) v3 v6 v10 v13 v19 (ix2 p q) = value1_msg v3 v6 v10 v13 v19 p q := by
  unfold k1_pay8 k1_pay6
  simp only [shapeCast_self, matmul]
  rw [addf_apply, value1_mm, value1_pay5]
  rfl

theorem value1_pay9 (v3 : Vec Ideal S4096x128 .f32) (v6 : Vec Ideal S128x128 .f32) (v10 v13 : Vec Ideal S4096x128 .f32) (v16 : Vec Ideal S128x128 .f32)
    (p : Fin 4096) (q : Fin 128) : k1_pay9 (F := Ideal) v3 v6 v10 v13 v16 (ix2 p q) = value1_msg v3 v6 v10 v13 v16 p q :=
  value1_pay7 v3 v6 v10 v13 v16 p q

theorem value1_pay10 (v3 : Vec Ideal S4096x128 .f32) (v6 : Vec Ideal S128x128 .f32) (v10 v13 : Vec Ideal S4096x128 .f32) (v19 : Vec Ideal S128x128 .f32)
    (p : Fin 4096) (q : Fin 128) : k1_pay10 (F := Ideal) v3 v6 v10 v13 v19 (ix2 p q) = value1_msg v3 v6 v10 v13 v19 p q :=
  value1_pay8 v3 v6 v10 v13 v19 p q

/-- A column sum of a tile at lane `q`: the sum over the tile's 4096 rows. -/
theorem value1_colsum (src : FVec Ideal S4096x128 .f32) (hacc : (0x00000000#32 : BitVec 32) = 0x00000000#32) (q : Fin 128) :
    multiReduction (F := Ideal) .add [0] S128 src 0x00000000#32 reduces_S4096x128_S128 (.inl rfl) hacc (ix1 q)
      = ∑ p : Fin 4096, src (ix2 p q) := by
  refine (Ideal.multiReduction_add_single src 0x00000000#32 reduces_S4096x128_S128 (.inl rfl) hacc (ix1 q)).trans ?_
  show (∑ p : Fin 4096, src (reduces_S4096x128_S128.lift (ix1 q) p)) = _
  refine Finset.sum_congr rfl fun p _ => congrArg src (funext fun a => Fin.ext ?_)
  match a with
  | ⟨0, _⟩ => rfl
  | ⟨1, _⟩ => rfl

/-- A vector of 128 lanes viewed as one row, at `(0, q)`: the vector at `q`. -/
theorem value1_cast_row (x : FVec Ideal S128 .f32) (q : Fin 128) :
    shapeCast S1x128 x shapeCasts_S128_S1x128 (ix2 0 q) = x (ix1 q) :=
  shapeCast_apply x shapeCasts_S128_S1x128 (ix2 0 q) (ix1 q) (by
    rw [Shape.rowMajor_val_one, Shape.rowMajor_val_two]
    show q.val = 0 * 128 + q.val
    omega)

theorem value1_pay11 (v3 : Vec Ideal S4096x128 .f32) (v6 : Vec Ideal S128x128 .f32) (v10 v13 : Vec Ideal S4096x128 .f32) (v16 : Vec Ideal S128x128 .f32)
    (q : Fin 128) : k1_pay11 (F := Ideal) v3 v6 v10 v13 v16 (ix2 0 q) = ∑ p : Fin 4096, value1_msg v3 v6 v10 v13 v16 p q := by
  unfold k1_pay11
  refine (value1_cast_row _ q).trans ?_
  refine (value1_colsum _ rfl q).trans ?_
  exact Finset.sum_congr rfl fun p _ => value1_pay7 v3 v6 v10 v13 v16 p q

theorem value1_pay12 (v3 : Vec Ideal S4096x128 .f32) (v6 : Vec Ideal S128x128 .f32) (v10 v13 : Vec Ideal S4096x128 .f32) (v19 : Vec Ideal S128x128 .f32)
    (q : Fin 128) : k1_pay12 (F := Ideal) v3 v6 v10 v13 v19 (ix1 q) = ∑ p : Fin 4096, value1_msg v3 v6 v10 v13 v19 p q := by
  unfold k1_pay12
  refine (value1_colsum _ rfl q).trans ?_
  exact Finset.sum_congr rfl fun p _ => value1_pay8 v3 v6 v10 v13 v19 p q

/-- The first scratch row's new contents at lane `q`. -/
theorem value1_pay1 (v31 : FVec Ideal S1x128 .f32) (v32 : FVec Ideal S128 .f32) (v42 : Vec Ideal S1x128 .f32) (q : Fin 128) :
    k1_pay1 (F := Ideal) v31 v32 v42 (ix2 0 q) = v42 (ix2 0 q) + (v31 (ix2 0 q) + v32 (ix1 q)) := by
  unfold k1_pay1
  simp only [shapeCast_self]
  rw [addf_apply, addf_apply, value1_cast_row]

/-- The second scratch row's new contents at lane `q`. -/
theorem value1_pay2 (v24 v25 : FVec Ideal S4096x128 .f32) (v47 : Vec Ideal S1x128 .f32) (q : Fin 128) :
    k1_pay2 (F := Ideal) v24 v25 v47 (ix2 0 q)
      = v47 (ix2 0 q) + ((∑ p : Fin 4096, v24 (ix2 p q) * v24 (ix2 p q)) + ∑ p : Fin 4096, v25 (ix2 p q) * v25 (ix2 p q)) := by
  unfold k1_pay2
  simp only [shapeCast_self]
  rw [addf_apply, addf_apply, value1_cast_row, value1_cast_row]
  refine congrArg (v47 (ix2 0 q) + ·) (congrArg₂ (· + ·) ?_ ?_)
  · exact (value1_colsum _ rfl q).trans (Finset.sum_congr rfl fun p _ => mulf_apply _ _ _)
  · exact (value1_colsum _ rfl q).trans (Finset.sum_congr rfl fun p _ => mulf_apply _ _ _)

/-- The zero rows the first point stores. -/
theorem value1_pay3 (q : Fin 128) : k1_pay3 (F := Ideal) (ix2 0 q) = Ideal.ofBits .f32 0x00000000#32 := by
  unfold k1_pay3
  simp only [shapeCast_self]
  rfl
theorem value1_pay4 (q : Fin 128) : k1_pay4 (F := Ideal) (ix2 0 q) = Ideal.ofBits .f32 0x00000000#32 := by
  unfold k1_pay4
  simp only [shapeCast_self]
  rfl

end Cert.KernelIdeal.Hand

end
-- ==== Proof.KernelIdeal.Value1Msg.lean ====
/-
  The message array after the combine step. Point `t` of the 128 writes rows `4096 t … 4096 t + 4095` of the
  [524288, 256] output: lanes 0–127 of a row are the message's first row, lanes 128–255 its second. Read at an index,
  the stored tile is one row of a message from the tile's blocks, with the first or the second half of the source
  weight matrix according to the lane; the blocks are rows `4096 t …` of their arrays, so every tile is the
  restriction of the one function `msgArr` of the six arrays, and the 128 tiles cover the output.
-/
import proofs.«154919_j73332271612005_2_alg».proof.Proof.KernelIdeal.Value1Blocks
import proofs.«154919_j73332271612005_2_alg».proof.Proof.KernelIdeal.Value1Pay
import proofs.«154919_j73332271612005_2_alg».proof.Proof.MsgSpec

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

theorem value1_msg_congr (v3 : Vec Ideal S4096x128 .f32) (v6 : Vec Ideal S128x128 .f32) (v10 v13 : Vec Ideal S4096x128 .f32)
    {w w' : Vec Ideal S128x128 .f32} {p p' : Fin 4096} {q q' : Fin 128} (hw : w = w') (hp : p = p') (hq : q = q') :
    value1_msg v3 v6 v10 v13 w p q = value1_msg v3 v6 v10 v13 w' p' q' := by
  subst hw; subst hp; subst hq; rfl

/-- The stored tile as one function of its index: one row of message `y 0` at lane `y 1 mod 128`, with the first half
    of the source weight matrix on lanes below 128 and the second half above. -/
def value1_G (x0 x1 x2 : Vec Ideal S4096x128 .f32) (x3 x4 x5 : Vec Ideal S128x128 .f32) : S4096x256.Idx → EReal :=
  fun y => value1_msg x1 x5 x0 x2 (if (y 1).val < 128 then x3 else x4) ⟨(y 0).val, (y 0).isLt⟩
    ⟨(y 1).val % 128, Nat.mod_lt _ (by norm_num)⟩

theorem value1_tile_apply (x0 x1 x2 : Vec Ideal S4096x128 .f32) (x3 x4 x5 : Vec Ideal S128x128 .f32) (y : S4096x256.Idx) :
    value1_tile (F := Ideal) x0 x1 x2 x3 x4 x5 y = value1_G x0 x1 x2 x3 x4 x5 y := by
  unfold value1_tile
  refine View.canon_apply_of_pieces (Val := Elt Ideal) (e := .bf16) (value1_G x0 x1 x2 x3 x4 x5) _ ?_ y ?_
  · intro pc hpc
    simp only [List.mem_cons, List.not_mem_nil, or_false] at hpc
    rcases hpc with rfl | rfl
    · show ∀ x : S4096x128.Idx, k1_pay10 (F := Ideal) x1 x5 x0 x2 x4 x
        = value1_G x0 x1 x2 x3 x4 x5 ((Rect.unit (s := S4096x256) ![0, 128] S4096x128.size inb_S4096x256_S4096x128_0_128).emb x)
      intro x
      obtain ⟨p, q, rfl⟩ : ∃ (p : Fin 4096) (q : Fin 128), x = ix2 p q := ⟨x 0, x 1, eq_ix2 x⟩
      have h0 : (((Rect.unit (s := S4096x256) ![0, 128] S4096x128.size inb_S4096x256_S4096x128_0_128).emb (ix2 p q)) 0).val = 0 + 1 * p.val := rfl
      have h1 : (((Rect.unit (s := S4096x256) ![0, 128] S4096x128.size inb_S4096x256_S4096x128_0_128).emb (ix2 p q)) 1).val = 128 + 1 * q.val := rfl
      refine (value1_pay10 x1 x5 x0 x2 x4 p q).trans ?_
      unfold value1_G
      refine value1_msg_congr x1 x5 x0 x2 ?_ (Fin.ext ?_) (Fin.ext ?_)
      · rw [if_neg (by rw [h1]; omega)]
      · show p.val = _; rw [h0]; omega
      · show q.val = _ % 128; rw [h1]; have := q.isLt; omega
    · show ∀ x : S4096x128.Idx, k1_pay9 (F := Ideal) x1 x5 x0 x2 x3 x
        = value1_G x0 x1 x2 x3 x4 x5 ((Rect.unit (s := S4096x256) ![0, 0] S4096x128.size inb_S4096x256_S4096x128_0_0).emb x)
      intro x
      obtain ⟨p, q, rfl⟩ : ∃ (p : Fin 4096) (q : Fin 128), x = ix2 p q := ⟨x 0, x 1, eq_ix2 x⟩
      have h0 : (((Rect.unit (s := S4096x256) ![0, 0] S4096x128.size inb_S4096x256_S4096x128_0_0).emb (ix2 p q)) 0).val = 0 + 1 * p.val := rfl
      have h1 : (((Rect.unit (s := S4096x256) ![0, 0] S4096x128.size inb_S4096x256_S4096x128_0_0).emb (ix2 p q)) 1).val = 0 + 1 * q.val := rfl
      refine (value1_pay9 x1 x5 x0 x2 x3 p q).trans ?_
      unfold value1_G
      refine value1_msg_congr x1 x5 x0 x2 ?_ (Fin.ext ?_) (Fin.ext ?_)
      · rw [if_pos (by rw [h1]; have := q.isLt; omega)]
      · show p.val = _; rw [h0]; omega
      · show q.val = _ % 128; rw [h1]; have := q.isLt; omega
  · have hy0 : (y 0).val < 4096 := (y 0).isLt
    have hy1 : (y 1).val < 256 := (y 1).isLt
    by_cases hl : (y 1).val < 128
    · refine ⟨_, List.mem_cons_of_mem _ (List.mem_singleton.mpr rfl), ?_⟩
      rw [Rect.mem_set_unit]
      intro a
      match a with
      | ⟨0, _⟩ => show 0 ≤ (y 0).val ∧ (y 0).val < 0 + 4096; omega
      | ⟨1, _⟩ => show 0 ≤ (y 1).val ∧ (y 1).val < 0 + 128; omega
    · refine ⟨_, List.mem_cons_self, ?_⟩
      rw [Rect.mem_set_unit]
      intro a
      match a with
      | ⟨0, _⟩ => show 0 ≤ (y 0).val ∧ (y 0).val < 0 + 4096; omega
      | ⟨1, _⟩ => show 128 ≤ (y 1).val ∧ (y 1).val < 128 + 128; omega

/-- One entry of a written tile, over variables: if the row-tiled blocks are rows `4096 T …` of their arrays and the
    weight blocks are the weight matrices, entry `j` of the tile is the message array at row `4096 T + j 0`, lane `j 1`. -/
theorem value1_point6 (Yd Si Xs : S524288x128.Idx → EReal) (W0 W1 Wi : S128x128.Idx → EReal)
    (x0 x1 x2 : Vec Ideal S4096x128 .f32) (x3 x4 x5 : Vec Ideal S128x128 .f32) (T : ℕ)
    (h0 : ∀ (y : S4096x128.Idx) (z : S524288x128.Idx), (z 0).val = T * 4096 + (y 0).val → (z 1).val = (y 1).val → x0 y = Yd z)
    (h1 : ∀ (y : S4096x128.Idx) (z : S524288x128.Idx), (z 0).val = T * 4096 + (y 0).val → (z 1).val = (y 1).val → x1 y = Si z)
    (h2 : ∀ (y : S4096x128.Idx) (z : S524288x128.Idx), (z 0).val = T * 4096 + (y 0).val → (z 1).val = (y 1).val → x2 y = Xs z)
    (h3 : ∀ y : S128x128.Idx, x3 y = W0 y) (h4 : ∀ y : S128x128.Idx, x4 y = W1 y) (h5 : ∀ y : S128x128.Idx, x5 y = Wi y)
    (j : S4096x256.Idx) (i : S524288x256.Idx) (hi0 : (i 0).val = T * 4096 + (j 0).val) (hi1 : (i 1).val = (j 1).val) :
    value1_G x0 x1 x2 x3 x4 x5 j = Cert.Spec.msgArr Yd Si Xs W0 W1 Wi i := by
  unfold value1_G value1_msg Cert.Spec.msgArr
  have hq : (⟨(j 1).val % 128, Nat.mod_lt _ (by norm_num)⟩ : Fin 128) = ⟨(i 1).val % 128, Nat.mod_lt _ (by norm_num)⟩ :=
    Fin.ext (by show (j 1).val % 128 = (i 1).val % 128; rw [hi1])
  rw [hq, h0 _ (ix2 (i 0) ⟨(i 1).val % 128, Nat.mod_lt _ (by norm_num)⟩) hi0 rfl]
  refine congrArg₂ (· + ·) (congrArg₂ (· + ·) rfl (Finset.sum_congr rfl fun k _ => ?_)) (Finset.sum_congr rfl fun k _ => ?_)
  · rw [h1 _ (ix2 (i 0) k) hi0 rfl, h5]
  · rw [h2 _ (ix2 (i 0) k) hi0 rfl]
    by_cases hl : (i 1).val < 128
    · have hl' : (j 1).val < 128 := by omega
      rw [if_pos hl, if_pos hl', h3]
    · have hl' : ¬(j 1).val < 128 := by omega
      rw [if_neg hl, if_neg hl', h4]

section
variable (V : (c : Dev nD) → (b : Ref sig .tc) → Buf (Elt Ideal) ((c : Thread nD τ).loc b))

/-- What point `t` writes back is block `t` of the message array of the six arrays as the region finds them. -/
theorem value1_flushed6 (c : Dev nD) (t : Fin cfg1.N) :
    (dat1 (F := Ideal) V c).flushed 6 t
      = ((cfg1.win 6).blk t).view.read (Elt Ideal) (Cert.Spec.msgArr (V c main_v21 : S524288x128.Idx → EReal) (V c main_v12 : S524288x128.Idx → EReal) (V c main_v28 : S524288x128.Idx → EReal)
          (V c main_v30 : S128x128.Idx → EReal) (V c main_v32 : S128x128.Idx → EReal) (V c main_v33 : S128x128.Idx → EReal)) := by
  show (cfg1.win 6).cut (grid1.coords t) ((dat1 (F := Ideal) V c).after 6 t) = _
  rw [after1_6, value1_after6]
  have e6 : win1_6.index t (0 : Fin 2) = t.val := (value1_idx1 t).2.2.2.2.2.2.1
  have e7 : win1_6.index t (1 : Fin 2) = 0 := (value1_idx1 t).2.2.2.2.2.2.2
  funext j
  show value1_tile (F := Ideal) (iblk1 V c 0 t) (iblk1 V c 1 t) (iblk1 V c 2 t) (iblk1 V c 3 t) (iblk1 V c 4 t) (iblk1 V c 5 t) j
    = Cert.Spec.msgArr (V c main_v21 : S524288x128.Idx → EReal) (V c main_v12 : S524288x128.Idx → EReal) (V c main_v28 : S524288x128.Idx → EReal)
        (V c main_v30 : S128x128.Idx → EReal) (V c main_v32 : S128x128.Idx → EReal) (V c main_v33 : S128x128.Idx → EReal) (((cfg1.win 6).blk t).view.emb j)
  refine (value1_tile_apply (iblk1 V c 0 t) (iblk1 V c 1 t) (iblk1 V c 2 t) (iblk1 V c 3 t) (iblk1 V c 4 t) (iblk1 V c 5 t) j).trans ?_
  refine value1_point6 (V c main_v21) (V c main_v12) (V c main_v28) (V c main_v30) (V c main_v32) (V c main_v33)
    (iblk1 V c 0 t) (iblk1 V c 1 t) (iblk1 V c 2 t) (iblk1 V c 3 t) (iblk1 V c 4 t) (iblk1 V c 5 t) t.val
    (fun y z a b => value1_iblk_0 V c t y z a b) (fun y z a b => value1_iblk_1 V c t y z a b) (fun y z a b => value1_iblk_2 V c t y z a b)
    (fun y => value1_iblk_3 V c t y) (fun y => value1_iblk_4 V c t y) (fun y => value1_iblk_5 V c t y) j _ ?_ ?_
  · show win1_6.index t (0 : Fin 2) * 4096 + 1 * (j 0).val = t.val * 4096 + (j 0).val
    rw [e6]; omega
  · show win1_6.index t (1 : Fin 2) * 256 + 1 * (j 1).val = (j 1).val
    rw [e7]; omega

theorem value1_mem_blk6 (t : Fin cfg1.N) (i : S524288x256.Idx) :
    i ∈ ((cfg1.win 6).blk t).view.set ↔ ∀ a : Fin 2, win1_6.index t a * S4096x256.size a ≤ (i a).val ∧ (i a).val < win1_6.index t a * S4096x256.size a + S4096x256.size a := by
  show i ∈ ((View.whole main_v34_0).slice (win1_6.rect t)).set ↔ _
  rw [View.set_slice_whole, Rect.mem_set_unit]
  exact Iff.rfl

/-- Row `r` is written by point `r / 4096`: the 128 tiles cover the array. -/
theorem value1_cover6 (i : S524288x256.Idx) :
    ∃ t : Fin cfg1.N, (cfg1.win 6).flush t = true ∧ i ∈ ((cfg1.win 6).blk t).view.set := by
  have hi0 : (i 0).val < 524288 := (i 0).isLt
  have hi1 : (i 1).val < 256 := (i 1).isLt
  have hN : cfg1.N = 128 := N_1
  obtain ⟨t, ht⟩ : ∃ t : Fin cfg1.N, t.val = (i 0).val / 4096 := ⟨⟨(i 0).val / 4096, by rw [hN]; omega⟩, rfl⟩
  refine ⟨t, flush1_6 t, ?_⟩
  have e6 : win1_6.index t (0 : Fin 2) = t.val := (value1_idx1 t).2.2.2.2.2.2.1
  have e7 : win1_6.index t (1 : Fin 2) = 0 := (value1_idx1 t).2.2.2.2.2.2.2
  rw [value1_mem_blk6]
  intro a
  match a with
  | ⟨0, _⟩ => show win1_6.index t (0 : Fin 2) * 4096 ≤ (i 0).val ∧ (i 0).val < win1_6.index t (0 : Fin 2) * 4096 + 4096; rw [e6, ht]; omega
  | ⟨1, _⟩ => show win1_6.index t (1 : Fin 2) * 256 ≤ (i 1).val ∧ (i 1).val < win1_6.index t (1 : Fin 2) * 256 + 256; rw [e7]; omega

/-- THE MESSAGE ARRAY after the combine step. -/
theorem final1_6 (c : Dev nD) :
    (dat1 (F := Ideal) V c).arrAt 6 cfg1.N
      = Cert.Spec.msgArr (V c main_v21 : S524288x128.Idx → EReal) (V c main_v12 : S524288x128.Idx → EReal) (V c main_v28 : S524288x128.Idx → EReal)
          (V c main_v30 : S128x128.Idx → EReal) (V c main_v32 : S128x128.Idx → EReal) (V c main_v33 : S128x128.Idx → EReal) :=
  (dat1 (F := Ideal) V c).arrAt_eq_of_cover 6 _ (fun t _ => value1_flushed6 V c t) value1_cover6

end

end Cert.KernelIdeal.Hand

end
-- ==== Proof.Math.Tiles.lean ====
/-
  Two facts about how the kernel walks a column of 2^20 rows.

  The rows are read as 128 tiles of 4096 messages, two rows per message: row `2 * (4096 * t + p) + j` is row `j` of
  message `p` of tile `t`. This numbering is a bijection onto the rows, so the column's sum is the sum over the tiles
  of the even rows' sum plus the odd rows' sum. And a running total that starts at the zero word and is increased
  by the tile's part at each of the 128 steps ends at the sum of the parts.
-/
import proofs.«154919_j73332271612005_2_alg».proof.Proof.Math.Consts

noncomputable section

namespace Cert.Spec

open scoped BigOperators

namespace Alg

/-- Row `j` of message `p` of tile `t`. -/
def rowOf (x : Fin 128 × Fin 4096 × Fin 2) : Fin 1048576 :=
  ⟨2 * (4096 * x.1.val + x.2.1.val) + x.2.2.val, by
    have h1 := x.1.isLt; have h2 := x.2.1.isLt; have h3 := x.2.2.isLt; omega⟩

/-- Distinct (tile, message, row-of-message) triples name distinct rows. -/
theorem rowOf_injective : Function.Injective rowOf := by
  rintro ⟨t, p, j⟩ ⟨t', p', j'⟩ h
  have h0 : 2 * (4096 * t.val + p.val) + j.val = 2 * (4096 * t'.val + p'.val) + j'.val :=
    congrArg Fin.val h
  have h1 := p.isLt; have h2 := p'.isLt; have h3 := j.isLt; have h4 := j'.isLt
  have ht : t = t' := Fin.ext (by omega)
  have hp : p = p' := Fin.ext (by omega)
  have hj : j = j' := Fin.ext (by omega)
  rw [ht, hp, hj]

/-- Every row is named: there are as many triples as rows. -/
theorem rowOf_bijective : Function.Bijective rowOf := by
  rw [Fintype.bijective_iff_injective_and_card]
  refine ⟨rowOf_injective, ?_⟩
  simp only [Fintype.card_prod, Fintype.card_fin]

end Alg

open Alg

/-- Tiles: the plain sum over the 2^20 rows is the sum over 128 tiles of (the even rows' sum plus the odd rows' sum)
    of the tile's 4096 messages. -/
theorem sum_rows_tiled (f : Fin 1048576 → EReal) :
    (∑ r, f r) = ∑ t : Fin 128, ((∑ p : Fin 4096, f ⟨2 * (4096 * t.val + p.val), by omega⟩)
      + ∑ p : Fin 4096, f ⟨2 * (4096 * t.val + p.val) + 1, by omega⟩) := by
  rw [← Fintype.sum_bijective rowOf rowOf_bijective (fun x => f (rowOf x)) f (fun _ => rfl)]
  rw [Fintype.sum_prod_type]
  refine Finset.sum_congr rfl fun t _ => ?_
  rw [Fintype.sum_prod_type, ← Finset.sum_add_distrib]
  refine Finset.sum_congr rfl fun p _ => ?_
  rw [Fin.sum_univ_two]
  rfl

namespace Alg

/-- A running total started at zero and increased by part `t` at step `t` is, after `k` steps, the sum of the
    first `k` parts. -/
theorem accum_prefix (acc : ℕ → EReal) (part : Fin 128 → EReal) (h0 : acc 0 = 0)
    (hstep : ∀ t : Fin 128, acc (t.val + 1) = acc t.val + part t) :
    ∀ (k : ℕ) (hk : k ≤ 128), acc k = ∑ t : Fin k, part (Fin.castLE hk t) := by
  intro k
  induction k with
  | zero => intro _; simpa using h0
  | succ k ih =>
    intro hk
    rw [Fin.sum_univ_castSucc]
    exact (hstep ⟨k, hk⟩).trans (congrArg (· + part ⟨k, hk⟩) (ih (Nat.le_of_succ_le hk)))

end Alg

/-- A running total started at the zero word and increased by part `t` at step `t` ends, after 128 steps, at the sum
    of the parts. -/
theorem accum_eq_sum (acc : ℕ → EReal) (part : Fin 128 → EReal) (h0 : acc 0 = zero)
    (hstep : ∀ t : Fin 128, acc (t.val + 1) = acc t.val + part t) : acc 128 = ∑ t : Fin 128, part t :=
  accum_prefix acc part (h0.trans zero_eq) hstep 128 le_rfl

end Cert.Spec

end
-- ==== Proof.KernelIdeal.Value1Acc.lean ====
/-
  The two scratch rows of the combine step as running sums. After point `n` the first row at lane `q` is the zero
  word plus, over the points up to `n`, the tile's column sum of first rows plus its column sum of second rows; the
  second row the same with squares. A message row of a tile is an entry of the message array, so over all 128 points
  these are the sums over the 2^20 rows of the message array viewed as [1048576, 128].
-/
import proofs.«154919_j73332271612005_2_alg».proof.Proof.KernelIdeal.Value1Scr
import proofs.«154919_j73332271612005_2_alg».proof.Proof.KernelIdeal.Value1Msg
import proofs.«154919_j73332271612005_2_alg».proof.Proof.Math.Tiles

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-- The first scratch row's new contents at lane `q`: the old contents plus the two column sums. -/
theorem value1_row0_apply (x0 x1 x2 : Vec Ideal S4096x128 .f32) (x3 x4 x5 : Vec Ideal S128x128 .f32) (z : Vec Ideal S1x128 .f32) (q : Fin 128) :
    value1_row0 (F := Ideal) x0 x1 x2 x3 x4 x5 z (ix2 0 q)
      = z (ix2 0 q) + ((∑ p : Fin 4096, value1_msg x1 x5 x0 x2 x3 p q) + ∑ p : Fin 4096, value1_msg x1 x5 x0 x2 x4 p q) := by
  unfold value1_row0
  rw [value1_pay1, value1_pay11, value1_pay12]

/-- The second scratch row's new contents at lane `q`: the old contents plus the two column sums of squares. -/
theorem value1_row1_apply (x0 x1 x2 : Vec Ideal S4096x128 .f32) (x3 x4 x5 : Vec Ideal S128x128 .f32) (z : Vec Ideal S1x128 .f32) (q : Fin 128) :
    value1_row1 (F := Ideal) x0 x1 x2 x3 x4 x5 z (ix2 0 q)
      = z (ix2 0 q) + ((∑ p : Fin 4096, value1_msg x1 x5 x0 x2 x3 p q * value1_msg x1 x5 x0 x2 x3 p q)
          + ∑ p : Fin 4096, value1_msg x1 x5 x0 x2 x4 p q * value1_msg x1 x5 x0 x2 x4 p q) := by
  unfold value1_row1
  rw [value1_pay2]
  simp only [value1_pay7, value1_pay8]

theorem value1_G_lo (x0 x1 x2 : Vec Ideal S4096x128 .f32) (x3 x4 x5 : Vec Ideal S128x128 .f32) (p : Fin 4096) (q : Fin 128) :
    value1_G x0 x1 x2 x3 x4 x5 (ix2 p (⟨q.val, by omega⟩ : Fin 256)) = value1_msg x1 x5 x0 x2 x3 p q := by
  unfold value1_G
  refine value1_msg_congr x1 x5 x0 x2 ?_ (Fin.ext rfl) (Fin.ext ?_)
  · exact if_pos (show q.val < 128 from q.isLt)
  · show q.val % 128 = q.val
    exact Nat.mod_eq_of_lt q.isLt

theorem value1_G_hi (x0 x1 x2 : Vec Ideal S4096x128 .f32) (x3 x4 x5 : Vec Ideal S128x128 .f32) (p : Fin 4096) (q : Fin 128) :
    value1_G x0 x1 x2 x3 x4 x5 (ix2 p (⟨128 + q.val, by omega⟩ : Fin 256)) = value1_msg x1 x5 x0 x2 x4 p q := by
  unfold value1_G
  refine value1_msg_congr x1 x5 x0 x2 ?_ (Fin.ext rfl) (Fin.ext ?_)
  · exact if_neg (show ¬(128 + q.val < 128) by omega)
  · show (128 + q.val) % 128 = q.val
    have := q.isLt
    omega

section
variable (V : (c : Dev nD) → (b : Ref sig .tc) → Buf (Elt Ideal) ((c : Thread nD τ).loc b))

/-- The first row of message `p` of tile `tv` at lane `q`, from the tile's blocks. -/
def value1_mA (c : Dev nD) (tv : ℕ) (h : tv < cfg1.N) (p : Fin 4096) (q : Fin 128) : EReal :=
  value1_msg (iblk1 V c 1 ⟨tv, h⟩) (iblk1 V c 5 ⟨tv, h⟩) (iblk1 V c 0 ⟨tv, h⟩) (iblk1 V c 2 ⟨tv, h⟩) (iblk1 V c 3 ⟨tv, h⟩) p q
/-- The second row. -/
def value1_mB (c : Dev nD) (tv : ℕ) (h : tv < cfg1.N) (p : Fin 4096) (q : Fin 128) : EReal :=
  value1_msg (iblk1 V c 1 ⟨tv, h⟩) (iblk1 V c 5 ⟨tv, h⟩) (iblk1 V c 0 ⟨tv, h⟩) (iblk1 V c 2 ⟨tv, h⟩) (iblk1 V c 4 ⟨tv, h⟩) p q

/-- Tile `tv`'s part of the column sums at lane `q`. -/
def value1_part0 (c : Dev nD) (tv : ℕ) (h : tv < cfg1.N) (q : Fin 128) : EReal :=
  (∑ p : Fin 4096, value1_mA V c tv h p q) + ∑ p : Fin 4096, value1_mB V c tv h p q
/-- Tile `tv`'s part of the column sums of squares at lane `q`. -/
def value1_part1 (c : Dev nD) (tv : ℕ) (h : tv < cfg1.N) (q : Fin 128) : EReal :=
  (∑ p : Fin 4096, value1_mA V c tv h p q * value1_mA V c tv h p q) + ∑ p : Fin 4096, value1_mB V c tv h p q * value1_mB V c tv h p q

/-- THE ACCUMULATION: after point `n` each scratch row at lane `q` is the zero word plus the parts of the points up to `n`. -/
theorem value1_scr_sum (c : Dev nD) (q : Fin 128) : ∀ (n : ℕ) (hn : n < cfg1.N),
    (outsAt1 V c n hn).2.2.2.1 (ix2 0 q)
        = Ideal.ofBits .f32 0x00000000#32 + ∑ t : Fin (n + 1), value1_part0 V c t.val (lt_of_lt_of_le t.isLt (Nat.succ_le_of_lt hn)) q
    ∧ (outsAt1 V c n hn).2.2.2.2 (ix2 0 q)
        = Ideal.ofBits .f32 0x00000000#32 + ∑ t : Fin (n + 1), value1_part1 V c t.val (lt_of_lt_of_le t.isLt (Nat.succ_le_of_lt hn)) q
  | 0, hn => by
    have h := value1_scr_zero V c ⟨0, hn⟩ rfl
    refine ⟨?_, ?_⟩
    · refine (congrFun h.1 (ix2 0 q)).trans ?_
      rw [value1_row0_apply, value1_pay3, Fin.sum_univ_one]
      rfl
    · refine (congrFun h.2 (ix2 0 q)).trans ?_
      rw [value1_row1_apply, value1_pay4, Fin.sum_univ_one]
      rfl
  | n + 1, hn => by
    have h := value1_scr_succ V c ⟨n + 1, hn⟩ (Nat.succ_ne_zero n)
    have ih := value1_scr_sum c q n (Nat.lt_of_succ_lt hn)
    refine ⟨?_, ?_⟩
    · refine (congrFun h.1 (ix2 0 q)).trans ?_
      rw [value1_row0_apply]
      have hs : (∑ t : Fin (n + 1 + 1), value1_part0 V c t.val (lt_of_lt_of_le t.isLt (Nat.succ_le_of_lt hn)) q)
          = (∑ t : Fin (n + 1), value1_part0 V c t.val (lt_of_lt_of_le t.isLt (Nat.succ_le_of_lt (Nat.lt_of_succ_lt hn))) q)
            + value1_part0 V c (n + 1) hn q := Fin.sum_univ_castSucc _
      rw [hs]
      exact (congrArg₂ (· + ·) ih.1 (rfl : _ = value1_part0 V c (n + 1) hn q)).trans (add_assoc _ _ _)
    · refine (congrFun h.2 (ix2 0 q)).trans ?_
      rw [value1_row1_apply]
      have hs : (∑ t : Fin (n + 1 + 1), value1_part1 V c t.val (lt_of_lt_of_le t.isLt (Nat.succ_le_of_lt hn)) q)
          = (∑ t : Fin (n + 1), value1_part1 V c t.val (lt_of_lt_of_le t.isLt (Nat.succ_le_of_lt (Nat.lt_of_succ_lt hn))) q)
            + value1_part1 V c (n + 1) hn q := Fin.sum_univ_castSucc _
      rw [hs]
      exact (congrArg₂ (· + ·) ih.2 (rfl : _ = value1_part1 V c (n + 1) hn q)).trans (add_assoc _ _ _)

/-- A first row of a tile's message is an entry of the message array on lanes 0–127. -/
theorem value1_mA_eq (c : Dev nD) (tv : ℕ) (h : tv < cfg1.N) (p : Fin 4096) (q : Fin 128) (i : S524288x256.Idx)
    (hi0 : (i 0).val = tv * 4096 + p.val) (hi1 : (i 1).val = q.val) :
    value1_mA V c tv h p q = (Cert.Spec.msgArr (V c main_v21 : S524288x128.Idx → EReal) (V c main_v12 : S524288x128.Idx → EReal) (V c main_v28 : S524288x128.Idx → EReal) (V c main_v30 : S128x128.Idx → EReal) (V c main_v32 : S128x128.Idx → EReal) (V c main_v33 : S128x128.Idx → EReal)) i := by
  unfold value1_mA
  refine (value1_G_lo (iblk1 V c 0 ⟨tv, h⟩) (iblk1 V c 1 ⟨tv, h⟩) (iblk1 V c 2 ⟨tv, h⟩) (iblk1 V c 3 ⟨tv, h⟩) (iblk1 V c 4 ⟨tv, h⟩) (iblk1 V c 5 ⟨tv, h⟩) p q).symm.trans ?_
  exact value1_point6 (V c main_v21) (V c main_v12) (V c main_v28) (V c main_v30) (V c main_v32) (V c main_v33)
    (iblk1 V c 0 ⟨tv, h⟩) (iblk1 V c 1 ⟨tv, h⟩) (iblk1 V c 2 ⟨tv, h⟩) (iblk1 V c 3 ⟨tv, h⟩) (iblk1 V c 4 ⟨tv, h⟩) (iblk1 V c 5 ⟨tv, h⟩) tv
    (fun y z a b => value1_iblk_0 V c ⟨tv, h⟩ y z a b) (fun y z a b => value1_iblk_1 V c ⟨tv, h⟩ y z a b) (fun y z a b => value1_iblk_2 V c ⟨tv, h⟩ y z a b)
    (fun y => value1_iblk_3 V c ⟨tv, h⟩ y) (fun y => value1_iblk_4 V c ⟨tv, h⟩ y) (fun y => value1_iblk_5 V c ⟨tv, h⟩ y)
    (ix2 p (⟨q.val, by omega⟩ : Fin 256)) i hi0 hi1

/-- A second row is an entry on lanes 128–255. -/
theorem value1_mB_eq (c : Dev nD) (tv : ℕ) (h : tv < cfg1.N) (p : Fin 4096) (q : Fin 128) (i : S524288x256.Idx)
    (hi0 : (i 0).val = tv * 4096 + p.val) (hi1 : (i 1).val = 128 + q.val) :
    value1_mB V c tv h p q = (Cert.Spec.msgArr (V c main_v21 : S524288x128.Idx → EReal) (V c main_v12 : S524288x128.Idx → EReal) (V c main_v28 : S524288x128.Idx → EReal) (V c main_v30 : S128x128.Idx → EReal) (V c main_v32 : S128x128.Idx → EReal) (V c main_v33 : S128x128.Idx → EReal)) i := by
  unfold value1_mB
  refine (value1_G_hi (iblk1 V c 0 ⟨tv, h⟩) (iblk1 V c 1 ⟨tv, h⟩) (iblk1 V c 2 ⟨tv, h⟩) (iblk1 V c 3 ⟨tv, h⟩) (iblk1 V c 4 ⟨tv, h⟩) (iblk1 V c 5 ⟨tv, h⟩) p q).symm.trans ?_
  exact value1_point6 (V c main_v21) (V c main_v12) (V c main_v28) (V c main_v30) (V c main_v32) (V c main_v33)
    (iblk1 V c 0 ⟨tv, h⟩) (iblk1 V c 1 ⟨tv, h⟩) (iblk1 V c 2 ⟨tv, h⟩) (iblk1 V c 3 ⟨tv, h⟩) (iblk1 V c 4 ⟨tv, h⟩) (iblk1 V c 5 ⟨tv, h⟩) tv
    (fun y z a b => value1_iblk_0 V c ⟨tv, h⟩ y z a b) (fun y z a b => value1_iblk_1 V c ⟨tv, h⟩ y z a b) (fun y z a b => value1_iblk_2 V c ⟨tv, h⟩ y z a b)
    (fun y => value1_iblk_3 V c ⟨tv, h⟩ y) (fun y => value1_iblk_4 V c ⟨tv, h⟩ y) (fun y => value1_iblk_5 V c ⟨tv, h⟩ y)
    (ix2 p (⟨128 + q.val, by omega⟩ : Fin 256)) i hi0 hi1

theorem value1_N : cfg1.N = 128 := N_1

/-- Over the 128 tiles the column sums add up to the sum over the 2^20 rows of the message array. -/
theorem value1_sum0 (c : Dev nD) (q : Fin 128) :
    (∑ t : Fin 128, value1_part0 V c t.val (lt_of_lt_of_eq t.isLt value1_N.symm) q)
      = ∑ row : Fin 1048576, Cert.Spec.msgRow (Cert.Spec.msgArr (V c main_v21 : S524288x128.Idx → EReal) (V c main_v12 : S524288x128.Idx → EReal) (V c main_v28 : S524288x128.Idx → EReal) (V c main_v30 : S128x128.Idx → EReal) (V c main_v32 : S128x128.Idx → EReal) (V c main_v33 : S128x128.Idx → EReal)) row q := by
  rw [Cert.Spec.sum_rows_tiled (fun row => Cert.Spec.msgRow (Cert.Spec.msgArr (V c main_v21 : S524288x128.Idx → EReal) (V c main_v12 : S524288x128.Idx → EReal) (V c main_v28 : S524288x128.Idx → EReal) (V c main_v30 : S128x128.Idx → EReal) (V c main_v32 : S128x128.Idx → EReal) (V c main_v33 : S128x128.Idx → EReal)) row q)]
  refine Finset.sum_congr rfl fun t _ => ?_
  unfold value1_part0
  refine congrArg₂ (· + ·) (Finset.sum_congr rfl fun p _ => ?_) (Finset.sum_congr rfl fun p _ => ?_)
  · exact value1_mA_eq V c t.val _ p q _
      (by show (2 * (4096 * t.val + p.val)) / 2 = t.val * 4096 + p.val; omega)
      (by show 128 * ((2 * (4096 * t.val + p.val)) % 2) + q.val = q.val; omega)
  · exact value1_mB_eq V c t.val _ p q _
      (by show (2 * (4096 * t.val + p.val) + 1) / 2 = t.val * 4096 + p.val; omega)
      (by show 128 * ((2 * (4096 * t.val + p.val) + 1) % 2) + q.val = 128 + q.val; omega)

/-- And the column sums of squares to the sum of the squares. -/
theorem value1_sum1 (c : Dev nD) (q : Fin 128) :
    (∑ t : Fin 128, value1_part1 V c t.val (lt_of_lt_of_eq t.isLt value1_N.symm) q)
      = ∑ row : Fin 1048576, Cert.Spec.msgRow (Cert.Spec.msgArr (V c main_v21 : S524288x128.Idx → EReal) (V c main_v12 : S524288x128.Idx → EReal) (V c main_v28 : S524288x128.Idx → EReal) (V c main_v30 : S128x128.Idx → EReal) (V c main_v32 : S128x128.Idx → EReal) (V c main_v33 : S128x128.Idx → EReal)) row q * Cert.Spec.msgRow (Cert.Spec.msgArr (V c main_v21 : S524288x128.Idx → EReal) (V c main_v12 : S524288x128.Idx → EReal) (V c main_v28 : S524288x128.Idx → EReal) (V c main_v30 : S128x128.Idx → EReal) (V c main_v32 : S128x128.Idx → EReal) (V c main_v33 : S128x128.Idx → EReal)) row q := by
  rw [Cert.Spec.sum_rows_tiled (fun row => Cert.Spec.msgRow (Cert.Spec.msgArr (V c main_v21 : S524288x128.Idx → EReal) (V c main_v12 : S524288x128.Idx → EReal) (V c main_v28 : S524288x128.Idx → EReal) (V c main_v30 : S128x128.Idx → EReal) (V c main_v32 : S128x128.Idx → EReal) (V c main_v33 : S128x128.Idx → EReal)) row q * Cert.Spec.msgRow (Cert.Spec.msgArr (V c main_v21 : S524288x128.Idx → EReal) (V c main_v12 : S524288x128.Idx → EReal) (V c main_v28 : S524288x128.Idx → EReal) (V c main_v30 : S128x128.Idx → EReal) (V c main_v32 : S128x128.Idx → EReal) (V c main_v33 : S128x128.Idx → EReal)) row q)]
  refine Finset.sum_congr rfl fun t _ => ?_
  unfold value1_part1
  refine congrArg₂ (· + ·) (Finset.sum_congr rfl fun p _ => ?_) (Finset.sum_congr rfl fun p _ => ?_)
  · have e := value1_mA_eq V c t.val (lt_of_lt_of_eq t.isLt value1_N.symm) p q
      (ix2 (⟨(2 * (4096 * t.val + p.val)) / 2, by omega⟩ : Fin 524288) (⟨128 * ((2 * (4096 * t.val + p.val)) % 2) + q.val, by omega⟩ : Fin 256))
      (by show (2 * (4096 * t.val + p.val)) / 2 = t.val * 4096 + p.val; omega)
      (by show 128 * ((2 * (4096 * t.val + p.val)) % 2) + q.val = q.val; omega)
    rw [e]
    rfl
  · have e := value1_mB_eq V c t.val (lt_of_lt_of_eq t.isLt value1_N.symm) p q
      (ix2 (⟨(2 * (4096 * t.val + p.val) + 1) / 2, by omega⟩ : Fin 524288) (⟨128 * ((2 * (4096 * t.val + p.val) + 1) % 2) + q.val, by omega⟩ : Fin 256))
      (by show (2 * (4096 * t.val + p.val) + 1) / 2 = t.val * 4096 + p.val; omega)
      (by show 128 * ((2 * (4096 * t.val + p.val) + 1) % 2) + q.val = 128 + q.val; omega)
    rw [e]
    rfl

end

end Cert.KernelIdeal.Hand

end
-- ==== Proof.KernelIdeal.Value1Rows.lean ====
/-
  The two one-row outputs of the combine step. Each is written back once, at the last point, with the contents of
  its scratch row, and that one block is the whole [1, 128] array: so the first ends holding, at lane `q`, the sum
  over the 2^20 rows of the message array (viewed as [1048576, 128]) at lane `q`, and the second the sum of the squares.
-/
import proofs.«154919_j73332271612005_2_alg».proof.Proof.KernelIdeal.Value1Acc

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-- The printed index maps of the two one-row outputs: block (0, 0) at every point. -/
theorem value1_idx78 : ∀ t : Fin cfg1.N, win1_7.index t (0 : Fin 2) = 0 ∧ win1_7.index t (1 : Fin 2) = 0
    ∧ win1_8.index t (0 : Fin 2) = 0 ∧ win1_8.index t (1 : Fin 2) = 0 :=
  (by decide +kernel : ∀ t : Fin grid1.N, _)

theorem value1_lt127 : 127 < cfg1.N := by
  have hN : cfg1.N = 128 := N_1
  omega
/-- The last point. -/
abbrev value1_last : Fin cfg1.N := ⟨127, value1_lt127⟩

/-- A one-row output's block at any point is the whole one-row array: reading the array through it changes nothing. -/
theorem value1_whole7 (t : Fin cfg1.N) (G : S1x128.Idx → EReal) :
    (cfg1.win 7).cut (grid1.coords t) G = ((cfg1.win 7).blk t).view.read (Elt Ideal) G := by
  have e0 : win1_7.index t (0 : Fin 2) = 0 := (value1_idx78 t).1
  have e1 : win1_7.index t (1 : Fin 2) = 0 := (value1_idx78 t).2.1
  have hz' : (fun a => win1_7.index t a * main_v34_1.ty.shape.size a) = fun _ => 0 := funext fun a => by
    match a with
    | ⟨0, _⟩ => show win1_7.index t (0 : Fin 2) * 1 = 0; rw [e0]
    | ⟨1, _⟩ => show win1_7.index t (1 : Fin 2) * 128 = 0; rw [e1]
  exact (Memref.read_access_unit_zero (Elt Ideal) main_v34_1 hz' (fun a => by rw [congrFun hz' a]; simp) G).symm
theorem value1_whole8 (t : Fin cfg1.N) (G : S1x128.Idx → EReal) :
    (cfg1.win 8).cut (grid1.coords t) G = ((cfg1.win 8).blk t).view.read (Elt Ideal) G := by
  have e0 : win1_8.index t (0 : Fin 2) = 0 := (value1_idx78 t).2.2.1
  have e1 : win1_8.index t (1 : Fin 2) = 0 := (value1_idx78 t).2.2.2
  have hz' : (fun a => win1_8.index t a * main_v34_2.ty.shape.size a) = fun _ => 0 := funext fun a => by
    match a with
    | ⟨0, _⟩ => show win1_8.index t (0 : Fin 2) * 1 = 0; rw [e0]
    | ⟨1, _⟩ => show win1_8.index t (1 : Fin 2) * 128 = 0; rw [e1]
  exact (Memref.read_access_unit_zero (Elt Ideal) main_v34_2 hz' (fun a => by rw [congrFun hz' a]; simp) G).symm

/-- A one-row block agrees with a one-row array where their lanes agree. -/
theorem value1_point_row (X : Vec Ideal S1x128 .f32) (G : S1x128.Idx → EReal) (hX : ∀ q : Fin 128, X (ix2 0 q) = G (ix2 0 q))
    (j i : S1x128.Idx) (hi : (i 1).val = (j 1).val) : X j = G i := by
  obtain ⟨z, q, rfl⟩ : ∃ (z : Fin 1) (q : Fin 128), j = ix2 z q := ⟨j 0, j 1, eq_ix2 j⟩
  obtain rfl : z = 0 := Subsingleton.elim _ _
  have hi' : i = ix2 0 q := funext fun a => Fin.ext (by
    match a with
    | ⟨0, _⟩ => have h0 : (i 0).val < 1 := (i 0).isLt; show (i 0).val = 0; omega
    | ⟨1, _⟩ => exact hi)
  rw [hi', hX]

section
variable (V : (c : Dev nD) → (b : Ref sig .tc) → Buf (Elt Ideal) ((c : Thread nD τ).loc b))

/-- At lane `i 1`, the sum over the 2^20 message rows. -/
def value1_sumRow (c : Dev nD) : S1x128.Idx → EReal :=
  fun i => ∑ row : Fin 1048576, Cert.Spec.msgRow (Cert.Spec.msgArr (V c main_v21 : S524288x128.Idx → EReal) (V c main_v12 : S524288x128.Idx → EReal) (V c main_v28 : S524288x128.Idx → EReal) (V c main_v30 : S128x128.Idx → EReal) (V c main_v32 : S128x128.Idx → EReal) (V c main_v33 : S128x128.Idx → EReal)) row (i 1)
/-- At lane `i 1`, the sum over the 2^20 message rows of the squares. -/
def value1_sqRow (c : Dev nD) : S1x128.Idx → EReal :=
  fun i => ∑ row : Fin 1048576, Cert.Spec.msgRow (Cert.Spec.msgArr (V c main_v21 : S524288x128.Idx → EReal) (V c main_v12 : S524288x128.Idx → EReal) (V c main_v28 : S524288x128.Idx → EReal) (V c main_v30 : S128x128.Idx → EReal) (V c main_v32 : S128x128.Idx → EReal) (V c main_v33 : S128x128.Idx → EReal)) row (i 1) * Cert.Spec.msgRow (Cert.Spec.msgArr (V c main_v21 : S524288x128.Idx → EReal) (V c main_v12 : S524288x128.Idx → EReal) (V c main_v28 : S524288x128.Idx → EReal) (V c main_v30 : S128x128.Idx → EReal) (V c main_v32 : S128x128.Idx → EReal) (V c main_v33 : S128x128.Idx → EReal)) row (i 1)

theorem value1_cast7 (c : Dev nD) (q : Fin 128) : ∀ (n : ℕ) (hn : n < cfg1.N), n = 127 →
    (∑ t' : Fin (n + 1), value1_part0 V c t'.val (lt_of_lt_of_le t'.isLt (Nat.succ_le_of_lt hn)) q)
      = ∑ t' : Fin 128, value1_part0 V c t'.val (lt_of_lt_of_eq t'.isLt value1_N.symm) q := by
  intro n hn h
  subst h
  rfl

/-- After the last point the scratch row holds the sums over all rows. -/
theorem value1_lane7 (c : Dev nD) (t : Fin cfg1.N) (htv : t.val = 127) (q : Fin 128) :
    (outsAt1 V c t.val t.isLt).2.2.2.1 (ix2 0 q) = value1_sumRow V c (ix2 0 q) := by
  rw [(value1_scr_sum V c q t.val t.isLt).1, Ideal.ofBits_zero_f32, zero_add, value1_cast7 V c q t.val t.isLt htv, value1_sum0 V c q]
  rfl

/-- The one write-back of window 7, at the last point, writes the sums over all rows. -/
theorem value1_flushed7 (c : Dev nD) (t : Fin cfg1.N) (hf : (cfg1.win 7).flush t = true) :
    (dat1 (F := Ideal) V c).flushed 7 t = ((cfg1.win 7).blk t).view.read (Elt Ideal) (value1_sumRow V c) := by
  have hN : cfg1.N = 128 := N_1
  have h127 : t.val % 128 = 127 := (flush1_7 t).mp hf
  have htv : t.val = 127 := by have := t.isLt; omega
  show (cfg1.win 7).cut (grid1.coords t) ((dat1 (F := Ideal) V c).after 7 t) = _
  rw [after1_7, (value1_out78 V c t h127).1]
  have hrow : (outsAt1 V c t.val t.isLt).2.2.2.1 = value1_sumRow V c :=
    funext fun j => value1_point_row _ _ (fun q => value1_lane7 V c t htv q) j j rfl
  rw [hrow]
  exact value1_whole7 t (value1_sumRow V c)

/-- The last point's block is the whole one-row array. -/
theorem value1_cover7 (i : S1x128.Idx) :
    ∃ t : Fin cfg1.N, (cfg1.win 7).flush t = true ∧ i ∈ ((cfg1.win 7).blk t).view.set := by
  have hi0 : (i 0).val < 1 := (i 0).isLt
  have hi1 : (i 1).val < 128 := (i 1).isLt
  refine ⟨value1_last, (flush1_7 value1_last).mpr rfl, ?_⟩
  have e0 : win1_7.index value1_last (0 : Fin 2) = 0 := (value1_idx78 value1_last).1
  have e1 : win1_7.index value1_last (1 : Fin 2) = 0 := (value1_idx78 value1_last).2.1
  show i ∈ ((View.whole main_v34_1).slice (win1_7.rect value1_last)).set
  rw [View.set_slice_whole, Rect.mem_set_unit]
  intro a
  match a with
  | ⟨0, _⟩ => show win1_7.index value1_last (0 : Fin 2) * 1 ≤ (i 0).val ∧ (i 0).val < win1_7.index value1_last (0 : Fin 2) * 1 + 1; rw [e0]; omega
  | ⟨1, _⟩ => show win1_7.index value1_last (1 : Fin 2) * 128 ≤ (i 1).val ∧ (i 1).val < win1_7.index value1_last (1 : Fin 2) * 128 + 128; rw [e1]; omega

theorem value1_cast8 (c : Dev nD) (q : Fin 128) : ∀ (n : ℕ) (hn : n < cfg1.N), n = 127 →
    (∑ t' : Fin (n + 1), value1_part1 V c t'.val (lt_of_lt_of_le t'.isLt (Nat.succ_le_of_lt hn)) q)
      = ∑ t' : Fin 128, value1_part1 V c t'.val (lt_of_lt_of_eq t'.isLt value1_N.symm) q := by
  intro n hn h
  subst h
  rfl

/-- After the last point the scratch row holds the sums over all rows. -/
theorem value1_lane8 (c : Dev nD) (t : Fin cfg1.N) (htv : t.val = 127) (q : Fin 128) :
    (outsAt1 V c t.val t.isLt).2.2.2.2 (ix2 0 q) = value1_sqRow V c (ix2 0 q) := by
  rw [(value1_scr_sum V c q t.val t.isLt).2, Ideal.ofBits_zero_f32, zero_add, value1_cast8 V c q t.val t.isLt htv, value1_sum1 V c q]
  rfl

/-- The one write-back of window 8, at the last point, writes the sums over all rows. -/
theorem value1_flushed8 (c : Dev nD) (t : Fin cfg1.N) (hf : (cfg1.win 8).flush t = true) :
    (dat1 (F := Ideal) V c).flushed 8 t = ((cfg1.win 8).blk t).view.read (Elt Ideal) (value1_sqRow V c) := by
  have hN : cfg1.N = 128 := N_1
  have h127 : t.val % 128 = 127 := (flush1_8 t).mp hf
  have htv : t.val = 127 := by have := t.isLt; omega
  show (cfg1.win 8).cut (grid1.coords t) ((dat1 (F := Ideal) V c).after 8 t) = _
  rw [after1_8, (value1_out78 V c t h127).2]
  have hrow : (outsAt1 V c t.val t.isLt).2.2.2.2 = value1_sqRow V c :=
    funext fun j => value1_point_row _ _ (fun q => value1_lane8 V c t htv q) j j rfl
  rw [hrow]
  exact value1_whole8 t (value1_sqRow V c)

/-- The last point's block is the whole one-row array. -/
theorem value1_cover8 (i : S1x128.Idx) :
    ∃ t : Fin cfg1.N, (cfg1.win 8).flush t = true ∧ i ∈ ((cfg1.win 8).blk t).view.set := by
  have hi0 : (i 0).val < 1 := (i 0).isLt
  have hi1 : (i 1).val < 128 := (i 1).isLt
  refine ⟨value1_last, (flush1_8 value1_last).mpr rfl, ?_⟩
  have e0 : win1_8.index value1_last (0 : Fin 2) = 0 := (value1_idx78 value1_last).2.2.1
  have e1 : win1_8.index value1_last (1 : Fin 2) = 0 := (value1_idx78 value1_last).2.2.2
  show i ∈ ((View.whole main_v34_2).slice (win1_8.rect value1_last)).set
  rw [View.set_slice_whole, Rect.mem_set_unit]
  intro a
  match a with
  | ⟨0, _⟩ => show win1_8.index value1_last (0 : Fin 2) * 1 ≤ (i 0).val ∧ (i 0).val < win1_8.index value1_last (0 : Fin 2) * 1 + 1; rw [e0]; omega
  | ⟨1, _⟩ => show win1_8.index value1_last (1 : Fin 2) * 128 ≤ (i 1).val ∧ (i 1).val < win1_8.index value1_last (1 : Fin 2) * 128 + 128; rw [e1]; omega

/-- THE COLUMN SUMS after the combine step: at lane `i 1`, the sum over the 2^20 message rows. -/
theorem final1_7 (c : Dev nD) :
    (dat1 (F := Ideal) V c).arrAt 7 cfg1.N = (fun i : S1x128.Idx => ∑ row : Fin 1048576, Cert.Spec.msgRow (Cert.Spec.msgArr (V c main_v21 : S524288x128.Idx → EReal) (V c main_v12 : S524288x128.Idx → EReal) (V c main_v28 : S524288x128.Idx → EReal) (V c main_v30 : S128x128.Idx → EReal) (V c main_v32 : S128x128.Idx → EReal) (V c main_v33 : S128x128.Idx → EReal)) row (i 1) : S1x128.Idx → EReal) :=
  (dat1 (F := Ideal) V c).arrAt_eq_of_cover 7 (value1_sumRow V c) (value1_flushed7 V c) value1_cover7

/-- THE COLUMN SUMS OF SQUARES after the combine step. -/
theorem final1_8 (c : Dev nD) :
    (dat1 (F := Ideal) V c).arrAt 8 cfg1.N = (fun i : S1x128.Idx => ∑ row : Fin 1048576, Cert.Spec.msgRow (Cert.Spec.msgArr (V c main_v21 : S524288x128.Idx → EReal) (V c main_v12 : S524288x128.Idx → EReal) (V c main_v28 : S524288x128.Idx → EReal) (V c main_v30 : S128x128.Idx → EReal) (V c main_v32 : S128x128.Idx → EReal) (V c main_v33 : S128x128.Idx → EReal)) row (i 1) * Cert.Spec.msgRow (Cert.Spec.msgArr (V c main_v21 : S524288x128.Idx → EReal) (V c main_v12 : S524288x128.Idx → EReal) (V c main_v28 : S524288x128.Idx → EReal) (V c main_v30 : S128x128.Idx → EReal) (V c main_v32 : S128x128.Idx → EReal) (V c main_v33 : S128x128.Idx → EReal)) row (i 1) : S1x128.Idx → EReal) :=
  (dat1 (F := Ideal) V c).arrAt_eq_of_cover 8 (value1_sqRow V c) (value1_flushed8 V c) value1_cover8

end

end Cert.KernelIdeal.Hand

end
-- ==== Proof.KernelIdeal.Bridge.lean ====
/-
  The kernel's result array is the reference's. The second pallas_call leaves the message array over the arrays it finds,
  and in its two one-row outputs that array's column sums and column sums of squares over all 2^20 rows; the join of
  the previous module does the rest.
-/
import proofs.«154919_j73332271612005_2_alg».proof.Proof.KernelIdeal.BridgeCore
import proofs.«154919_j73332271612005_2_alg».proof.Proof.KernelIdeal.Value1Rows

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo Idealize.ShloMosaic.ValueIdx
open scoped BigOperators

variable [Cert.Pre_finite_inputs.Facts]
variable (m : (ℓ : Loc nD τ sig) → Buf (Elt Ideal) ℓ) (c : Dev nD)

/-- The stored message array. -/
theorem W4_v34_0 : (W4 m c (Proc.devRef .tc main_v34_0) : S524288x256.Idx → EReal)
    = Cert.Spec.msgArr (V3 m c main_v21 : S524288x128.Idx → EReal) (V3 m c main_v12 : S524288x128.Idx → EReal) (V3 m c main_v28 : S524288x128.Idx → EReal)
        (V3 m c main_v30 : S128x128.Idx → EReal) (V3 m c main_v32 : S128x128.Idx → EReal) (V3 m c main_v33 : S128x128.Idx → EReal) :=
  (W4_arr m c 6).trans (final1_6 (V3 m) c)

/-- The row of column sums. -/
theorem W4_v34_1 : (W4 m c (Proc.devRef .tc main_v34_1) : S1x128.Idx → EReal)
    = (fun i => ∑ row : Fin 1048576, Cert.Spec.msgRow (W4 m c (Proc.devRef .tc main_v34_0) : S524288x256.Idx → EReal) row (i 1) : S1x128.Idx → EReal) := by
  rw [W4_v34_0 m c]
  exact (W4_arr m c 7).trans (final1_7 (V3 m) c)

/-- The row of column sums of squares. -/
theorem W4_v34_2 : (W4 m c (Proc.devRef .tc main_v34_2) : S1x128.Idx → EReal)
    = (fun i => ∑ row : Fin 1048576, Cert.Spec.msgRow (W4 m c (Proc.devRef .tc main_v34_0) : S524288x256.Idx → EReal) row (i 1)
        * Cert.Spec.msgRow (W4 m c (Proc.devRef .tc main_v34_0) : S524288x256.Idx → EReal) row (i 1) : S1x128.Idx → EReal) := by
  rw [W4_v34_0 m c]
  exact (W4_arr m c 8).trans (final1_8 (V3 m) c)

/-- THE RESULT: under the precondition the kernel's result array is the reference's last stage of the same arguments. -/
theorem result_eq (hpre : Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) = (fun _ => 1#1)) :
    (W6 m c (Proc.devRef .tc main_v54) : S1048576x128.Idx → EReal)
      = Cert.ReferenceIdeal.Read.val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  result_eq_of m c (W4_v34_0 m c) (W4_v34_1 m c) (W4_v34_2 m c) hpre

end Cert.KernelIdeal.Hand

end
-- ==== Proof.lean ====
/-
  The kernel computes a graph message-passing layer in three pallas_calls: a dense layer on the segment sums of the
  rows; a combine step that multiplies gathered-row sums and source rows by three weight matrices, adds the gathered
  dense rows, stores the messages two rows per message and accumulates every column's sum and sum of squares over the
  128 tiles in two carried scratch rows; and a last pass applying batch normalisation, folded into one scale and one
  offset per column, and a ramp. The reference computes the same messages with whole-array products and normalises
  them by the two-pass mean and variance.

  Frames: each program runs to the end without a fault and leaves its arguments unchanged. For the two kernel programs
  this is one launch over the program's six items (three stretches of host operations, three pallas_calls), each
  pallas_call entered from and left at named contents of every unscoped buffer; the combine step's invariant carries the
  two scratch rows at what the point before left. For the reference it is its generated run.

  Values at the ideal instance: both programs build the message array from the same segment sums and gathers, a matrix
  product read at an entry being the same finite sum on both sides and a change of float format the identity. The
  kernel's accumulated column sums are the plain sums over the 2^20 rows (a sum over tiles, two rows per message). With
  every entry a real number (the precondition makes every input finite, and sums and products of reals are real) the
  one-pass variance `Q / n - mean^2` is the two-pass one and is nonnegative, so the kernel's guard `max · 0` is the
  identity, `var + eps` is positive, and the folded scale and offset give the reference's normalised entry by
  distributivity; the ramp is the same on both sides.
-/
import proofs.«154919_j73332271612005_2_alg».proof.Defs
import proofs.«154919_j73332271612005_2_alg».proof.Proof.Gen.Kernel
import proofs.«154919_j73332271612005_2_alg».proof.Proof.Gen.KernelIdeal
import proofs.«154919_j73332271612005_2_alg».proof.Proof.Gen.ReferenceIdeal
import proofs.«154919_j73332271612005_2_alg».proof.Proof.Gen.Pre_finite_inputs
import proofs.«154919_j73332271612005_2_alg».proof.Proof.Gen.ReferenceIdeal.Run
import proofs.«154919_j73332271612005_2_alg».proof.Proof.Gen.ReferenceIdeal.Read
import proofs.«154919_j73332271612005_2_alg».proof.Proof.Kernel.Run
import proofs.«154919_j73332271612005_2_alg».proof.Proof.KernelIdeal.Run
import proofs.«154919_j73332271612005_2_alg».proof.Proof.KernelIdeal.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the program's own text read at the ideal instance. -/
theorem preserves : Cert.preserves_Kernel_KernelIdeal := trivial

/-- Both programs run; the kernel's result array ends at the last contents of the fold through its program, the
    reference's at its last stage of arguments that agree, and the two are one array (`Hand.result_eq`). -/
theorem algebraic : Cert.algebraic_KernelIdeal_ReferenceIdeal := by
  intro m ρ m' ρ' hpre hagree
  refine ⟨fun c => Cert.KernelIdeal.Hand.W6 (F := Ideal) m c (Proc.devRef .tc Cert.KernelIdeal.main_v54), Cert.KernelIdeal.Hand.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v64_eq, (hagree c).1, (hagree c).2.1, (hagree c).2.2.1, (hagree c).2.2.2.1, (hagree c).2.2.2.2.1,
    (hagree c).2.2.2.2.2.1, (hagree c).2.2.2.2.2.2.1, (hagree c).2.2.2.2.2.2.2.1, (hagree c).2.2.2.2.2.2.2.2.1, (hagree c).2.2.2.2.2.2.2.2.2.1,
    (hagree c).2.2.2.2.2.2.2.2.2.2]
  exact (Cert.KernelIdeal.Hand.result_eq m c (hpre c)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
